-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x32 : Shape := ⟨2, ![512, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S2x160000 : S_.BroadcastsInDim S2x160000 (![] : Fin 0 → Fin S2x160000.rank)
  reducesTo_S2x160000_S_d0_1 : S2x160000.ReducesTo [0, 1] S_

variable [Facts]

def fn_part3 {F : FTy → Type} [FloatOps F] (main_v47 : IVec S_ 1) (main_v49 : IVec S2x160000 1) (main_c_19 : IVec S_ 1) : IVec S_ 1 :=
  let main_v50 : IVec S_ 1 := (fun x v => Host.reduce IntOp.andi x v reducesTo_S2x160000_S_d0_1 h_S_) main_v49 main_c_19
  let main_v51 : IVec S_ 1 := andi main_v47 main_v50
  main_v51

def fn_part2 {F : FTy → Type} [FloatOps F] (main_arg1 : IVec S2x160000 32) (main_arg8 : FVec F S512x32 .f32) (main_arg9 : FVec F S32 .f32) (main_v33 : IVec S_ 1) : IVec S_ 1 :=
  let main_v34 : FVec F S512x32 .f32 := Host.absf main_arg8
  let main_cst_12 : FVec F S_ .f32 := constant S_ .f32 0x7F800000#32
  let main_v35 : FVec F S512x32 .f32 := broadcastInDim S512x32 ![] bcast_S_S512x32 main_cst_12
  let main_v36 : IVec S512x32 1 := cmpf .olt main_v34 main_v35
  let main_c_13 : IVec S_ 1 := constantI S_ 1 1#1
  let main_v37 : IVec S_ 1 := (fun x v => Host.reduce IntOp.andi x v reducesTo_S512x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg1 main_v44
  let main_c_17 : IVec S_ 1 := constantI S_ 1 1#1
  let main_v46 : IVec S_ 1 := (fun x v => Host.reduce IntOp.andi x v reducesTo_S2x160000_S_d0_1 h_S_) main_v45 main_c_17
  let main_v47 : IVec S_ 1 := andi main_v43 main_v46
  let main_c_18 : IVec S_ 32 := constantI S_ 32 10000#32
  let main_v48 : IVec S2x160000 32 := broadcastInDim S2x160000 ![] bcast_S_S2x160000 main_c_18
  let main_v49 : IVec S2x160000 1 := cmpi .slt main_arg1 main_v48
  let main_c_19 : IVec S_ 1 := constantI S_ 1 1#1
  fn_part3 (F := F) main_v47 main_v49 main_c_19

def fn_part1 {F : FTy → Type} [FloatOps F] (main_arg1 : IVec S2x160000 32) (main_arg5 : FVec F S1024 .f32) (main_arg6 : FVec F S1024x512 .f32) (main_arg7 : FVec F S512 .f32) (main_arg8 : FVec F S512x32 .f32) (main_arg9 : FVec F S32 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x160000 32) (main_arg2 : FVec F S128x512 .f32) (main_arg3 : FVec F S512 .f32) (main_arg4 : FVec F S512x1024 .f32) (main_arg5 : FVec F S1024 .f32) (main_arg6 : FVec F S1024x512 .f32) (main_arg7 : FVec F S512 .f32) (main_arg8 : FVec F S512x32 .f32) (main_arg9 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x32 : Shape := ⟨2, ![512, 32]⟩
abbrev S32 : Shape := ⟨1, ![32]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x128 : Shape := ⟨2, ![10240, 128]⟩
abbrev S10240x512 : Shape := ⟨2, ![10240, 512]⟩
abbrev S1024x128 : Shape := ⟨2, ![1024, 128]⟩
abbrev S1x512 : Shape := ⟨2, ![1, 512]⟩
abbrev S512x512 : Shape := ⟨2, ![512, 512]⟩
abbrev S10240x1024 : Shape := ⟨2, ![10240, 1024]⟩
abbrev S1024x1024 : Shape := ⟨2, ![1024, 1024]⟩
abbrev S1x1024 : Shape := ⟨2, ![1, 1024]⟩
abbrev S512x128 : Shape := ⟨2, ![512, 128]⟩
abbrev S128 : Shape := ⟨1, ![128]⟩
abbrev S1x128 : Shape := ⟨2, ![1, 128]⟩
abbrev S10000x32 : Shape := ⟨2, ![10000, 32]⟩
abbrev S10000x1 : Shape := ⟨2, ![10000, 1]⟩

abbrev nBuf : Space → Nat
  | .hbm => 108
  | .vmem => 48
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S128x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x32, .f32⟩
  | .hbm, ⟨9, _⟩ => ⟨S32, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S10000, .i32⟩
  | .hbm, ⟨15, _⟩ => ⟨S170000, .i32⟩
  | .hbm, ⟨16, _⟩ => ⟨S170000, .i32⟩
  | .hbm, ⟨17, _⟩ => ⟨S_, .f32⟩
  | .hbm, ⟨18, _⟩ => ⟨S170000, .f32⟩
  | .hbm, ⟨19, _⟩ => ⟨S_, .f32⟩
  | .hbm, ⟨20, _⟩ => ⟨S10000, .f32⟩
  | .hbm, ⟨21, _⟩ => ⟨S170000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000, .f32⟩
  | .hbm, ⟨49, _⟩ => ⟨S170000, .f32⟩
  | .hbm, ⟨50, _⟩ => ⟨S_, .f32⟩
  | .hbm, ⟨51, _⟩ => ⟨S10240x10240, .f32⟩
  | .hbm, ⟨52, _⟩ => ⟨S_, .i32⟩
  | .hbm, ⟨53, _⟩ => ⟨S170000, .i32⟩
  | .hbm, ⟨54, _⟩ => ⟨S170000, .i1⟩
  | .hbm, ⟨55, _⟩ => ⟨S_, .i32⟩
  | .hbm, ⟨56, _⟩ => ⟨S170000, .i32⟩
  | .hbm, ⟨57, _⟩ => ⟨S170000, .i32⟩
  | .hbm, ⟨58, _⟩ => ⟨S170000, .i32⟩
  | .hbm, ⟨59, _⟩ => ⟨S_, .i32⟩
  | .hbm, ⟨60, _⟩ => ⟨S170000, .i32⟩
  | .hbm, ⟨61, _⟩ => ⟨S170000, .i1⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S170000x1, .i32⟩
  | .hbm, ⟨67, _⟩ => ⟨S170000x1, .i32⟩
  | .hbm, ⟨68, _⟩ => ⟨S170000x2, .i32⟩
  | .hbm, ⟨69, _⟩ => ⟨S10240x10240, .f32⟩
  | .hbm, ⟨70, _⟩ => ⟨S10240x10240, .bf16⟩
  | .hbm, ⟨71, _⟩ => ⟨S_, .i32⟩
  | .hbm, ⟨72, _⟩ => ⟨S_, .f32⟩
  | .hbm, ⟨73, _⟩ => ⟨S10240x128, .f32⟩
  | .hbm, ⟨74, _⟩ => ⟨S10240x512, .bf16⟩
  | .hbm, ⟨75, _⟩ => ⟨S1x512, .f32⟩
  | .hbm, ⟨76, _⟩ => ⟨S10240x512, .f32⟩
  | .hbm, ⟨77, _⟩ => ⟨S10240x1024, .bf16⟩
  | .hbm, ⟨78, _⟩ => ⟨S1x1024, .f32⟩
  | .hbm, ⟨79, _⟩ => ⟨S10240x1024, .f32⟩
  | .hbm, ⟨80, _⟩ => ⟨S10240x512, .bf16⟩
  | .hbm, ⟨81, _⟩ => ⟨S1x512, .f32⟩
  | .hbm, ⟨82, _⟩ => ⟨S10240x512, .f32⟩
  | .hbm, ⟨83, _⟩ => ⟨S_, .i32⟩
  | .hbm, ⟨84, _⟩ => ⟨S_, .f32⟩
  | .hbm, ⟨85, _⟩ => ⟨S512x128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S10240x128, .bf16⟩
  | .hbm, ⟨90, _⟩ => ⟨S1x128, .f32⟩
  | .hbm, ⟨91, _⟩ => ⟨S10240x128, .f32⟩
  | .hbm, ⟨92, _⟩ => ⟨S10000x32, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S10000, .f32⟩
  | .hbm, ⟨97, _⟩ => ⟨S10000, .f32⟩
  | .hbm, ⟨98, _⟩ => ⟨S10000x1, .f32⟩
  | .hbm, ⟨99, _⟩ => ⟨S10000x32, .f32⟩
  | .hbm, ⟨100, _⟩ => ⟨S10000x32, .f32⟩
  | .hbm, ⟨101, _⟩ => ⟨S10000x32, .f32⟩
  | .hbm, ⟨102, _⟩ => ⟨S_, .f32⟩
  | .hbm, ⟨103, _⟩ => ⟨S10000, .f32⟩
  | .hbm, ⟨104, _⟩ => ⟨S10000x1, .f32⟩
  | .hbm, ⟨105, _⟩ => ⟨S10000x1, .f32⟩
  | .hbm, ⟨106, _⟩ => ⟨S10000x32, .f32⟩
  | .hbm, ⟨107, _⟩ => ⟨S10000x32, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S10240x512, .bf16⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S512x1024, .f32⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S10240x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | .local _ .vmem, ⟨25, _⟩ => ⟨S1024x1024, .f32⟩
  | .local _ .vmem, ⟨26, _⟩ => ⟨S1024x512, .f32⟩
  | .local _ .vmem, ⟨27, _⟩ => ⟨S1024x512, .bf16⟩
  | .local _ .vmem, ⟨28, _⟩ => ⟨S1024x512, .bf16⟩
  | .local _ .vmem, ⟨29, _⟩ => ⟨S512x1024, .bf16⟩
  | .local _ .vmem, ⟨30, _⟩ => ⟨S512x1024, .bf16⟩
  | .local _ .vmem, ⟨31, _⟩ => ⟨S10240x512, .bf16⟩
  | .local _ .vmem, ⟨32, _⟩ => ⟨S1x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S1024x512, .f32⟩
  | .local _ .vmem, ⟨37, _⟩ => ⟨S1024x512, .f32⟩
  | .local _ .vmem, ⟨38, _⟩ => ⟨S512x128, .f32⟩
  | .local _ .vmem, ⟨39, _⟩ => ⟨S1024x128, .bf16⟩
  | .local _ .vmem, ⟨40, _⟩ => ⟨S1024x128, .bf16⟩
  | .local _ .vmem, ⟨41, _⟩ => ⟨S512x1024, .bf16⟩
  | .local _ .vmem, ⟨42, _⟩ => ⟨S512x1024, .bf16⟩
  | .local _ .vmem, ⟨43, _⟩ => ⟨S10240x128, .bf16⟩
  | .local _ .vmem, ⟨44, _⟩ => ⟨S1x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_call1_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_call2_v0 : Ref sig .tc := ⟨.hbm, 84, rfl⟩
abbrev main_v56 : Ref sig .tc := ⟨.hbm, 85, rfl⟩
abbrev main_c_13 : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call4_cst : Ref sig .tc := ⟨.hbm, 93, rfl⟩
abbrev main_call4_v0 : Ref sig .tc := ⟨.hbm, 94, rfl⟩
abbrev main_call4_cst_0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_cst_1 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_v62 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc7_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![20, 10], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![20, 10], ![false, false]⟩

def k3_mult1 (i : grid3.Coords) : BitVec 32 :=
  let arg1 : BitVec 32 := BitVec.ofNat 32 (i 1).val
  let c1024_i32 : BitVec 32 := 1024#32
  let v5 : BitVec 32 := Scalar.muli arg1 c1024_i32
  v5
def k3_off1 (i : grid3.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k3_cond2 (i : grid3.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S10240x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![20, 10], ![false, false]⟩

def k5_mult1 (i : grid5.Coords) : BitVec 32 :=
  let arg1 : BitVec 32 := BitVec.ofNat 32 (i 1).val
  let c1024_i32 : BitVec 32 := 1024#32
  let v5 : BitVec 32 := Scalar.muli arg1 c1024_i32
  v5
def k5_off1 (i : grid5.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k5_cond2 (i : grid5.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S10240x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![20, 10], ![false, false]⟩

def k7_mult1 (i : grid7.Coords) : BitVec 32 :=
  let arg1 : BitVec 32 := BitVec.ofNat 32 (i 1).val
  let c1024_i32 : BitVec 32 := 1024#32
  let v5 : BitVec 32 := Scalar.muli arg1 c1024_i32
  v5
def k7_off1 (i : grid7.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k7_cond2 (i : grid7.Coords) : BitVec 1 :=
  let arg1 : BitVec 32 := BitVec.ofNat 32 (i 1).val
  let c9_i32 : BitVec 32 := 9#32
  let v16 : BitVec 1 := Scalar.cmpi .eq arg1 c9_i32
  let v17 : BitVec 32 := Scalar.extui v16
  let c0_i32_7 : BitVec 32 := 0#32
  let v18 : BitVec 1 := Scalar.cmpi .ne v17 c0_i32_7
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S10240x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S512x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024_S1x1024 : S1024.ShapeCasts S1x1024
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  pads_S512x32_S512x128_000_0960 : S512x32.Pads (![0, 0] : Fin 2 → Nat) ![0, 96] ![0, 0] S512x128
  pads_S32_S128_0960 : S32.Pads (![0] : Fin 1 → Nat) ![96] ![0] S128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S10240x128_S10000x32_0_0 : S10240x128.Slices ![0, 0] S10000x32
  reducesTo_S10000x32_S10000_d1 : S10000x32.ReducesTo [1] S10000
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S1024x128_S128x512_S1024x512_1_0_0_1_n_n_wf : DotDims.WF S1024x128 S128x512 S1024x512 [1] [0] [0] [1] [] []
  dot_S512x1024_S1024x512_S512x512_1_0_0_1_n_n_wf : DotDims.WF S512x1024 S1024x512 S512x512 [1] [0] [0] [1] [] []
  dot_S1024x512_S512x1024_S1024x1024_1_0_0_1_n_n_wf : DotDims.WF S1024x512 S512x1024 S1024x1024 [1] [0] [0] [1] [] []
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S10240x128.size a
  hwx0_0 : ∀ i : grid0.Coords, EltTy.bits .f32 = 32 ∨ (Rect.block (s := S10240x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .bf16 = 32 ∨ (Rect.block (s := S10240x512) S1024x512.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S10240x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S10240x10240.size a
  hwx1_0 : ∀ i : grid1.Coords, EltTy.bits .bf16 = 32 ∨ (Rect.block (s := S10240x10240) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S10240x512.size a
  hwx1_3 : ∀ i : grid1.Coords, EltTy.bits .f32 = 32 ∨ (Rect.block (s := S10240x512) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S10240x512.size a
  hwx2_0 : ∀ i : grid2.Coords, EltTy.bits .f32 = 32 ∨ (Rect.block (s := S10240x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S10240x1024.size a
  hwx2_2 : ∀ i : grid2.Coords, EltTy.bits .bf16 = 32 ∨ (Rect.block (s := S10240x1024) S1024x1024.size (cc2_transform_2 i) (hinb2_2 i)).WholeWords (EltTy.packing .bf16)
  hrank3 : 0 < grid3.rank
  k3_mult1_dvd : ∀ i : grid3.Coords, 1024 ∣ (k3_mult1 i).toNat
  k3_off1_inb : ∀ i : grid3.Coords, ∀ a, (k3_off1 i) a + S1024x1024.size a ≤ S10240x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S10240x10240.size a
  hwx3_0 : ∀ i : grid3.Coords, EltTy.bits .bf16 = 32 ∨ (Rect.block (s := S10240x10240) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x1024.size a ≤ S10240x1024.size a
  hwx3_1 : ∀ i : grid3.Coords, EltTy.bits .bf16 = 32 ∨ (Rect.block (s := S10240x1024) S10240x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S10240x1024.size a
  hwx3_3 : ∀ i : grid3.Coords, EltTy.bits .f32 = 32 ∨ (Rect.block (s := S10240x1024) S512x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x1024.size a
  hwx4_0 : ∀ i : grid4.Coords, EltTy.bits .f32 = 32 ∨ (Rect.block (s := S10240x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x512.size a
  hwx4_1 : ∀ i : grid4.Coords, EltTy.bits .f32 = 32 ∨ (Rect.block (s := S1024x512) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S10240x512.size a
  hwx4_2 : ∀ i : grid4.Coords, EltTy.bits .bf16 = 32 ∨ (Rect.block (s := S10240x512) S1024x512.size (cc4_transform_2 i) (hinb4_2 i)).WholeWords (EltTy.packing .bf16)
  hrank5 : 0 < grid5.rank
  k5_mult1_dvd : ∀ i : grid5.Coords, 1024 ∣ (k5_mult1 i).toNat
  k5_off1_inb : ∀ i : grid5.Coords, ∀ a, (k5_off1 i) a + S1024x512.size a ≤ S10240x512.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S10240x10240.size a
  hwx5_0 : ∀ i : grid5.Coords, EltTy.bits .bf16 = 32 ∨ (Rect.block (s := S10240x10240) S512x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x512.size a ≤ S10240x512.size a
  hwx5_1 : ∀ i : grid5.Coords, EltTy.bits .bf16 = 32 ∨ (Rect.block (s := S10240x512) S10240x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S10240x512.size a
  hwx5_3 : ∀ i : grid5.Coords, EltTy.bits .f32 = 32 ∨ (Rect.block (s := S10240x512) S512x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S10240x512.size a
  hwx6_0 : ∀ i : grid6.Coords, EltTy.bits .f32 = 32 ∨ (Rect.block (s := S10240x512) S1024x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .f32 = 32 ∨ (Rect.block (s := S512x128) S512x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S10240x128.size a
  hwx6_2 : ∀ i : grid6.Coords, EltTy.bits .bf16 = 32 ∨ (Rect.block (s := S10240x128) S1024x128.size (cc6_transform_2 i) (hinb6_2 i)).WholeWords (EltTy.packing .bf16)
  hrank7 : 0 < grid7.rank
  k7_mult1_dvd : ∀ i : grid7.Coords, 1024 ∣ (k7_mult1 i).toNat
  k7_off1_inb : ∀ i : grid7.Coords, ∀ a, (k7_off1 i) a + S1024x128.size a ≤ S10240x128.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S10240x10240.size a
  hwx7_0 : ∀ i : grid7.Coords, EltTy.bits .bf16 = 32 ∨ (Rect.block (s := S10240x10240) S512x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10240x128.size a ≤ S10240x128.size a
  hwx7_1 : ∀ i : grid7.Coords, EltTy.bits .bf16 = 32 ∨ (Rect.block (s := S10240x128) S10240x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S10240x128.size a
  hwx7_3 : ∀ i : grid7.Coords, EltTy.bits .f32 = 32 ∨ (Rect.block (s := S10240x128) S512x128.size (cc7_transform_3 i) (hinb7_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v46) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v49) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S10240x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v52) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S1024x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S10240x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S512x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v55) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v58) S1024x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v45) S512x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58) S10240x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v59) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v60) S512x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x32 : Shape := ⟨2, ![512, 32]⟩
abbrev S32 : Shape := ⟨1, ![32]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x512 : Shape := ⟨2, ![10000, 512]⟩
abbrev S170000x512 : Shape := ⟨2, ![170000, 512]⟩
abbrev S1x512 : Shape := ⟨2, ![1, 512]⟩
abbrev S10000x1024 : Shape := ⟨2, ![10000, 1024]⟩
abbrev S170000x1024 : Shape := ⟨2, ![170000, 1024]⟩
abbrev S1x1024 : Shape := ⟨2, ![1, 1024]⟩
abbrev S10000x32 : Shape := ⟨2, ![10000, 32]⟩
abbrev S170000x32 : Shape := ⟨2, ![170000, 32]⟩
abbrev S1x32 : Shape := ⟨2, ![1, 32]⟩
abbrev S10000x1 : Shape := ⟨2, ![10000, 1]⟩

abbrev nBuf : Space → Nat
  | .hbm => 154
  | .vmem => 0
  | .smem => 0
  | _ => 0

abbrev hbmTy0_0 (i : Nat) : BufTy := match i % 128 with
  | 0 => ⟨S10000x128, .f32⟩
  | 1 => ⟨S2x160000, .i32⟩
  | 2 => ⟨S128x512, .f32⟩
  | 3 => ⟨S512, .f32⟩
  | 4 => ⟨S512x1024, .f32⟩
  | 5 => ⟨S1024, .f32⟩
  | 6 => ⟨S1024x512, .f32⟩
  | 7 => ⟨S512, .f32⟩
  | 8 => ⟨S512x32, .f32⟩
  | 9 => ⟨S32, .f32⟩
  | 10 => ⟨S10000, .i32⟩
  | 11 => ⟨S1x160000, .i32⟩
  | 12 => ⟨S160000, .i32⟩
  | 13 => ⟨S170000, .i32⟩
  | 14 => ⟨S1x160000, .i32⟩
  | 15 => ⟨S160000, .i32⟩
  | 16 => ⟨S170000, .i32⟩
  | 17 => ⟨S_, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S_, .i32⟩
  | 41 => ⟨S170000, .i32⟩
  | 42 => ⟨S170000, .i1⟩
  | 43 => ⟨S_, .i32⟩
  | 44 => ⟨S170000, .i32⟩
  | 45 => ⟨S170000, .i32⟩
  | 46 => ⟨S170000, .i32⟩
  | 47 => ⟨S170000x1, .i32⟩
  | 48 => ⟨S170000, .f32⟩
  | 49 => ⟨S170000, .f32⟩
  | 50 => ⟨S10000x512, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000x512, .f32⟩
  | 60 => ⟨S170000x1, .f32⟩
  | 61 => ⟨S170000x512, .f32⟩
  | 62 => ⟨S170000x512, .f32⟩
  | 63 => ⟨S_, .f32⟩
  | 64 => ⟨S10000x512, .f32⟩
  | 65 => ⟨S170000x1, .i32⟩
  | 66 => ⟨S10000x512, .f32⟩
  | 67 => ⟨S1x512, .f32⟩
  | 68 => ⟨S10000x512, .f32⟩
  | 69 => ⟨S10000x512, .f32⟩
  | 70 => ⟨S_, .f32⟩
  | 71 => ⟨S10000x512, .f32⟩
  | 72 => ⟨S10000x512, .f32⟩
  | 73 => ⟨S10000x1024, .f32⟩
  | 74 => ⟨S_, .i32⟩
  | 75 => ⟨S170000, .i32⟩
  | 76 => ⟨S170000, .i1⟩
  | 77 => ⟨S_, .i32⟩
  | 78 => ⟨S170000, .i32⟩
  | 79 => ⟨S170000, .i32⟩
  | 80 => ⟨S170000, .i32⟩
  | 81 => ⟨S170000x1, .i32⟩
  | 82 => ⟨S170000x1024, .f32⟩
  | 83 => ⟨S170000x1, .f32⟩
  | 84 => ⟨S170000x1024, .f32⟩
  | 85 => ⟨S170000x1024, .f32⟩
  | 86 => ⟨S_, .f32⟩
  | 87 => ⟨S10000x1024, .f32⟩
  | 88 => ⟨S170000x1, .i32⟩
  | 89 => ⟨S10000x1024, .f32⟩
  | 90 => ⟨S1x1024, .f32⟩
  | 91 => ⟨S10000x1024, .f32⟩
  | 92 => ⟨S10000x1024, .f32⟩
  | 93 => ⟨S_, .f32⟩
  | 94 => ⟨S10000x1024, .f32⟩
  | 95 => ⟨S10000x1024, .f32⟩
  | 96 => ⟨S10000x512, .f32⟩
  | 97 => ⟨S_, .i32⟩
  | 98 => ⟨S170000, .i32⟩
  | 99 => ⟨S170000, .i1⟩
  | 100 => ⟨S_, .i32⟩
  | 101 => ⟨S170000, .i32⟩
  | 102 => ⟨S170000, .i32⟩
  | 103 => ⟨S170000, .i32⟩
  | 104 => ⟨S170000x1, .i32⟩
  | 105 => ⟨S170000x512, .f32⟩
  | 106 => ⟨S170000x1, .f32⟩
  | 107 => ⟨S170000x512, .f32⟩
  | 108 => ⟨S170000x512, .f32⟩
  | 109 => ⟨S_, .f32⟩
  | 110 => ⟨S10000x512, .f32⟩
  | 111 => ⟨S170000x1, .i32⟩
  | 112 => ⟨S10000x512, .f32⟩
  | 113 => ⟨S1x512, .f32⟩
  | 114 => ⟨S10000x512, .f32⟩
  | 115 => ⟨S10000x512, .f32⟩
  | 116 => ⟨S_, .f32⟩
  | 117 => ⟨S10000x512, .f32⟩
  | 118 => ⟨S10000x512, .f32⟩
  | 119 => ⟨S10000x32, .f32⟩
  | 120 => ⟨S_, .i32⟩
  | 121 => ⟨S170000, .i32⟩
  | 122 => ⟨S170000, .i1⟩
  | 123 => ⟨S_, .i32⟩
  | 124 => ⟨S170000, .i32⟩
  | 125 => ⟨S170000, .i32⟩
  | 126 => ⟨S170000, .i32⟩
  | 127 => ⟨S170000x1, .i32⟩
  | _ => ⟨S10000x128, .f32⟩

abbrev hbmTy0_1 (i : Nat) : BufTy := match i % 128 with
  | 0 => ⟨S170000x32, .f32⟩
  | 1 => ⟨S170000x1, .f32⟩
  | 2 => ⟨S170000x32, .f32⟩
  | 3 => ⟨S170000x32, .f32⟩
  | 4 => ⟨S_, .f32⟩
  | 5 => ⟨S10000x32, .f32⟩
  | 6 => ⟨S170000x1, .i32⟩
  | 7 => ⟨S10000x32, .f32⟩
  | 8 => ⟨S1x32, .f32⟩
  | 9 => ⟨S10000x32, .f32⟩
  | 10 => ⟨S10000x32, .f32⟩
  | 11 => ⟨S_, .f32⟩
  | 12 => ⟨S10000, .f32⟩
  | 13 => ⟨S_, .f32⟩
  | 14 => ⟨S10000, .f32⟩
  | 15 => ⟨S10000, .f32⟩
  | 16 => ⟨S10000x1, .f32⟩
  | 17 => ⟨S10000x32, .f32⟩
  | 18 => ⟨S10000x32, .f32⟩
  | 19 => ⟨S10000x32, .f32⟩
  | 20 => ⟨S_, .f32⟩
  | 21 => ⟨S10000, .f32⟩
  | 22 => ⟨S10000x1, .f32⟩
  | 23 => ⟨S10000x1, .f32⟩
  | 24 => ⟨S10000x32, .f32⟩
  | 25 => ⟨S10000x32, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call4_cst : Ref sig .tc := ⟨.hbm, 139, rfl⟩
abbrev main_call4_v0 : Ref sig .tc := ⟨.hbm, 140, rfl⟩
abbrev main_call4_cst_0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_cst_1 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_v101 : Ref sig .tc := ⟨.hbm, 153, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S170000x1_S170000x32_0_1 : S170000x1.BroadcastsInDim S170000x32 (![0, 1] : Fin 2 → Fin S170000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x128_S128x512_S10000x512_1_0_0_1_n_n_wf : DotDims.WF S10000x128 S128x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x1024_S10000x1024_1_0_0_1_n_n_wf : DotDims.WF S10000x512 S512x1024 S10000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x512_S10000x512_1_0_0_1_n_n_wf : DotDims.WF S10000x1024 S1024x512 S10000x512 [1] [0] [0] [1] [] []
  dot_S10000x512_S512x32_S10000x32_1_0_0_1_n_n_wf : DotDims.WF S10000x512 S512x32 S10000x32 [1] [0] [0] [1] [] []
  gather_S10000x32_S170000x1_S170000x32_1_0_n_n_0_1_132_wf : GatherDims.WF S10000x32 S170000x1 S170000x32 [1] [0] [] [0] [] 1 ![1, 32]
  scatter_S10000x32_S170000x1_S170000x32_1_0_0_1_wf : ScatterDims.WF S10000x32 S170000x1 S170000x32 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S170000x1_S170000x32_1_0_n_n_0_1_132 : GatherDims S10000x32 S170000x1 S170000x32 where
  offsetDims := [1]
  collapsedSliceDims := [0]
  operandBatchingDims := []
  startIndicesBatchingDims := []
  startIndexMap := [0]
  indexVectorDim := 1
  sliceSizes := ![1, 32]
  wf := gather_S10000x32_S170000x1_S170000x32_1_0_n_n_0_1_132_wf
def scatter_S10000x32_S170000x1_S170000x32_1_0_0_1 : ScatterDims S10000x32 S170000x1 S170000x32 where
  updateWindowDims := [1]
  insertedWindowDims := [0]
  scatterDimsToOperandDims := [0]
  indexVectorDim := 1
  wf := scatter_S10000x32_S170000x1_S170000x32_1_0_0_1_wf

class Facts : Prop extends Facts₀ where

variable [Facts]
-- ==== Proof.BFeat0.lean ====
/-
  Region 0 of the kernel program: the first layer's feature transform `x @ W1`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile0`.

  Everything is stated at a parameter `V`, the contents of the TensorCore's buffers when the region is entered, and
  for any float instance.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the input is in its staging buffer at every point: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read and written whole -/

abbrev rX0 : Rect S1024x128 := Rect.unit (s := S1024x128) ![0, 0] S1024x128.size inb_S1024x128_S1024x128_0_0
abbrev rW0 : Rect S128x512 := Rect.unit (s := S128x512) ![0, 0] S128x512.size inb_S128x512_S128x512_0_0
abbrev rO0 : Rect S1024x512 := Rect.unit (s := S1024x512) ![0, 0] S1024x512.size inb_S1024x512_S1024x512_0_0

/-- What the output's staging buffer holds after the body: its one whole store of the product of the two blocks. -/
def tile0 (x : Vec F S1024x128 .f32) (w : Vec F S128x512 .f32) : Vec F S1024x512 .bf16 :=
  View.canon [⟨rO0, k0_pay1 (View.ld x rX0) (View.ld w rW0)⟩]

/-- The one store covers the buffer. -/
theorem cover0 (p : Vec F S1024x512 .bf16) (y : S1024x512.Idx) :
    ∃ pc ∈ ([⟨rO0, p⟩] : List (View.Piece (Elt F) S1024x512 .bf16)), y ∈ pc.1.set :=
  View.cover_of_tiled [⟨rO0, p⟩] S1024x512.size (by rfl) y

/-! ## The body's triple -/

set_option maxHeartbeats 1000000 in
/-- The body on whole staging memrefs, the inputs at `x` and `w` and the output at anything, runs to the end with the
    inputs as they were and the output at `tile0 x w`. -/
theorem sound_kernel0 (c : Dev nD) (E : Set ℕ) (i : grid0.Coords)
    (arg1 : Memref sig .tc .vmem S1024x128 .f32) (harg1 : arg1.IsWhole)
    (arg2 : Memref sig .tc .vmem S128x512 .f32) (harg2 : arg2.IsWhole)
    (arg3 : Memref sig .tc .vmem S1024x512 .bf16) (harg3 : arg3.IsWhole)
    (x : Vec F S1024x128 .f32) (w : Vec F S128x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile0 x w)) -∗ K ⟨⟩))
      ⊢ wp frame (wpE (defs₀ (F := F)) Variants.none c none) E (cc0__feat_kernel i arg1 harg1 arg2 harg2 arg3 harg3) K := by
  simp only [cc0__feat_kernel_eq_skeleton]; unfold cc0__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of pipeline 0 on core `c`: the arrays as the region finds them; after the body at point `t` each
    input's buffer at its block and the output's at the product tile of the two blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tile0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tile0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BAgg1Runs.lean ====
/-
  Region 1 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched its block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched its block
    index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not fetched its block
    index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first reduction step": the condition of the body's first `if`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "This is the last reduction step": the condition of the body's second `if`. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first and the middle steps the result's window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result's window, through which its contents are stated. -/
abbrev VO1 : View sig .tc .vmem S512x512 .f32 := (Memref.whole cc1_stg3_0 : Memref sig .tc .vmem S512x512 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S512x512 .f32 := Memref.whole cc1_scratch0
abbrev VS1 : View sig .tc .vmem S512x512 .f32 := scM1.view

/-- The region's invariant before its first point, with the accumulator split out of the scoped rest: the accumulator at
    anything, the other scoped buffers unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i)
    (x0 : Vec F S512x1024 .bf16) (x1 : Vec F S10240x512 .bf16) (x2 : Vec F S1x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BAgg1.lean ====
/-
  Region 1 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.BAgg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out1_A_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) : Vec F S512x512 .f32 :=
  VO1.read (Elt F) (VO1.writes (Elt F) VO1.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) (y : S512x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S512x512.size (by sl_kernel_rfl) y
/-- What case A leaves in the accumulator. -/
def sout1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) : Vec F S512x512 .f32 :=
  VS1.read (Elt F) (VS1.writes (Elt F) VS1.junk (kernelRun1_A c i arg2 harg2 arg3 harg3 arg4 harg4 arg5 harg5 arg6 harg6 hc0 hc1 x0 x1 x2).2.1)

def out1_B_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) : Vec F S512x512 .f32 :=
  VO1.read (Elt F) (VO1.writes (Elt F) VO1.junk (kernelRun1_B c i arg2 harg2 arg3 harg3 arg4 harg4 arg5 harg5 arg6 harg6 hc0 hc1 x0 x1 x2 xs0).1)
theorem scover1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) (y : S512x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S512x512.size (by sl_kernel_rfl) y
def sout1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) : Vec F S512x512 .f32 :=
  VS1.read (Elt F) (VS1.writes (Elt F) VS1.junk (kernelRun1_B c i arg2 harg2 arg3 harg3 arg4 harg4 arg5 harg5 arg6 harg6 hc0 hc1 x0 x1 x2 xs0).2.1)

/-- Case C's store into the result's buffer covers it. -/
theorem cover1_C_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) (y : S512x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x512.size (by sl_kernel_rfl) y
/-- What case C leaves in the result's buffer. -/
def out1_C_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) : Vec F S512x512 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) (y : S512x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x512.size (by sl_kernel_rfl) y
def sout1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) : Vec F S512x512 .f32 :=
  VS1.read (Elt F) (VS1.writes (Elt F) VS1.junk (kernelRun1_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt1 (c : Dev nD) : (n : ℕ) → n < cfg1.N → Vec F S512x512 .f32 × Vec F S512x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 10 = 0
  · by_cases h1 : t.val % 10 = 9
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the starting one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 200 := N_1; omega)

end Cert.Kernel.Hand

end
-- ==== Proof.BFeat2.lean ====
/-
  Region 2 of the kernel program: the second layer's feature transform `h1 @ W2`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile2`.

  Everything is stated at a parameter `V`, the contents of the TensorCore's buffers when the region is entered, and
  for any float instance.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of the input is in its staging buffer at every point: it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched at the first, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read and written whole -/

abbrev rX2 : Rect S1024x512 := Rect.unit (s := S1024x512) ![0, 0] S1024x512.size inb_S1024x512_S1024x512_0_0
abbrev rW2 : Rect S512x1024 := Rect.unit (s := S512x1024) ![0, 0] S512x1024.size inb_S512x1024_S512x1024_0_0
abbrev rO2 : Rect S1024x1024 := Rect.unit (s := S1024x1024) ![0, 0] S1024x1024.size inb_S1024x1024_S1024x1024_0_0

/-- What the output's staging buffer holds after the body: its one whole store of the product of the two blocks. -/
def tile2 (x : Vec F S1024x512 .f32) (w : Vec F S512x1024 .f32) : Vec F S1024x1024 .bf16 :=
  View.canon [⟨rO2, k2_pay1 (View.ld x rX2) (View.ld w rW2)⟩]

/-- The one store covers the buffer. -/
theorem cover2 (p : Vec F S1024x1024 .bf16) (y : S1024x1024.Idx) :
    ∃ pc ∈ ([⟨rO2, p⟩] : List (View.Piece (Elt F) S1024x1024 .bf16)), y ∈ pc.1.set :=
  View.cover_of_tiled [⟨rO2, p⟩] S1024x1024.size (by rfl) y

/-! ## The body's triple -/

set_option maxHeartbeats 1000000 in
/-- The body on whole staging memrefs, the inputs at `x` and `w` and the output at anything, runs to the end with the
    inputs as they were and the output at `tile2 x w`. -/
theorem sound_kernel2 (c : Dev nD) (E : Set ℕ) (i : grid2.Coords)
    (arg1 : Memref sig .tc .vmem S1024x512 .f32) (harg1 : arg1.IsWhole)
    (arg2 : Memref sig .tc .vmem S512x1024 .f32) (harg2 : arg2.IsWhole)
    (arg3 : Memref sig .tc .vmem S1024x1024 .bf16) (harg3 : arg3.IsWhole)
    (x : Vec F S1024x512 .f32) (w : Vec F S512x1024 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile2 x w)) -∗ K ⟨⟩))
      ⊢ wp frame (wpE (defs₀ (F := F)) Variants.none c none) E (cc2__feat_kernel i arg1 harg1 arg2 harg2 arg3 harg3) K := by
  simp only [cc2__feat_kernel_eq_skeleton]; unfold cc2__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of pipeline 2 on core `c`: the arrays as the region finds them; after the body at point `t` each
    input's buffer at its block and the output's at the product tile of the two blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => tile2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = tile2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BAgg3Runs.lean ====
/-
  Region 3 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (where it is not fetched its block
    index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (where it is not fetched its block
    index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (where it is not fetched its block
    index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form over the grid -/

/-- "This is the first reduction step": the condition of the body's first `if`. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- "This is the last reduction step": the condition of the body's second `if`. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first and the middle steps the result's window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last step it is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the result's window, through which its contents are stated. -/
abbrev VO3 : View sig .tc .vmem S512x1024 .f32 := (Memref.whole cc3_stg3_0 : Memref sig .tc .vmem S512x1024 .f32).view
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S512x1024 .f32 := Memref.whole cc3_scratch0
abbrev VS3 : View sig .tc .vmem S512x1024 .f32 := scM3.view

/-- The region's invariant before its first point, with the accumulator split out of the scoped rest: the accumulator at
    anything, the other scoped buffers unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .bf16) (x1 : Vec F S10240x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨[], ?_, fun xi3 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .bf16) (x1 : Vec F S10240x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨[], ?_, fun xi3 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .bf16) (x1 : Vec F S10240x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨?_, ?_, fun E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BAgg3.lean ====
/-
  Region 3 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.BAgg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out3_A_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) : Vec F S512x1024 .f32 :=
  VO3.read (Elt F) (VO3.writes (Elt F) VO3.junk (kernelRun3_A c i arg2 harg2 arg3 harg3 arg4 harg4 arg5 harg5 arg6 harg6 hc0 hc1 x0 x1 x2).1)
/-- Case A's stores into the accumulator cover it. -/
theorem scover3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) (y : S512x1024.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x1024.size (by sl_kernel_rfl) y
/-- What case A leaves in the accumulator. -/
def sout3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) : Vec F S512x1024 .f32 :=
  VS3.read (Elt F) (VS3.writes (Elt F) VS3.junk (kernelRun3_A c i arg2 harg2 arg3 harg3 arg4 harg4 arg5 harg5 arg6 harg6 hc0 hc1 x0 x1 x2).2.1)

def out3_B_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) : Vec F S512x1024 .f32 :=
  VO3.read (Elt F) (VO3.writes (Elt F) VO3.junk (kernelRun3_B c i arg2 harg2 arg3 harg3 arg4 harg4 arg5 harg5 arg6 harg6 hc0 hc1 x0 x1 x2 xs0).1)
theorem scover3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) (y : S512x1024.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x1024.size (by sl_kernel_rfl) y
def sout3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) : Vec F S512x1024 .f32 :=
  VS3.read (Elt F) (VS3.writes (Elt F) VS3.junk (kernelRun3_B c i arg2 harg2 arg3 harg3 arg4 harg4 arg5 harg5 arg6 harg6 hc0 hc1 x0 x1 x2 xs0).2.1)

/-- Case C's store into the result's buffer covers it. -/
theorem cover3_C_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) (y : S512x1024.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x1024.size (by sl_kernel_rfl) y
/-- What case C leaves in the result's buffer. -/
def out3_C_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) : Vec F S512x1024 .f32 :=
  VO3.read (Elt F) (VO3.writes (Elt F) VO3.junk (kernelRun3_C c i arg2 harg2 arg3 harg3 arg4 harg4 arg5 harg5 arg6 harg6 hc0 hc1 x0 x1 x2 xs0).1)
theorem scover3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) (y : S512x1024.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x1024.size (by sl_kernel_rfl) y
def sout3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) : Vec F S512x1024 .f32 :=
  VS3.read (Elt F) (VS3.writes (Elt F) VS3.junk (kernelRun3_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt3 (c : Dev nD) : (n : ℕ) → n < cfg3.N → Vec F S512x1024 .f32 × Vec F S512x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_3 c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 10 = 0
  · by_cases h1 : t.val % 10 = 9
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the starting one back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 200 := N_3; omega)

end Cert.Kernel.Hand

end
-- ==== Proof.BFeat4.lean ====
/-
  Region 4 of the kernel program: the third layer's feature transform `h2 @ W3`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile4`.

  Everything is stated at a parameter `V`, the contents of the TensorCore's buffers when the region is entered, and
  for any float instance.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile of the input is in its staging buffer at every point: it is fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched at the first, and its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read and written whole -/

abbrev rX4 : Rect S1024x1024 := Rect.unit (s := S1024x1024) ![0, 0] S1024x1024.size inb_S1024x1024_S1024x1024_0_0
abbrev rW4 : Rect S1024x512 := Rect.unit (s := S1024x512) ![0, 0] S1024x512.size inb_S1024x512_S1024x512_0_0
abbrev rO4 : Rect S1024x512 := Rect.unit (s := S1024x512) ![0, 0] S1024x512.size inb_S1024x512_S1024x512_0_0

/-- What the output's staging buffer holds after the body: its one whole store of the product of the two blocks. -/
def tile4 (x : Vec F S1024x1024 .f32) (w : Vec F S1024x512 .f32) : Vec F S1024x512 .bf16 :=
  View.canon [⟨rO4, k4_pay1 (View.ld x rX4) (View.ld w rW4)⟩]

/-- The one store covers the buffer. -/
theorem cover4 (p : Vec F S1024x512 .bf16) (y : S1024x512.Idx) :
    ∃ pc ∈ ([⟨rO4, p⟩] : List (View.Piece (Elt F) S1024x512 .bf16)), y ∈ pc.1.set :=
  View.cover_of_tiled [⟨rO4, p⟩] S1024x512.size (by rfl) y

/-! ## The body's triple -/

set_option maxHeartbeats 1000000 in
/-- The body on whole staging memrefs, the inputs at `x` and `w` and the output at anything, runs to the end with the
    inputs as they were and the output at `tile4 x w`. -/
theorem sound_kernel4 (c : Dev nD) (E : Set ℕ) (i : grid4.Coords)
    (arg1 : Memref sig .tc .vmem S1024x1024 .f32) (harg1 : arg1.IsWhole)
    (arg2 : Memref sig .tc .vmem S1024x512 .f32) (harg2 : arg2.IsWhole)
    (arg3 : Memref sig .tc .vmem S1024x512 .bf16) (harg3 : arg3.IsWhole)
    (x : Vec F S1024x1024 .f32) (w : Vec F S1024x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile4 x w)) -∗ K ⟨⟩))
      ⊢ wp frame (wpE (defs₀ (F := F)) Variants.none c none) E (cc4__feat_kernel i arg1 harg1 arg2 harg2 arg3 harg3) K := by
  simp only [cc4__feat_kernel_eq_skeleton]; unfold cc4__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-! ## The pipeline's proof data -/

/-- The proof data of pipeline 4 on core `c`: the arrays as the region finds them; after the body at point `t` each
    input's buffer at its block and the output's at the product tile of the two blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => tile4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = tile4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BAgg5Runs.lean ====
/-
  Region 5 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not (where it is not fetched its block
    index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not (where it is not fetched its block
    index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not (where it is not fetched its block
    index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "This is the first reduction step": the condition of the body's first `if`. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "This is the last reduction step": the condition of the body's second `if`. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At the first and the middle steps the result's window is idle and is not written back. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
/-- At the last step it is live. -/
theorem liveAt5_3_C : ∀ t : Fin cfg5.N, ¬cond5_0 (grid5.coords t) → cond5_1 (grid5.coords t) → cfg5.idle 3 (grid5.coords t) = false := by decide +kernel

/-! ## The memrefs the body is called with -/

/-- One staging buffer of the result's window, through which its contents are stated. -/
abbrev VO5 : View sig .tc .vmem S512x512 .f32 := (Memref.whole cc5_stg3_0 : Memref sig .tc .vmem S512x512 .f32).view
abbrev ms5_0 (t : Fin cfg5.N) : Memref sig .tc .vmem S512x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10240x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x512 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5 : Memref sig .tc .vmem S512x512 .f32 := Memref.whole cc5_scratch0
abbrev VS5 : View sig .tc .vmem S512x512 .f32 := scM5.view

/-- The region's invariant before its first point, with the accumulator split out of the scoped rest: the accumulator at
    anything, the other scoped buffers unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1024 .bf16) (x1 : Vec F S10240x512 .bf16) (x2 : Vec F S1x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨[], ?_, fun xi3 E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨[], ?_, fun xi3 E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨?_, ?_, fun E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BAgg5.lean ====
/-
  Region 5 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.BAgg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out5_A_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) : Vec F S512x512 .f32 :=
  VO5.read (Elt F) (VO5.writes (Elt F) VO5.junk (kernelRun5_A c i arg2 harg2 arg3 harg3 arg4 harg4 arg5 harg5 arg6 harg6 hc0 hc1 x0 x1 x2).1)
/-- Case A's stores into the accumulator cover it. -/
theorem scover5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) (y : S512x512.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S512x512.size (by sl_kernel_rfl) y
/-- What case A leaves in the accumulator. -/
def sout5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) : Vec F S512x512 .f32 :=
  VS5.read (Elt F) (VS5.writes (Elt F) VS5.junk (kernelRun5_A c i arg2 harg2 arg3 harg3 arg4 harg4 arg5 harg5 arg6 harg6 hc0 hc1 x0 x1 x2).2.1)

def out5_B_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) : Vec F S512x512 .f32 :=
  VO5.read (Elt F) (VO5.writes (Elt F) VO5.junk (kernelRun5_B c i arg2 harg2 arg3 harg3 arg4 harg4 arg5 harg5 arg6 harg6 hc0 hc1 x0 x1 x2 xs0).1)
theorem scover5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) (y : S512x512.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S512x512.size (by sl_kernel_rfl) y
def sout5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) : Vec F S512x512 .f32 :=
  VS5.read (Elt F) (VS5.writes (Elt F) VS5.junk (kernelRun5_B c i arg2 harg2 arg3 harg3 arg4 harg4 arg5 harg5 arg6 harg6 hc0 hc1 x0 x1 x2 xs0).2.1)

/-- Case C's store into the result's buffer covers it. -/
theorem cover5_C_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) (y : S512x512.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S512x512.size (by sl_kernel_rfl) y
/-- What case C leaves in the result's buffer. -/
def out5_C_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) : Vec F S512x512 .f32 :=
  VO5.read (Elt F) (VO5.writes (Elt F) VO5.junk (kernelRun5_C c i arg2 harg2 arg3 harg3 arg4 harg4 arg5 harg5 arg6 harg6 hc0 hc1 x0 x1 x2 xs0).1)
theorem scover5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) (y : S512x512.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S512x512.size (by sl_kernel_rfl) y
def sout5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) : Vec F S512x512 .f32 :=
  VS5.read (Elt F) (VS5.writes (Elt F) VS5.junk (kernelRun5_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt5 (c : Dev nD) : (n : ℕ) → n < cfg5.N → Vec F S512x512 .f32 × Vec F S512x512 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 10 = 0 then
      if h1 : (n + 1) % 10 = 9 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 10 = 9 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 10 = 0) (h1 : ¬t.val % 10 = 9) :
    outsAt5 V c t.val t.isLt = (out5_A_3 c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t), sout5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 10 = 0) (h1 : ¬t.val % 10 = 9) :
    outsAt5 V c t.val t.isLt = (out5_B_3 c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 10 = 0) (h1 : t.val % 10 = 9) :
    outsAt5 V c t.val t.isLt = (out5_C_3 c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  by_cases h0 : t.val % 10 = 0
  · by_cases h1 : t.val % 10 = 9
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the starting one back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

theorem hout5 (c : Dev nD) : (dat5 V c).Φ (Fin.last cfg5.N) ⊢ Pipeline.ΦA spec5 c :=
  Phi_out5 V c _ (by rw [Fin.val_last]; have : cfg5.N = 200 := N_5; omega)

end Cert.Kernel.Hand

end
-- ==== Proof.BFeat6.lean ====
/-
  Region 6 of the kernel program: the fourth layer's feature transform `h3 @ W4` (the weight's 32 columns padded to 128), one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile6`.

  Everything is stated at a parameter `V`, the contents of the TensorCore's buffers when the region is entered, and
  for any float instance.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row tile of the input is in its staging buffer at every point: it is fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix is in its staging buffer at every point: fetched at the first, and its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer read and written whole -/

abbrev rX6 : Rect S1024x512 := Rect.unit (s := S1024x512) ![0, 0] S1024x512.size inb_S1024x512_S1024x512_0_0
abbrev rW6 : Rect S512x128 := Rect.unit (s := S512x128) ![0, 0] S512x128.size inb_S512x128_S512x128_0_0
abbrev rO6 : Rect S1024x128 := Rect.unit (s := S1024x128) ![0, 0] S1024x128.size inb_S1024x128_S1024x128_0_0

/-- What the output's staging buffer holds after the body: its one whole store of the product of the two blocks. -/
def tile6 (x : Vec F S1024x512 .f32) (w : Vec F S512x128 .f32) : Vec F S1024x128 .bf16 :=
  View.canon [⟨rO6, k6_pay1 (View.ld x rX6) (View.ld w rW6)⟩]

/-- The one store covers the buffer. -/
theorem cover6 (p : Vec F S1024x128 .bf16) (y : S1024x128.Idx) :
    ∃ pc ∈ ([⟨rO6, p⟩] : List (View.Piece (Elt F) S1024x128 .bf16)), y ∈ pc.1.set :=
  View.cover_of_tiled [⟨rO6, p⟩] S1024x128.size (by rfl) y

/-! ## The body's triple -/

set_option maxHeartbeats 1000000 in
/-- The body on whole staging memrefs, the inputs at `x` and `w` and the output at anything, runs to the end with the
    inputs as they were and the output at `tile6 x w`. -/
theorem sound_kernel6 (c : Dev nD) (E : Set ℕ) (i : grid6.Coords)
    (arg1 : Memref sig .tc .vmem S1024x512 .f32) (harg1 : arg1.IsWhole)
    (arg2 : Memref sig .tc .vmem S512x128 .f32) (harg2 : arg2.IsWhole)
    (arg3 : Memref sig .tc .vmem S1024x128 .bf16) (harg3 : arg3.IsWhole)
    (x : Vec F S1024x512 .f32) (w : Vec F S512x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile6 x w)) -∗ K ⟨⟩))
      ⊢ wp frame (wpE (defs₀ (F := F)) Variants.none c none) E (cc6__feat_kernel i arg1 harg1 arg2 harg2 arg3 harg3) K := by
  simp only [cc6__feat_kernel_eq_skeleton]; unfold cc6__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-! ## The pipeline's proof data -/

/-- The proof data of pipeline 6 on core `c`: the arrays as the region finds them; after the body at point `t` each
    input's buffer at its block and the output's at the product tile of the two blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => tile6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = tile6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BAgg7Runs.lean ====
/-
  Region 7 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.Kernel.Launch
import proofs.«160261_j68599217652370_2_alg».proof.Proof.Gen.Kernel.Skeleton
import proofs.«160261_j68599217652370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not (where it is not fetched its block
    index has not moved). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not (where it is not fetched its block
    index has not moved). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not (where it is not fetched its block
    index has not moved). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- "This is the first reduction step": the condition of the body's first `if`. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 10 = 0 :=
  (by decide +kernel : ∀ t : Fin grid7.N, cond7_0 (grid7.coords t) ↔ t.val % 10 = 0)

/-- "This is the last reduction step": the condition of the body's second `if`. -/
abbrev cond7_1 (i : grid7.Coords) : Prop := k7_cond2 i = 1#1
theorem hcond7_1 : ∀ t : Fin cfg7.N, cond7_1 (grid7.coords t) ↔ t.val % 10 = 9 :=
  (by decide +kernel : ∀ t : Fin grid7.N, cond7_1 (grid7.coords t) ↔ t.val % 10 = 9)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the first and the middle steps the result's window is idle and is not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At the last step it is live. -/
theorem liveAt7_3_C : ∀ t : Fin cfg7.N, ¬cond7_0 (grid7.coords t) → cond7_1 (grid7.coords t) → cfg7.idle 3 (grid7.coords t) = false := by decide +kernel

/-! ## The memrefs the body is called with -/

/-- One staging buffer of the result's window, through which its contents are stated. -/
abbrev VO7 : View sig .tc .vmem S512x128 .f32 := (Memref.whole cc7_stg3_0 : Memref sig .tc .vmem S512x128 .f32).view
abbrev ms7_0 (t : Fin cfg7.N) : Memref sig .tc .vmem S512x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S10240x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S512x128 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev scM7 : Memref sig .tc .vmem S512x128 .f32 := Memref.whole cc7_scratch0
abbrev VS7 : View sig .tc .vmem S512x128 .f32 := scM7.view

/-- The region's invariant before its first point, with the accumulator split out of the scoped rest: the accumulator at
    anything, the other scoped buffers unopened, the generator register at some state. -/
theorem PhiA7_eq (c : Dev nD) :
    (Pipeline.ΦA spec7 c : sProp 𝕄)
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i)
    (x0 : Vec F S512x1024 .bf16) (x1 : Vec F S10240x128 .bf16) (x2 : Vec F S1x128 .f32) :
    Σ' (L3 : List (View.Piece (Elt F) S512x128 .f32)), { LS0 : List (View.Piece (Elt F) S512x128 .f32) //
      ∀ (xi3 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨[], ?_, fun xi3 E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i)
    (x0 : Vec F S512x1024 .bf16) (x1 : Vec F S10240x128 .bf16) (x2 : Vec F S1x128 .f32) (xs0 : Vec F S512x128 .f32) :
    Σ' (L3 : List (View.Piece (Elt F) S512x128 .f32)), { LS0 : List (View.Piece (Elt F) S512x128 .f32) //
      ∀ (xi3 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨[], ?_, fun xi3 E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i)
    (x0 : Vec F S512x1024 .bf16) (x1 : Vec F S10240x128 .bf16) (x2 : Vec F S1x128 .f32) (xs0 : Vec F S512x128 .f32) :
    Σ' (L3 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨?_, ?_, fun E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BAgg7.lean ====
/-
  Region 7 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.BAgg7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out7_A_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) : Vec F S512x128 .f32 :=
  VO7.read (Elt F) (VO7.writes (Elt F) VO7.junk (kernelRun7_A c i arg2 harg2 arg3 harg3 arg4 harg4 arg5 harg5 arg6 harg6 hc0 hc1 x0 x1 x2).1)
/-- Case A's stores into the accumulator cover it. -/
theorem scover7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) (y : S512x128.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S512x128.size (by sl_kernel_rfl) y
/-- What case A leaves in the accumulator. -/
def sout7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) : Vec F S512x128 .f32 :=
  VS7.read (Elt F) (VS7.writes (Elt F) VS7.junk (kernelRun7_A c i arg2 harg2 arg3 harg3 arg4 harg4 arg5 harg5 arg6 harg6 hc0 hc1 x0 x1 x2).2.1)

def out7_B_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) : Vec F S512x128 .f32 :=
  VO7.read (Elt F) (VO7.writes (Elt F) VO7.junk (kernelRun7_B c i arg2 harg2 arg3 harg3 arg4 harg4 arg5 harg5 arg6 harg6 hc0 hc1 x0 x1 x2 xs0).1)
theorem scover7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) (y : S512x128.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S512x128.size (by sl_kernel_rfl) y
def sout7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) : Vec F S512x128 .f32 :=
  VS7.read (Elt F) (VS7.writes (Elt F) VS7.junk (kernelRun7_B c i arg2 harg2 arg3 harg3 arg4 harg4 arg5 harg5 arg6 harg6 hc0 hc1 x0 x1 x2 xs0).2.1)

/-- Case C's store into the result's buffer covers it. -/
theorem cover7_C_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) (y : S512x128.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S512x128.size (by sl_kernel_rfl) y
/-- What case C leaves in the result's buffer. -/
def out7_C_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) : Vec F S512x128 .f32 :=
  VO7.read (Elt F) (VO7.writes (Elt F) VO7.junk (kernelRun7_C c i arg2 harg2 arg3 harg3 arg4 harg4 arg5 harg5 arg6 harg6 hc0 hc1 x0 x1 x2 xs0).1)
theorem scover7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) (y : S512x128.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S512x128.size (by sl_kernel_rfl) y
def sout7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) : Vec F S512x128 .f32 :=
  VS7.read (Elt F) (VS7.writes (Elt F) VS7.junk (kernelRun7_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt7 (c : Dev nD) : (n : ℕ) → n < cfg7.N → Vec F S512x128 .f32 × Vec F S512x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 10 = 0 then
      if h1 : (n + 1) % 10 = 9 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 10 = 9 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 10 = 0) (h1 : ¬t.val % 10 = 9) :
    outsAt7 V c t.val t.isLt = (out7_A_3 c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t), sout7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 10 = 0) (h1 : ¬t.val % 10 = 9) :
    outsAt7 V c t.val t.isLt = (out7_B_3 c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 10 = 0) (h1 : t.val % 10 = 9) :
    outsAt7 V c t.val t.isLt = (out7_C_3 c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  by_cases h0 : t.val % 10 = 0
  · by_cases h1 : t.val % 10 = 9
    · exfalso; omega
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C; (try dsimp only)
      by_cases hz : t.val = 0
      · exfalso; omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B; (try dsimp only)
      by_cases hz : t.val = 0
      · exfalso; omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the starting one back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

theorem hout7 (c : Dev nD) : (dat7 V c).Φ (Fin.last cfg7.N) ⊢ Pipeline.ΦA spec7 c :=
  Phi_out7 V c _ (by rw [Fin.val_last]; have : cfg7.N = 200 := N_7; omega)

end Cert.Kernel.Hand

end
-- ==== Proof.FrameK.lean ====
/-
  The frame of the kernel program: its eight regions chained through the host operations between them.

  Between two items of @main every unscoped buffer of the core is held whole at known contents. A host stretch takes
  the contents to the fold of its operations. A region takes out the arrays its windows stage, runs its pipeline on
  them with the region's proof data, and puts them back: the inputs as they were, the output array at what the
  write-backs of the grid leave, every other buffer untouched. So the contents after each item are a chain: the
  launch memory, then for each item either a fold or one array replaced. What each region leaves in its output
  array is taken from its proof data, and those choices, item by item, are the unknowns the conditional frame is
  stated over. No item writes an argument array, which is the frame.
-/
import proofs.«160261_j68599217652370_2_alg».proof.Proof.BFeat0
import proofs.«160261_j68599217652370_2_alg».proof.Proof.BAgg1
import proofs.«160261_j68599217652370_2_alg».proof.Proof.BFeat2
import proofs.«160261_j68599217652370_2_alg».proof.Proof.BAgg3
import proofs.«160261_j68599217652370_2_alg».proof.Proof.BFeat4
import proofs.«160261_j68599217652370_2_alg».proof.Proof.BAgg5
import proofs.«160261_j68599217652370_2_alg».proof.Proof.BFeat6
import proofs.«160261_j68599217652370_2_alg».proof.Proof.BAgg7
import proofs.«160261_j68599217652370_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the core's buffers between items -/

/-- When region 0 is entered: the launch memory through the four host stretches before it. -/
def W4 (c : Dev nD) : Valuation τ sig (Elt F) := Gen.V4 m c
/-- The same, read at the TensorCore's references. -/
abbrev R4 : (c : Dev nD) → (b : Ref sig .tc) → Buf (Elt F) ((c : Thread nD τ).loc b) := fun c b => W4 m c b
/-- What region 0 leaves in its output array `main_v47`: what the grid's write-backs leave, by the region's proof data. -/
def o5 (c : Dev nD) : Buf (Elt F) ((c : Thread nD τ).loc main_v47) := (dat0 (R4 m) c).arrAt 2 cfg0.N
/-- After region 0: that array replaced, every other buffer as the region found it. -/
def W5 (c : Dev nD) : Valuation τ sig (Elt F) := Function.update (W4 m c) main_v47 (o5 m c)
/-- The same, read at the TensorCore's references. -/
abbrev R5 : (c : Dev nD) → (b : Ref sig .tc) → Buf (Elt F) ((c : Thread nD τ).loc b) := fun c b => W5 m c b
/-- After the host stretch `hostOps1`. -/
def W6 (c : Dev nD) : Valuation τ sig (Elt F) := StableHlo.after hostOps1 (W5 m c)
/-- The same, read at the TensorCore's references. -/
abbrev R6 : (c : Dev nD) → (b : Ref sig .tc) → Buf (Elt F) ((c : Thread nD τ).loc b) := fun c b => W6 m c b
/-- What region 1 leaves in its output array `main_v49`: what the grid's write-backs leave, by the region's proof data. -/
def o7 (c : Dev nD) : Buf (Elt F) ((c : Thread nD τ).loc main_v49) := (dat1 (R6 m) c).arrAt 3 cfg1.N
/-- After region 1: that array replaced, every other buffer as the region found it. -/
def W7 (c : Dev nD) : Valuation τ sig (Elt F) := Function.update (W6 m c) main_v49 (o7 m c)
/-- The same, read at the TensorCore's references. -/
abbrev R7 : (c : Dev nD) → (b : Ref sig .tc) → Buf (Elt F) ((c : Thread nD τ).loc b) := fun c b => W7 m c b
/-- What region 2 leaves in its output array `main_v50`: what the grid's write-backs leave, by the region's proof data. -/
def o8 (c : Dev nD) : Buf (Elt F) ((c : Thread nD τ).loc main_v50) := (dat2 (R7 m) c).arrAt 2 cfg2.N
/-- After region 2: that array replaced, every other buffer as the region found it. -/
def W8 (c : Dev nD) : Valuation τ sig (Elt F) := Function.update (W7 m c) main_v50 (o8 m c)
/-- The same, read at the TensorCore's references. -/
abbrev R8 : (c : Dev nD) → (b : Ref sig .tc) → Buf (Elt F) ((c : Thread nD τ).loc b) := fun c b => W8 m c b
/-- After the host stretch `hostOps3`. -/
def W9 (c : Dev nD) : Valuation τ sig (Elt F) := StableHlo.after hostOps3 (W8 m c)
/-- The same, read at the TensorCore's references. -/
abbrev R9 : (c : Dev nD) → (b : Ref sig .tc) → Buf (Elt F) ((c : Thread nD τ).loc b) := fun c b => W9 m c b
/-- What region 3 leaves in its output array `main_v52`: what the grid's write-backs leave, by the region's proof data. -/
def o10 (c : Dev nD) : Buf (Elt F) ((c : Thread nD τ).loc main_v52) := (dat3 (R9 m) c).arrAt 3 cfg3.N
/-- After region 3: that array replaced, every other buffer as the region found it. -/
def W10 (c : Dev nD) : Valuation τ sig (Elt F) := Function.update (W9 m c) main_v52 (o10 m c)
/-- The same, read at the TensorCore's references. -/
abbrev R10 : (c : Dev nD) → (b : Ref sig .tc) → Buf (Elt F) ((c : Thread nD τ).loc b) := fun c b => W10 m c b
/-- What region 4 leaves in its output array `main_v53`: what the grid's write-backs leave, by the region's proof data. -/
def o11 (c : Dev nD) : Buf (Elt F) ((c : Thread nD τ).loc main_v53) := (dat4 (R10 m) c).arrAt 2 cfg4.N
/-- After region 4: that array replaced, every other buffer as the region found it. -/
def W11 (c : Dev nD) : Valuation τ sig (Elt F) := Function.update (W10 m c) main_v53 (o11 m c)
/-- The same, read at the TensorCore's references. -/
abbrev R11 : (c : Dev nD) → (b : Ref sig .tc) → Buf (Elt F) ((c : Thread nD τ).loc b) := fun c b => W11 m c b
/-- After the host stretch `hostOps5`. -/
def W12 (c : Dev nD) : Valuation τ sig (Elt F) := StableHlo.after hostOps5 (W11 m c)
/-- The same, read at the TensorCore's references. -/
abbrev R12 : (c : Dev nD) → (b : Ref sig .tc) → Buf (Elt F) ((c : Thread nD τ).loc b) := fun c b => W12 m c b
/-- What region 5 leaves in its output array `main_v55`: what the grid's write-backs leave, by the region's proof data. -/
def o13 (c : Dev nD) : Buf (Elt F) ((c : Thread nD τ).loc main_v55) := (dat5 (R12 m) c).arrAt 3 cfg5.N
/-- After region 5: that array replaced, every other buffer as the region found it. -/
def W13 (c : Dev nD) : Valuation τ sig (Elt F) := Function.update (W12 m c) main_v55 (o13 m c)
/-- The same, read at the TensorCore's references. -/
abbrev R13 : (c : Dev nD) → (b : Ref sig .tc) → Buf (Elt F) ((c : Thread nD τ).loc b) := fun c b => W13 m c b
/-- After the host stretch `hostOps6`. -/
def W14 (c : Dev nD) : Valuation τ sig (Elt F) := StableHlo.after hostOps6 (W13 m c)
/-- After the host stretch `hostOps6_1`. -/
def W15 (c : Dev nD) : Valuation τ sig (Elt F) := StableHlo.after hostOps6_1 (W14 m c)
/-- After the host stretch `hostOps6_2`. -/
def W16 (c : Dev nD) : Valuation τ sig (Elt F) := StableHlo.after hostOps6_2 (W15 m c)
/-- After the host stretch `hostOps6_3`. -/
def W17 (c : Dev nD) : Valuation τ sig (Elt F) := StableHlo.after hostOps6_3 (W16 m c)
/-- The same, read at the TensorCore's references. -/
abbrev R17 : (c : Dev nD) → (b : Ref sig .tc) → Buf (Elt F) ((c : Thread nD τ).loc b) := fun c b => W17 m c b
/-- What region 6 leaves in its output array `main_v58`: what the grid's write-backs leave, by the region's proof data. -/
def o18 (c : Dev nD) : Buf (Elt F) ((c : Thread nD τ).loc main_v58) := (dat6 (R17 m) c).arrAt 2 cfg6.N
/-- After region 6: that array replaced, every other buffer as the region found it. -/
def W18 (c : Dev nD) : Valuation τ sig (Elt F) := Function.update (W17 m c) main_v58 (o18 m c)
/-- The same, read at the TensorCore's references. -/
abbrev R18 : (c : Dev nD) → (b : Ref sig .tc) → Buf (Elt F) ((c : Thread nD τ).loc b) := fun c b => W18 m c b
/-- After the host stretch `hostOps7`. -/
def W19 (c : Dev nD) : Valuation τ sig (Elt F) := StableHlo.after hostOps7 (W18 m c)
/-- The same, read at the TensorCore's references. -/
abbrev R19 : (c : Dev nD) → (b : Ref sig .tc) → Buf (Elt F) ((c : Thread nD τ).loc b) := fun c b => W19 m c b
/-- What region 7 leaves in its output array `main_v60`: what the grid's write-backs leave, by the region's proof data. -/
def o20 (c : Dev nD) : Buf (Elt F) ((c : Thread nD τ).loc main_v60) := (dat7 (R19 m) c).arrAt 3 cfg7.N
/-- After region 7: that array replaced, every other buffer as the region found it. -/
def W20 (c : Dev nD) : Valuation τ sig (Elt F) := Function.update (W19 m c) main_v60 (o20 m c)
/-- The same, read at the TensorCore's references. -/
abbrev R20 : (c : Dev nD) → (b : Ref sig .tc) → Buf (Elt F) ((c : Thread nD τ).loc b) := fun c b => W20 m c b

/-- What the regions leave, as the conditional frame wants it: indexed by the item's number and the buffer. Only the
    eight (item, output array) pairs are ever read; elsewhere the launch contents stand in. -/
def outs : Gen.Outs (F := F) := fun J r c =>
  match J with
  | 5 => Function.update (Gen.V0 m c) main_v47 (o5 m c) r
  | 7 => Function.update (Gen.V0 m c) main_v49 (o7 m c) r
  | 8 => Function.update (Gen.V0 m c) main_v50 (o8 m c) r
  | 10 => Function.update (Gen.V0 m c) main_v52 (o10 m c) r
  | 11 => Function.update (Gen.V0 m c) main_v53 (o11 m c) r
  | 13 => Function.update (Gen.V0 m c) main_v55 (o13 m c) r
  | 18 => Function.update (Gen.V0 m c) main_v58 (o18 m c) r
  | 20 => Function.update (Gen.V0 m c) main_v60 (o20 m c) r
  | _ => Gen.V0 m c r

theorem outs_5 (c : Dev nD) : outs m 5 main_v47 c = o5 m c := by
  unfold outs; exact Function.update_self _ _ _
theorem outs_7 (c : Dev nD) : outs m 7 main_v49 c = o7 m c := by
  unfold outs; exact Function.update_self _ _ _
theorem outs_8 (c : Dev nD) : outs m 8 main_v50 c = o8 m c := by
  unfold outs; exact Function.update_self _ _ _
theorem outs_10 (c : Dev nD) : outs m 10 main_v52 c = o10 m c := by
  unfold outs; exact Function.update_self _ _ _
theorem outs_11 (c : Dev nD) : outs m 11 main_v53 c = o11 m c := by
  unfold outs; exact Function.update_self _ _ _
theorem outs_13 (c : Dev nD) : outs m 13 main_v55 c = o13 m c := by
  unfold outs; exact Function.update_self _ _ _
theorem outs_18 (c : Dev nD) : outs m 18 main_v58 c = o18 m c := by
  unfold outs; exact Function.update_self _ _ _
theorem outs_20 (c : Dev nD) : outs m 20 main_v60 c = o20 m c := by
  unfold outs; exact Function.update_self _ _ _

/-! ## The generated chain of contents is this one -/

theorem V4_eq (c : Dev nD) : Gen.V4 m c = W4 m c := rfl
theorem V5_eq (c : Dev nD) : Gen.V5 m (outs m) c = W5 m c := by
  show Function.update (Gen.V4 m c) main_v47 (outs m 5 main_v47 c) = _
  rw [outs_5, V4_eq]; rfl
theorem V6_eq (c : Dev nD) : Gen.V6 m (outs m) c = W6 m c := by
  show StableHlo.after hostOps1 (Gen.V5 m (outs m) c) = _
  rw [V5_eq]; rfl
theorem V7_eq (c : Dev nD) : Gen.V7 m (outs m) c = W7 m c := by
  show Function.update (Gen.V6 m (outs m) c) main_v49 (outs m 7 main_v49 c) = _
  rw [outs_7, V6_eq]; rfl
theorem V8_eq (c : Dev nD) : Gen.V8 m (outs m) c = W8 m c := by
  show Function.update (Gen.V7 m (outs m) c) main_v50 (outs m 8 main_v50 c) = _
  rw [outs_8, V7_eq]; rfl
theorem V9_eq (c : Dev nD) : Gen.V9 m (outs m) c = W9 m c := by
  show StableHlo.after hostOps3 (Gen.V8 m (outs m) c) = _
  rw [V8_eq]; rfl
theorem V10_eq (c : Dev nD) : Gen.V10 m (outs m) c = W10 m c := by
  show Function.update (Gen.V9 m (outs m) c) main_v52 (outs m 10 main_v52 c) = _
  rw [outs_10, V9_eq]; rfl
theorem V11_eq (c : Dev nD) : Gen.V11 m (outs m) c = W11 m c := by
  show Function.update (Gen.V10 m (outs m) c) main_v53 (outs m 11 main_v53 c) = _
  rw [outs_11, V10_eq]; rfl
theorem V12_eq (c : Dev nD) : Gen.V12 m (outs m) c = W12 m c := by
  show StableHlo.after hostOps5 (Gen.V11 m (outs m) c) = _
  rw [V11_eq]; rfl
theorem V13_eq (c : Dev nD) : Gen.V13 m (outs m) c = W13 m c := by
  show Function.update (Gen.V12 m (outs m) c) main_v55 (outs m 13 main_v55 c) = _
  rw [outs_13, V12_eq]; rfl
theorem V14_eq (c : Dev nD) : Gen.V14 m (outs m) c = W14 m c := by
  show StableHlo.after hostOps6 (Gen.V13 m (outs m) c) = _
  rw [V13_eq]; rfl
theorem V15_eq (c : Dev nD) : Gen.V15 m (outs m) c = W15 m c := by
  show StableHlo.after hostOps6_1 (Gen.V14 m (outs m) c) = _
  rw [V14_eq]; rfl
theorem V16_eq (c : Dev nD) : Gen.V16 m (outs m) c = W16 m c := by
  show StableHlo.after hostOps6_2 (Gen.V15 m (outs m) c) = _
  rw [V15_eq]; rfl
theorem V17_eq (c : Dev nD) : Gen.V17 m (outs m) c = W17 m c := by
  show StableHlo.after hostOps6_3 (Gen.V16 m (outs m) c) = _
  rw [V16_eq]; rfl
theorem V18_eq (c : Dev nD) : Gen.V18 m (outs m) c = W18 m c := by
  show Function.update (Gen.V17 m (outs m) c) main_v58 (outs m 18 main_v58 c) = _
  rw [outs_18, V17_eq]; rfl
theorem V19_eq (c : Dev nD) : Gen.V19 m (outs m) c = W19 m c := by
  show StableHlo.after hostOps7 (Gen.V18 m (outs m) c) = _
  rw [V18_eq]; rfl
theorem V20_eq (c : Dev nD) : Gen.V20 m (outs m) c = W20 m c := by
  show Function.update (Gen.V19 m (outs m) c) main_v60 (outs m 20 main_v60 c) = _
  rw [outs_20, V19_eq]; rfl

/-! ## Each region's arrays at its exit -/

/-- Region 0's arrays when it is left: the inputs as entered (no window writes them back), the output at what the
    write-backs leave. -/
theorem hF0 (c : Dev nD) (w : Fin cfg0.W) : (dat0 (R4 m) c).arrAt w cfg0.N = R5 m c (Pipeline.arrRef spec0 w) :=
  match w with
  | ⟨0, _⟩ => ((dat0 (R4 m) c).arrAt_in 0 rfl _).trans ((A_eq0 (R4 m) c 0).trans
      (show W5 m c (Pipeline.arrRef spec0 0) = W4 m c (Pipeline.arrRef spec0 0) from by
        unfold W5; exact Function.update_of_ne (StableHlo.devRef_ne_of_ne (by decide)) _ _).symm)
  | ⟨1, _⟩ => ((dat0 (R4 m) c).arrAt_in 1 rfl _).trans ((A_eq0 (R4 m) c 1).trans
      (show W5 m c (Pipeline.arrRef spec0 1) = W4 m c (Pipeline.arrRef spec0 1) from by
        unfold W5; exact Function.update_of_ne (StableHlo.devRef_ne_of_ne (by decide)) _ _).symm)
  | ⟨2, _⟩ => (show W5 m c main_v47 = o5 m c from by unfold W5; exact Function.update_self _ _ _).symm
/-- Every buffer that is none of region 0's arrays is as the region found it. -/
theorem hrest0 (c : Dev nD) : ∀ b, b ∉ Finset.univ.image (Pipeline.arrRef spec0) → R5 m c b = R4 m c b :=
  fun b hb => show W5 m c b = W4 m c b from by
    unfold W5
    exact Function.update_of_ne (StableHlo.devRef_ne_of_ne fun e => hb (Finset.mem_image.mpr ⟨2, Finset.mem_univ _, e.symm⟩)) _ _

/-- Region 1's arrays when it is left: the inputs as entered (no window writes them back), the output at what the
    write-backs leave. -/
theorem hF1 (c : Dev nD) (w : Fin cfg1.W) : (dat1 (R6 m) c).arrAt w cfg1.N = R7 m c (Pipeline.arrRef spec1 w) :=
  match w with
  | ⟨0, _⟩ => ((dat1 (R6 m) c).arrAt_in 0 rfl _).trans ((A_eq1 (R6 m) c 0).trans
      (show W7 m c (Pipeline.arrRef spec1 0) = W6 m c (Pipeline.arrRef spec1 0) from by
        unfold W7; exact Function.update_of_ne (StableHlo.devRef_ne_of_ne (by decide)) _ _).symm)
  | ⟨1, _⟩ => ((dat1 (R6 m) c).arrAt_in 1 rfl _).trans ((A_eq1 (R6 m) c 1).trans
      (show W7 m c (Pipeline.arrRef spec1 1) = W6 m c (Pipeline.arrRef spec1 1) from by
        unfold W7; exact Function.update_of_ne (StableHlo.devRef_ne_of_ne (by decide)) _ _).symm)
  | ⟨2, _⟩ => ((dat1 (R6 m) c).arrAt_in 2 rfl _).trans ((A_eq1 (R6 m) c 2).trans
      (show W7 m c (Pipeline.arrRef spec1 2) = W6 m c (Pipeline.arrRef spec1 2) from by
        unfold W7; exact Function.update_of_ne (StableHlo.devRef_ne_of_ne (by decide)) _ _).symm)
  | ⟨3, _⟩ => (show W7 m c main_v49 = o7 m c from by unfold W7; exact Function.update_self _ _ _).symm
/-- Every buffer that is none of region 1's arrays is as the region found it. -/
theorem hrest1 (c : Dev nD) : ∀ b, b ∉ Finset.univ.image (Pipeline.arrRef spec1) → R7 m c b = R6 m c b :=
  fun b hb => show W7 m c b = W6 m c b from by
    unfold W7
    exact Function.update_of_ne (StableHlo.devRef_ne_of_ne fun e => hb (Finset.mem_image.mpr ⟨3, Finset.mem_univ _, e.symm⟩)) _ _

/-- Region 2's arrays when it is left: the inputs as entered (no window writes them back), the output at what the
    write-backs leave. -/
theorem hF2 (c : Dev nD) (w : Fin cfg2.W) : (dat2 (R7 m) c).arrAt w cfg2.N = R8 m c (Pipeline.arrRef spec2 w) :=
  match w with
  | ⟨0, _⟩ => ((dat2 (R7 m) c).arrAt_in 0 rfl _).trans ((A_eq2 (R7 m) c 0).trans
      (show W8 m c (Pipeline.arrRef spec2 0) = W7 m c (Pipeline.arrRef spec2 0) from by
        unfold W8; exact Function.update_of_ne (StableHlo.devRef_ne_of_ne (by decide)) _ _).symm)
  | ⟨1, _⟩ => ((dat2 (R7 m) c).arrAt_in 1 rfl _).trans ((A_eq2 (R7 m) c 1).trans
      (show W8 m c (Pipeline.arrRef spec2 1) = W7 m c (Pipeline.arrRef spec2 1) from by
        unfold W8; exact Function.update_of_ne (StableHlo.devRef_ne_of_ne (by decide)) _ _).symm)
  | ⟨2, _⟩ => (show W8 m c main_v50 = o8 m c from by unfold W8; exact Function.update_self _ _ _).symm
/-- Every buffer that is none of region 2's arrays is as the region found it. -/
theorem hrest2 (c : Dev nD) : ∀ b, b ∉ Finset.univ.image (Pipeline.arrRef spec2) → R8 m c b = R7 m c b :=
  fun b hb => show W8 m c b = W7 m c b from by
    unfold W8
    exact Function.update_of_ne (StableHlo.devRef_ne_of_ne fun e => hb (Finset.mem_image.mpr ⟨2, Finset.mem_univ _, e.symm⟩)) _ _

/-- Region 3's arrays when it is left: the inputs as entered (no window writes them back), the output at what the
    write-backs leave. -/
theorem hF3 (c : Dev nD) (w : Fin cfg3.W) : (dat3 (R9 m) c).arrAt w cfg3.N = R10 m c (Pipeline.arrRef spec3 w) :=
  match w with
  | ⟨0, _⟩ => ((dat3 (R9 m) c).arrAt_in 0 rfl _).trans ((A_eq3 (R9 m) c 0).trans
      (show W10 m c (Pipeline.arrRef spec3 0) = W9 m c (Pipeline.arrRef spec3 0) from by
        unfold W10; exact Function.update_of_ne (StableHlo.devRef_ne_of_ne (by decide)) _ _).symm)
  | ⟨1, _⟩ => ((dat3 (R9 m) c).arrAt_in 1 rfl _).trans ((A_eq3 (R9 m) c 1).trans
      (show W10 m c (Pipeline.arrRef spec3 1) = W9 m c (Pipeline.arrRef spec3 1) from by
        unfold W10; exact Function.update_of_ne (StableHlo.devRef_ne_of_ne (by decide)) _ _).symm)
  | ⟨2, _⟩ => ((dat3 (R9 m) c).arrAt_in 2 rfl _).trans ((A_eq3 (R9 m) c 2).trans
      (show W10 m c (Pipeline.arrRef spec3 2) = W9 m c (Pipeline.arrRef spec3 2) from by
        unfold W10; exact Function.update_of_ne (StableHlo.devRef_ne_of_ne (by decide)) _ _).symm)
  | ⟨3, _⟩ => (show W10 m c main_v52 = o10 m c from by unfold W10; exact Function.update_self _ _ _).symm
/-- Every buffer that is none of region 3's arrays is as the region found it. -/
theorem hrest3 (c : Dev nD) : ∀ b, b ∉ Finset.univ.image (Pipeline.arrRef spec3) → R10 m c b = R9 m c b :=
  fun b hb => show W10 m c b = W9 m c b from by
    unfold W10
    exact Function.update_of_ne (StableHlo.devRef_ne_of_ne fun e => hb (Finset.mem_image.mpr ⟨3, Finset.mem_univ _, e.symm⟩)) _ _

/-- Region 4's arrays when it is left: the inputs as entered (no window writes them back), the output at what the
    write-backs leave. -/
theorem hF4 (c : Dev nD) (w : Fin cfg4.W) : (dat4 (R10 m) c).arrAt w cfg4.N = R11 m c (Pipeline.arrRef spec4 w) :=
  match w with
  | ⟨0, _⟩ => ((dat4 (R10 m) c).arrAt_in 0 rfl _).trans ((A_eq4 (R10 m) c 0).trans
      (show W11 m c (Pipeline.arrRef spec4 0) = W10 m c (Pipeline.arrRef spec4 0) from by
        unfold W11; exact Function.update_of_ne (StableHlo.devRef_ne_of_ne (by decide)) _ _).symm)
  | ⟨1, _⟩ => ((dat4 (R10 m) c).arrAt_in 1 rfl _).trans ((A_eq4 (R10 m) c 1).trans
      (show W11 m c (Pipeline.arrRef spec4 1) = W10 m c (Pipeline.arrRef spec4 1) from by
        unfold W11; exact Function.update_of_ne (StableHlo.devRef_ne_of_ne (by decide)) _ _).symm)
  | ⟨2, _⟩ => (show W11 m c main_v53 = o11 m c from by unfold W11; exact Function.update_self _ _ _).symm
/-- Every buffer that is none of region 4's arrays is as the region found it. -/
theorem hrest4 (c : Dev nD) : ∀ b, b ∉ Finset.univ.image (Pipeline.arrRef spec4) → R11 m c b = R10 m c b :=
  fun b hb => show W11 m c b = W10 m c b from by
    unfold W11
    exact Function.update_of_ne (StableHlo.devRef_ne_of_ne fun e => hb (Finset.mem_image.mpr ⟨2, Finset.mem_univ _, e.symm⟩)) _ _

/-- Region 5's arrays when it is left: the inputs as entered (no window writes them back), the output at what the
    write-backs leave. -/
theorem hF5 (c : Dev nD) (w : Fin cfg5.W) : (dat5 (R12 m) c).arrAt w cfg5.N = R13 m c (Pipeline.arrRef spec5 w) :=
  match w with
  | ⟨0, _⟩ => ((dat5 (R12 m) c).arrAt_in 0 rfl _).trans ((A_eq5 (R12 m) c 0).trans
      (show W13 m c (Pipeline.arrRef spec5 0) = W12 m c (Pipeline.arrRef spec5 0) from by
        unfold W13; exact Function.update_of_ne (StableHlo.devRef_ne_of_ne (by decide)) _ _).symm)
  | ⟨1, _⟩ => ((dat5 (R12 m) c).arrAt_in 1 rfl _).trans ((A_eq5 (R12 m) c 1).trans
      (show W13 m c (Pipeline.arrRef spec5 1) = W12 m c (Pipeline.arrRef spec5 1) from by
        unfold W13; exact Function.update_of_ne (StableHlo.devRef_ne_of_ne (by decide)) _ _).symm)
  | ⟨2, _⟩ => ((dat5 (R12 m) c).arrAt_in 2 rfl _).trans ((A_eq5 (R12 m) c 2).trans
      (show W13 m c (Pipeline.arrRef spec5 2) = W12 m c (Pipeline.arrRef spec5 2) from by
        unfold W13; exact Function.update_of_ne (StableHlo.devRef_ne_of_ne (by decide)) _ _).symm)
  | ⟨3, _⟩ => (show W13 m c main_v55 = o13 m c from by unfold W13; exact Function.update_self _ _ _).symm
/-- Every buffer that is none of region 5's arrays is as the region found it. -/
theorem hrest5 (c : Dev nD) : ∀ b, b ∉ Finset.univ.image (Pipeline.arrRef spec5) → R13 m c b = R12 m c b :=
  fun b hb => show W13 m c b = W12 m c b from by
    unfold W13
    exact Function.update_of_ne (StableHlo.devRef_ne_of_ne fun e => hb (Finset.mem_image.mpr ⟨3, Finset.mem_univ _, e.symm⟩)) _ _

/-- Region 6's arrays when it is left: the inputs as entered (no window writes them back), the output at what the
    write-backs leave. -/
theorem hF6 (c : Dev nD) (w : Fin cfg6.W) : (dat6 (R17 m) c).arrAt w cfg6.N = R18 m c (Pipeline.arrRef spec6 w) :=
  match w with
  | ⟨0, _⟩ => ((dat6 (R17 m) c).arrAt_in 0 rfl _).trans ((A_eq6 (R17 m) c 0).trans
      (show W18 m c (Pipeline.arrRef spec6 0) = W17 m c (Pipeline.arrRef spec6 0) from by
        unfold W18; exact Function.update_of_ne (StableHlo.devRef_ne_of_ne (by decide)) _ _).symm)
  | ⟨1, _⟩ => ((dat6 (R17 m) c).arrAt_in 1 rfl _).trans ((A_eq6 (R17 m) c 1).trans
      (show W18 m c (Pipeline.arrRef spec6 1) = W17 m c (Pipeline.arrRef spec6 1) from by
        unfold W18; exact Function.update_of_ne (StableHlo.devRef_ne_of_ne (by decide)) _ _).symm)
  | ⟨2, _⟩ => (show W18 m c main_v58 = o18 m c from by unfold W18; exact Function.update_self _ _ _).symm
/-- Every buffer that is none of region 6's arrays is as the region found it. -/
theorem hrest6 (c : Dev nD) : ∀ b, b ∉ Finset.univ.image (Pipeline.arrRef spec6) → R18 m c b = R17 m c b :=
  fun b hb => show W18 m c b = W17 m c b from by
    unfold W18
    exact Function.update_of_ne (StableHlo.devRef_ne_of_ne fun e => hb (Finset.mem_image.mpr ⟨2, Finset.mem_univ _, e.symm⟩)) _ _

/-- Region 7's arrays when it is left: the inputs as entered (no window writes them back), the output at what the
    write-backs leave. -/
theorem hF7 (c : Dev nD) (w : Fin cfg7.W) : (dat7 (R19 m) c).arrAt w cfg7.N = R20 m c (Pipeline.arrRef spec7 w) :=
  match w with
  | ⟨0, _⟩ => ((dat7 (R19 m) c).arrAt_in 0 rfl _).trans ((A_eq7 (R19 m) c 0).trans
      (show W20 m c (Pipeline.arrRef spec7 0) = W19 m c (Pipeline.arrRef spec7 0) from by
        unfold W20; exact Function.update_of_ne (StableHlo.devRef_ne_of_ne (by decide)) _ _).symm)
  | ⟨1, _⟩ => ((dat7 (R19 m) c).arrAt_in 1 rfl _).trans ((A_eq7 (R19 m) c 1).trans
      (show W20 m c (Pipeline.arrRef spec7 1) = W19 m c (Pipeline.arrRef spec7 1) from by
        unfold W20; exact Function.update_of_ne (StableHlo.devRef_ne_of_ne (by decide)) _ _).symm)
  | ⟨2, _⟩ => ((dat7 (R19 m) c).arrAt_in 2 rfl _).trans ((A_eq7 (R19 m) c 2).trans
      (show W20 m c (Pipeline.arrRef spec7 2) = W19 m c (Pipeline.arrRef spec7 2) from by
        unfold W20; exact Function.update_of_ne (StableHlo.devRef_ne_of_ne (by decide)) _ _).symm)
  | ⟨3, _⟩ => (show W20 m c main_v60 = o20 m c from by unfold W20; exact Function.update_self _ _ _).symm
/-- Every buffer that is none of region 7's arrays is as the region found it. -/
theorem hrest7 (c : Dev nD) : ∀ b, b ∉ Finset.univ.image (Pipeline.arrRef spec7) → R20 m c b = R19 m c b :=
  fun b hb => show W20 m c b = W19 m c b from by
    unfold W20
    exact Function.update_of_ne (StableHlo.devRef_ne_of_ne fun e => hb (Finset.mem_image.mpr ⟨3, Finset.mem_univ _, e.symm⟩)) _ _

/-! ## The proof data family and the thread state -/

/-- Every pipeline's proof data, each at its region's entry contents: a literal match on the pipeline's number. -/
def pdats : (p : Fin 8) → (c : Dev nD) → Dat τ (Elt F) Unit ℕ (UR sig nD τ) ℕ (cfgs p) c
  | ⟨0, _⟩ => fun c => dat0 (R4 m) c
  | ⟨1, _⟩ => fun c => dat1 (R6 m) c
  | ⟨2, _⟩ => fun c => dat2 (R7 m) c
  | ⟨3, _⟩ => fun c => dat3 (R9 m) c
  | ⟨4, _⟩ => fun c => dat4 (R10 m) c
  | ⟨5, _⟩ => fun c => dat5 (R12 m) c
  | ⟨6, _⟩ => fun c => dat6 (R17 m) c
  | ⟨7, _⟩ => fun c => dat7 (R19 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from every unscoped buffer at the contents before it, left at the contents after it. Its arrays are
    split out of the unscoped buffers and put back at the exit contents; the generator register goes into the region's
    invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (R4 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (R4 m c) (R5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays are
    split out of the unscoped buffers and put back at the exit contents; the generator register goes into the region's
    invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (R6 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (R6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (R6 m) c)
    unfold Pipeline.ΦA
    iintro ⟨Hp, -, Hr⟩
    isplitl [Hr]; · iexact Hr
    iexact Hp
  hout c := by
    rw [Pipeline.ownSems0_none]
    refine BIBase.Entails.trans (hout1 (R6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (R6 m c) (R7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays are
    split out of the unscoped buffers and put back at the exit contents; the generator register goes into the region's
    invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (R7 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (R7 m c) (R8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays are
    split out of the unscoped buffers and put back at the exit contents; the generator register goes into the region's
    invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (R9 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (R9 m) c)
    unfold Pipeline.ΦA
    iintro ⟨Hp, -, Hr⟩
    isplitl [Hr]; · iexact Hr
    iexact Hp
  hout c := by
    rw [Pipeline.ownSems0_none]
    refine BIBase.Entails.trans (hout3 (R9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (R9 m c) (R10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays are
    split out of the unscoped buffers and put back at the exit contents; the generator register goes into the region's
    invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (R10 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (R10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (R10 m c) (R11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at the contents after it. Its arrays are
    split out of the unscoped buffers and put back at the exit contents; the generator register goes into the region's
    invariant and comes back; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R12 m) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (R12 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (R12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (R12 m) c)
    unfold Pipeline.ΦA
    iintro ⟨Hp, -, Hr⟩
    isplitl [Hr]; · iexact Hr
    iexact Hp
  hout c := by
    rw [Pipeline.ownSems0_none]
    refine BIBase.Entails.trans (hout5 (R12 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (R12 m c) (R13 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at the contents after it. Its arrays are
    split out of the unscoped buffers and put back at the exit contents; the generator register goes into the region's
    invariant and comes back; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (R17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (R17 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (R17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (R17 m c) (R18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at the contents after it. Its arrays are
    split out of the unscoped buffers and put back at the exit contents; the generator register goes into the region's
    invariant and comes back; nothing is owed; the kernel has no semaphore of its own. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (R19 m) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (R19 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (R19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (R19 m) c)
    unfold Pipeline.ΦA
    iintro ⟨Hp, -, Hr⟩
    isplitl [Hr]; · iexact Hr
    iexact Hp
  hout c := by
    rw [Pipeline.ownSems0_none]
    refine BIBase.Entails.trans (hout7 (R19 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (R19 m c) (R20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, and every final
    state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond (F := F) m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hR : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
          ⊢ R c := fun c => by
        iintro ⟨-, HO, -, Hp, -⟩
        isplitl [Hp]; · iexists _; iexact Hp
        iexists ∅; iexact HO
      have h1 : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hR c
      iintro ⟨H, -⟩
      imodintro
      iapply h1; iexact H)
    (hE8 := fun c => by iintro ⟨-, HO⟩; iexact HO)
    (R0 := reg0 m) (hpre0 := fun c => by rw [V4_eq]; exact .rfl) (hpost0 := fun c => by rw [V5_eq]; exact .rfl)
    (R1 := reg1 m) (hpre1 := fun c => by rw [V6_eq]; exact .rfl) (hpost1 := fun c => by rw [V7_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V10_eq]; exact .rfl) (hpost4 := fun c => by rw [V11_eq]; exact .rfl)
    (R5 := reg5 m) (hpre5 := fun c => by rw [V12_eq]; exact .rfl) (hpost5 := fun c => by rw [V13_eq]; exact .rfl)
    (R6 := reg6 m) (hpre6 := fun c => by rw [V17_eq]; exact .rfl) (hpost6 := fun c => by rw [V18_eq]; exact .rfl)
    (R7 := reg7 m) (hpre7 := fun c => by rw [V19_eq]; exact .rfl) (hpost7 := fun c => by rw [V20_eq]; exact .rfl)

end Cert.Kernel.Hand

end
-- ==== Proof.Feat0.lean ====
/-
  Region 0 of the kernel program: the first layer's feature transform `x @ W1`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile0`.

  Everything is stated at a parameter `V`, the contents of the TensorCore's buffers when the region is entered, and
  for any float instance.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the input is in its staging buffer at every point: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read and written whole -/

abbrev rX0 : Rect S1024x128 := Rect.unit (s := S1024x128) ![0, 0] S1024x128.size inb_S1024x128_S1024x128_0_0
abbrev rW0 : Rect S128x512 := Rect.unit (s := S128x512) ![0, 0] S128x512.size inb_S128x512_S128x512_0_0
abbrev rO0 : Rect S1024x512 := Rect.unit (s := S1024x512) ![0, 0] S1024x512.size inb_S1024x512_S1024x512_0_0

/-- What the output's staging buffer holds after the body: its one whole store of the product of the two blocks. -/
def tile0 (x : Vec F S1024x128 .f32) (w : Vec F S128x512 .f32) : Vec F S1024x512 .bf16 :=
  View.canon [⟨rO0, k0_pay1 (View.ld x rX0) (View.ld w rW0)⟩]

/-- The one store covers the buffer. -/
theorem cover0 (p : Vec F S1024x512 .bf16) (y : S1024x512.Idx) :
    ∃ pc ∈ ([⟨rO0, p⟩] : List (View.Piece (Elt F) S1024x512 .bf16)), y ∈ pc.1.set :=
  View.cover_of_tiled [⟨rO0, p⟩] S1024x512.size (by rfl) y

/-! ## The body's triple -/

set_option maxHeartbeats 1000000 in
/-- The body on whole staging memrefs, the inputs at `x` and `w` and the output at anything, runs to the end with the
    inputs as they were and the output at `tile0 x w`. -/
theorem sound_kernel0 (c : Dev nD) (E : Set ℕ) (i : grid0.Coords)
    (arg1 : Memref sig .tc .vmem S1024x128 .f32) (harg1 : arg1.IsWhole)
    (arg2 : Memref sig .tc .vmem S128x512 .f32) (harg2 : arg2.IsWhole)
    (arg3 : Memref sig .tc .vmem S1024x512 .bf16) (harg3 : arg3.IsWhole)
    (x : Vec F S1024x128 .f32) (w : Vec F S128x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile0 x w)) -∗ K ⟨⟩))
      ⊢ wp frame (wpE (defs₀ (F := F)) Variants.none c none) E (cc0__feat_kernel i arg1 harg1 arg2 harg2 arg3 harg3) K := by
  simp only [cc0__feat_kernel_eq_skeleton]; unfold cc0__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of pipeline 0 on core `c`: the arrays as the region finds them; after the body at point `t` each
    input's buffer at its block and the output's at the product tile of the two blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tile0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tile0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Agg1Runs.lean ====
/-
  Region 1 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched its block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched its block
    index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not fetched its block
    index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first reduction step": the condition of the body's first `if`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "This is the last reduction step": the condition of the body's second `if`. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first and the middle steps the result's window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result's window, through which its contents are stated. -/
abbrev VO1 : View sig .tc .vmem S512x512 .f32 := (Memref.whole cc1_stg3_0 : Memref sig .tc .vmem S512x512 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S512x512 .f32 := Memref.whole cc1_scratch0
abbrev VS1 : View sig .tc .vmem S512x512 .f32 := scM1.view

/-- The region's invariant before its first point, with the accumulator split out of the scoped rest: the accumulator at
    anything, the other scoped buffers unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i)
    (x0 : Vec F S512x1024 .bf16) (x1 : Vec F S10240x512 .bf16) (x2 : Vec F S1x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Agg1.lean ====
/-
  Region 1 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.Agg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out1_A_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) : Vec F S512x512 .f32 :=
  VO1.read (Elt F) (VO1.writes (Elt F) VO1.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) (y : S512x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S512x512.size (by sl_kernel_rfl) y
/-- What case A leaves in the accumulator. -/
def sout1_A (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) : Vec F S512x512 .f32 :=
  VS1.read (Elt F) (VS1.writes (Elt F) VS1.junk (kernelRun1_A c i arg2 harg2 arg3 harg3 arg4 harg4 arg5 harg5 arg6 harg6 hc0 hc1 x0 x1 x2).2.1)

def out1_B_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) : Vec F S512x512 .f32 :=
  VO1.read (Elt F) (VO1.writes (Elt F) VO1.junk (kernelRun1_B c i arg2 harg2 arg3 harg3 arg4 harg4 arg5 harg5 arg6 harg6 hc0 hc1 x0 x1 x2 xs0).1)
theorem scover1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) (y : S512x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S512x512.size (by sl_kernel_rfl) y
def sout1_B (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) : Vec F S512x512 .f32 :=
  VS1.read (Elt F) (VS1.writes (Elt F) VS1.junk (kernelRun1_B c i arg2 harg2 arg3 harg3 arg4 harg4 arg5 harg5 arg6 harg6 hc0 hc1 x0 x1 x2 xs0).2.1)

/-- Case C's store into the result's buffer covers it. -/
theorem cover1_C_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) (y : S512x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x512.size (by sl_kernel_rfl) y
/-- What case C leaves in the result's buffer. -/
def out1_C_3 (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) : Vec F S512x512 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) (y : S512x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x512.size (by sl_kernel_rfl) y
def sout1_C (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) : Vec F S512x512 .f32 :=
  VS1.read (Elt F) (VS1.writes (Elt F) VS1.junk (kernelRun1_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt1 (c : Dev nD) : (n : ℕ) → n < cfg1.N → Vec F S512x512 .f32 × Vec F S512x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 10 = 0
  · by_cases h1 : t.val % 10 = 9
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the starting one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 200 := N_1; omega)

end Cert.KernelIdeal.Hand

end
-- ==== Proof.Feat2.lean ====
/-
  Region 2 of the kernel program: the second layer's feature transform `h1 @ W2`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile2`.

  Everything is stated at a parameter `V`, the contents of the TensorCore's buffers when the region is entered, and
  for any float instance.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of the input is in its staging buffer at every point: it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched at the first, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read and written whole -/

abbrev rX2 : Rect S1024x512 := Rect.unit (s := S1024x512) ![0, 0] S1024x512.size inb_S1024x512_S1024x512_0_0
abbrev rW2 : Rect S512x1024 := Rect.unit (s := S512x1024) ![0, 0] S512x1024.size inb_S512x1024_S512x1024_0_0
abbrev rO2 : Rect S1024x1024 := Rect.unit (s := S1024x1024) ![0, 0] S1024x1024.size inb_S1024x1024_S1024x1024_0_0

/-- What the output's staging buffer holds after the body: its one whole store of the product of the two blocks. -/
def tile2 (x : Vec F S1024x512 .f32) (w : Vec F S512x1024 .f32) : Vec F S1024x1024 .bf16 :=
  View.canon [⟨rO2, k2_pay1 (View.ld x rX2) (View.ld w rW2)⟩]

/-- The one store covers the buffer. -/
theorem cover2 (p : Vec F S1024x1024 .bf16) (y : S1024x1024.Idx) :
    ∃ pc ∈ ([⟨rO2, p⟩] : List (View.Piece (Elt F) S1024x1024 .bf16)), y ∈ pc.1.set :=
  View.cover_of_tiled [⟨rO2, p⟩] S1024x1024.size (by rfl) y

/-! ## The body's triple -/

set_option maxHeartbeats 1000000 in
/-- The body on whole staging memrefs, the inputs at `x` and `w` and the output at anything, runs to the end with the
    inputs as they were and the output at `tile2 x w`. -/
theorem sound_kernel2 (c : Dev nD) (E : Set ℕ) (i : grid2.Coords)
    (arg1 : Memref sig .tc .vmem S1024x512 .f32) (harg1 : arg1.IsWhole)
    (arg2 : Memref sig .tc .vmem S512x1024 .f32) (harg2 : arg2.IsWhole)
    (arg3 : Memref sig .tc .vmem S1024x1024 .bf16) (harg3 : arg3.IsWhole)
    (x : Vec F S1024x512 .f32) (w : Vec F S512x1024 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile2 x w)) -∗ K ⟨⟩))
      ⊢ wp frame (wpE (defs₀ (F := F)) Variants.none c none) E (cc2__feat_kernel i arg1 harg1 arg2 harg2 arg3 harg3) K := by
  simp only [cc2__feat_kernel_eq_skeleton]; unfold cc2__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of pipeline 2 on core `c`: the arrays as the region finds them; after the body at point `t` each
    input's buffer at its block and the output's at the product tile of the two blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => tile2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = tile2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Agg3Runs.lean ====
/-
  Region 3 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (where it is not fetched its block
    index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (where it is not fetched its block
    index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (where it is not fetched its block
    index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form over the grid -/

/-- "This is the first reduction step": the condition of the body's first `if`. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- "This is the last reduction step": the condition of the body's second `if`. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first and the middle steps the result's window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last step it is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the result's window, through which its contents are stated. -/
abbrev VO3 : View sig .tc .vmem S512x1024 .f32 := (Memref.whole cc3_stg3_0 : Memref sig .tc .vmem S512x1024 .f32).view
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S512x1024 .f32 := Memref.whole cc3_scratch0
abbrev VS3 : View sig .tc .vmem S512x1024 .f32 := scM3.view

/-- The region's invariant before its first point, with the accumulator split out of the scoped rest: the accumulator at
    anything, the other scoped buffers unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .bf16) (x1 : Vec F S10240x1024 .bf16) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨[], ?_, fun xi3 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .bf16) (x1 : Vec F S10240x1024 .bf16) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨[], ?_, fun xi3 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .bf16) (x1 : Vec F S10240x1024 .bf16) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__agg_kernel i arg2 harg2 arg3 harg3 arg4 harg4 arg5 harg5 arg6 harg6) K } := by
  refine ⟨?_, ?_, fun E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Agg3.lean ====
/-
  Region 3 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.Agg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out3_A_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) : Vec F S512x1024 .f32 :=
  VO3.read (Elt F) (VO3.writes (Elt F) VO3.junk (kernelRun3_A c i arg2 harg2 arg3 harg3 arg4 harg4 arg5 harg5 arg6 harg6 hc0 hc1 x0 x1 x2).1)
/-- Case A's stores into the accumulator cover it. -/
theorem scover3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) (y : S512x1024.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x1024.size (by sl_kernel_rfl) y
/-- What case A leaves in the accumulator. -/
def sout3_A (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) : Vec F S512x1024 .f32 :=
  VS3.read (Elt F) (VS3.writes (Elt F) VS3.junk (kernelRun3_A c i arg2 harg2 arg3 harg3 arg4 harg4 arg5 harg5 arg6 harg6 hc0 hc1 x0 x1 x2).2.1)

def out3_B_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) : Vec F S512x1024 .f32 :=
  VO3.read (Elt F) (VO3.writes (Elt F) VO3.junk (kernelRun3_B c i arg2 harg2 arg3 harg3 arg4 harg4 arg5 harg5 arg6 harg6 hc0 hc1 x0 x1 x2 xs0).1)
theorem scover3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) (y : S512x1024.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x1024.size (by sl_kernel_rfl) y
def sout3_B (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) : Vec F S512x1024 .f32 :=
  VS3.read (Elt F) (VS3.writes (Elt F) VS3.junk (kernelRun3_B c i arg2 harg2 arg3 harg3 arg4 harg4 arg5 harg5 arg6 harg6 hc0 hc1 x0 x1 x2 xs0).2.1)

/-- Case C's store into the result's buffer covers it. -/
theorem cover3_C_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) (y : S512x1024.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x1024.size (by sl_kernel_rfl) y
/-- What case C leaves in the result's buffer. -/
def out3_C_3 (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) : Vec F S512x1024 .f32 :=
  VO3.read (Elt F) (VO3.writes (Elt F) VO3.junk (kernelRun3_C c i arg2 harg2 arg3 harg3 arg4 harg4 arg5 harg5 arg6 harg6 hc0 hc1 x0 x1 x2 xs0).1)
theorem scover3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) (y : S512x1024.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x1024.size (by sl_kernel_rfl) y
def sout3_C (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) : Vec F S512x1024 .f32 :=
  VS3.read (Elt F) (VS3.writes (Elt F) VS3.junk (kernelRun3_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt3 (c : Dev nD) : (n : ℕ) → n < cfg3.N → Vec F S512x1024 .f32 × Vec F S512x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_3 c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 10 = 0
  · by_cases h1 : t.val % 10 = 9
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the starting one back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 200 := N_3; omega)

end Cert.KernelIdeal.Hand

end
-- ==== Proof.Feat4.lean ====
/-
  Region 4 of the kernel program: the third layer's feature transform `h2 @ W3`, one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile4`.

  Everything is stated at a parameter `V`, the contents of the TensorCore's buffers when the region is entered, and
  for any float instance.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile of the input is in its staging buffer at every point: it is fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched at the first, and its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read and written whole -/

abbrev rX4 : Rect S1024x1024 := Rect.unit (s := S1024x1024) ![0, 0] S1024x1024.size inb_S1024x1024_S1024x1024_0_0
abbrev rW4 : Rect S1024x512 := Rect.unit (s := S1024x512) ![0, 0] S1024x512.size inb_S1024x512_S1024x512_0_0
abbrev rO4 : Rect S1024x512 := Rect.unit (s := S1024x512) ![0, 0] S1024x512.size inb_S1024x512_S1024x512_0_0

/-- What the output's staging buffer holds after the body: its one whole store of the product of the two blocks. -/
def tile4 (x : Vec F S1024x1024 .f32) (w : Vec F S1024x512 .f32) : Vec F S1024x512 .bf16 :=
  View.canon [⟨rO4, k4_pay1 (View.ld x rX4) (View.ld w rW4)⟩]

/-- The one store covers the buffer. -/
theorem cover4 (p : Vec F S1024x512 .bf16) (y : S1024x512.Idx) :
    ∃ pc ∈ ([⟨rO4, p⟩] : List (View.Piece (Elt F) S1024x512 .bf16)), y ∈ pc.1.set :=
  View.cover_of_tiled [⟨rO4, p⟩] S1024x512.size (by rfl) y

/-! ## The body's triple -/

set_option maxHeartbeats 1000000 in
/-- The body on whole staging memrefs, the inputs at `x` and `w` and the output at anything, runs to the end with the
    inputs as they were and the output at `tile4 x w`. -/
theorem sound_kernel4 (c : Dev nD) (E : Set ℕ) (i : grid4.Coords)
    (arg1 : Memref sig .tc .vmem S1024x1024 .f32) (harg1 : arg1.IsWhole)
    (arg2 : Memref sig .tc .vmem S1024x512 .f32) (harg2 : arg2.IsWhole)
    (arg3 : Memref sig .tc .vmem S1024x512 .bf16) (harg3 : arg3.IsWhole)
    (x : Vec F S1024x1024 .f32) (w : Vec F S1024x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile4 x w)) -∗ K ⟨⟩))
      ⊢ wp frame (wpE (defs₀ (F := F)) Variants.none c none) E (cc4__feat_kernel i arg1 harg1 arg2 harg2 arg3 harg3) K := by
  simp only [cc4__feat_kernel_eq_skeleton]; unfold cc4__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-! ## The pipeline's proof data -/

/-- The proof data of pipeline 4 on core `c`: the arrays as the region finds them; after the body at point `t` each
    input's buffer at its block and the output's at the product tile of the two blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => tile4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = tile4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Agg5Runs.lean ====
/-
  Region 5 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not (where it is not fetched its block
    index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not (where it is not fetched its block
    index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not (where it is not fetched its block
    index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "This is the first reduction step": the condition of the body's first `if`. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "This is the last reduction step": the condition of the body's second `if`. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- At the first and the middle steps the result's window is idle and is not written back. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
/-- At the last step it is live. -/
theorem liveAt5_3_C : ∀ t : Fin cfg5.N, ¬cond5_0 (grid5.coords t) → cond5_1 (grid5.coords t) → cfg5.idle 3 (grid5.coords t) = false := by decide +kernel

/-! ## The memrefs the body is called with -/

/-- One staging buffer of the result's window, through which its contents are stated. -/
abbrev VO5 : View sig .tc .vmem S512x512 .f32 := (Memref.whole cc5_stg3_0 : Memref sig .tc .vmem S512x512 .f32).view
abbrev ms5_0 (t : Fin cfg5.N) : Memref sig .tc .vmem S512x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10240x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x512 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5 : Memref sig .tc .vmem S512x512 .f32 := Memref.whole cc5_scratch0
abbrev VS5 : View sig .tc .vmem S512x512 .f32 := scM5.view

/-- The region's invariant before its first point, with the accumulator split out of the scoped rest: the accumulator at
    anything, the other scoped buffers unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1024 .bf16) (x1 : Vec F S10240x512 .bf16) (x2 : Vec F S1x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨[], ?_, fun xi3 E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨[], ?_, fun xi3 E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1024 .bf16) (x1 : Vec F S10240x512 .bf16) (x2 : Vec F S1x512 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__agg_kernel i arg2 harg2 arg3 harg3 arg4 harg4 arg5 harg5 arg6 harg6) K } := by
  refine ⟨?_, ?_, fun E K => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Agg5.lean ====
/-
  Region 5 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.Agg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out5_A_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) : Vec F S512x512 .f32 :=
  VO5.read (Elt F) (VO5.writes (Elt F) VO5.junk (kernelRun5_A c i arg2 harg2 arg3 harg3 arg4 harg4 arg5 harg5 arg6 harg6 hc0 hc1 x0 x1 x2).1)
/-- Case A's stores into the accumulator cover it. -/
theorem scover5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) (y : S512x512.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S512x512.size (by sl_kernel_rfl) y
/-- What case A leaves in the accumulator. -/
def sout5_A (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) : Vec F S512x512 .f32 :=
  VS5.read (Elt F) (VS5.writes (Elt F) VS5.junk (kernelRun5_A c i arg2 harg2 arg3 harg3 arg4 harg4 arg5 harg5 arg6 harg6 hc0 hc1 x0 x1 x2).2.1)

def out5_B_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) : Vec F S512x512 .f32 :=
  VO5.read (Elt F) (VO5.writes (Elt F) VO5.junk (kernelRun5_B c i arg2 harg2 arg3 harg3 arg4 harg4 arg5 harg5 arg6 harg6 hc0 hc1 x0 x1 x2 xs0).1)
theorem scover5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) (y : S512x512.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S512x512.size (by sl_kernel_rfl) y
def sout5_B (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) : Vec F S512x512 .f32 :=
  VS5.read (Elt F) (VS5.writes (Elt F) VS5.junk (kernelRun5_B c i arg2 harg2 arg3 harg3 arg4 harg4 arg5 harg5 arg6 harg6 hc0 hc1 x0 x1 x2 xs0).2.1)

/-- Case C's store into the result's buffer covers it. -/
theorem cover5_C_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) (y : S512x512.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S512x512.size (by sl_kernel_rfl) y
/-- What case C leaves in the result's buffer. -/
def out5_C_3 (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) : Vec F S512x512 .f32 :=
  VO5.read (Elt F) (VO5.writes (Elt F) VO5.junk (kernelRun5_C c i arg2 harg2 arg3 harg3 arg4 harg4 arg5 harg5 arg6 harg6 hc0 hc1 x0 x1 x2 xs0).1)
theorem scover5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) (y : S512x512.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S512x512.size (by sl_kernel_rfl) y
def sout5_C (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) : Vec F S512x512 .f32 :=
  VS5.read (Elt F) (VS5.writes (Elt F) VS5.junk (kernelRun5_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt5 (c : Dev nD) : (n : ℕ) → n < cfg5.N → Vec F S512x512 .f32 × Vec F S512x512 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 10 = 0 then
      if h1 : (n + 1) % 10 = 9 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 10 = 9 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 10 = 0) (h1 : ¬t.val % 10 = 9) :
    outsAt5 V c t.val t.isLt = (out5_A_3 c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t), sout5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 10 = 0) (h1 : ¬t.val % 10 = 9) :
    outsAt5 V c t.val t.isLt = (out5_B_3 c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 10 = 0) (h1 : t.val % 10 = 9) :
    outsAt5 V c t.val t.isLt = (out5_C_3 c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  by_cases h0 : t.val % 10 = 0
  · by_cases h1 : t.val % 10 = 9
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the starting one back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

theorem hout5 (c : Dev nD) : (dat5 V c).Φ (Fin.last cfg5.N) ⊢ Pipeline.ΦA spec5 c :=
  Phi_out5 V c _ (by rw [Fin.val_last]; have : cfg5.N = 200 := N_5; omega)

end Cert.KernelIdeal.Hand

end
-- ==== Proof.Feat6.lean ====
/-
  Region 6 of the kernel program: the fourth layer's feature transform `h3 @ W4` (the weight's 32 columns padded to 128), one row tile per grid point.

  The region has ten points. At point `t` the pipeline hands the body rows `1024 t … 1024 t + 1023` of the input
  (window 0), the whole weight matrix (window 1, fetched once, its block index never moves) and a staging buffer
  for the same rows of the result (window 2). The body reads the two inputs whole, rounds them to bf16, multiplies
  them into a zero accumulator, rounds the product to bf16 and stores it over the whole output buffer (it also reads
  the output buffer first, and does nothing with what it read). So after the body the inputs' buffers hold what they
  held and the output's buffer holds one function of the two input blocks, `tile6`.

  Everything is stated at a parameter `V`, the contents of the TensorCore's buffers when the region is entered, and
  for any float instance.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row tile of the input is in its staging buffer at every point: it is fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix is in its staging buffer at every point: fetched at the first, and its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer read and written whole -/

abbrev rX6 : Rect S1024x512 := Rect.unit (s := S1024x512) ![0, 0] S1024x512.size inb_S1024x512_S1024x512_0_0
abbrev rW6 : Rect S512x128 := Rect.unit (s := S512x128) ![0, 0] S512x128.size inb_S512x128_S512x128_0_0
abbrev rO6 : Rect S1024x128 := Rect.unit (s := S1024x128) ![0, 0] S1024x128.size inb_S1024x128_S1024x128_0_0

/-- What the output's staging buffer holds after the body: its one whole store of the product of the two blocks. -/
def tile6 (x : Vec F S1024x512 .f32) (w : Vec F S512x128 .f32) : Vec F S1024x128 .bf16 :=
  View.canon [⟨rO6, k6_pay1 (View.ld x rX6) (View.ld w rW6)⟩]

/-- The one store covers the buffer. -/
theorem cover6 (p : Vec F S1024x128 .bf16) (y : S1024x128.Idx) :
    ∃ pc ∈ ([⟨rO6, p⟩] : List (View.Piece (Elt F) S1024x128 .bf16)), y ∈ pc.1.set :=
  View.cover_of_tiled [⟨rO6, p⟩] S1024x128.size (by rfl) y

/-! ## The body's triple -/

set_option maxHeartbeats 1000000 in
/-- The body on whole staging memrefs, the inputs at `x` and `w` and the output at anything, runs to the end with the
    inputs as they were and the output at `tile6 x w`. -/
theorem sound_kernel6 (c : Dev nD) (E : Set ℕ) (i : grid6.Coords)
    (arg1 : Memref sig .tc .vmem S1024x512 .f32) (harg1 : arg1.IsWhole)
    (arg2 : Memref sig .tc .vmem S512x128 .f32) (harg2 : arg2.IsWhole)
    (arg3 : Memref sig .tc .vmem S1024x128 .bf16) (harg3 : arg3.IsWhole)
    (x : Vec F S1024x512 .f32) (w : Vec F S512x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tile6 x w)) -∗ K ⟨⟩))
      ⊢ wp frame (wpE (defs₀ (F := F)) Variants.none c none) E (cc6__feat_kernel i arg1 harg1 arg2 harg2 arg3 harg3) K := by
  simp only [cc6__feat_kernel_eq_skeleton]; unfold cc6__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-! ## The pipeline's proof data -/

/-- The proof data of pipeline 6 on core `c`: the arrays as the region finds them; after the body at point `t` each
    input's buffer at its block and the output's at the product tile of the two blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => tile6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = tile6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Agg7Runs.lean ====
/-
  Region 7 of the kernel program, first half: the aggregation `A @ h + b` of one layer, and what its body does in
  each of its three control cases.

  The grid is 20 row tiles by 10 reduction steps; point `t` is row tile `t / 10`, step `k = t % 10`. The body is
  handed a 512 x 1024 block of the adjacency matrix (window 0), the whole feature matrix (window 1, fetched once),
  the bias row (window 2, fetched once), a staging buffer for the row tile of the result (window 3) and a scratch
  accumulator of the tile's shape that it keeps from one point to the next. At `k = 0` it first stores zeros into
  the accumulator; at every step it adds to the accumulator the product of the adjacency block with rows
  `1024 k … 1024 k + 1023` of the feature matrix; at `k = 9` it also stores accumulator plus bias (clamped below
  at zero where the layer has a relu) into the result's buffer. At the other steps it leaves the result's buffer
  alone, and the pipeline does not write it back there.

  So there are three cases of the two conditions, first step (A), middle steps (B), last step (C), and for each the
  body's run on whole staging memrefs is stated once, with the pieces the run leaves in the accumulator and in the
  result's buffer as its witness.
-/
import proofs.«160261_j68599217652370_2_alg».proof.Proof.Gen.KernelIdeal.Launch
import proofs.«160261_j68599217652370_2_alg».proof.Proof.Gen.KernelIdeal.Skeleton
import proofs.«160261_j68599217652370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not (where it is not fetched its block
    index has not moved). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not (where it is not fetched its block
    index has not moved). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not (where it is not fetched its block
    index has not moved). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- "This is the first reduction step": the condition of the body's first `if`. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 10 = 0 :=
  (by decide +kernel : ∀ t : Fin grid7.N, cond7_0 (grid7.coords t) ↔ t.val % 10 = 0)

/-- "This is the last reduction step": the condition of the body's second `if`. -/
abbrev cond7_1 (i : grid7.Coords) : Prop := k7_cond2 i = 1#1
theorem hcond7_1 : ∀ t : Fin cfg7.N, cond7_1 (grid7.coords t) ↔ t.val % 10 = 9 :=
  (by decide +kernel : ∀ t : Fin grid7.N, cond7_1 (grid7.coords t) ↔ t.val % 10 = 9)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the first and the middle steps the result's window is idle and is not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At the last step it is live. -/
theorem liveAt7_3_C : ∀ t : Fin cfg7.N, ¬cond7_0 (grid7.coords t) → cond7_1 (grid7.coords t) → cfg7.idle 3 (grid7.coords t) = false := by decide +kernel

/-! ## The memrefs the body is called with -/

/-- One staging buffer of the result's window, through which its contents are stated. -/
abbrev VO7 : View sig .tc .vmem S512x128 .f32 := (Memref.whole cc7_stg3_0 : Memref sig .tc .vmem S512x128 .f32).view
abbrev ms7_0 (t : Fin cfg7.N) : Memref sig .tc .vmem S512x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S10240x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S512x128 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev scM7 : Memref sig .tc .vmem S512x128 .f32 := Memref.whole cc7_scratch0
abbrev VS7 : View sig .tc .vmem S512x128 .f32 := scM7.view

/-- The region's invariant before its first point, with the accumulator split out of the scoped rest: the accumulator at
    anything, the other scoped buffers unopened, the generator register at some state. -/
theorem PhiA7_eq (c : Dev nD) :
    (Pipeline.ΦA spec7 c : sProp 𝕄)
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-! ## The body's run, case by case -/

set_option maxHeartbeats 4000000 in
/-- CASE A, the first reduction step: the inputs at their contents, the result's buffer at `xi3` and handed back
    untouched, the accumulator at anything; the run leaves the accumulator with the pieces `LS0` written. -/
noncomputable def kernelRun7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i)
    (x0 : Vec F S512x1024 .bf16) (x1 : Vec F S10240x128 .bf16) (x2 : Vec F S1x128 .f32) :
    Σ' (L3 : List (View.Piece (Elt F) S512x128 .f32)), { LS0 : List (View.Piece (Elt F) S512x128 .f32) //
      ∀ (xi3 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨[], ?_, fun xi3 E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B, a middle step: as case A, but the accumulator comes in at what the point before left, `xs0`. -/
noncomputable def kernelRun7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i)
    (x0 : Vec F S512x1024 .bf16) (x1 : Vec F S10240x128 .bf16) (x2 : Vec F S1x128 .f32) (xs0 : Vec F S512x128 .f32) :
    Σ' (L3 : List (View.Piece (Elt F) S512x128 .f32)), { LS0 : List (View.Piece (Elt F) S512x128 .f32) //
      ∀ (xi3 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨[], ?_, fun xi3 E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C, the last step: the result's buffer comes in at anything and leaves with the pieces `L3` written. -/
noncomputable def kernelRun7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i)
    (x0 : Vec F S512x1024 .bf16) (x1 : Vec F S10240x128 .bf16) (x2 : Vec F S1x128 .f32) (xs0 : Vec F S512x128 .f32) :
    Σ' (L3 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__agg_kernel i arg2 harg2 arg3 harg3 arg4 harg4 arg5 harg5 arg6 harg6) K } := by
  refine ⟨?_, ?_, fun E K => ?run⟩
  case run =>
    simp only [cc7__agg_kernel_eq_skeleton]; unfold cc7__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Agg7.lean ====
/-
  Region 7 of the kernel program, second half: what the accumulator and the result's buffer hold after each point, the
  region's invariant, its proof data and the body obligation.

  The accumulator's contents after point `t` are defined by recursion on `t`: at a first step what case A's run
  leaves from nothing, at a later step what case B's or C's run leaves from the contents the point before left.
  The invariant carries the accumulator at exactly those contents from one point to the next; before the very
  first point, and again when the region is left, it only says the accumulator holds something.
-/
import proofs.«160261_j68599217652370_2_alg».proof.Proof.Agg7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result's buffer: a placeholder that nothing consults. -/
def out7_A_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) : Vec F S512x128 .f32 :=
  VO7.read (Elt F) (VO7.writes (Elt F) VO7.junk (kernelRun7_A c i arg2 harg2 arg3 harg3 arg4 harg4 arg5 harg5 arg6 harg6 hc0 hc1 x0 x1 x2).1)
/-- Case A's stores into the accumulator cover it. -/
theorem scover7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) (y : S512x128.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S512x128.size (by sl_kernel_rfl) y
/-- What case A leaves in the accumulator. -/
def sout7_A (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) : Vec F S512x128 .f32 :=
  VS7.read (Elt F) (VS7.writes (Elt F) VS7.junk (kernelRun7_A c i arg2 harg2 arg3 harg3 arg4 harg4 arg5 harg5 arg6 harg6 hc0 hc1 x0 x1 x2).2.1)

def out7_B_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) : Vec F S512x128 .f32 :=
  VO7.read (Elt F) (VO7.writes (Elt F) VO7.junk (kernelRun7_B c i arg2 harg2 arg3 harg3 arg4 harg4 arg5 harg5 arg6 harg6 hc0 hc1 x0 x1 x2 xs0).1)
theorem scover7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) (y : S512x128.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S512x128.size (by sl_kernel_rfl) y
def sout7_B (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) : Vec F S512x128 .f32 :=
  VS7.read (Elt F) (VS7.writes (Elt F) VS7.junk (kernelRun7_B c i arg2 harg2 arg3 harg3 arg4 harg4 arg5 harg5 arg6 harg6 hc0 hc1 x0 x1 x2 xs0).2.1)

/-- Case C's store into the result's buffer covers it. -/
theorem cover7_C_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) (y : S512x128.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S512x128.size (by sl_kernel_rfl) y
/-- What case C leaves in the result's buffer. -/
def out7_C_3 (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) : Vec F S512x128 .f32 :=
  VO7.read (Elt F) (VO7.writes (Elt F) VO7.junk (kernelRun7_C c i arg2 harg2 arg3 harg3 arg4 harg4 arg5 harg5 arg6 harg6 hc0 hc1 x0 x1 x2 xs0).1)
theorem scover7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) (y : S512x128.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S512x128.size (by sl_kernel_rfl) y
def sout7_C (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) : Vec F S512x128 .f32 :=
  VS7.read (Elt F) (VS7.writes (Elt F) VS7.junk (kernelRun7_C c i arg2 harg2 arg3 harg3 arg4 harg4 arg5 harg5 arg6 harg6 hc0 hc1 x0 x1 x2 xs0).2.1)

/-! ## What the result's buffer and the accumulator hold after each point -/

/-- The pair (result's buffer, accumulator) after the body at position `n`, by recursion on `n`. -/
def outsAt7 (c : Dev nD) : (n : ℕ) → n < cfg7.N → Vec F S512x128 .f32 × Vec F S512x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 10 = 0 then
      if h1 : (n + 1) % 10 = 9 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 10 = 9 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 10 = 0) (h1 : ¬t.val % 10 = 9) :
    outsAt7 V c t.val t.isLt = (out7_A_3 c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t), sout7_A c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 10 = 0) (h1 : ¬t.val % 10 = 9) :
    outsAt7 V c t.val t.isLt = (out7_B_3 c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 10 = 0) (h1 : t.val % 10 = 9) :
    outsAt7 V c t.val t.isLt = (out7_C_3 c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start only "the accumulator holds something"; afterwards the accumulator at what the point
    before left, beside the other scoped buffers and the generator register. -/
def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The closed forms of the two conditions say which case the point is in; the inputs' memrefs
    hold their blocks; the invariant hands the body the accumulator at what the point before left (at anything, at the very
    first point) and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  by_cases h0 : t.val % 10 = 0
  · by_cases h1 : t.val % 10 = 9
    · exfalso; omega
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C; (try dsimp only)
      by_cases hz : t.val = 0
      · exfalso; omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B; (try dsimp only)
      by_cases hz : t.val = 0
      · exfalso; omega
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the starting one back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

theorem hout7 (c : Dev nD) : (dat7 V c).Φ (Fin.last cfg7.N) ⊢ Pipeline.ΦA spec7 c :=
  Phi_out7 V c _ (by rw [Fin.val_last]; have : cfg7.N = 200 := N_7; omega)

end Cert.KernelIdeal.Hand

end
-- ==== Proof.FrameKI.lean ====
/-
  The frame of the kernel program: its eight regions chained through the host operations between them.

  Between two items of @main every unscoped buffer of the core is held whole at known contents. A host stretch takes
  the contents to the fold of its operations. A region takes out the arrays its windows stage, runs its pipeline on
  them with the region's proof data, and puts them back: the inputs as they were, the output array at what the
  write-backs of the grid leave, every other buffer untouched. So the contents after each item are a chain: the
  launch memory, then for each item either a fold or one array replaced. What each region leaves in its output
  array is taken from its proof data, and those choices, item by item, are the unknowns the conditional frame is
  stated over. No item writes an argument array, which is the frame.
-/
import proofs.«160261_j68599217652370_2_alg».proof.Proof.Feat0
import proofs.«160261_j68599217652370_2_alg».proof.Proof.Agg1
import proofs.«160261_j68599217652370_2_alg».proof.Proof.Feat2
import proofs.«160261_j68599217652370_2_alg».proof.Proof.Agg3
import proofs.«160261_j68599217652370_2_alg».proof.Proof.Feat4
import proofs.«160261_j68599217652370_2_alg».proof.Proof.Agg5
import proofs.«160261_j68599217652370_2_alg».proof.Proof.Feat6
import proofs.«160261_j68599217652370_2_alg».proof.Proof.Agg7
import proofs.«160261_j68599217652370_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the core's buffers between items -/

/-- When region 0 is entered: the launch memory through the four host stretches before it. -/
def W4 (c : Dev nD) : Valuation τ sig (Elt F) := Gen.V4 m c
/-- The same, read at the TensorCore's references. -/
abbrev R4 : (c : Dev nD) → (b : Ref sig .tc) → Buf (Elt F) ((c : Thread nD τ).loc b) := fun c b => W4 m c b
/-- What region 0 leaves in its output array `main_v47`: what the grid's write-backs leave, by the region's proof data. -/
def o5 (c : Dev nD) : Buf (Elt F) ((c : Thread nD τ).loc main_v47) := (dat0 (R4 m) c).arrAt 2 cfg0.N
/-- After region 0: that array replaced, every other buffer as the region found it. -/
def W5 (c : Dev nD) : Valuation τ sig (Elt F) := Function.update (W4 m c) main_v47 (o5 m c)
/-- The same, read at the TensorCore's references. -/
abbrev R5 : (c : Dev nD) → (b : Ref sig .tc) → Buf (Elt F) ((c : Thread nD τ).loc b) := fun c b => W5 m c b
/-- After the host stretch `hostOps1`. -/
def W6 (c : Dev nD) : Valuation τ sig (Elt F) := StableHlo.after hostOps1 (W5 m c)
/-- The same, read at the TensorCore's references. -/
abbrev R6 : (c : Dev nD) → (b : Ref sig .tc) → Buf (Elt F) ((c : Thread nD τ).loc b) := fun c b => W6 m c b
/-- What region 1 leaves in its output array `main_v49`: what the grid's write-backs leave, by the region's proof data. -/
def o7 (c : Dev nD) : Buf (Elt F) ((c : Thread nD τ).loc main_v49) := (dat1 (R6 m) c).arrAt 3 cfg1.N
/-- After region 1: that array replaced, every other buffer as the region found it. -/
def W7 (c : Dev nD) : Valuation τ sig (Elt F) := Function.update (W6 m c) main_v49 (o7 m c)
/-- The same, read at the TensorCore's references. -/
abbrev R7 : (c : Dev nD) → (b : Ref sig .tc) → Buf (Elt F) ((c : Thread nD τ).loc b) := fun c b => W7 m c b
/-- What region 2 leaves in its output array `main_v50`: what the grid's write-backs leave, by the region's proof data. -/
def o8 (c : Dev nD) : Buf (Elt F) ((c : Thread nD τ).loc main_v50) := (dat2 (R7 m) c).arrAt 2 cfg2.N
/-- After region 2: that array replaced, every other buffer as the region found it. -/
def W8 (c : Dev nD) : Valuation τ sig (Elt F) := Function.update (W7 m c) main_v50 (o8 m c)
/-- The same, read at the TensorCore's references. -/
abbrev R8 : (c : Dev nD) → (b : Ref sig .tc) → Buf (Elt F) ((c : Thread nD τ).loc b) := fun c b => W8 m c b
/-- After the host stretch `hostOps3`. -/
def W9 (c : Dev nD) : Valuation τ sig (Elt F) := StableHlo.after hostOps3 (W8 m c)
/-- The same, read at the TensorCore's references. -/
abbrev R9 : (c : Dev nD) → (b : Ref sig .tc) → Buf (Elt F) ((c : Thread nD τ).loc b) := fun c b => W9 m c b
/-- What region 3 leaves in its output array `main_v52`: what the grid's write-backs leave, by the region's proof data. -/
def o10 (c : Dev nD) : Buf (Elt F) ((c : Thread nD τ).loc main_v52) := (dat3 (R9 m) c).arrAt 3 cfg3.N
/-- After region 3: that array replaced, every other buffer as the region found it. -/
def W10 (c : Dev nD) : Valuation τ sig (Elt F) := Function.update (W9 m c) main_v52 (o10 m c)
/-- The same, read at the TensorCore's references. -/
abbrev R10 : (c : Dev nD) → (b : Ref sig .tc) → Buf (Elt F) ((c : Thread nD τ).loc b) := fun c b => W10 m c b
/-- What region 4 leaves in its output array `main_v53`: what the grid's write-backs leave, by the region's proof data. -/
def o11 (c : Dev nD) : Buf (Elt F) ((c : Thread nD τ).loc main_v53) := (dat4 (R10 m) c).arrAt 2 cfg4.N
/-- After region 4: that array replaced, every other buffer as the region found it. -/
def W11 (c : Dev nD) : Valuation τ sig (Elt F) := Function.update (W10 m c) main_v53 (o11 m c)
/-- The same, read at the TensorCore's references. -/
abbrev R11 : (c : Dev nD) → (b : Ref sig .tc) → Buf (Elt F) ((c : Thread nD τ).loc b) := fun c b => W11 m c b
/-- After the host stretch `hostOps5`. -/
def W12 (c : Dev nD) : Valuation τ sig (Elt F) := StableHlo.after hostOps5 (W11 m c)
/-- The same, read at the TensorCore's references. -/
abbrev R12 : (c : Dev nD) → (b : Ref sig .tc) → Buf (Elt F) ((c : Thread nD τ).loc b) := fun c b => W12 m c b
/-- What region 5 leaves in its output array `main_v55`: what the grid's write-backs leave, by the region's proof data. -/
def o13 (c : Dev nD) : Buf (Elt F) ((c : Thread nD τ).loc main_v55) := (dat5 (R12 m) c).arrAt 3 cfg5.N
/-- After region 5: that array replaced, every other buffer as the region found it. -/
def W13 (c : Dev nD) : Valuation τ sig (Elt F) := Function.update (W12 m c) main_v55 (o13 m c)
/-- The same, read at the TensorCore's references. -/
abbrev R13 : (c : Dev nD) → (b : Ref sig .tc) → Buf (Elt F) ((c : Thread nD τ).loc b) := fun c b => W13 m c b
/-- After the host stretch `hostOps6`. -/
def W14 (c : Dev nD) : Valuation τ sig (Elt F) := StableHlo.after hostOps6 (W13 m c)
/-- After the host stretch `hostOps6_1`. -/
def W15 (c : Dev nD) : Valuation τ sig (Elt F) := StableHlo.after hostOps6_1 (W14 m c)
/-- After the host stretch `hostOps6_2`. -/
def W16 (c : Dev nD) : Valuation τ sig (Elt F) := StableHlo.after hostOps6_2 (W15 m c)
/-- After the host stretch `hostOps6_3`. -/
def W17 (c : Dev nD) : Valuation τ sig (Elt F) := StableHlo.after hostOps6_3 (W16 m c)
/-- The same, read at the TensorCore's references. -/
abbrev R17 : (c : Dev nD) → (b : Ref sig .tc) → Buf (Elt F) ((c : Thread nD τ).loc b) := fun c b => W17 m c b
/-- What region 6 leaves in its output array `main_v58`: what the grid's write-backs leave, by the region's proof data. -/
def o18 (c : Dev nD) : Buf (Elt F) ((c : Thread nD τ).loc main_v58) := (dat6 (R17 m) c).arrAt 2 cfg6.N
/-- After region 6: that array replaced, every other buffer as the region found it. -/
def W18 (c : Dev nD) : Valuation τ sig (Elt F) := Function.update (W17 m c) main_v58 (o18 m c)
/-- The same, read at the TensorCore's references. -/
abbrev R18 : (c : Dev nD) → (b : Ref sig .tc) → Buf (Elt F) ((c : Thread nD τ).loc b) := fun c b => W18 m c b
/-- After the host stretch `hostOps7`. -/
def W19 (c : Dev nD) : Valuation τ sig (Elt F) := StableHlo.after hostOps7 (W18 m c)
/-- The same, read at the TensorCore's references. -/
abbrev R19 : (c : Dev nD) → (b : Ref sig .tc) → Buf (Elt F) ((c : Thread nD τ).loc b) := fun c b => W19 m c b
/-- What region 7 leaves in its output array `main_v60`: what the grid's write-backs leave, by the region's proof data. -/
def o20 (c : Dev nD) : Buf (Elt F) ((c : Thread nD τ).loc main_v60) := (dat7 (R19 m) c).arrAt 3 cfg7.N
/-- After region 7: that array replaced, every other buffer as the region found it. -/
def W20 (c : Dev nD) : Valuation τ sig (Elt F) := Function.update (W19 m c) main_v60 (o20 m c)
/-- The same, read at the TensorCore's references. -/
abbrev R20 : (c : Dev nD) → (b : Ref sig .tc) → Buf (Elt F) ((c : Thread nD τ).loc b) := fun c b => W20 m c b

/-- What the regions leave, as the conditional frame wants it: indexed by the item's number and the buffer. Only the
    eight (item, output array) pairs are ever read; elsewhere the launch contents stand in. -/
def outs : Gen.Outs (F := F) := fun J r c =>
  match J with
  | 5 => Function.update (Gen.V0 m c) main_v47 (o5 m c) r
  | 7 => Function.update (Gen.V0 m c) main_v49 (o7 m c) r
  | 8 => Function.update (Gen.V0 m c) main_v50 (o8 m c) r
  | 10 => Function.update (Gen.V0 m c) main_v52 (o10 m c) r
  | 11 => Function.update (Gen.V0 m c) main_v53 (o11 m c) r
  | 13 => Function.update (Gen.V0 m c) main_v55 (o13 m c) r
  | 18 => Function.update (Gen.V0 m c) main_v58 (o18 m c) r
  | 20 => Function.update (Gen.V0 m c) main_v60 (o20 m c) r
  | _ => Gen.V0 m c r

theorem outs_5 (c : Dev nD) : outs m 5 main_v47 c = o5 m c := by
  unfold outs; exact Function.update_self _ _ _
theorem outs_7 (c : Dev nD) : outs m 7 main_v49 c = o7 m c := by
  unfold outs; exact Function.update_self _ _ _
theorem outs_8 (c : Dev nD) : outs m 8 main_v50 c = o8 m c := by
  unfold outs; exact Function.update_self _ _ _
theorem outs_10 (c : Dev nD) : outs m 10 main_v52 c = o10 m c := by
  unfold outs; exact Function.update_self _ _ _
theorem outs_11 (c : Dev nD) : outs m 11 main_v53 c = o11 m c := by
  unfold outs; exact Function.update_self _ _ _
theorem outs_13 (c : Dev nD) : outs m 13 main_v55 c = o13 m c := by
  unfold outs; exact Function.update_self _ _ _
theorem outs_18 (c : Dev nD) : outs m 18 main_v58 c = o18 m c := by
  unfold outs; exact Function.update_self _ _ _
theorem outs_20 (c : Dev nD) : outs m 20 main_v60 c = o20 m c := by
  unfold outs; exact Function.update_self _ _ _

/-! ## The generated chain of contents is this one -/

theorem V4_eq (c : Dev nD) : Gen.V4 m c = W4 m c := rfl
theorem V5_eq (c : Dev nD) : Gen.V5 m (outs m) c = W5 m c := by
  show Function.update (Gen.V4 m c) main_v47 (outs m 5 main_v47 c) = _
  rw [outs_5, V4_eq]; rfl
theorem V6_eq (c : Dev nD) : Gen.V6 m (outs m) c = W6 m c := by
  show StableHlo.after hostOps1 (Gen.V5 m (outs m) c) = _
  rw [V5_eq]; rfl
theorem V7_eq (c : Dev nD) : Gen.V7 m (outs m) c = W7 m c := by
  show Function.update (Gen.V6 m (outs m) c) main_v49 (outs m 7 main_v49 c) = _
  rw [outs_7, V6_eq]; rfl
theorem V8_eq (c : Dev nD) : Gen.V8 m (outs m) c = W8 m c := by
  show Function.update (Gen.V7 m (outs m) c) main_v50 (outs m 8 main_v50 c) = _
  rw [outs_8, V7_eq]; rfl
theorem V9_eq (c : Dev nD) : Gen.V9 m (outs m) c = W9 m c := by
  show StableHlo.after hostOps3 (Gen.V8 m (outs m) c) = _
  rw [V8_eq]; rfl
theorem V10_eq (c : Dev nD) : Gen.V10 m (outs m) c = W10 m c := by
  show Function.update (Gen.V9 m (outs m) c) main_v52 (outs m 10 main_v52 c) = _
  rw [outs_10, V9_eq]; rfl
theorem V11_eq (c : Dev nD) : Gen.V11 m (outs m) c = W11 m c := by
  show Function.update (Gen.V10 m (outs m) c) main_v53 (outs m 11 main_v53 c) = _
  rw [outs_11, V10_eq]; rfl
theorem V12_eq (c : Dev nD) : Gen.V12 m (outs m) c = W12 m c := by
  show StableHlo.after hostOps5 (Gen.V11 m (outs m) c) = _
  rw [V11_eq]; rfl
theorem V13_eq (c : Dev nD) : Gen.V13 m (outs m) c = W13 m c := by
  show Function.update (Gen.V12 m (outs m) c) main_v55 (outs m 13 main_v55 c) = _
  rw [outs_13, V12_eq]; rfl
theorem V14_eq (c : Dev nD) : Gen.V14 m (outs m) c = W14 m c := by
  show StableHlo.after hostOps6 (Gen.V13 m (outs m) c) = _
  rw [V13_eq]; rfl
theorem V15_eq (c : Dev nD) : Gen.V15 m (outs m) c = W15 m c := by
  show StableHlo.after hostOps6_1 (Gen.V14 m (outs m) c) = _
  rw [V14_eq]; rfl
theorem V16_eq (c : Dev nD) : Gen.V16 m (outs m) c = W16 m c := by
  show StableHlo.after hostOps6_2 (Gen.V15 m (outs m) c) = _
  rw [V15_eq]; rfl
theorem V17_eq (c : Dev nD) : Gen.V17 m (outs m) c = W17 m c := by
  show StableHlo.after hostOps6_3 (Gen.V16 m (outs m) c) = _
  rw [V16_eq]; rfl
theorem V18_eq (c : Dev nD) : Gen.V18 m (outs m) c = W18 m c := by
  show Function.update (Gen.V17 m (outs m) c) main_v58 (outs m 18 main_v58 c) = _
  rw [outs_18, V17_eq]; rfl
theorem V19_eq (c : Dev nD) : Gen.V19 m (outs m) c = W19 m c := by
  show StableHlo.after hostOps7 (Gen.V18 m (outs m) c) = _
  rw [V18_eq]; rfl
theorem V20_eq (c : Dev nD) : Gen.V20 m (outs m) c = W20 m c := by
  show Function.update (Gen.V19 m (outs m) c) main_v60 (outs m 20 main_v60 c) = _
  rw [outs_20, V19_eq]; rfl

/-! ## Each region's arrays at its exit -/

/-- Region 0's arrays when it is left: the inputs as entered (no window writes them back), the output at what the
    write-backs leave. -/
theorem hF0 (c : Dev nD) (w : Fin cfg0.W) : (dat0 (R4 m) c).arrAt w cfg0.N = R5 m c (Pipeline.arrRef spec0 w) :=
  match w with
  | ⟨0, _⟩ => ((dat0 (R4 m) c).arrAt_in 0 rfl _).trans ((A_eq0 (R4 m) c 0).trans
      (show W5 m c (Pipeline.arrRef spec0 0) = W4 m c (Pipeline.arrRef spec0 0) from by
        unfold W5; exact Function.update_of_ne (StableHlo.devRef_ne_of_ne (by decide)) _ _).symm)
  | ⟨1, _⟩ => ((dat0 (R4 m) c).arrAt_in 1 rfl _).trans ((A_eq0 (R4 m) c 1).trans
      (show W5 m c (Pipeline.arrRef spec0 1) = W4 m c (Pipeline.arrRef spec0 1) from by
        unfold W5; exact Function.update_of_ne (StableHlo.devRef_ne_of_ne (by decide)) _ _).symm)
  | ⟨2, _⟩ => (show W5 m c main_v47 = o5 m c from by unfold W5; exact Function.update_self _ _ _).symm
/-- Every buffer that is none of region 0's arrays is as the region found it. -/
theorem hrest0 (c : Dev nD) : ∀ b, b ∉ Finset.univ.image (Pipeline.arrRef spec0) → R5 m c b = R4 m c b :=
  fun b hb => show W5 m c b = W4 m c b from by
    unfold W5
    exact Function.update_of_ne (StableHlo.devRef_ne_of_ne fun e => hb (Finset.mem_image.mpr ⟨2, Finset.mem_univ _, e.symm⟩)) _ _

/-- Region 1's arrays when it is left: the inputs as entered (no window writes them back), the output at what the
    write-backs leave. -/
theorem hF1 (c : Dev nD) (w : Fin cfg1.W) : (dat1 (R6 m) c).arrAt w cfg1.N = R7 m c (Pipeline.arrRef spec1 w) :=
  match w with
  | ⟨0, _⟩ => ((dat1 (R6 m) c).arrAt_in 0 rfl _).trans ((A_eq1 (R6 m) c 0).trans
      (show W7 m c (Pipeline.arrRef spec1 0) = W6 m c (Pipeline.arrRef spec1 0) from by
        unfold W7; exact Function.update_of_ne (StableHlo.devRef_ne_of_ne (by decide)) _ _).symm)
  | ⟨1, _⟩ => ((dat1 (R6 m) c).arrAt_in 1 rfl _).trans ((A_eq1 (R6 m) c 1).trans
      (show W7 m c (Pipeline.arrRef spec1 1) = W6 m c (Pipeline.arrRef spec1 1) from by
        unfold W7; exact Function.update_of_ne (StableHlo.devRef_ne_of_ne (by decide)) _ _).symm)
  | ⟨2, _⟩ => ((dat1 (R6 m) c).arrAt_in 2 rfl _).trans ((A_eq1 (R6 m) c 2).trans
      (show W7 m c (Pipeline.arrRef spec1 2) = W6 m c (Pipeline.arrRef spec1 2) from by
        unfold W7; exact Function.update_of_ne (StableHlo.devRef_ne_of_ne (by decide)) _ _).symm)
  | ⟨3, _⟩ => (show W7 m c main_v49 = o7 m c from by unfold W7; exact Function.update_self _ _ _).symm
/-- Every buffer that is none of region 1's arrays is as the region found it. -/
theorem hrest1 (c : Dev nD) : ∀ b, b ∉ Finset.univ.image (Pipeline.arrRef spec1) → R7 m c b = R6 m c b :=
  fun b hb => show W7 m c b = W6 m c b from by
    unfold W7
    exact Function.update_of_ne (StableHlo.devRef_ne_of_ne fun e => hb (Finset.mem_image.mpr ⟨3, Finset.mem_univ _, e.symm⟩)) _ _

/-- Region 2's arrays when it is left: the inputs as entered (no window writes them back), the output at what the
    write-backs leave. -/
theorem hF2 (c : Dev nD) (w : Fin cfg2.W) : (dat2 (R7 m) c).arrAt w cfg2.N = R8 m c (Pipeline.arrRef spec2 w) :=
  match w with
  | ⟨0, _⟩ => ((dat2 (R7 m) c).arrAt_in 0 rfl _).trans ((A_eq2 (R7 m) c 0).trans
      (show W8 m c (Pipeline.arrRef spec2 0) = W7 m c (Pipeline.arrRef spec2 0) from by
        unfold W8; exact Function.update_of_ne (StableHlo.devRef_ne_of_ne (by decide)) _ _).symm)
  | ⟨1, _⟩ => ((dat2 (R7 m) c).arrAt_in 1 rfl _).trans ((A_eq2 (R7 m) c 1).trans
      (show W8 m c (Pipeline.arrRef spec2 1) = W7 m c (Pipeline.arrRef spec2 1) from by
        unfold W8; exact Function.update_of_ne (StableHlo.devRef_ne_of_ne (by decide)) _ _).symm)
  | ⟨2, _⟩ => (show W8 m c main_v50 = o8 m c from by unfold W8; exact Function.update_self _ _ _).symm
/-- Every buffer that is none of region 2's arrays is as the region found it. -/
theorem hrest2 (c : Dev nD) : ∀ b, b ∉ Finset.univ.image (Pipeline.arrRef spec2) → R8 m c b = R7 m c b :=
  fun b hb => show W8 m c b = W7 m c b from by
    unfold W8
    exact Function.update_of_ne (StableHlo.devRef_ne_of_ne fun e => hb (Finset.mem_image.mpr ⟨2, Finset.mem_univ _, e.symm⟩)) _ _

/-- Region 3's arrays when it is left: the inputs as entered (no window writes them back), the output at what the
    write-backs leave. -/
theorem hF3 (c : Dev nD) (w : Fin cfg3.W) : (dat3 (R9 m) c).arrAt w cfg3.N = R10 m c (Pipeline.arrRef spec3 w) :=
  match w with
  | ⟨0, _⟩ => ((dat3 (R9 m) c).arrAt_in 0 rfl _).trans ((A_eq3 (R9 m) c 0).trans
      (show W10 m c (Pipeline.arrRef spec3 0) = W9 m c (Pipeline.arrRef spec3 0) from by
        unfold W10; exact Function.update_of_ne (StableHlo.devRef_ne_of_ne (by decide)) _ _).symm)
  | ⟨1, _⟩ => ((dat3 (R9 m) c).arrAt_in 1 rfl _).trans ((A_eq3 (R9 m) c 1).trans
      (show W10 m c (Pipeline.arrRef spec3 1) = W9 m c (Pipeline.arrRef spec3 1) from by
        unfold W10; exact Function.update_of_ne (StableHlo.devRef_ne_of_ne (by decide)) _ _).symm)
  | ⟨2, _⟩ => ((dat3 (R9 m) c).arrAt_in 2 rfl _).trans ((A_eq3 (R9 m) c 2).trans
      (show W10 m c (Pipeline.arrRef spec3 2) = W9 m c (Pipeline.arrRef spec3 2) from by
        unfold W10; exact Function.update_of_ne (StableHlo.devRef_ne_of_ne (by decide)) _ _).symm)
  | ⟨3, _⟩ => (show W10 m c main_v52 = o10 m c from by unfold W10; exact Function.update_self _ _ _).symm
/-- Every buffer that is none of region 3's arrays is as the region found it. -/
theorem hrest3 (c : Dev nD) : ∀ b, b ∉ Finset.univ.image (Pipeline.arrRef spec3) → R10 m c b = R9 m c b :=
  fun b hb => show W10 m c b = W9 m c b from by
    unfold W10
    exact Function.update_of_ne (StableHlo.devRef_ne_of_ne fun e => hb (Finset.mem_image.mpr ⟨3, Finset.mem_univ _, e.symm⟩)) _ _

/-- Region 4's arrays when it is left: the inputs as entered (no window writes them back), the output at what the
    write-backs leave. -/
theorem hF4 (c : Dev nD) (w : Fin cfg4.W) : (dat4 (R10 m) c).arrAt w cfg4.N = R11 m c (Pipeline.arrRef spec4 w) :=
  match w with
  | ⟨0, _⟩ => ((dat4 (R10 m) c).arrAt_in 0 rfl _).trans ((A_eq4 (R10 m) c 0).trans
      (show W11 m c (Pipeline.arrRef spec4 0) = W10 m c (Pipeline.arrRef spec4 0) from by
        unfold W11; exact Function.update_of_ne (StableHlo.devRef_ne_of_ne (by decide)) _ _).symm)
  | ⟨1, _⟩ => ((dat4 (R10 m) c).arrAt_in 1 rfl _).trans ((A_eq4 (R10 m) c 1).trans
      (show W11 m c (Pipeline.arrRef spec4 1) = W10 m c (Pipeline.arrRef spec4 1) from by
        unfold W11; exact Function.update_of_ne (StableHlo.devRef_ne_of_ne (by decide)) _ _).symm)
  | ⟨2, _⟩ => (show W11 m c main_v53 = o11 m c from by unfold W11; exact Function.update_self _ _ _).symm
/-- Every buffer that is none of region 4's arrays is as the region found it. -/
theorem hrest4 (c : Dev nD) : ∀ b, b ∉ Finset.univ.image (Pipeline.arrRef spec4) → R11 m c b = R10 m c b :=
  fun b hb => show W11 m c b = W10 m c b from by
    unfold W11
    exact Function.update_of_ne (StableHlo.devRef_ne_of_ne fun e => hb (Finset.mem_image.mpr ⟨2, Finset.mem_univ _, e.symm⟩)) _ _

/-- Region 5's arrays when it is left: the inputs as entered (no window writes them back), the output at what the
    write-backs leave. -/
theorem hF5 (c : Dev nD) (w : Fin cfg5.W) : (dat5 (R12 m) c).arrAt w cfg5.N = R13 m c (Pipeline.arrRef spec5 w) :=
  match w with
  | ⟨0, _⟩ => ((dat5 (R12 m) c).arrAt_in 0 rfl _).trans ((A_eq5 (R12 m) c 0).trans
      (show W13 m c (Pipeline.arrRef spec5 0) = W12 m c (Pipeline.arrRef spec5 0) from by
        unfold W13; exact Function.update_of_ne (StableHlo.devRef_ne_of_ne (by decide)) _ _).symm)
  | ⟨1, _⟩ => ((dat5 (R12 m) c).arrAt_in 1 rfl _).trans ((A_eq5 (R12 m) c 1).trans
      (show W13 m c (Pipeline.arrRef spec5 1) = W12 m c (Pipeline.arrRef spec5 1) from by
        unfold W13; exact Function.update_of_ne (StableHlo.devRef_ne_of_ne (by decide)) _ _).symm)
  | ⟨2, _⟩ => ((dat5 (R12 m) c).arrAt_in 2 rfl _).trans ((A_eq5 (R12 m) c 2).trans
      (show W13 m c (Pipeline.arrRef spec5 2) = W12 m c (Pipeline.arrRef spec5 2) from by
        unfold W13; exact Function.update_of_ne (StableHlo.devRef_ne_of_ne (by decide)) _ _).symm)
  | ⟨3, _⟩ => (show W13 m c main_v55 = o13 m c from by unfold W13; exact Function.update_self _ _ _).symm
/-- Every buffer that is none of region 5's arrays is as the region found it. -/
theorem hrest5 (c : Dev nD) : ∀ b, b ∉ Finset.univ.image (Pipeline.arrRef spec5) → R13 m c b = R12 m c b :=
  fun b hb => show W13 m c b = W12 m c b from by
    unfold W13
    exact Function.update_of_ne (StableHlo.devRef_ne_of_ne fun e => hb (Finset.mem_image.mpr ⟨3, Finset.mem_univ _, e.symm⟩)) _ _

/-- Region 6's arrays when it is left: the inputs as entered (no window writes them back), the output at what the
    write-backs leave. -/
theorem hF6 (c : Dev nD) (w : Fin cfg6.W) : (dat6 (R17 m) c).arrAt w cfg6.N = R18 m c (Pipeline.arrRef spec6 w) :=
  match w with
  | ⟨0, _⟩ => ((dat6 (R17 m) c).arrAt_in 0 rfl _).trans ((A_eq6 (R17 m) c 0).trans
      (show W18 m c (Pipeline.arrRef spec6 0) = W17 m c (Pipeline.arrRef spec6 0) from by
        unfold W18; exact Function.update_of_ne (StableHlo.devRef_ne_of_ne (by decide)) _ _).symm)
  | ⟨1, _⟩ => ((dat6 (R17 m) c).arrAt_in 1 rfl _).trans ((A_eq6 (R17 m) c 1).trans
      (show W18 m c (Pipeline.arrRef spec6 1) = W17 m c (Pipeline.arrRef spec6 1) from by
        unfold W18; exact Function.update_of_ne (StableHlo.devRef_ne_of_ne (by decide)) _ _).symm)
  | ⟨2, _⟩ => (show W18 m c main_v58 = o18 m c from by unfold W18; exact Function.update_self _ _ _).symm
/-- Every buffer that is none of region 6's arrays is as the region found it. -/
theorem hrest6 (c : Dev nD) : ∀ b, b ∉ Finset.univ.image (Pipeline.arrRef spec6) → R18 m c b = R17 m c b :=
  fun b hb => show W18 m c b = W17 m c b from by
    unfold W18
    exact Function.update_of_ne (StableHlo.devRef_ne_of_ne fun e => hb (Finset.mem_image.mpr ⟨2, Finset.mem_univ _, e.symm⟩)) _ _

/-- Region 7's arrays when it is left: the inputs as entered (no window writes them back), the output at what the
    write-backs leave. -/
theorem hF7 (c : Dev nD) (w : Fin cfg7.W) : (dat7 (R19 m) c).arrAt w cfg7.N = R20 m c (Pipeline.arrRef spec7 w) :=
  match w with
  | ⟨0, _⟩ => ((dat7 (R19 m) c).arrAt_in 0 rfl _).trans ((A_eq7 (R19 m) c 0).trans
      (show W20 m c (Pipeline.arrRef spec7 0) = W19 m c (Pipeline.arrRef spec7 0) from by
        unfold W20; exact Function.update_of_ne (StableHlo.devRef_ne_of_ne (by decide)) _ _).symm)
  | ⟨1, _⟩ => ((dat7 (R19 m) c).arrAt_in 1 rfl _).trans ((A_eq7 (R19 m) c 1).trans
      (show W20 m c (Pipeline.arrRef spec7 1) = W19 m c (Pipeline.arrRef spec7 1) from by
        unfold W20; exact Function.update_of_ne (StableHlo.devRef_ne_of_ne (by decide)) _ _).symm)
  | ⟨2, _⟩ => ((dat7 (R19 m) c).arrAt_in 2 rfl _).trans ((A_eq7 (R19 m) c 2).trans
      (show W20 m c (Pipeline.arrRef spec7 2) = W19 m c (Pipeline.arrRef spec7 2) from by
        unfold W20; exact Function.update_of_ne (StableHlo.devRef_ne_of_ne (by decide)) _ _).symm)
  | ⟨3, _⟩ => (show W20 m c main_v60 = o20 m c from by unfold W20; exact Function.update_self _ _ _).symm
/-- Every buffer that is none of region 7's arrays is as the region found it. -/
theorem hrest7 (c : Dev nD) : ∀ b, b ∉ Finset.univ.image (Pipeline.arrRef spec7) → R20 m c b = R19 m c b :=
  fun b hb => show W20 m c b = W19 m c b from by
    unfold W20
    exact Function.update_of_ne (StableHlo.devRef_ne_of_ne fun e => hb (Finset.mem_image.mpr ⟨3, Finset.mem_univ _, e.symm⟩)) _ _

/-! ## The proof data family and the thread state -/

/-- Every pipeline's proof data, each at its region's entry contents: a literal match on the pipeline's number. -/
def pdats : (p : Fin 8) → (c : Dev nD) → Dat τ (Elt F) Unit ℕ (UR sig nD τ) ℕ (cfgs p) c
  | ⟨0, _⟩ => fun c => dat0 (R4 m) c
  | ⟨1, _⟩ => fun c => dat1 (R6 m) c
  | ⟨2, _⟩ => fun c => dat2 (R7 m) c
  | ⟨3, _⟩ => fun c => dat3 (R9 m) c
  | ⟨4, _⟩ => fun c => dat4 (R10 m) c
  | ⟨5, _⟩ => fun c => dat5 (R12 m) c
  | ⟨6, _⟩ => fun c => dat6 (R17 m) c
  | ⟨7, _⟩ => fun c => dat7 (R19 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from every unscoped buffer at the contents before it, left at the contents after it. Its arrays are
    split out of the unscoped buffers and put back at the exit contents; the generator register goes into the region's
    invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (R4 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (R4 m c) (R5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays are
    split out of the unscoped buffers and put back at the exit contents; the generator register goes into the region's
    invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (R6 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (R6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (R6 m) c)
    unfold Pipeline.ΦA
    iintro ⟨Hp, -, Hr⟩
    isplitl [Hr]; · iexact Hr
    iexact Hp
  hout c := by
    rw [Pipeline.ownSems0_none]
    refine BIBase.Entails.trans (hout1 (R6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (R6 m c) (R7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays are
    split out of the unscoped buffers and put back at the exit contents; the generator register goes into the region's
    invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (R7 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (R7 m c) (R8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays are
    split out of the unscoped buffers and put back at the exit contents; the generator register goes into the region's
    invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (R9 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (R9 m) c)
    unfold Pipeline.ΦA
    iintro ⟨Hp, -, Hr⟩
    isplitl [Hr]; · iexact Hr
    iexact Hp
  hout c := by
    rw [Pipeline.ownSems0_none]
    refine BIBase.Entails.trans (hout3 (R9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (R9 m c) (R10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays are
    split out of the unscoped buffers and put back at the exit contents; the generator register goes into the region's
    invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (R10 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (R10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (R10 m c) (R11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at the contents after it. Its arrays are
    split out of the unscoped buffers and put back at the exit contents; the generator register goes into the region's
    invariant and comes back; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R12 m) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (R12 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (R12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (R12 m) c)
    unfold Pipeline.ΦA
    iintro ⟨Hp, -, Hr⟩
    isplitl [Hr]; · iexact Hr
    iexact Hp
  hout c := by
    rw [Pipeline.ownSems0_none]
    refine BIBase.Entails.trans (hout5 (R12 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (R12 m c) (R13 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at the contents after it. Its arrays are
    split out of the unscoped buffers and put back at the exit contents; the generator register goes into the region's
    invariant and comes back; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (R17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (R17 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (R17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (R17 m c) (R18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at the contents after it. Its arrays are
    split out of the unscoped buffers and put back at the exit contents; the generator register goes into the region's
    invariant and comes back; nothing is owed; the kernel has no semaphore of its own. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (R19 m) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (R19 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (R19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (R19 m) c)
    unfold Pipeline.ΦA
    iintro ⟨Hp, -, Hr⟩
    isplitl [Hr]; · iexact Hr
    iexact Hp
  hout c := by
    rw [Pipeline.ownSems0_none]
    refine BIBase.Entails.trans (hout7 (R19 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (R19 m c) (R20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, and every final
    state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond (F := F) m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hR : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
          ⊢ R c := fun c => by
        iintro ⟨-, HO, -, Hp, -⟩
        isplitl [Hp]; · iexists _; iexact Hp
        iexists ∅; iexact HO
      have h1 : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hR c
      iintro ⟨H, -⟩
      imodintro
      iapply h1; iexact H)
    (hE8 := fun c => by iintro ⟨-, HO⟩; iexact HO)
    (R0 := reg0 m) (hpre0 := fun c => by rw [V4_eq]; exact .rfl) (hpost0 := fun c => by rw [V5_eq]; exact .rfl)
    (R1 := reg1 m) (hpre1 := fun c => by rw [V6_eq]; exact .rfl) (hpost1 := fun c => by rw [V7_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V10_eq]; exact .rfl) (hpost4 := fun c => by rw [V11_eq]; exact .rfl)
    (R5 := reg5 m) (hpre5 := fun c => by rw [V12_eq]; exact .rfl) (hpost5 := fun c => by rw [V13_eq]; exact .rfl)
    (R6 := reg6 m) (hpre6 := fun c => by rw [V17_eq]; exact .rfl) (hpost6 := fun c => by rw [V18_eq]; exact .rfl)
    (R7 := reg7 m) (hpre7 := fun c => by rw [V19_eq]; exact .rfl) (hpost7 := fun c => by rw [V20_eq]; exact .rfl)

end Cert.KernelIdeal.Hand

end
-- ==== Proof.RefRun.lean ====
/-
  The reference program's run, as far as its frame needs it.

  The reference is a host program of 144 operations with no kernel launch and no scoped buffer or semaphore. Listing
  the operations in order (a called function's operations stand in its call's place) makes @main their sequence,
  and a sequence of host operations runs to the end from any memory, each buffer ending at the fold of the
  operations over the launch contents. No operation writes an argument array, so read through that fold every
  argument ends as launched. Nothing is said here about the result.
-/
import proofs.«160261_j68599217652370_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 144 operations, in order (a called function's operations stand in its call's place, spelt `TRef.…`). -/
abbrev ops : List (HloOp τ sig (Elt F)) :=
  [ nullary main_v0 (iotaInDim S10000 32 0),
    unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    reshape main_v1 main_v2 rfl shapeCasts_S1x160000_S160000,
    binary main_v2 main_v0 main_v3 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    reshape main_v4 main_v5 rfl shapeCasts_S1x160000_S160000,
    binary main_v5 main_v0 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    nullary main_cst (constant S_ .f32 0x3F800000#32),
    unary main_cst main_v7 (broadcastInDim S170000 ![] bcast_S_S170000 : (⟨S_, .f32⟩ : BufTy).Contents (Elt F) → (⟨S170000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S170000x1 ![0] bcast_S170000_S170000x1_0 : (⟨S170000, .i32⟩ : BufTy).Contents (Elt F) → (⟨S170000x1, .i32⟩ : BufTy).Contents (Elt F)),
    ternary main_v8 main_v9 main_v7 main_v10 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x00000000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (cmpf .ogt : (⟨S10000, .f32⟩ : BufTy).Contents (Elt F) → (⟨S10000, .f32⟩ : BufTy).Contents (Elt F) → (⟨S10000, .i1⟩ : BufTy).Contents (Elt F)),
    unary main_v10 main_v13 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v12) (TRef.of (T := ⟨S10000, .f32⟩) main_v13) (TRef.of (T := ⟨S10000, .f32⟩) main_call0_v1) (TRef.of (T := ⟨S10000, .f32⟩) main_v14) select,
    nullary main_c (constantI S_ 32 0#32),
    unary main_c main_v15 (broadcastInDim S170000 ![] bcast_S_S170000 : (⟨S_, .i32⟩ : BufTy).Contents (Elt F) → (⟨S170000, .i32⟩ : BufTy).Contents (Elt F)),
    binary main_v3 main_v15 main_v16 (cmpi .slt : (⟨S170000, .i32⟩ : BufTy).Contents (Elt F) → (⟨S170000, .i32⟩ : BufTy).Contents (Elt F) → (⟨S170000, .i1⟩ : BufTy).Contents (Elt F)),
    nullary main_c_3 (constantI S_ 32 10000#32),
    unary main_c_3 main_v17 (broadcastInDim S170000 ![] bcast_S_S170000 : (⟨S_, .i32⟩ : BufTy).Contents (Elt F) → (⟨S170000, .i32⟩ : BufTy).Contents (Elt F)),
    binary main_v3 main_v17 main_v18 (addi : (⟨S170000, .i32⟩ : BufTy).Contents (Elt F) → (⟨S170000, .i32⟩ : BufTy).Contents (Elt F) → (⟨S170000, .i32⟩ : BufTy).Contents (Elt F)),
    ternary main_v16 main_v18 main_v3 main_v19 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v19 main_v20 (broadcastInDim S170000x1 ![0] bcast_S170000_S170000x1_0 : (⟨S170000, .i32⟩ : BufTy).Contents (Elt F) → (⟨S170000x1, .i32⟩ : BufTy).Contents (Elt F)),
    binary main_v14 main_v20 main_v21 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_4 (constantI S_ 32 0#32),
    unary main_c_4 main_v22 (broadcastInDim S170000 ![] bcast_S_S170000 : (⟨S_, .i32⟩ : BufTy).Contents (Elt F) → (⟨S170000, .i32⟩ : BufTy).Contents (Elt F)),
    binary main_v6 main_v22 main_v23 (cmpi .slt : (⟨S170000, .i32⟩ : BufTy).Contents (Elt F) → (⟨S170000, .i32⟩ : BufTy).Contents (Elt F) → (⟨S170000, .i1⟩ : BufTy).Contents (Elt F)),
    nullary main_c_5 (constantI S_ 32 10000#32),
    unary main_c_5 main_v24 (broadcastInDim S170000 ![] bcast_S_S170000 : (⟨S_, .i32⟩ : BufTy).Contents (Elt F) → (⟨S170000, .i32⟩ : BufTy).Contents (Elt F)),
    binary main_v6 main_v24 main_v25 (addi : (⟨S170000, .i32⟩ : BufTy).Contents (Elt F) → (⟨S170000, .i32⟩ : BufTy).Contents (Elt F) → (⟨S170000, .i32⟩ : BufTy).Contents (Elt F)),
    ternary main_v23 main_v25 main_v6 main_v26 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v26 main_v27 (broadcastInDim S170000x1 ![0] bcast_S170000_S170000x1_0 : (⟨S170000, .i32⟩ : BufTy).Contents (Elt F) → (⟨S170000x1, .i32⟩ : BufTy).Contents (Elt F)),
    binary main_v14 main_v27 main_v28 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v21 main_v28 main_v29 (mulf : (⟨S170000, .f32⟩ : BufTy).Contents (Elt F) → (⟨S170000, .f32⟩ : BufTy).Contents (Elt F) → (⟨S170000, .f32⟩ : BufTy).Contents (Elt F)),
    binary main_arg0 main_arg2 main_v30 ((fun l r => Host.dotGeneral dot_S10000x128_S128x512_S10000x512_1_0_0_1_n_n none l r) : (⟨S10000x128, .f32⟩ : BufTy).Contents (Elt F) → (⟨S128x512, .f32⟩ : BufTy).Contents (Elt F) → (⟨S10000x512, .f32⟩ : BufTy).Contents (Elt F)),
    nullary main_c_6 (constantI S_ 32 0#32),
    unary main_c_6 main_v31 (broadcastInDim S170000 ![] bcast_S_S170000 : (⟨S_, .i32⟩ : BufTy).Contents (Elt F) → (⟨S170000, .i32⟩ : BufTy).Contents (Elt F)),
    binary main_v3 main_v31 main_v32 (cmpi .slt : (⟨S170000, .i32⟩ : BufTy).Contents (Elt F) → (⟨S170000, .i32⟩ : BufTy).Contents (Elt F) → (⟨S170000, .i1⟩ : BufTy).Contents (Elt F)),
    nullary main_c_7 (constantI S_ 32 10000#32),
    unary main_c_7 main_v33 (broadcastInDim S170000 ![] bcast_S_S170000 : (⟨S_, .i32⟩ : BufTy).Contents (Elt F) → (⟨S170000, .i32⟩ : BufTy).Contents (Elt F)),
    binary main_v3 main_v33 main_v34 (addi : (⟨S170000, .i32⟩ : BufTy).Contents (Elt F) → (⟨S170000, .i32⟩ : BufTy).Contents (Elt F) → (⟨S170000, .i32⟩ : BufTy).Contents (Elt F)),
    ternary main_v32 main_v34 main_v3 main_v35 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v35 main_v36 (broadcastInDim S170000x1 ![0] bcast_S170000_S170000x1_0 : (⟨S170000, .i32⟩ : BufTy).Contents (Elt F) → (⟨S170000x1, .i32⟩ : BufTy).Contents (Elt F)),
    binary main_v30 main_v36 main_v37 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v29 main_v38 (broadcastInDim S170000x1 ![0] bcast_S170000_S170000x1_0 : (⟨S170000, .f32⟩ : BufTy).Contents (Elt F) → (⟨S170000x1, .f32⟩ : BufTy).Contents (Elt F)),
    unary main_v38 main_v39 (broadcastInDim S170000x512 ![0, 1] bcast_S170000x1_S170000x512_0_1 : (⟨S170000x1, .f32⟩ : BufTy).Contents (Elt F) → (⟨S170000x512, .f32⟩ : BufTy).Contents (Elt F)),
    binary main_v37 main_v39 main_v40 (mulf : (⟨S170000x512, .f32⟩ : BufTy).Contents (Elt F) → (⟨S170000x512, .f32⟩ : BufTy).Contents (Elt F) → (⟨S170000x512, .f32⟩ : BufTy).Contents (Elt F)),
    nullary main_cst_8 (constant S_ .f32 0x00000000#32),
    unary main_cst_8 main_v41 (broadcastInDim S10000x512 ![] bcast_S_S10000x512 : (⟨S_, .f32⟩ : BufTy).Contents (Elt F) → (⟨S10000x512, .f32⟩ : BufTy).Contents (Elt F)),
    unary main_v6 main_v42 (broadcastInDim S170000x1 ![0] bcast_S170000_S170000x1_0 : (⟨S170000, .i32⟩ : BufTy).Contents (Elt F) → (⟨S170000x1, .i32⟩ : BufTy).Contents (Elt F)),
    ternary main_v41 main_v42 main_v40 main_v43 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    unary main_arg3 main_v44 (broadcastInDim S1x512 ![1] bcast_S512_S1x512_1 : (⟨S512, .f32⟩ : BufTy).Contents (Elt F) → (⟨S1x512, .f32⟩ : BufTy).Contents (Elt F)),
    unary main_v44 main_v45 (broadcastInDim S10000x512 ![0, 1] bcast_S1x512_S10000x512_0_1 : (⟨S1x512, .f32⟩ : BufTy).Contents (Elt F) → (⟨S10000x512, .f32⟩ : BufTy).Contents (Elt F)),
    binary main_v43 main_v45 main_v46 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x512, .f32⟩) main_call1_v0) (broadcastInDim S10000x512 ![] bcast_S_S10000x512),
    TRef.binary (TRef.of (T := ⟨S10000x512, .f32⟩) main_v46) (TRef.of (T := ⟨S10000x512, .f32⟩) main_call1_v0) (TRef.of (T := ⟨S10000x512, .f32⟩) main_v47) maximumf,
    binary main_v47 main_arg4 main_v48 ((fun l r => Host.dotGeneral dot_S10000x512_S512x1024_S10000x1024_1_0_0_1_n_n none l r) : (⟨S10000x512, .f32⟩ : BufTy).Contents (Elt F) → (⟨S512x1024, .f32⟩ : BufTy).Contents (Elt F) → (⟨S10000x1024, .f32⟩ : BufTy).Contents (Elt F)),
    nullary main_c_9 (constantI S_ 32 0#32),
    unary main_c_9 main_v49 (broadcastInDim S170000 ![] bcast_S_S170000 : (⟨S_, .i32⟩ : BufTy).Contents (Elt F) → (⟨S170000, .i32⟩ : BufTy).Contents (Elt F)),
    binary main_v3 main_v49 main_v50 (cmpi .slt : (⟨S170000, .i32⟩ : BufTy).Contents (Elt F) → (⟨S170000, .i32⟩ : BufTy).Contents (Elt F) → (⟨S170000, .i1⟩ : BufTy).Contents (Elt F)),
    nullary main_c_10 (constantI S_ 32 10000#32),
    unary main_c_10 main_v51 (broadcastInDim S170000 ![] bcast_S_S170000 : (⟨S_, .i32⟩ : BufTy).Contents (Elt F) → (⟨S170000, .i32⟩ : BufTy).Contents (Elt F)),
    binary main_v3 main_v51 main_v52 (addi : (⟨S170000, .i32⟩ : BufTy).Contents (Elt F) → (⟨S170000, .i32⟩ : BufTy).Contents (Elt F) → (⟨S170000, .i32⟩ : BufTy).Contents (Elt F)),
    ternary main_v50 main_v52 main_v3 main_v53 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v53 main_v54 (broadcastInDim S170000x1 ![0] bcast_S170000_S170000x1_0 : (⟨S170000, .i32⟩ : BufTy).Contents (Elt F) → (⟨S170000x1, .i32⟩ : BufTy).Contents (Elt F)),
    binary main_v48 main_v54 main_v55 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v56 (broadcastInDim S170000x1 ![0] bcast_S170000_S170000x1_0 : (⟨S170000, .f32⟩ : BufTy).Contents (Elt F) → (⟨S170000x1, .f32⟩ : BufTy).Contents (Elt F)),
    unary main_v56 main_v57 (broadcastInDim S170000x1024 ![0, 1] bcast_S170000x1_S170000x1024_0_1 : (⟨S170000x1, .f32⟩ : BufTy).Contents (Elt F) → (⟨S170000x1024, .f32⟩ : BufTy).Contents (Elt F)),
    binary main_v55 main_v57 main_v58 (mulf : (⟨S170000x1024, .f32⟩ : BufTy).Contents (Elt F) → (⟨S170000x1024, .f32⟩ : BufTy).Contents (Elt F) → (⟨S170000x1024, .f32⟩ : BufTy).Contents (Elt F)),
    nullary main_cst_11 (constant S_ .f32 0x00000000#32),
    unary main_cst_11 main_v59 (broadcastInDim S10000x1024 ![] bcast_S_S10000x1024 : (⟨S_, .f32⟩ : BufTy).Contents (Elt F) → (⟨S10000x1024, .f32⟩ : BufTy).Contents (Elt F)),
    unary main_v6 main_v60 (broadcastInDim S170000x1 ![0] bcast_S170000_S170000x1_0 : (⟨S170000, .i32⟩ : BufTy).Contents (Elt F) → (⟨S170000x1, .i32⟩ : BufTy).Contents (Elt F)),
    ternary main_v59 main_v60 main_v58 main_v61 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_arg5 main_v62 (broadcastInDim S1x1024 ![1] bcast_S1024_S1x1024_1 : (⟨S1024, .f32⟩ : BufTy).Contents (Elt F) → (⟨S1x1024, .f32⟩ : BufTy).Contents (Elt F)),
    unary main_v62 main_v63 (broadcastInDim S10000x1024 ![0, 1] bcast_S1x1024_S10000x1024_0_1 : (⟨S1x1024, .f32⟩ : BufTy).Contents (Elt F) → (⟨S10000x1024, .f32⟩ : BufTy).Contents (Elt F)),
    binary main_v61 main_v63 main_v64 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x1024, .f32⟩) main_call2_v0) (broadcastInDim S10000x1024 ![] bcast_S_S10000x1024),
    TRef.binary (TRef.of (T := ⟨S10000x1024, .f32⟩) main_v64) (TRef.of (T := ⟨S10000x1024, .f32⟩) main_call2_v0) (TRef.of (T := ⟨S10000x1024, .f32⟩) main_v65) maximumf,
    binary main_v65 main_arg6 main_v66 ((fun l r => Host.dotGeneral dot_S10000x1024_S1024x512_S10000x512_1_0_0_1_n_n none l r) : (⟨S10000x1024, .f32⟩ : BufTy).Contents (Elt F) → (⟨S1024x512, .f32⟩ : BufTy).Contents (Elt F) → (⟨S10000x512, .f32⟩ : BufTy).Contents (Elt F)),
    nullary main_c_12 (constantI S_ 32 0#32),
    unary main_c_12 main_v67 (broadcastInDim S170000 ![] bcast_S_S170000 : (⟨S_, .i32⟩ : BufTy).Contents (Elt F) → (⟨S170000, .i32⟩ : BufTy).Contents (Elt F)),
    binary main_v3 main_v67 main_v68 (cmpi .slt : (⟨S170000, .i32⟩ : BufTy).Contents (Elt F) → (⟨S170000, .i32⟩ : BufTy).Contents (Elt F) → (⟨S170000, .i1⟩ : BufTy).Contents (Elt F)),
    nullary main_c_13 (constantI S_ 32 10000#32),
    unary main_c_13 main_v69 (broadcastInDim S170000 ![] bcast_S_S170000 : (⟨S_, .i32⟩ : BufTy).Contents (Elt F) → (⟨S170000, .i32⟩ : BufTy).Contents (Elt F)),
    binary main_v3 main_v69 main_v70 (addi : (⟨S170000, .i32⟩ : BufTy).Contents (Elt F) → (⟨S170000, .i32⟩ : BufTy).Contents (Elt F) → (⟨S170000, .i32⟩ : BufTy).Contents (Elt F)),
    ternary main_v68 main_v70 main_v3 main_v71 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v71 main_v72 (broadcastInDim S170000x1 ![0] bcast_S170000_S170000x1_0 : (⟨S170000, .i32⟩ : BufTy).Contents (Elt F) → (⟨S170000x1, .i32⟩ : BufTy).Contents (Elt F)),
    binary main_v66 main_v72 main_v73 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v29 main_v74 (broadcastInDim S170000x1 ![0] bcast_S170000_S170000x1_0 : (⟨S170000, .f32⟩ : BufTy).Contents (Elt F) → (⟨S170000x1, .f32⟩ : BufTy).Contents (Elt F)),
    unary main_v74 main_v75 (broadcastInDim S170000x512 ![0, 1] bcast_S170000x1_S170000x512_0_1 : (⟨S170000x1, .f32⟩ : BufTy).Contents (Elt F) → (⟨S170000x512, .f32⟩ : BufTy).Contents (Elt F)),
    binary main_v73 main_v75 main_v76 (mulf : (⟨S170000x512, .f32⟩ : BufTy).Contents (Elt F) → (⟨S170000x512, .f32⟩ : BufTy).Contents (Elt F) → (⟨S170000x512, .f32⟩ : BufTy).Contents (Elt F)),
    nullary main_cst_14 (constant S_ .f32 0x00000000#32),
    unary main_cst_14 main_v77 (broadcastInDim S10000x512 ![] bcast_S_S10000x512 : (⟨S_, .f32⟩ : BufTy).Contents (Elt F) → (⟨S10000x512, .f32⟩ : BufTy).Contents (Elt F)),
    unary main_v6 main_v78 (broadcastInDim S170000x1 ![0] bcast_S170000_S170000x1_0 : (⟨S170000, .i32⟩ : BufTy).Contents (Elt F) → (⟨S170000x1, .i32⟩ : BufTy).Contents (Elt F)),
    ternary main_v77 main_v78 main_v76 main_v79 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    unary main_arg7 main_v80 (broadcastInDim S1x512 ![1] bcast_S512_S1x512_1 : (⟨S512, .f32⟩ : BufTy).Contents (Elt F) → (⟨S1x512, .f32⟩ : BufTy).Contents (Elt F)),
    unary main_v80 main_v81 (broadcastInDim S10000x512 ![0, 1] bcast_S1x512_S10000x512_0_1 : (⟨S1x512, .f32⟩ : BufTy).Contents (Elt F) → (⟨S10000x512, .f32⟩ : BufTy).Contents (Elt F)),
    binary main_v79 main_v81 main_v82 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x512, .f32⟩) main_call3_v0) (broadcastInDim S10000x512 ![] bcast_S_S10000x512),
    TRef.binary (TRef.of (T := ⟨S10000x512, .f32⟩) main_v82) (TRef.of (T := ⟨S10000x512, .f32⟩) main_call3_v0) (TRef.of (T := ⟨S10000x512, .f32⟩) main_v83) maximumf,
    binary main_v83 main_arg8 main_v84 ((fun l r => Host.dotGeneral dot_S10000x512_S512x32_S10000x32_1_0_0_1_n_n none l r) : (⟨S10000x512, .f32⟩ : BufTy).Contents (Elt F) → (⟨S512x32, .f32⟩ : BufTy).Contents (Elt F) → (⟨S10000x32, .f32⟩ : BufTy).Contents (Elt F)),
    nullary main_c_15 (constantI S_ 32 0#32),
    unary main_c_15 main_v85 (broadcastInDim S170000 ![] bcast_S_S170000 : (⟨S_, .i32⟩ : BufTy).Contents (Elt F) → (⟨S170000, .i32⟩ : BufTy).Contents (Elt F)),
    binary main_v3 main_v85 main_v86 (cmpi .slt : (⟨S170000, .i32⟩ : BufTy).Contents (Elt F) → (⟨S170000, .i32⟩ : BufTy).Contents (Elt F) → (⟨S170000, .i1⟩ : BufTy).Contents (Elt F)),
    nullary main_c_16 (constantI S_ 32 10000#32),
    unary main_c_16 main_v87 (broadcastInDim S170000 ![] bcast_S_S170000 : (⟨S_, .i32⟩ : BufTy).Contents (Elt F) → (⟨S170000, .i32⟩ : BufTy).Contents (Elt F)),
    binary main_v3 main_v87 main_v88 (addi : (⟨S170000, .i32⟩ : BufTy).Contents (Elt F) → (⟨S170000, .i32⟩ : BufTy).Contents (Elt F) → (⟨S170000, .i32⟩ : BufTy).Contents (Elt F)),
    ternary main_v86 main_v88 main_v3 main_v89 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v89 main_v90 (broadcastInDim S170000x1 ![0] bcast_S170000_S170000x1_0 : (⟨S170000, .i32⟩ : BufTy).Contents (Elt F) → (⟨S170000x1, .i32⟩ : BufTy).Contents (Elt F)),
    binary main_v84 main_v90 main_v91 ((fun x i => Host.gather gather_S10000x32_S170000x1_S170000x32_1_0_n_n_0_1_132 x i) : (⟨S10000x32, .f32⟩ : BufTy).Contents (Elt F) → (⟨S170000x1, .i32⟩ : BufTy).Contents (Elt F) → (⟨S170000x32, .f32⟩ : BufTy).Contents (Elt F)),
    unary main_v29 main_v92 (broadcastInDim S170000x1 ![0] bcast_S170000_S170000x1_0 : (⟨S170000, .f32⟩ : BufTy).Contents (Elt F) → (⟨S170000x1, .f32⟩ : BufTy).Contents (Elt F)),
    unary main_v92 main_v93 (broadcastInDim S170000x32 ![0, 1] bcast_S170000x1_S170000x32_0_1 : (⟨S170000x1, .f32⟩ : BufTy).Contents (Elt F) → (⟨S170000x32, .f32⟩ : BufTy).Contents (Elt F)),
    binary main_v91 main_v93 main_v94 (mulf : (⟨S170000x32, .f32⟩ : BufTy).Contents (Elt F) → (⟨S170000x32, .f32⟩ : BufTy).Contents (Elt F) → (⟨S170000x32, .f32⟩ : BufTy).Contents (Elt F)),
    nullary main_cst_17 (constant S_ .f32 0x00000000#32),
    unary main_cst_17 main_v95 (broadcastInDim S10000x32 ![] bcast_S_S10000x32 : (⟨S_, .f32⟩ : BufTy).Contents (Elt F) → (⟨S10000x32, .f32⟩ : BufTy).Contents (Elt F)),
    unary main_v6 main_v96 (broadcastInDim S170000x1 ![0] bcast_S170000_S170000x1_0 : (⟨S170000, .i32⟩ : BufTy).Contents (Elt F) → (⟨S170000x1, .i32⟩ : BufTy).Contents (Elt F)),
    ternary main_v95 main_v96 main_v94 main_v97 ((fun x i u => Host.scatterAdd scatter_S10000x32_S170000x1_S170000x32_1_0_0_1 x i u) : (⟨S10000x32, .f32⟩ : BufTy).Contents (Elt F) → (⟨S170000x1, .i32⟩ : BufTy).Contents (Elt F) → (⟨S170000x32, .f32⟩ : BufTy).Contents (Elt F) → (⟨S10000x32, .f32⟩ : BufTy).Contents (Elt F)),
    unary main_arg9 main_v98 (broadcastInDim S1x32 ![1] bcast_S32_S1x32_1 : (⟨S32, .f32⟩ : BufTy).Contents (Elt F) → (⟨S1x32, .f32⟩ : BufTy).Contents (Elt F)),
    unary main_v98 main_v99 (broadcastInDim S10000x32 ![0, 1] bcast_S1x32_S10000x32_0_1 : (⟨S1x32, .f32⟩ : BufTy).Contents (Elt F) → (⟨S10000x32, .f32⟩ : BufTy).Contents (Elt F)),
    binary main_v97 main_v99 main_v100 (addf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call4_cst) (constant S_ .f32 0xFF800000#32),
    TRef.binary (TRef.of (T := ⟨S10000x32, .f32⟩) main_v100) (TRef.of (T := ⟨S_, .f32⟩) main_call4_cst) (TRef.of (T := ⟨S10000, .f32⟩) main_call4_v0) (fun x v => Host.reduce FloatOps.maximumf x v reducesTo_S10000x32_S10000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S10000, .f32⟩) main_call4_v1) (broadcastInDim S10000 ![] bcast_S_S10000),
    TRef.binary (TRef.of (T := ⟨S10000, .f32⟩) main_call4_v1) (TRef.of (T := ⟨S10000, .f32⟩) main_call4_v0) (TRef.of (T := ⟨S10000, .f32⟩) main_call4_v2) maximumf,
    TRef.unary (TRef.of (T := ⟨S10000, .f32⟩) main_call4_v2) (TRef.of (T := ⟨S10000x1, .f32⟩) main_call4_v3) (broadcastInDim S10000x1 ![0] bcast_S10000_S10000x1_0),
    TRef.unary (TRef.of (T := ⟨S10000x1, .f32⟩) main_call4_v3) (TRef.of (T := ⟨S10000x32, .f32⟩) main_call4_v4) (broadcastInDim S10000x32 ![0, 1] bcast_S10000x1_S10000x32_0_1),
    TRef.binary (TRef.of (T := ⟨S10000x32, .f32⟩) main_v100) (TRef.of (T := ⟨S10000x32, .f32⟩) main_call4_v4) (TRef.of (T := ⟨S10000x32, .f32⟩) main_call4_v5) subf,
    TRef.unary (TRef.of (T := ⟨S10000x32, .f32⟩) main_call4_v5) (TRef.of (T := ⟨S10000x32, .f32⟩) main_call4_v6) Host.exp,
    TRef.nullary (TRef.of (T := ⟨S_, .f32⟩) main_call4_cst_1) (constant S_ .f32 0x00000000#32),
    TRef.binary (TRef.of (T := ⟨S10000x32, .f32⟩) main_call4_v6) (TRef.of (T := ⟨S_, .f32⟩) main_call4_cst_1) (TRef.of (T := ⟨S10000, .f32⟩) main_call4_v7) (fun x v => Host.reduceAdd x v reducesTo_S10000x32_S10000_d1 h_S_),
    TRef.unary (TRef.of (T := ⟨S10000, .f32⟩) main_call4_v7) (TRef.of (T := ⟨S10000x1, .f32⟩) main_call4_v8) (broadcastInDim S10000x1 ![0] bcast_S10000_S10000x1_0),
    TRef.unary (TRef.of (T := ⟨S10000x1, .f32⟩) main_call4_v8) (TRef.of (T := ⟨S10000x1, .f32⟩) main_call4_v9) Host.log,
    TRef.unary (TRef.of (T := ⟨S10000x1, .f32⟩) main_call4_v9) (TRef.of (T := ⟨S10000x32, .f32⟩) main_call4_v10) (broadcastInDim S10000x32 ![0, 1] bcast_S10000x1_S10000x32_0_1),
    TRef.binary (TRef.of (T := ⟨S10000x32, .f32⟩) main_call4_v5) (TRef.of (T := ⟨S10000x32, .f32⟩) main_call4_v10) (TRef.of (T := ⟨S10000x32, .f32⟩) main_v101) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 57600000 in
/-- On every device, from any memory with zero counters: every weakly fair execution of @main terminates and leaves the
    ten argument arrays as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.RefFrame.lean ====
/-
  The reference program's frame, and the kernel's idealization ledger.

  The reference is a host program with no kernel launch: its run (the sequence of its host operations) terminates
  from any memory and writes no argument array, which is the frame. The ideal pass rewrote nothing in the kernel, so the idealization claim is `True`.
-/
import proofs.«160261_j68599217652370_2_alg».proof.Defs
import proofs.«160261_j68599217652370_2_alg».proof.Proof.RefRun

noncomputable section

open Idealize.ShloMosaic Idealize.ShloMosaic.TcCoe Idealize.SL.Sem

namespace Cert.Proof.RefClaims

/-- Every weakly fair execution of the reference ends, faults nowhere, and leaves the ten argument arrays as launched. -/
theorem frame_ri [Cert.ReferenceIdeal.Facts] [Cert.Pre_finite_inputs.Facts] : Cert.frame_ReferenceIdeal := fun m ρ _ =>
  Cert.ReferenceIdeal.RefRun.run_args (F := Ideal) m ρ

/-- The ideal pass applied no rewrite: nothing to restate. -/
theorem preserves : Cert.preserves_Kernel_KernelIdeal := trivial

end Cert.Proof.RefClaims

end
-- ==== Proof.RunKI.lean ====
/-
  The kernel program's run with its result named.

  The conditional frame says the arguments end as launched. Its proof reads every unscoped buffer off the last
  item's contents, so the same run also says what the result buffer holds: the last valuation at the result's
  reference. This module restates the conditional frame with that one more conjunct (the steps are the
  conditional frame's own, with the result's buffer read beside the arguments'), and instantiates it at this
  certificate's region records.
-/
import proofs.«160261_j68599217652370_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Cond

variable (m : (ℓ : Loc nD τ sig) → Buf (Elt F) ℓ)

-- the launch theorem's implicit arguments are found by unifying its conclusion with this one
set_option backward.isDefEq.respectTransparency.types false in
/-- The conditional frame with the result buffer's final contents stated too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c)) :
    θ_run defs (onTc (τ := τ) (main (F := F))) ⟨m, fun _ => 0, ρ⟩ (fun r => ∀ c : Dev nD,
      r.2.mem ((c.tc : Thread nD τ).loc main_v62) = V22 m outs c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          Prog.lift (.customCall (Pipeline.entry 6) ()),
          StableHlo.seq hostOps7,
          Prog.lift (.customCall (Pipeline.entry 7) ()),
          StableHlo.seq hostOps8,
          StableHlo.seq hostOps8_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, .rfl, hpre0 c, hpost0 c, hpre1 c, (hpost1 c).trans (hpre2 c), hpost2 c, hpre3 c, (hpost3 c).trans (hpre4 c), hpost4 c, hpre5 c, hpost5 c, .rfl, .rfl, .rfl, hpre6 c, hpost6 c, hpre7 c, hpost7 c, .rfl, sep_mono .rfl (hE8 c)⟩)
    (hinit := ?_) (QY := fun c s => s.mem ((c.tc : Thread nD τ).loc main_v62) = V22 m outs c main_v62 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      exact ⟨h (Proc.devRef .tc main_v62) (Finset.mem_filter.mpr ⟨StableHlo.devRef_mem_tcRefs main_v62, by decide⟩),
        (h (Proc.devRef .tc main_arg0) (Finset.mem_filter.mpr ⟨StableHlo.devRef_mem_tcRefs main_arg0, by decide⟩)).trans (V22_main_arg0 m outs c),
        (h (Proc.devRef .tc main_arg1) (Finset.mem_filter.mpr ⟨StableHlo.devRef_mem_tcRefs main_arg1, by decide⟩)).trans (V22_main_arg1 m outs c),
        (h (Proc.devRef .tc main_arg2) (Finset.mem_filter.mpr ⟨StableHlo.devRef_mem_tcRefs main_arg2, by decide⟩)).trans (V22_main_arg2 m outs c),
        (h (Proc.devRef .tc main_arg3) (Finset.mem_filter.mpr ⟨StableHlo.devRef_mem_tcRefs main_arg3, by decide⟩)).trans (V22_main_arg3 m outs c),
        (h (Proc.devRef .tc main_arg4) (Finset.mem_filter.mpr ⟨StableHlo.devRef_mem_tcRefs main_arg4, by decide⟩)).trans (V22_main_arg4 m outs c),
        (h (Proc.devRef .tc main_arg5) (Finset.mem_filter.mpr ⟨StableHlo.devRef_mem_tcRefs main_arg5, by decide⟩)).trans (V22_main_arg5 m outs c),
        (h (Proc.devRef .tc main_arg6) (Finset.mem_filter.mpr ⟨StableHlo.devRef_mem_tcRefs main_arg6, by decide⟩)).trans (V22_main_arg6 m outs c),
        (h (Proc.devRef .tc main_arg7) (Finset.mem_filter.mpr ⟨StableHlo.devRef_mem_tcRefs main_arg7, by decide⟩)).trans (V22_main_arg7 m outs c),
        (h (Proc.devRef .tc main_arg8) (Finset.mem_filter.mpr ⟨StableHlo.devRef_mem_tcRefs main_arg8, by decide⟩)).trans (V22_main_arg8 m outs c),
        (h (Proc.devRef .tc main_arg9) (Finset.mem_filter.mpr ⟨StableHlo.devRef_mem_tcRefs main_arg9, by decide⟩)).trans (V22_main_arg9 m outs c)⟩
    · iexact HSI

end Cond

variable (m : (ℓ : Loc nD τ sig) → Buf (Elt F) ℓ) (ρ : Dev nD → PrngReg)

set_option backward.isDefEq.respectTransparency.types false in
/-- From any memory with zero counters every weakly fair execution of @main terminates; the result buffer ends at the last
    valuation's contents and the ten argument arrays as launched. -/
theorem run_result : θ_run defs (onTc (τ := τ) (main (F := F))) ⟨m, fun _ => 0, ρ⟩ (fun r => ∀ c : Dev nD,
      r.2.mem ((c.tc : Thread nD τ).loc main_v62) = Gen.V22 m (outs m) c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond (F := F) m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hR : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
          ⊢ R c := fun c => by
        iintro ⟨-, HO, -, Hp, -⟩
        isplitl [Hp]; · iexists _; iexact Hp
        iexists ∅; iexact HO
      have h1 : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hR c
      iintro ⟨H, -⟩
      imodintro
      iapply h1; iexact H)
    (hE8 := fun c => by iintro ⟨-, HO⟩; iexact HO)
    (R0 := reg0 m) (hpre0 := fun c => by rw [V4_eq]; exact .rfl) (hpost0 := fun c => by rw [V5_eq]; exact .rfl)
    (R1 := reg1 m) (hpre1 := fun c => by rw [V6_eq]; exact .rfl) (hpost1 := fun c => by rw [V7_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V10_eq]; exact .rfl) (hpost4 := fun c => by rw [V11_eq]; exact .rfl)
    (R5 := reg5 m) (hpre5 := fun c => by rw [V12_eq]; exact .rfl) (hpost5 := fun c => by rw [V13_eq]; exact .rfl)
    (R6 := reg6 m) (hpre6 := fun c => by rw [V17_eq]; exact .rfl) (hpost6 := fun c => by rw [V18_eq]; exact .rfl)
    (R7 := reg7 m) (hpre7 := fun c => by rw [V19_eq]; exact .rfl) (hpost7 := fun c => by rw [V20_eq]; exact .rfl)

end Cert.KernelIdeal.Hand

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.KerHost.lean ====
/-
  What the host operations of the kernel program compute, read index by index.

  Between the eight kernel regions the host prepares their operands and at the end turns the last region's output
  into the result. This module reads each prepared operand at an index over a few folded names, never an inlined
  term: the features padded with zero rows to 10240 rows; the dense matrix, whose cell (i, j) is the sum of the edge
  weights over the edges whose normalised destination is i and normalised source is j; each bias as a row; the last
  layer's weights and bias padded with zero columns from 32 to 128. It records that no host stretch and no other
  region touches what a region reads, so that a region's output reaches its reader as the region left it. It states
  the result as the row-wise log-softmax chain, kept closed, of the top-left 10000 by 32 corner of the last
  region's output. And it shows that every edge weight is nonnegative: a weight is a product of two entries of the
  inverse-square-root degree vector, and each entry is either zero or the inverse square root of a positive degree.
-/
import proofs.«160261_j68599217652370_2_alg».proof.Proof.RunKI
import proofs.«160261_j68599217652370_2_alg».proof.Proof.LibHostIndex
import Idealize.ShloMosaic.Lib.KernelVsHost
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx Idealize.ShloMosaic.StableHlo
open Idealize.SL.Sem

/-- The contents of a buffer of type `T` at the ideal instance: a function from the indices of its shape. -/
abbrev Cn (T : BufTy) : Type := T.Contents (Elt Ideal)

variable (m : (ℓ : Loc nD τ sig) → Buf (Elt Ideal) ℓ)

/-! ## What each item leaves unchanged -/

/-- A buffer none of the four host stretches before the first region writes holds its launch contents there. -/
theorem W4_launch (c : Dev nD) (r : Ref sig .tc) (h1 : r ∉ hostOps0_W) (h2 : r ∉ hostOps0_1_W) (h3 : r ∉ hostOps0_2_W)
    (h4 : r ∉ hostOps0_3_W) : W4 m c r = m ((c : Thread nD τ).loc r) :=
  (Gen.V4_of m c r h4).trans <| (Gen.V3_of m c r h3).trans <| (Gen.V2_of m c r h2).trans <| (Gen.V1_of m c r h1).trans rfl
/-- A region replaces its output array and nothing else. -/
theorem W5_of (c : Dev nD) (r : Ref sig .tc) (h : r ≠ main_v47) : W5 m c r = W4 m c r := by
  unfold W5; exact Function.update_of_ne (StableHlo.devRef_ne_of_ne h) _ _
theorem W5_out (c : Dev nD) : W5 m c main_v47 = o5 m c := by
  unfold W5; exact Function.update_self _ _ _
/-- A host stretch changes only what its operations write. -/
theorem W6_of (c : Dev nD) (r : Ref sig .tc) (h : r ∉ hostOps1_W) : W6 m c r = W5 m c r :=
  StableHlo.after_of_writes_sub hostOps1 _ hostOps1_writes h
/-- A region replaces its output array and nothing else. -/
theorem W7_of (c : Dev nD) (r : Ref sig .tc) (h : r ≠ main_v49) : W7 m c r = W6 m c r := by
  unfold W7; exact Function.update_of_ne (StableHlo.devRef_ne_of_ne h) _ _
theorem W7_out (c : Dev nD) : W7 m c main_v49 = o7 m c := by
  unfold W7; exact Function.update_self _ _ _
/-- A region replaces its output array and nothing else. -/
theorem W8_of (c : Dev nD) (r : Ref sig .tc) (h : r ≠ main_v50) : W8 m c r = W7 m c r := by
  unfold W8; exact Function.update_of_ne (StableHlo.devRef_ne_of_ne h) _ _
theorem W8_out (c : Dev nD) : W8 m c main_v50 = o8 m c := by
  unfold W8; exact Function.update_self _ _ _
/-- A host stretch changes only what its operations write. -/
theorem W9_of (c : Dev nD) (r : Ref sig .tc) (h : r ∉ hostOps3_W) : W9 m c r = W8 m c r :=
  StableHlo.after_of_writes_sub hostOps3 _ hostOps3_writes h
/-- A region replaces its output array and nothing else. -/
theorem W10_of (c : Dev nD) (r : Ref sig .tc) (h : r ≠ main_v52) : W10 m c r = W9 m c r := by
  unfold W10; exact Function.update_of_ne (StableHlo.devRef_ne_of_ne h) _ _
theorem W10_out (c : Dev nD) : W10 m c main_v52 = o10 m c := by
  unfold W10; exact Function.update_self _ _ _
/-- A region replaces its output array and nothing else. -/
theorem W11_of (c : Dev nD) (r : Ref sig .tc) (h : r ≠ main_v53) : W11 m c r = W10 m c r := by
  unfold W11; exact Function.update_of_ne (StableHlo.devRef_ne_of_ne h) _ _
theorem W11_out (c : Dev nD) : W11 m c main_v53 = o11 m c := by
  unfold W11; exact Function.update_self _ _ _
/-- A host stretch changes only what its operations write. -/
theorem W12_of (c : Dev nD) (r : Ref sig .tc) (h : r ∉ hostOps5_W) : W12 m c r = W11 m c r :=
  StableHlo.after_of_writes_sub hostOps5 _ hostOps5_writes h
/-- A region replaces its output array and nothing else. -/
theorem W13_of (c : Dev nD) (r : Ref sig .tc) (h : r ≠ main_v55) : W13 m c r = W12 m c r := by
  unfold W13; exact Function.update_of_ne (StableHlo.devRef_ne_of_ne h) _ _
theorem W13_out (c : Dev nD) : W13 m c main_v55 = o13 m c := by
  unfold W13; exact Function.update_self _ _ _
/-- A host stretch changes only what its operations write. -/
theorem W14_of (c : Dev nD) (r : Ref sig .tc) (h : r ∉ hostOps6_W) : W14 m c r = W13 m c r :=
  StableHlo.after_of_writes_sub hostOps6 _ hostOps6_writes h
/-- A host stretch changes only what its operations write. -/
theorem W15_of (c : Dev nD) (r : Ref sig .tc) (h : r ∉ hostOps6_1_W) : W15 m c r = W14 m c r :=
  StableHlo.after_of_writes_sub hostOps6_1 _ hostOps6_1_writes h
/-- A host stretch changes only what its operations write. -/
theorem W16_of (c : Dev nD) (r : Ref sig .tc) (h : r ∉ hostOps6_2_W) : W16 m c r = W15 m c r :=
  StableHlo.after_of_writes_sub hostOps6_2 _ hostOps6_2_writes h
/-- A host stretch changes only what its operations write. -/
theorem W17_of (c : Dev nD) (r : Ref sig .tc) (h : r ∉ hostOps6_3_W) : W17 m c r = W16 m c r :=
  StableHlo.after_of_writes_sub hostOps6_3 _ hostOps6_3_writes h
/-- A region replaces its output array and nothing else. -/
theorem W18_of (c : Dev nD) (r : Ref sig .tc) (h : r ≠ main_v58) : W18 m c r = W17 m c r := by
  unfold W18; exact Function.update_of_ne (StableHlo.devRef_ne_of_ne h) _ _
theorem W18_out (c : Dev nD) : W18 m c main_v58 = o18 m c := by
  unfold W18; exact Function.update_self _ _ _
/-- A host stretch changes only what its operations write. -/
theorem W19_of (c : Dev nD) (r : Ref sig .tc) (h : r ∉ hostOps7_W) : W19 m c r = W18 m c r :=
  StableHlo.after_of_writes_sub hostOps7 _ hostOps7_writes h
/-- A region replaces its output array and nothing else. -/
theorem W20_of (c : Dev nD) (r : Ref sig .tc) (h : r ≠ main_v60) : W20 m c r = W19 m c r := by
  unfold W20; exact Function.update_of_ne (StableHlo.devRef_ne_of_ne h) _ _
theorem W20_out (c : Dev nD) : W20 m c main_v60 = o20 m c := by
  unfold W20; exact Function.update_self _ _ _

/-! ## Typed references at their own type

A module-local function's operations move contents between a value's type and its buffer's type, which for a
literal reference are the same type: the moves are the identity. -/

/-- Into the buffer's type and back is the identity. -/
theorem ofBuf_toBuf {T : BufTy} (x : TRef sig T) (v : T.Contents (Elt Ideal)) : x.ofBuf (x.toBuf v) = v := by
  obtain ⟨r, h, h2, h3⟩ := x
  subst h
  rfl
theorem tb_v62 (X : Cn ⟨S10000x32, .f32⟩) : (TRef.of main_v62 : TRef sig ⟨S10000x32, .f32⟩).toBuf X = X := rfl
theorem ob_v61 (X : Cn ⟨S10000x32, .f32⟩) : (TRef.of main_v61 : TRef sig ⟨S10000x32, .f32⟩).ofBuf X = X := rfl
theorem tb_v14 (X : Cn ⟨S10000, .f32⟩) : (TRef.of main_v14 : TRef sig ⟨S10000, .f32⟩).toBuf X = X := rfl
theorem ob_v12 (X : Cn ⟨S10000, .i1⟩) : (TRef.of main_v12 : TRef sig ⟨S10000, .i1⟩).ofBuf X = X := rfl
theorem ob_v13 (X : Cn ⟨S10000, .f32⟩) : (TRef.of main_v13 : TRef sig ⟨S10000, .f32⟩).ofBuf X = X := rfl
theorem ob_cst_2 (X : Cn ⟨S_, .f32⟩) : (TRef.of main_cst_2 : TRef sig ⟨S_, .f32⟩).ofBuf X = X := rfl

/-! ## The padded features -/

/-- The padded features are one pad of the launch features by the zero the host converts from an integer. -/
theorem W4_v46_eq (c : Dev nD) :
    W4 m c main_v46 = pad (α := EReal) S10240x128 ![0, 0] ![240, 0] ![0, 0] (m ((c : Thread nD τ).loc main_arg0) : Cn ⟨S10000x128, .f32⟩)
      (sitofp (F := Ideal) .f32 (constantI S_ 32 0#32)) pads_S10000x128_S10240x128_02400_000 h_S_ := by
  show StableHlo.after hostOps0_3 (Gen.V3 m c) (Proc.devRef .tc main_v46) = _
  after_results
  rfl

/-- The features padded to 10240 rows, read at a cell: the launch features on the first 10000 rows, zero below. -/
theorem W4_v46_apply (c : Dev nD) (i : Fin 10240) (k : Fin 128) :
    ((W4 m c main_v46 : Cn ⟨S10240x128, .f32⟩) (ix2 i k) : EReal)
      = if h : i.val < 10000 then ((m ((c : Thread nD τ).loc main_arg0) : Cn ⟨S10000x128, .f32⟩) (ix2 ⟨i.val, h⟩ k) : EReal) else (0 : EReal) := by
  rw [W4_v46_eq]
  by_cases h : i.val < 10000
  · rw [dif_pos h]
    exact pad_apply_of_inside _ _ _ _ _ pads_S10000x128_S10240x128_02400_000 h_S_ _ (ix2 ⟨i.val, h⟩ k) (fun a => match a with
      | ⟨0, _⟩ => by show i.val = 0 + i.val * (0 + 1); omega
      | ⟨1, _⟩ => by show k.val = 0 + k.val * (0 + 1); omega)
  · rw [dif_neg h]
    rw [pad_apply_of_not_inside _ _ _ _ _ pads_S10000x128_S10240x128_02400_000 h_S_ _ (0 : Fin 2) (by
      show ¬(0 ≤ i.val ∧ (i.val - 0) % (0 + 1) = 0 ∧ (i.val - 0) / (0 + 1) < 10000)
      omega)]
    show (((0#32 : BitVec 32).toInt : ℝ) : EReal) = 0
    simp

/-- The first region's weights are the launch weights. -/
theorem W4_arg2 (c : Dev nD) : W4 m c main_arg2 = m ((c : Thread nD τ).loc main_arg2) :=
  W4_launch m c main_arg2 (by decide) (by decide) (by decide) (by decide)

/-! ## The biases as rows -/

/-- The first layer's bias as a row: the launch bias under a leading unit axis. -/
theorem W6_v48_eq (c : Dev nD) :
    W6 m c main_v48 = shapeCast (α := EReal) S1x512 (m ((c : Thread nD τ).loc main_arg3) : Cn ⟨S512, .f32⟩) shapeCasts_S512_S1x512 := by
  show StableHlo.after hostOps1 (W5 m c) (Proc.devRef .tc main_v48) = _
  after_results
  rw [show W5 m c (Proc.devRef .tc main_arg3) = m ((c : Thread nD τ).loc main_arg3) from
    (W5_of m c main_arg3 (by decide)).trans <| W4_launch m c main_arg3 (by decide) (by decide) (by decide) (by decide)]
  rfl
/-- Read at a cell: the launch bias at the column. -/
theorem W6_v48_apply (c : Dev nD) (u : Fin 1) (k : Fin 512) :
    ((W6 m c main_v48 : Cn ⟨S1x512, .f32⟩) (ix2 u k) : EReal) = (m ((c : Thread nD τ).loc main_arg3) : Cn ⟨S512, .f32⟩) (ix1 k) := by
  rw [W6_v48_eq]
  exact shapeCast_a_1a_apply _ _ u k

/-- The second layer's bias as a row: the launch bias under a leading unit axis. -/
theorem W9_v51_eq (c : Dev nD) :
    W9 m c main_v51 = shapeCast (α := EReal) S1x1024 (m ((c : Thread nD τ).loc main_arg5) : Cn ⟨S1024, .f32⟩) shapeCasts_S1024_S1x1024 := by
  show StableHlo.after hostOps3 (W8 m c) (Proc.devRef .tc main_v51) = _
  after_results
  rw [show W8 m c (Proc.devRef .tc main_arg5) = m ((c : Thread nD τ).loc main_arg5) from
    (W8_of m c main_arg5 (by decide)).trans <| (W7_of m c main_arg5 (by decide)).trans <| (W6_of m c main_arg5 (by decide)).trans <| (W5_of m c main_arg5 (by decide)).trans <| W4_launch m c main_arg5 (by decide) (by decide) (by decide) (by decide)]
  rfl
/-- Read at a cell: the launch bias at the column. -/
theorem W9_v51_apply (c : Dev nD) (u : Fin 1) (k : Fin 1024) :
    ((W9 m c main_v51 : Cn ⟨S1x1024, .f32⟩) (ix2 u k) : EReal) = (m ((c : Thread nD τ).loc main_arg5) : Cn ⟨S1024, .f32⟩) (ix1 k) := by
  rw [W9_v51_eq]
  exact shapeCast_a_1a_apply _ _ u k

/-- The third layer's bias as a row: the launch bias under a leading unit axis. -/
theorem W12_v54_eq (c : Dev nD) :
    W12 m c main_v54 = shapeCast (α := EReal) S1x512 (m ((c : Thread nD τ).loc main_arg7) : Cn ⟨S512, .f32⟩) shapeCasts_S512_S1x512 := by
  show StableHlo.after hostOps5 (W11 m c) (Proc.devRef .tc main_v54) = _
  after_results
  rw [show W11 m c (Proc.devRef .tc main_arg7) = m ((c : Thread nD τ).loc main_arg7) from
    (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| W4_launch m c main_arg7 (by decide) (by decide) (by decide) (by decide)]
  rfl
/-- Read at a cell: the launch bias at the column. -/
theorem W12_v54_apply (c : Dev nD) (u : Fin 1) (k : Fin 512) :
    ((W12 m c main_v54 : Cn ⟨S1x512, .f32⟩) (ix2 u k) : EReal) = (m ((c : Thread nD τ).loc main_arg7) : Cn ⟨S512, .f32⟩) (ix1 k) := by
  rw [W12_v54_eq]
  exact shapeCast_a_1a_apply _ _ u k

/-! ## The last layer's weights and bias padded from 32 to 128 columns -/

/-- The zero the host converts before each pad. -/
theorem W14_c12 (c : Dev nD) : W14 m c main_c_12 = constantI S_ 32 0#32 := by
  show StableHlo.after hostOps6 (W13 m c) (Proc.devRef .tc main_c_12) = _
  after_results
theorem W16_c13 (c : Dev nD) : W16 m c main_c_13 = constantI S_ 32 0#32 := by
  show StableHlo.after hostOps6_2 (W15 m c) (Proc.devRef .tc main_c_13) = _
  after_results

/-- The last layer's weights padded: one pad of the launch weights by zero columns. -/
theorem W17_v56_eq (c : Dev nD) :
    W17 m c main_v56 = pad (α := EReal) S512x128 ![0, 0] ![0, 96] ![0, 0] (m ((c : Thread nD τ).loc main_arg8) : Cn ⟨S512x32, .f32⟩)
      (sitofp (F := Ideal) .f32 (constantI S_ 32 0#32)) pads_S512x32_S512x128_000_0960 h_S_ := by
  rw [show W17 m c main_v56 = W15 m c main_v56 from (W17_of m c main_v56 (by decide)).trans <| (W16_of m c main_v56 (by decide))]
  show StableHlo.after hostOps6_1 (W14 m c) (Proc.devRef .tc main_v56) = _
  after_results
  rw [show W14 m c (Proc.devRef .tc main_arg8) = m ((c : Thread nD τ).loc main_arg8) from
    (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| W4_launch m c main_arg8 (by decide) (by decide) (by decide) (by decide)]
  rw [show W14 m c (Proc.devRef .tc main_c_12) = constantI S_ 32 0#32 from W14_c12 m c]
  rfl

/-- Read at a cell: the launch weights on the first 32 columns, zero beyond. -/
theorem W17_v56_apply (c : Dev nD) (r : Fin 512) (k : Fin 128) :
    ((W17 m c main_v56 : Cn ⟨S512x128, .f32⟩) (ix2 r k) : EReal)
      = if h : k.val < 32 then ((m ((c : Thread nD τ).loc main_arg8) : Cn ⟨S512x32, .f32⟩) (ix2 r ⟨k.val, h⟩) : EReal) else (0 : EReal) := by
  rw [W17_v56_eq]
  by_cases h : k.val < 32
  · rw [dif_pos h]
    exact pad_apply_of_inside _ _ _ _ _ pads_S512x32_S512x128_000_0960 h_S_ _ (ix2 r ⟨k.val, h⟩) (fun a => match a with
      | ⟨0, _⟩ => by show r.val = 0 + r.val * (0 + 1); omega
      | ⟨1, _⟩ => by show k.val = 0 + k.val * (0 + 1); omega)
  · rw [dif_neg h]
    rw [pad_apply_of_not_inside _ _ _ _ _ pads_S512x32_S512x128_000_0960 h_S_ _ (1 : Fin 2) (by
      show ¬(0 ≤ k.val ∧ (k.val - 0) % (0 + 1) = 0 ∧ (k.val - 0) / (0 + 1) < 32)
      omega)]
    show (((0#32 : BitVec 32).toInt : ℝ) : EReal) = 0
    simp

/-- The last layer's bias padded: one pad of the launch bias by zeros. -/
theorem W17_v57_eq (c : Dev nD) :
    W17 m c main_v57 = pad (α := EReal) S128 ![0] ![96] ![0] (m ((c : Thread nD τ).loc main_arg9) : Cn ⟨S32, .f32⟩)
      (sitofp (F := Ideal) .f32 (constantI S_ 32 0#32)) pads_S32_S128_0960 h_S_ := by
  show StableHlo.after hostOps6_3 (W16 m c) (Proc.devRef .tc main_v57) = _
  after_results
  rw [show W16 m c (Proc.devRef .tc main_arg9) = m ((c : Thread nD τ).loc main_arg9) from
    (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| W4_launch m c main_arg9 (by decide) (by decide) (by decide) (by decide)]
  rw [show W16 m c (Proc.devRef .tc main_c_13) = constantI S_ 32 0#32 from W16_c13 m c]
  rfl

/-- Read at an entry: the launch bias on the first 32 entries, zero beyond. -/
theorem W17_v57_apply (c : Dev nD) (k : Fin 128) :
    ((W17 m c main_v57 : Cn ⟨S128, .f32⟩) (ix1 k) : EReal)
      = if h : k.val < 32 then ((m ((c : Thread nD τ).loc main_arg9) : Cn ⟨S32, .f32⟩) (ix1 ⟨k.val, h⟩) : EReal) else (0 : EReal) := by
  rw [W17_v57_eq]
  by_cases h : k.val < 32
  · rw [dif_pos h]
    exact pad_apply_of_inside _ _ _ _ _ pads_S32_S128_0960 h_S_ _ (ix1 ⟨k.val, h⟩) (fun a => match a with
      | ⟨0, _⟩ => by show k.val = 0 + k.val * (0 + 1); omega)
  · rw [dif_neg h]
    rw [pad_apply_of_not_inside _ _ _ _ _ pads_S32_S128_0960 h_S_ _ (0 : Fin 1) (by
      show ¬(0 ≤ k.val ∧ (k.val - 0) % (0 + 1) = 0 ∧ (k.val - 0) / (0 + 1) < 32)
      omega)]
    show (((0#32 : BitVec 32).toInt : ℝ) : EReal) = 0
    simp

/-- The padded bias as a row. -/
theorem W19_v59_eq (c : Dev nD) :
    W19 m c main_v59 = shapeCast (α := EReal) S1x128 (W17 m c main_v57 : Cn ⟨S128, .f32⟩) shapeCasts_S128_S1x128 := by
  show StableHlo.after hostOps7 (W18 m c) (Proc.devRef .tc main_v59) = _
  after_results
  rw [show W18 m c (Proc.devRef .tc main_v57) = W17 m c main_v57 from W18_of m c main_v57 (by decide)]
  rfl

/-- Read at a cell: the launch bias on the first 32 columns, zero beyond. -/
theorem W19_v59_apply (c : Dev nD) (u : Fin 1) (k : Fin 128) :
    ((W19 m c main_v59 : Cn ⟨S1x128, .f32⟩) (ix2 u k) : EReal)
      = if h : k.val < 32 then ((m ((c : Thread nD τ).loc main_arg9) : Cn ⟨S32, .f32⟩) (ix1 ⟨k.val, h⟩) : EReal) else (0 : EReal) := by
  rw [W19_v59_eq, shapeCast_a_1a_apply _ _ u k]
  exact W17_v57_apply m c k

/-! ## What reaches each region

Each aggregation region reads the dense matrix, the previous region's output and a bias row; each feature region reads
the previous region's output and a weight argument. None of these is written between its making and its reading. -/
theorem W6_v47 (c : Dev nD) : W6 m c main_v47 = o5 m c :=
  ((W6_of m c main_v47 (by decide))).trans (W5_out m c)
theorem W6_v45 (c : Dev nD) : W6 m c main_v45 = W4 m c main_v45 :=
  (W6_of m c main_v45 (by decide)).trans <| (W5_of m c main_v45 (by decide))
theorem W7_v49 (c : Dev nD) : W7 m c main_v49 = o7 m c :=
  W7_out m c
theorem W7_arg4 (c : Dev nD) : W7 m c main_arg4 = m ((c : Thread nD τ).loc main_arg4) :=
  (W7_of m c main_arg4 (by decide)).trans <| (W6_of m c main_arg4 (by decide)).trans <| (W5_of m c main_arg4 (by decide)).trans <| W4_launch m c main_arg4 (by decide) (by decide) (by decide) (by decide)
theorem W9_v50 (c : Dev nD) : W9 m c main_v50 = o8 m c :=
  ((W9_of m c main_v50 (by decide))).trans (W8_out m c)
theorem W9_v45 (c : Dev nD) : W9 m c main_v45 = W4 m c main_v45 :=
  (W9_of m c main_v45 (by decide)).trans <| (W8_of m c main_v45 (by decide)).trans <| (W7_of m c main_v45 (by decide)).trans <| (W6_of m c main_v45 (by decide)).trans <| (W5_of m c main_v45 (by decide))
theorem W10_v52 (c : Dev nD) : W10 m c main_v52 = o10 m c :=
  W10_out m c
theorem W10_arg6 (c : Dev nD) : W10 m c main_arg6 = m ((c : Thread nD τ).loc main_arg6) :=
  (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| W4_launch m c main_arg6 (by decide) (by decide) (by decide) (by decide)
theorem W12_v53 (c : Dev nD) : W12 m c main_v53 = o11 m c :=
  ((W12_of m c main_v53 (by decide))).trans (W11_out m c)
theorem W12_v45 (c : Dev nD) : W12 m c main_v45 = W4 m c main_v45 :=
  (W12_of m c main_v45 (by decide)).trans <| (W11_of m c main_v45 (by decide)).trans <| (W10_of m c main_v45 (by decide)).trans <| (W9_of m c main_v45 (by decide)).trans <| (W8_of m c main_v45 (by decide)).trans <| (W7_of m c main_v45 (by decide)).trans <| (W6_of m c main_v45 (by decide)).trans <| (W5_of m c main_v45 (by decide))
theorem W17_v55 (c : Dev nD) : W17 m c main_v55 = o13 m c :=
  ((W17_of m c main_v55 (by decide)).trans <| (W16_of m c main_v55 (by decide)).trans <| (W15_of m c main_v55 (by decide)).trans <| (W14_of m c main_v55 (by decide))).trans (W13_out m c)
theorem W19_v58 (c : Dev nD) : W19 m c main_v58 = o18 m c :=
  ((W19_of m c main_v58 (by decide))).trans (W18_out m c)
theorem W19_v45 (c : Dev nD) : W19 m c main_v45 = W4 m c main_v45 :=
  (W19_of m c main_v45 (by decide)).trans <| (W18_of m c main_v45 (by decide)).trans <| (W17_of m c main_v45 (by decide)).trans <| (W16_of m c main_v45 (by decide)).trans <| (W15_of m c main_v45 (by decide)).trans <| (W14_of m c main_v45 (by decide)).trans <| (W13_of m c main_v45 (by decide)).trans <| (W12_of m c main_v45 (by decide)).trans <| (W11_of m c main_v45 (by decide)).trans <| (W10_of m c main_v45 (by decide)).trans <| (W9_of m c main_v45 (by decide)).trans <| (W8_of m c main_v45 (by decide)).trans <| (W7_of m c main_v45 (by decide)).trans <| (W6_of m c main_v45 (by decide)).trans <| (W5_of m c main_v45 (by decide))
theorem W20_v60 (c : Dev nD) : W20 m c main_v60 = o20 m c :=
  W20_out m c

/-! ## The dense matrix -/

/-- The edges' destinations and sources as the host normalises them for the dense scatter (a negative index has the
    matrix side added), and the edge weights: the contents of their buffers when the first region is entered. -/
def dN (c : Dev nD) : Cn ⟨S170000, .i32⟩ := W4 m c main_v35
/-- The normalised sources. -/
def sN (c : Dev nD) : Cn ⟨S170000, .i32⟩ := W4 m c main_v40
/-- The edge weights. -/
def nrm (c : Dev nD) : Cn ⟨S170000, .f32⟩ := W4 m c main_v29

/-- The scatter's index pairs from two index vectors: column 0 the first, column 1 the second. -/
def pairIdx (a b : Cn ⟨S170000, .i32⟩) : Cn ⟨S170000x2, .i32⟩ :=
  concatenate S170000x2 1 [⟨S170000x1, broadcastInDim S170000x1 ![0] bcast_S170000_S170000x1_0 a⟩,
    ⟨S170000x1, broadcastInDim S170000x1 ![0] bcast_S170000_S170000x1_0 b⟩] concatenates_S170000x1_S170000x1_S170000x2_d1

/-- A vector as a column, read at a row. -/
theorem col_apply (a : Cn ⟨S170000, .i32⟩) (e : Fin 170000) :
    (broadcastInDim S170000x1 ![0] bcast_S170000_S170000x1_0 a : Cn ⟨S170000x1, .i32⟩) (ix2 e (0 : Fin 1)) = a (ix1 e) :=
  broadcastInDim_apply _ _ a _ (ix1 e) (fun d => match d with
    | ⟨0, _⟩ => by show e.val = if (170000 : ℕ) = 1 then 0 else e.val; rw [if_neg (by omega)])

/-- Column 0 of the index pairs is the first vector … -/
theorem pairIdx_col0 (a b : Cn ⟨S170000, .i32⟩) (e : Fin 170000) : pairIdx a b (ix2 e (0 : Fin 2)) = a (ix1 e) := by
  unfold pairIdx
  rw [concatenate_pair_apply_left 1 _ _ concatenates_S170000x1_S170000x1_S170000x2_d1 (ix2 e (0 : Fin 2)) rfl
    (ix2 e (0 : Fin 1)) (fun d => match d with | ⟨0, _⟩ => rfl | ⟨1, _⟩ => rfl)]
  exact col_apply a e

/-- … and column 1 the second. -/
theorem pairIdx_col1 (a b : Cn ⟨S170000, .i32⟩) (e : Fin 170000) : pairIdx a b (ix2 e (1 : Fin 2)) = b (ix1 e) := by
  unfold pairIdx
  rw [concatenate_pair_apply_right 1 _ _ concatenates_S170000x1_S170000x1_S170000x2_d1 (ix2 e (1 : Fin 2)) rfl rfl
    (ix2 e (0 : Fin 1)) (fun d => match d with
      | ⟨0, _⟩ => fun _ => rfl
      | ⟨1, _⟩ => fun h => absurd rfl h) rfl]
  exact col_apply b e

/-- The zero matrix the weights are scattered into. -/
def zeroM : Cn ⟨S10240x10240, .f32⟩ :=
  broadcastInDim S10240x10240 ![] bcast_S_S10240x10240 (constant (F := Ideal) S_ .f32 0x00000000#32)

/-- The dense matrix from what is scattered into, normalised destinations, normalised sources and weights: the weights
    scatter-added at the index pairs (the change of format after it is the identity on extended reals). -/
def denseFrom (z : Cn ⟨S10240x10240, .f32⟩) (d s : Cn ⟨S170000, .i32⟩) (w : Cn ⟨S170000, .f32⟩) : Cn ⟨S10240x10240, .bf16⟩ :=
  truncf (F := Ideal) .bf16 (Host.scatterAdd (F := Ideal) scatter_S10240x10240_S170000x2_S170000_n_01_01_1 z (pairIdx d s) w)
    bitsLt_bf16_f32

/-- The dense matrix from normalised destinations, normalised sources and weights, scattered into zeros. -/
def denseOf (d s : Cn ⟨S170000, .i32⟩) (w : Cn ⟨S170000, .f32⟩) : Cn ⟨S10240x10240, .bf16⟩ := denseFrom zeroM d s w

/-- The last six operations of the third host stretch: the two index columns, their pairing, the scatter-add, the change
    of format, and a constant. -/
abbrev denseTail : List (HloOp τ sig (Elt Ideal)) :=
  [ StableHlo.unary main_v35 main_v41 (broadcastInDim S170000x1 ![0] bcast_S170000_S170000x1_0 : (⟨S170000, .i32⟩ : BufTy).Contents (Elt Ideal) → (⟨S170000x1, .i32⟩ : BufTy).Contents (Elt Ideal)),
    StableHlo.unary main_v40 main_v42 (broadcastInDim S170000x1 ![0] bcast_S170000_S170000x1_0 : (⟨S170000, .i32⟩ : BufTy).Contents (Elt Ideal) → (⟨S170000x1, .i32⟩ : BufTy).Contents (Elt Ideal)),
    StableHlo.binary main_v41 main_v42 main_v43 ((fun a b => concatenate S170000x2 1 [⟨S170000x1, a⟩, ⟨S170000x1, b⟩] concatenates_S170000x1_S170000x1_S170000x2_d1) : (⟨S170000x1, .i32⟩ : BufTy).Contents (Elt Ideal) → (⟨S170000x1, .i32⟩ : BufTy).Contents (Elt Ideal) → (⟨S170000x2, .i32⟩ : BufTy).Contents (Elt Ideal)),
    StableHlo.ternary main_v30 main_v43 main_v29 main_v44 ((fun x i u => Host.scatterAdd (F := Ideal) (φ := .f32) scatter_S10240x10240_S170000x2_S170000_n_01_01_1 x i u) : (⟨S10240x10240, .f32⟩ : BufTy).Contents (Elt Ideal) → (⟨S170000x2, .i32⟩ : BufTy).Contents (Elt Ideal) → (⟨S170000, .f32⟩ : BufTy).Contents (Elt Ideal) → (⟨S10240x10240, .f32⟩ : BufTy).Contents (Elt Ideal)),
    StableHlo.unary main_v44 main_v45 ((truncf (F := Ideal) (φ := .f32) .bf16 · bitsLt_bf16_f32) : (⟨S10240x10240, .f32⟩ : BufTy).Contents (Elt Ideal) → (⟨S10240x10240, .bf16⟩ : BufTy).Contents (Elt Ideal)),
    StableHlo.nullary main_c_11 (constantI S_ 32 0#32) ]

/-- The third host stretch is its first thirty-five operations followed by those six. -/
theorem after_split (V : Valuation τ sig (Elt Ideal)) (r : DevRef τ sig) :
    StableHlo.after hostOps0_2 V r = StableHlo.after denseTail (StableHlo.after (hostOps0_2.take 35) V) r := rfl

/-- The six operations build the dense matrix from the four buffers they read, whatever the contents they start from. -/
theorem dense_tail (X : Valuation τ sig (Elt Ideal)) :
    StableHlo.after denseTail X (Proc.devRef .tc main_v45)
      = denseFrom (StableHlo.after denseTail X (Proc.devRef .tc main_v30)) (StableHlo.after denseTail X (Proc.devRef .tc main_v35))
          (StableHlo.after denseTail X (Proc.devRef .tc main_v40)) (StableHlo.after denseTail X (Proc.devRef .tc main_v29)) := by
  unfold denseFrom pairIdx
  after_results

/-- The third host stretch builds the dense matrix from the four buffers it leaves, whatever it starts from. -/
theorem dense_of (V : Valuation τ sig (Elt Ideal)) :
    StableHlo.after hostOps0_2 V (Proc.devRef .tc main_v45)
      = denseFrom (StableHlo.after hostOps0_2 V (Proc.devRef .tc main_v30)) (StableHlo.after hostOps0_2 V (Proc.devRef .tc main_v35))
          (StableHlo.after hostOps0_2 V (Proc.devRef .tc main_v40)) (StableHlo.after hostOps0_2 V (Proc.devRef .tc main_v29)) := by
  simp only [after_split V]
  exact dense_tail _

/-- What the weights are scattered into is the zero matrix. -/
theorem zero_of (V : Valuation τ sig (Elt Ideal)) : StableHlo.after hostOps0_2 V (Proc.devRef .tc main_v30) = zeroM := by
  unfold zeroM
  after_results_simp

/-- A buffer the pad before the first region does not write is as the third host stretch left it. -/
theorem W4_to3 (c : Dev nD) (r : Ref sig .tc) (h : r ∉ hostOps0_3_W) :
    W4 m c r = StableHlo.after hostOps0_2 (Gen.V2 m c) (Proc.devRef .tc r) := Gen.V4_of m c r h

/-- The dense matrix over the folded names. -/
theorem W4_v45_eq (c : Dev nD) : W4 m c main_v45 = denseOf (dN m c) (sN m c) (nrm m c) := by
  unfold dN sN nrm denseOf
  rw [W4_to3 m c main_v45 (by decide), W4_to3 m c main_v35 (by decide), W4_to3 m c main_v40 (by decide),
    W4_to3 m c main_v29 (by decide), ← zero_of (Gen.V2 m c)]
  exact dense_of (Gen.V2 m c)

/-- THE DENSE MATRIX READ AT A CELL: the sum of the weights of the edges whose normalised destination, read signed, is
    the row and whose normalised source is the column. -/
theorem W4_v45_apply (c : Dev nD) (i j : Fin 10240) :
    ((W4 m c main_v45 : Cn ⟨S10240x10240, .bf16⟩) (ix2 i j) : EReal)
      = (0 : EReal) + ∑ e ∈ Finset.univ.filter (fun e : Fin 170000 =>
          (dN m c (ix1 e)).toInt = (i.val : Int) ∧ (sN m c (ix1 e)).toInt = (j.val : Int)), (nrm m c (ix1 e) : EReal) := by
  rw [W4_v45_eq]
  have h := Cert.Lib.HostIndex.scatterAdd_cells_apply scatter_S10240x10240_S170000x2_S170000_n_01_01_1_wf
    zeroM (pairIdx (dN m c) (sN m c)) (nrm m c) i j
  simp only [pairIdx_col0, pairIdx_col1] at h
  have h0 : zeroM (ix2 i j) = (0 : EReal) :=
    (broadcastInDim_apply _ _ _ _ (fun d => d.elim0) (fun d => d.elim0)).trans Ideal.ofBits_zero_f32
  rw [h0] at h
  exact h

/-! ## The result -/

/-- The row-wise log-softmax as the host applies it to a 10000 by 32 array: subtract each row's maximum, then subtract
    the logarithm of the row's sum of exponentials. -/
def LSK (x : Cn ⟨S10000x32, .f32⟩) : Cn ⟨S10000x32, .f32⟩ :=
  let mx : Cn ⟨S10000, .f32⟩ := maximumf (F := Ideal) (φ := .f32) (broadcastInDim S10000 ![] bcast_S_S10000 (constant (F := Ideal) S_ .f32 0xFF800000#32))
    (Host.reduce (FloatOps.maximumf (F := Ideal) (φ := .f32)) x (constant (F := Ideal) S_ .f32 0xFF800000#32) reducesTo_S10000x32_S10000_d1 h_S_)
  let sh : Cn ⟨S10000x32, .f32⟩ := subf (F := Ideal) (φ := .f32) x (broadcastInDim S10000x32 ![0, 1] bcast_S10000x1_S10000x32_0_1
    (broadcastInDim S10000x1 ![0] bcast_S10000_S10000x1_0 mx))
  subf (F := Ideal) (φ := .f32) sh (broadcastInDim S10000x32 ![0, 1] bcast_S10000x1_S10000x32_0_1
    (Host.log (F := Ideal) (φ := .f32) (broadcastInDim S10000x1 ![0] bcast_S10000_S10000x1_0
      (Host.reduceAdd (F := Ideal) (φ := .f32) (Host.exp (F := Ideal) (φ := .f32) sh) (constant (F := Ideal) S_ .f32 0x00000000#32) reducesTo_S10000x32_S10000_d1 h_S_))))

/-- THE RESULT: the log-softmax of the top-left 10000 by 32 corner of what the last region leaves. -/
theorem V22_v62 (c : Dev nD) :
    Gen.V22 m (outs m) c main_v62
      = LSK (extractStridedSlice S10000x32 ![0, 0] (o20 m c : Cn ⟨S10240x128, .f32⟩) slices_S10240x128_S10000x32_0_0) := by
  show StableHlo.after hostOps8_1 (StableHlo.after hostOps8 (Gen.V20 m (outs m) c)) (Proc.devRef .tc main_v62) = _
  rw [V20_eq]
  after_results
  rw [show W20 m c (Proc.devRef .tc main_v60) = o20 m c from W20_out m c]
  simp only [ofBuf_toBuf, tb_v62, ob_v61]
  rfl

/-- The corner read at a cell. -/
theorem corner_apply (y : Cn ⟨S10240x128, .f32⟩) (i : Fin 10000) (k : Fin 32) :
    (extractStridedSlice S10000x32 ![0, 0] y slices_S10240x128_S10000x32_0_0 : Cn ⟨S10000x32, .f32⟩) (ix2 i k)
      = y (ix2 ⟨i.val, Nat.lt_of_lt_of_le i.isLt (by decide)⟩ ⟨k.val, Nat.lt_of_lt_of_le k.isLt (by decide)⟩) :=
  extractStridedSlice_apply ![0, 0] y slices_S10240x128_S10000x32_0_0 (ix2 i k) _ (fun a => match a with
    | ⟨0, _⟩ => by show i.val = 0 + i.val; omega
    | ⟨1, _⟩ => by show k.val = 0 + k.val; omega)

/-! ## The edge weights are nonnegative -/

/-- The inverse-square-root degrees from the degrees: where the degree is positive its inverse square root, elsewhere zero. -/
def dinvOf (g : Cn ⟨S10000, .f32⟩) : Cn ⟨S10000, .f32⟩ :=
  select (cmpf (F := Ideal) (φ := .f32) .ogt g (broadcastInDim S10000 ![] bcast_S_S10000 (constant (F := Ideal) S_ .f32 0x00000000#32)))
    (Host.rsqrt (F := Ideal) (φ := .f32) g) (broadcastInDim S10000 ![] bcast_S_S10000 (constant (F := Ideal) S_ .f32 0x00000000#32))

/-- The degrees when the first region is entered. -/
def deg (c : Dev nD) : Cn ⟨S10000, .f32⟩ := W4 m c main_v10
/-- The inverse-square-root degrees when the first region is entered. -/
def dinv (c : Dev nD) : Cn ⟨S10000, .f32⟩ := W4 m c main_v14

/-- The first two host stretches make the inverse-square-root degrees from the degrees they leave, whatever they start from. -/
theorem dinv_of (V : Valuation τ sig (Elt Ideal)) :
    StableHlo.after hostOps0_1 (StableHlo.after hostOps0 V) (Proc.devRef .tc main_v14)
      = dinvOf (StableHlo.after hostOps0 V (Proc.devRef .tc main_v10)) := by
  unfold dinvOf
  after_results
  simp only [ofBuf_toBuf, tb_v14, ob_v12, ob_v13, ob_cst_2]
  rfl

theorem dinv_eq (c : Dev nD) : dinv m c = dinvOf (deg m c) := by
  unfold dinv deg
  rw [show W4 m c main_v14 = StableHlo.after hostOps0_1 (StableHlo.after hostOps0 (Gen.V0 m c)) (Proc.devRef .tc main_v14) from
      (Gen.V4_of m c main_v14 (by decide)).trans (Gen.V3_of m c main_v14 (by decide)),
    show W4 m c main_v10 = StableHlo.after hostOps0 (Gen.V0 m c) (Proc.devRef .tc main_v10) from
      (Gen.V4_of m c main_v10 (by decide)).trans ((Gen.V3_of m c main_v10 (by decide)).trans (Gen.V2_of m c main_v10 (by decide)))]
  exact dinv_of (Gen.V0 m c)

/-- The inverse square root of a positive extended real is nonnegative: zero at infinity, a positive real's inverse root otherwise. -/
theorem rsqrt_nonneg_of_pos {x : EReal} (hx : 0 < x) : 0 ≤ Ideal.rsqrt x := by
  induction x using EReal.rec with
  | bot => exact absurd hx (by simp)
  | top => simp
  | coe r =>
    have hr : 0 < r := by exact_mod_cast hx
    rw [Ideal.rsqrt_coe, if_neg (not_lt.mpr hr.le), if_neg hr.ne']
    exact_mod_cast (inv_nonneg.mpr (Real.sqrt_nonneg r))

/-- Every inverse-square-root degree is nonnegative. -/
theorem dinvOf_nonneg (g : Cn ⟨S10000, .f32⟩) (i : S10000.Idx) : (0 : EReal) ≤ dinvOf g i := by
  have hz : (broadcastInDim S10000 ![] bcast_S_S10000 (constant (F := Ideal) S_ .f32 0x00000000#32) : Cn ⟨S10000, .f32⟩) i = (0 : EReal) :=
    (broadcastInDim_apply _ _ _ _ (fun d => d.elim0) (fun d => d.elim0)).trans Ideal.ofBits_zero_f32
  show (0 : EReal) ≤ Scalar.select (Ideal.cmp .ogt (g i)
    ((broadcastInDim S10000 ![] bcast_S_S10000 (constant (F := Ideal) S_ .f32 0x00000000#32) : Cn ⟨S10000, .f32⟩) i))
    (Ideal.rsqrt (g i)) ((broadcastInDim S10000 ![] bcast_S_S10000 (constant (F := Ideal) S_ .f32 0x00000000#32) : Cn ⟨S10000, .f32⟩) i)
  rw [hz]
  by_cases h : (0 : EReal) < g i
  · have hc : Ideal.cmp .ogt (g i) 0 = 1#1 := by
      show BitVec.ofBool (decide ((0 : EReal) < g i)) = 1#1
      rw [decide_eq_true h]; rfl
    rw [hc, select_one]
    exact rsqrt_nonneg_of_pos h
  · have hc : Ideal.cmp .ogt (g i) 0 = 0#1 := by
      show BitVec.ofBool (decide ((0 : EReal) < g i)) = 0#1
      rw [decide_eq_false h]; rfl
    rw [hc, select_zero]

/-- The third host stretch makes the weights as the product of two gathers of the inverse-square-root degrees it finds. -/
theorem nrm_of (V : Valuation τ sig (Elt Ideal)) :
    StableHlo.after hostOps0_2 V (Proc.devRef .tc main_v29)
      = mulf (F := Ideal) (φ := .f32)
          (Host.gather gather_S10000_S170000x1_S170000_n_0_n_n_0_1_1 (V (Proc.devRef .tc main_v14) : Cn ⟨S10000, .f32⟩)
            (StableHlo.after hostOps0_2 V (Proc.devRef .tc main_v20) : Cn ⟨S170000x1, .i32⟩))
          (Host.gather gather_S10000_S170000x1_S170000_n_0_n_n_0_1_1 (V (Proc.devRef .tc main_v14) : Cn ⟨S10000, .f32⟩)
            (StableHlo.after hostOps0_2 V (Proc.devRef .tc main_v27) : Cn ⟨S170000x1, .i32⟩)) := by
  after_results_simp

/-- The start indices of the two gathers: the sources and the destinations, normalised for a vector of 10000 entries, as columns. -/
def gSrc (c : Dev nD) : Cn ⟨S170000x1, .i32⟩ := W4 m c main_v20
/-- The destinations' column. -/
def gDst (c : Dev nD) : Cn ⟨S170000x1, .i32⟩ := W4 m c main_v27

/-- The weights over the folded names: the product of the inverse-square-root degrees gathered at the sources and at the destinations. -/
theorem nrm_eq (c : Dev nD) :
    nrm m c = mulf (F := Ideal) (φ := .f32) (Host.gather gather_S10000_S170000x1_S170000_n_0_n_n_0_1_1 (dinv m c) (gSrc m c))
      (Host.gather gather_S10000_S170000x1_S170000_n_0_n_n_0_1_1 (dinv m c) (gDst m c)) := by
  unfold nrm dinv gSrc gDst
  rw [W4_to3 m c main_v29 (by decide), W4_to3 m c main_v20 (by decide), W4_to3 m c main_v27 (by decide),
    show W4 m c main_v14 = Gen.V2 m c (Proc.devRef .tc main_v14) from
      (Gen.V4_of m c main_v14 (by decide)).trans (Gen.V3_of m c main_v14 (by decide))]
  exact nrm_of (Gen.V2 m c)

/-- EVERY EDGE WEIGHT IS NONNEGATIVE: a product of two inverse-square-root degrees. -/
theorem nrm_nonneg (c : Dev nD) (e : Fin 170000) : (0 : EReal) ≤ nrm m c (ix1 e) := by
  rw [nrm_eq, mulf_apply, dinv_eq]
  unfold Host.gather
  exact EReal.mul_nonneg (dinvOf_nonneg _ _) (dinvOf_nonneg _ _)

end Cert.KernelIdeal.Hand
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.FeatVal0.lean ====
/-
  Region 0 of the idealized kernel program, its value: the output array after the region is the matrix product of
  the two arrays the region found.

  Point `t` writes back rows `1024 t … 1024 t + 1023`; the block it writes is the product of the same rows of the
  input with the whole weight matrix, because at the ideal instance rounding to bf16 is the identity and the matrix
  unit's product into a zero accumulator is the plain sum over the contracted index. The ten row tiles cover the
  array, so the whole array is the whole product.
-/
import proofs.«160261_j68599217652370_2_alg».proof.Proof.Feat0
import proofs.«160261_j68599217652370_2_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's payload at an index: the sum over the contracted index of the products. -/
theorem pay0_apply (x : Vec Ideal S1024x128 .f32) (w : Vec Ideal S128x512 .f32) (j : S1024x512.Idx) :
    k0_pay1 x w j = ∑ k : Fin 128, x (ix2 ⟨(j 0).val, (j 0).isLt⟩ k) * w (ix2 k ⟨(j 1).val, (j 1).isLt⟩) := by
  unfold k0_pay1
  dsimp only
  simp only [shapeCast_self]
  exact Cert.Lib.PlainDot.matmul_zero_apply 1024 128 512 none _ _ j

/-- The whole product: what the output array ends holding. -/
def mm0 (X : S10240x128.Idx → EReal) (W : S128x512.Idx → EReal) : S10240x512.Idx → EReal :=
  fun i => ∑ k : Fin 128, X (ix2 ⟨(i 0).val, (i 0).isLt⟩ k) * W (ix2 k ⟨(i 1).val, (i 1).isLt⟩)

set_option maxHeartbeats 2000000 in
/-- The printed index maps over the grid: the input's and the output's row tile is the point's number, every other block
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 8000000 in
/-- What point `t` writes back is block `t` of the product of the arrays the region found. -/
theorem flushed0_eq (c : Dev nD) (t : Fin cfg0.N) :
    (dat0 V c).flushed 2 t = ((cfg0.win 2).blk t).view.read (Elt Ideal) (mm0 (V c (Pipeline.arrRef spec0 0)) (V c (Pipeline.arrRef spec0 1))) := by
  show (cfg0.win 2).cut (grid0.coords t) ((dat0 V c).after 2 t) = _
  rw [after0_2]
  unfold tile0
  rw [View.canon_unit_zero hz0]
  simp only [View.ld_unit_zero (S := S1024x128) hz0, View.ld_unit_zero (S := S128x512) hz0]
  obtain ⟨e0, e1, e2, e3, e4, e5⟩ := idx_facts0 t
  funext j
  refine (pay0_apply _ _ j).trans ?_
  show _ = mm0 (V c (Pipeline.arrRef spec0 0)) (V c (Pipeline.arrRef spec0 1)) (((cfg0.win 2).blk t).view.emb j)
  unfold mm0
  refine Finset.sum_congr rfl fun k _ => ?_
  have h0 : ((cfg0.win 0).blk t).view.emb (ix2 ⟨(j 0).val, (j 0).isLt⟩ k)
      = ix2 ⟨((((cfg0.win 2).blk t).view.emb j) 0).val, ((((cfg0.win 2).blk t).view.emb j) 0).isLt⟩ k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  have h1 : ((cfg0.win 1).blk t).view.emb (ix2 k ⟨(j 1).val, (j 1).isLt⟩)
      = ix2 k ⟨((((cfg0.win 2).blk t).view.emb j) 1).val, ((((cfg0.win 2).blk t).view.emb j) 1).isLt⟩ := by
    funext a; apply Fin.ext
    match a with
    | ⟨0, _⟩ => show win0_1.index t (0 : Fin 2) * 128 + 1 * k.val = k.val; omega
    | ⟨1, _⟩ => show win0_1.index t (1 : Fin 2) * 512 + 1 * (j 1).val = win0_2.index t (1 : Fin 2) * 512 + 1 * (j 1).val; omega
  have hx : (iblk0 V c 0 t (ix2 ⟨(j 0).val, (j 0).isLt⟩ k) : EReal)
      = (V c (Pipeline.arrRef spec0 0) (ix2 ⟨((((cfg0.win 2).blk t).view.emb j) 0).val, ((((cfg0.win 2).blk t).view.emb j) 0).isLt⟩ k) : EReal) :=
    congrArg (V c (Pipeline.arrRef spec0 0)) h0
  have hw : (iblk0 V c 1 t (ix2 k ⟨(j 1).val, (j 1).isLt⟩) : EReal)
      = (V c (Pipeline.arrRef spec0 1) (ix2 k ⟨((((cfg0.win 2).blk t).view.emb j) 1).val, ((((cfg0.win 2).blk t).view.emb j) 1).isLt⟩) : EReal) :=
    congrArg (V c (Pipeline.arrRef spec0 1)) h1
  exact congrArg₂ (fun a b : EReal => a * b) hx hw

/-- An index of the array is in point `t`'s block iff each coordinate is in the block's range on its axis. -/
theorem mem_blk0 (t : Fin cfg0.N) (i : S10240x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v47).slice (win0_2.rect t)).set ↔ _
  rw [View.set_slice_whole, Rect.mem_set_unit]
  exact Iff.rfl

/-- Every row tile is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The ten row tiles cover the array. -/
theorem cover0_arr (i : S10240x512.Idx) : ∃ t : Fin cfg0.N, (cfg0.win 2).flush t = true ∧ i ∈ ((cfg0.win 2).blk t).view.set := by
  have hi0 : (i 0).val < 10240 := (i 0).isLt
  have hi1 : (i 1).val < 512 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- THE ARRAY after the region: the product of the two arrays the region found. -/
theorem final0 (c : Dev nD) :
    (dat0 V c).arrAt 2 cfg0.N = mm0 (V c (Pipeline.arrRef spec0 0)) (V c (Pipeline.arrRef spec0 1)) :=
  (dat0 V c).arrAt_eq_of_cover 2 _ (fun t _ => flushed0_eq V c t) (cover0_arr)

end Cert.KernelIdeal.Hand

end
-- ==== Proof.FeatVal2.lean ====
/-
  Region 2 of the idealized kernel program, its value: the output array after the region is the matrix product of
  the two arrays the region found.

  Point `t` writes back rows `1024 t … 1024 t + 1023`; the block it writes is the product of the same rows of the
  input with the whole weight matrix, because at the ideal instance rounding to bf16 is the identity and the matrix
  unit's product into a zero accumulator is the plain sum over the contracted index. The ten row tiles cover the
  array, so the whole array is the whole product.
-/
import proofs.«160261_j68599217652370_2_alg».proof.Proof.Feat2
import proofs.«160261_j68599217652370_2_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's payload at an index: the sum over the contracted index of the products. -/
theorem pay2_apply (x : Vec Ideal S1024x512 .f32) (w : Vec Ideal S512x1024 .f32) (j : S1024x1024.Idx) :
    k2_pay1 x w j = ∑ k : Fin 512, x (ix2 ⟨(j 0).val, (j 0).isLt⟩ k) * w (ix2 k ⟨(j 1).val, (j 1).isLt⟩) := by
  unfold k2_pay1
  dsimp only
  simp only [shapeCast_self]
  exact Cert.Lib.PlainDot.matmul_zero_apply 1024 512 1024 none _ _ j

/-- The whole product: what the output array ends holding. -/
def mm2 (X : S10240x512.Idx → EReal) (W : S512x1024.Idx → EReal) : S10240x1024.Idx → EReal :=
  fun i => ∑ k : Fin 512, X (ix2 ⟨(i 0).val, (i 0).isLt⟩ k) * W (ix2 k ⟨(i 1).val, (i 1).isLt⟩)

set_option maxHeartbeats 2000000 in
/-- The printed index maps over the grid: the input's and the output's row tile is the point's number, every other block
    index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 8000000 in
/-- What point `t` writes back is block `t` of the product of the arrays the region found. -/
theorem flushed2_eq (c : Dev nD) (t : Fin cfg2.N) :
    (dat2 V c).flushed 2 t = ((cfg2.win 2).blk t).view.read (Elt Ideal) (mm2 (V c (Pipeline.arrRef spec2 0)) (V c (Pipeline.arrRef spec2 1))) := by
  show (cfg2.win 2).cut (grid2.coords t) ((dat2 V c).after 2 t) = _
  rw [after2_2]
  unfold tile2
  rw [View.canon_unit_zero hz2]
  simp only [View.ld_unit_zero (S := S1024x512) hz2, View.ld_unit_zero (S := S512x1024) hz2]
  obtain ⟨e0, e1, e2, e3, e4, e5⟩ := idx_facts2 t
  funext j
  refine (pay2_apply _ _ j).trans ?_
  show _ = mm2 (V c (Pipeline.arrRef spec2 0)) (V c (Pipeline.arrRef spec2 1)) (((cfg2.win 2).blk t).view.emb j)
  unfold mm2
  refine Finset.sum_congr rfl fun k _ => ?_
  have h0 : ((cfg2.win 0).blk t).view.emb (ix2 ⟨(j 0).val, (j 0).isLt⟩ k)
      = ix2 ⟨((((cfg2.win 2).blk t).view.emb j) 0).val, ((((cfg2.win 2).blk t).view.emb j) 0).isLt⟩ k := by
    funext a; apply Fin.ext
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 512 + 1 * k.val = k.val; omega
  have h1 : ((cfg2.win 1).blk t).view.emb (ix2 k ⟨(j 1).val, (j 1).isLt⟩)
      = ix2 k ⟨((((cfg2.win 2).blk t).view.emb j) 1).val, ((((cfg2.win 2).blk t).view.emb j) 1).isLt⟩ := by
    funext a; apply Fin.ext
    match a with
    | ⟨0, _⟩ => show win2_1.index t (0 : Fin 2) * 512 + 1 * k.val = k.val; omega
    | ⟨1, _⟩ => show win2_1.index t (1 : Fin 2) * 1024 + 1 * (j 1).val = win2_2.index t (1 : Fin 2) * 1024 + 1 * (j 1).val; omega
  have hx : (iblk2 V c 0 t (ix2 ⟨(j 0).val, (j 0).isLt⟩ k) : EReal)
      = (V c (Pipeline.arrRef spec2 0) (ix2 ⟨((((cfg2.win 2).blk t).view.emb j) 0).val, ((((cfg2.win 2).blk t).view.emb j) 0).isLt⟩ k) : EReal) :=
    congrArg (V c (Pipeline.arrRef spec2 0)) h0
  have hw : (iblk2 V c 1 t (ix2 k ⟨(j 1).val, (j 1).isLt⟩) : EReal)
      = (V c (Pipeline.arrRef spec2 1) (ix2 k ⟨((((cfg2.win 2).blk t).view.emb j) 1).val, ((((cfg2.win 2).blk t).view.emb j) 1).isLt⟩) : EReal) :=
    congrArg (V c (Pipeline.arrRef spec2 1)) h1
  exact congrArg₂ (fun a b : EReal => a * b) hx hw

/-- An index of the array is in point `t`'s block iff each coordinate is in the block's range on its axis. -/
theorem mem_blk2 (t : Fin cfg2.N) (i : S10240x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v50).slice (win2_2.rect t)).set ↔ _
  rw [View.set_slice_whole, Rect.mem_set_unit]
  exact Iff.rfl

/-- Every row tile is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- The ten row tiles cover the array. -/
theorem cover2_arr (i : S10240x1024.Idx) : ∃ t : Fin cfg2.N, (cfg2.win 2).flush t = true ∧ i ∈ ((cfg2.win 2).blk t).view.set := by
  have hi0 : (i 0).val < 10240 := (i 0).isLt
  have hi1 : (i 1).val < 1024 := (i 1).isLt
  obtain ⟨t, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- THE ARRAY after the region: the product of the two arrays the region found. -/
theorem final2 (c : Dev nD) :
    (dat2 V c).arrAt 2 cfg2.N = mm2 (V c (Pipeline.arrRef spec2 0)) (V c (Pipeline.arrRef spec2 1)) :=
  (dat2 V c).arrAt_eq_of_cover 2 _ (fun t _ => flushed2_eq V c t) (cover2_arr)

end Cert.KernelIdeal.Hand

end
-- ==== Proof.FeatVal4.lean ====
/-
  Region 4 of the idealized kernel program, its value: the output array after the region is the matrix product of
  the two arrays the region found.

  Point `t` writes back rows `1024 t … 1024 t + 1023`; the block it writes is the product of the same rows of the
  input with the whole weight matrix, because at the ideal instance rounding to bf16 is the identity and the matrix
  unit's product into a zero accumulator is the plain sum over the contracted index. The ten row tiles cover the
  array, so the whole array is the whole product.
-/
import proofs.«160261_j68599217652370_2_alg».proof.Proof.Feat4
import proofs.«160261_j68599217652370_2_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The body's payload at an index: the sum over the contracted index of the products. -/
theorem pay4_apply (x : Vec Ideal S1024x1024 .f32) (w : Vec Ideal S1024x512 .f32) (j : S1024x512.Idx) :
    k4_pay1 x w j = ∑ k : Fin 1024, x (ix2 ⟨(j 0).val, (j 0).isLt⟩ k) * w (ix2 k ⟨(j 1).val, (j 1).isLt⟩) := by
  unfold k4_pay1
  dsimp only
  simp only [shapeCast_self]
  exact Cert.Lib.PlainDot.matmul_zero_apply 1024 1024 512 none _ _ j

/-- The whole product: what the output array ends holding. -/
def mm4 (X : S10240x1024.Idx → EReal) (W : S1024x512.Idx → EReal) : S10240x512.Idx → EReal :=
  fun i => ∑ k : Fin 1024, X (ix2 ⟨(i 0).val, (i 0).isLt⟩ k) * W (ix2 k ⟨(i 1).val, (i 1).isLt⟩)

set_option maxHeartbeats 2000000 in
/-- The printed index maps over the grid: the input's and the output's row tile is the point's number, every other block
    index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 8000000 in
/-- What point `t` writes back is block `t` of the product of the arrays the region found. -/
theorem flushed4_eq (c : Dev nD) (t : Fin cfg4.N) :
    (dat4 V c).flushed 2 t = ((cfg4.win 2).blk t).view.read (Elt Ideal) (mm4 (V c (Pipeline.arrRef spec4 0)) (V c (Pipeline.arrRef spec4 1))) := by
  show (cfg4.win 2).cut (grid4.coords t) ((dat4 V c).after 2 t) = _
  rw [after4_2]
  unfold tile4
  rw [View.canon_unit_zero hz4]
  simp only [View.ld_unit_zero (S := S1024x1024) hz4, View.ld_unit_zero (S := S1024x512) hz4]
  obtain ⟨e0, e1, e2, e3, e4, e5⟩ := idx_facts4 t
  funext j
  refine (pay4_apply _ _ j).trans ?_
  show _ = mm4 (V c (Pipeline.arrRef spec4 0)) (V c (Pipeline.arrRef spec4 1)) (((cfg4.win 2).blk t).view.emb j)
  unfold mm4
  refine Finset.sum_congr rfl fun k _ => ?_
  have h0 : ((cfg4.win 0).blk t).view.emb (ix2 ⟨(j 0).val, (j 0).isLt⟩ k)
      = ix2 ⟨((((cfg4.win 2).blk t).view.emb j) 0).val, ((((cfg4.win 2).blk t).view.emb j) 0).isLt⟩ k := by
    funext a; apply Fin.ext
    match a with
    | ⟨0, _⟩ => show win4_0.index t (0 : Fin 2) * 1024 + 1 * (j 0).val = win4_2.index t (0 : Fin 2) * 1024 + 1 * (j 0).val; omega
    | ⟨1, _⟩ => show win4_0.index t (1 : Fin 2) * 1024 + 1 * k.val = k.val; omega
  have h1 : ((cfg4.win 1).blk t).view.emb (ix2 k ⟨(j 1).val, (j 1).isLt⟩)
      = ix2 k ⟨((((cfg4.win 2).blk t).view.emb j) 1).val, ((((cfg4.win 2).blk t).view.emb j) 1).isLt⟩ := by
    funext a; apply Fin.ext
    match a with
    | ⟨0, _⟩ => show win4_1.index t (0 : Fin 2) * 1024 + 1 * k.val = k.val; omega
    | ⟨1, _⟩ => show win4_1.index t (1 : Fin 2) * 512 + 1 * (j 1).val = win4_2.index t (1 : Fin 2) * 512 + 1 * (j 1).val; omega
  have hx : (iblk4 V c 0 t (ix2 ⟨(j 0).val, (j 0).isLt⟩ k) : EReal)
      = (V c (Pipeline.arrRef spec4 0) (ix2 ⟨((((cfg4.win 2).blk t).view.emb j) 0).val, ((((cfg4.win 2).blk t).view.emb j) 0).isLt⟩ k) : EReal) :=
    congrArg (V c (Pipeline.arrRef spec4 0)) h0
  have hw : (iblk4 V c 1 t (ix2 k ⟨(j 1).val, (j 1).isLt⟩) : EReal)
      = (V c (Pipeline.arrRef spec4 1) (ix2 k ⟨((((cfg4.win 2).blk t).view.emb j) 1).val, ((((cfg4.win 2).blk t).view.emb j) 1).isLt⟩) : EReal) :=
    congrArg (V c (Pipeline.arrRef spec4 1)) h1
  exact congrArg₂ (fun a b : EReal => a * b) hx hw

/-- An index of the array is in point `t`'s block iff each coordinate is in the block's range on its axis. -/
theorem mem_blk4 (t : Fin cfg4.N) (i : S10240x512.Idx) :
    i ∈ ((cfg4.win 2).blk t).view.set ↔ ∀ a : Fin 2, win4_2.index t a * S1024x512.size a ≤ (i a).val ∧ (i a).val < win4_2.index t a * S1024x512.size a + S1024x512.size a := by
  show i ∈ ((View.whole main_v53).slice (win4_2.rect t)).set ↔ _
  rw [View.set_slice_whole, Rect.mem_set_unit]
  exact Iff.rfl

/-- Every row tile is some point's. -/
theorem idx_onto4 : ∀ q0 : Fin 10, ∃ t : Fin cfg4.N, win4_2.index t = ![q0.val, 0] :=
  (by decide +kernel : ∀ q0 : Fin 10, ∃ t : Fin grid4.N, win4_2.index t = ![q0.val, 0])

/-- The ten row tiles cover the array. -/
theorem cover4_arr (i : S10240x512.Idx) : ∃ t : Fin cfg4.N, (cfg4.win 2).flush t = true ∧ i ∈ ((cfg4.win 2).blk t).view.set := by
  have hi0 : (i 0).val < 10240 := (i 0).isLt
  have hi1 : (i 1).val < 512 := (i 1).isLt
  obtain ⟨t, ht⟩ := idx_onto4 ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 512 ≤ (i 1).val ∧ (i 1).val < win4_2.index t (1 : Fin 2) * 512 + 512; omega

/-- THE ARRAY after the region: the product of the two arrays the region found. -/
theorem final4 (c : Dev nD) :
    (dat4 V c).arrAt 2 cfg4.N = mm4 (V c (Pipeline.arrRef spec4 0)) (V c (Pipeline.arrRef spec4 1)) :=
  (dat4 V c).arrAt_eq_of_cover 2 _ (fun t _ => flushed4_eq V c t) (cover4_arr)

end Cert.KernelIdeal.Hand

end
-- ==== Proof.FeatVal6.lean ====
/-
  Region 6 of the idealized kernel program, its value: the output array after the region is the matrix product of
  the two arrays the region found.

  Point `t` writes back rows `1024 t … 1024 t + 1023`; the block it writes is the product of the same rows of the
  input with the whole weight matrix, because at the ideal instance rounding to bf16 is the identity and the matrix
  unit's product into a zero accumulator is the plain sum over the contracted index. The ten row tiles cover the
  array, so the whole array is the whole product.
-/
import proofs.«160261_j68599217652370_2_alg».proof.Proof.Feat6
import proofs.«160261_j68599217652370_2_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The body's payload at an index: the sum over the contracted index of the products. -/
theorem pay6_apply (x : Vec Ideal S1024x512 .f32) (w : Vec Ideal S512x128 .f32) (j : S1024x128.Idx) :
    k6_pay1 x w j = ∑ k : Fin 512, x (ix2 ⟨(j 0).val, (j 0).isLt⟩ k) * w (ix2 k ⟨(j 1).val, (j 1).isLt⟩) := by
  unfold k6_pay1
  dsimp only
  simp only [shapeCast_self]
  exact Cert.Lib.PlainDot.matmul_zero_apply 1024 512 128 none _ _ j

/-- The whole product: what the output array ends holding. -/
def mm6 (X : S10240x512.Idx → EReal) (W : S512x128.Idx → EReal) : S10240x128.Idx → EReal :=
  fun i => ∑ k : Fin 512, X (ix2 ⟨(i 0).val, (i 0).isLt⟩ k) * W (ix2 k ⟨(i 1).val, (i 1).isLt⟩)

set_option maxHeartbeats 2000000 in
/-- The printed index maps over the grid: the input's and the output's row tile is the point's number, every other block
    index is zero. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 8000000 in
/-- What point `t` writes back is block `t` of the product of the arrays the region found. -/
theorem flushed6_eq (c : Dev nD) (t : Fin cfg6.N) :
    (dat6 V c).flushed 2 t = ((cfg6.win 2).blk t).view.read (Elt Ideal) (mm6 (V c (Pipeline.arrRef spec6 0)) (V c (Pipeline.arrRef spec6 1))) := by
  show (cfg6.win 2).cut (grid6.coords t) ((dat6 V c).after 2 t) = _
  rw [after6_2]
  unfold tile6
  rw [View.canon_unit_zero hz6]
  simp only [View.ld_unit_zero (S := S1024x512) hz6, View.ld_unit_zero (S := S512x128) hz6]
  obtain ⟨e0, e1, e2, e3, e4, e5⟩ := idx_facts6 t
  funext j
  refine (pay6_apply _ _ j).trans ?_
  show _ = mm6 (V c (Pipeline.arrRef spec6 0)) (V c (Pipeline.arrRef spec6 1)) (((cfg6.win 2).blk t).view.emb j)
  unfold mm6
  refine Finset.sum_congr rfl fun k _ => ?_
  have h0 : ((cfg6.win 0).blk t).view.emb (ix2 ⟨(j 0).val, (j 0).isLt⟩ k)
      = ix2 ⟨((((cfg6.win 2).blk t).view.emb j) 0).val, ((((cfg6.win 2).blk t).view.emb j) 0).isLt⟩ k := by
    funext a; apply Fin.ext
    match a with
    | ⟨0, _⟩ => show win6_0.index t (0 : Fin 2) * 1024 + 1 * (j 0).val = win6_2.index t (0 : Fin 2) * 1024 + 1 * (j 0).val; omega
    | ⟨1, _⟩ => show win6_0.index t (1 : Fin 2) * 512 + 1 * k.val = k.val; omega
  have h1 : ((cfg6.win 1).blk t).view.emb (ix2 k ⟨(j 1).val, (j 1).isLt⟩)
      = ix2 k ⟨((((cfg6.win 2).blk t).view.emb j) 1).val, ((((cfg6.win 2).blk t).view.emb j) 1).isLt⟩ := by
    funext a; apply Fin.ext
    match a with
    | ⟨0, _⟩ => show win6_1.index t (0 : Fin 2) * 512 + 1 * k.val = k.val; omega
    | ⟨1, _⟩ => show win6_1.index t (1 : Fin 2) * 128 + 1 * (j 1).val = win6_2.index t (1 : Fin 2) * 128 + 1 * (j 1).val; omega
  have hx : (iblk6 V c 0 t (ix2 ⟨(j 0).val, (j 0).isLt⟩ k) : EReal)
      = (V c (Pipeline.arrRef spec6 0) (ix2 ⟨((((cfg6.win 2).blk t).view.emb j) 0).val, ((((cfg6.win 2).blk t).view.emb j) 0).isLt⟩ k) : EReal) :=
    congrArg (V c (Pipeline.arrRef spec6 0)) h0
  have hw : (iblk6 V c 1 t (ix2 k ⟨(j 1).val, (j 1).isLt⟩) : EReal)
      = (V c (Pipeline.arrRef spec6 1) (ix2 k ⟨((((cfg6.win 2).blk t).view.emb j) 1).val, ((((cfg6.win 2).blk t).view.emb j) 1).isLt⟩) : EReal) :=
    congrArg (V c (Pipeline.arrRef spec6 1)) h1
  exact congrArg₂ (fun a b : EReal => a * b) hx hw

/-- An index of the array is in point `t`'s block iff each coordinate is in the block's range on its axis. -/
theorem mem_blk6 (t : Fin cfg6.N) (i : S10240x128.Idx) :
    i ∈ ((cfg6.win 2).blk t).view.set ↔ ∀ a : Fin 2, win6_2.index t a * S1024x128.size a ≤ (i a).val ∧ (i a).val < win6_2.index t a * S1024x128.size a + S1024x128.size a := by
  show i ∈ ((View.whole main_v58).slice (win6_2.rect t)).set ↔ _
  rw [View.set_slice_whole, Rect.mem_set_unit]
  exact Iff.rfl

/-- Every row tile is some point's. -/
theorem idx_onto6 : ∀ q0 : Fin 10, ∃ t : Fin cfg6.N, win6_2.index t = ![q0.val, 0] :=
  (by decide +kernel : ∀ q0 : Fin 10, ∃ t : Fin grid6.N, win6_2.index t = ![q0.val, 0])

/-- The ten row tiles cover the array. -/
theorem cover6_arr (i : S10240x128.Idx) : ∃ t : Fin cfg6.N, (cfg6.win 2).flush t = true ∧ i ∈ ((cfg6.win 2).blk t).view.set := by
  have hi0 : (i 0).val < 10240 := (i 0).isLt
  have hi1 : (i 1).val < 128 := (i 1).isLt
  obtain ⟨t, ht⟩ := idx_onto6 ⟨(i 0).val / 1024, by omega⟩
  have q0 : win6_2.index t (0 : Fin 2) = (i 0).val / 1024 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 1024 ≤ (i 0).val ∧ (i 0).val < win6_2.index t (0 : Fin 2) * 1024 + 1024; omega
  | ⟨1, _⟩ => show win6_2.index t (1 : Fin 2) * 128 ≤ (i 1).val ∧ (i 1).val < win6_2.index t (1 : Fin 2) * 128 + 128; omega

/-- THE ARRAY after the region: the product of the two arrays the region found. -/
theorem final6 (c : Dev nD) :
    (dat6 V c).arrAt 2 cfg6.N = mm6 (V c (Pipeline.arrRef spec6 0)) (V c (Pipeline.arrRef spec6 1)) :=
  (dat6 V c).arrAt_eq_of_cover 2 _ (fun t _ => flushed6_eq V c t) (cover6_arr)

end Cert.KernelIdeal.Hand

end
-- ==== Proof.LibBlockSums.lean ====
/-
  Two regroupings of finite sums that a tiled, padded matrix product needs.

  A product accumulated block by block along the contracted axis is the whole product: summing over `p` blocks and,
  inside each, over `q` positions visits every index below `p * q` once, as `k * q + j`. And a contraction over an
  axis padded from `n` to `n'` entries is the contraction over the first `n` when every padded term is zero.
-/
import Mathlib.Algebra.BigOperators.Fin
import Mathlib.Algebra.BigOperators.Group.Finset.Basic
import Mathlib.Logic.Equiv.Fin.Basic
import Mathlib.Tactic.Ring

namespace Cert.Lib.BlockSums

open Finset

variable {M : Type*} [AddCommMonoid M]

/-- Summing block by block: `p` blocks of `q` consecutive indices are the indices below `p * q`. -/
theorem sum_blocks (p q : ℕ) (f : ℕ → M) :
    ∑ k : Fin p, ∑ j : Fin q, f (k.val * q + j.val) = ∑ i : Fin (p * q), f i.val := by
  rw [← Finset.sum_product', Finset.univ_product_univ]
  refine Fintype.sum_equiv (finProdFinEquiv (m := p) (n := q)) _ _ fun x => ?_
  obtain ⟨k, j⟩ := x
  show f (k.val * q + j.val) = f (finProdFinEquiv (k, j)).val
  congr 1
  rw [finProdFinEquiv_apply_val]
  ring

/-- A sum over a padded range whose padding contributes nothing is the sum over the unpadded range. -/
theorem sum_padded {n n' : ℕ} (h : n ≤ n') (f : ℕ → M) (hz : ∀ i, n ≤ i → i < n' → f i = 0) :
    ∑ i : Fin n', f i.val = ∑ i : Fin n, f i.val := by
  rw [Fin.sum_univ_eq_sum_range (fun i => f i) n', Fin.sum_univ_eq_sum_range (fun i => f i) n]
  refine (Finset.sum_subset (Finset.range_mono h) fun i hi hni => ?_).symm
  exact hz i (by simpa using hni) (Finset.mem_range.mp hi)

end Cert.Lib.BlockSums
-- ==== Proof.AggVal1.lean ====
/-
  Region 1 of the kernel program, its value: what the aggregation `relu (A @ h + b)` leaves in its result array, as one
  function of the arrays the region found.

  The body's three pure payloads are read at an index over the extended reals: the reset is zero, a reduction step adds
  to the accumulator the product of a 512 x 1024 block of the matrix with 1024 rows of the features, and the last step
  adds the bias row and clamps below at zero. Each control case's found pieces are one covering store of such a payload.
  By induction over the grid points the accumulator after step `k` of a row tile is the partial product over the first
  `k + 1` column blocks; the last step of each row tile writes the tile back, the ten blocks of 1024 columns regroup
  into one sum over all 10240 columns, and the twenty tiles cover the array.
-/
import proofs.«160261_j68599217652370_2_alg».proof.Proof.Agg1
import proofs.«160261_j68599217652370_2_alg».proof.Proof.LibPlainDot
import proofs.«160261_j68599217652370_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The payloads at an index -/

/-- The reset stores zero. -/
theorem pay1_1_apply (j : S512x512.Idx) : k1_pay1 (F := Ideal) j = 0 := by
  unfold k1_pay1
  (try dsimp only)
  rw [shapeCast_self]
  exact Ideal.ofBits_zero_f32

/-- A reduction step: the accumulator plus the block product, the contracted coordinate running over the block's 1024 columns. -/
theorem pay1_2_apply (a : Vec Ideal S512x1024 .bf16) (hb : Vec Ideal S1024x512 .bf16) (acc : Vec Ideal S512x512 .f32) (j : S512x512.Idx) :
    k1_pay2 a hb acc j = acc j + ∑ k : Fin 1024, a (ix2 ⟨(j 0).val, (j 0).isLt⟩ k) * hb (ix2 k ⟨(j 1).val, (j 1).isLt⟩) := by
  unfold k1_pay2
  (try dsimp only)
  rw [shapeCast_self, shapeCast_self, shapeCast_self]
  refine (addf_apply _ _ j).trans ?_
  exact congrArg (acc j + ·) (Cert.Lib.PlainDot.matmul_zero_apply 512 1024 512 none _ _ j)

/-- The same at explicit coordinates. -/
theorem pay1_2_at (a : Vec Ideal S512x1024 .bf16) (hb : Vec Ideal S1024x512 .bf16) (acc : Vec Ideal S512x512 .f32) (r : Fin 512) (cc : Fin 512) :
    k1_pay2 a hb acc (ix2 r cc) = acc (ix2 r cc) + ∑ k : Fin 1024, a (ix2 r k) * hb (ix2 k cc) :=
  pay1_2_apply a hb acc (ix2 r cc)

/-- The last step at explicit coordinates: accumulator plus the bias row, clamped below at zero. -/
theorem pay1_3_at (acc : Vec Ideal S512x512 .f32) (b : Vec Ideal S1x512 .f32) (r : Fin 512) (cc : Fin 512) :
    k1_pay3 acc b (ix2 r cc) = max (acc (ix2 r cc) + b (ix2 0 cc)) 0 := by
  unfold k1_pay3
  (try dsimp only)
  rw [shapeCast_self]
  refine (maximumf_apply _ _ _).trans ?_
  refine congrArg₂ max ?_ Ideal.ofBits_zero_f32
  refine (addf_apply _ _ _).trans ?_
  refine congrArg (acc (ix2 r cc) + ·) ?_
  refine broadcastTo_apply _ _ _ (ix2 0 cc) fun a => ?_
  match a with
  | ⟨0, _⟩ => rfl
  | ⟨1, _⟩ => rfl

/-- The last step at an index. -/
theorem pay1_3_apply (acc : Vec Ideal S512x512 .f32) (b : Vec Ideal S1x512 .f32) (j : S512x512.Idx) :
    k1_pay3 acc b j = max (acc j + b (ix2 0 ⟨(j 1).val, (j 1).isLt⟩)) 0 := by
  have e := pay1_3_at acc b ⟨(j 0).val, (j 0).isLt⟩ ⟨(j 1).val, (j 1).isLt⟩
  have ej : (ix2 (⟨(j 0).val, (j 0).isLt⟩ : Fin 512) (⟨(j 1).val, (j 1).isLt⟩ : Fin 512) : S512x512.Idx) = j := by
    funext a
    match a with
    | ⟨0, _⟩ => rfl
    | ⟨1, _⟩ => rfl
  rw [ej] at e
  exact e

/-! ## The found pieces are payloads of the blocks -/

section Pieces

variable {F : FTy → Type} [FloatOps F]

theorem hz1 : (![0, 0] : Fin 2 → Nat) = fun _ => 0 := funext fun a => by fin_cases a <;> rfl

/-- A middle step leaves in the accumulator the step's payload of the matrix block, the 1024 feature rows at the step's
    offset, and what the accumulator held. -/
theorem sout1_B_eq (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : ¬cond1_1 i) (x0 : Vec F S512x1024 .bf16) (x1 : Vec F S10240x512 .bf16) (x2 : Vec F S1x512 .f32) (xs0 : Vec F S512x512 .f32) :
    sout1_B c i arg2 harg2 arg3 harg3 arg4 harg4 arg5 harg5 arg6 harg6 hc0 hc1 x0 x1 x2 xs0 = k1_pay2 x0 (View.ld x1 (Rect.unit (s := S10240x512) (k1_off1 i) S1024x512.size (k1_off1_inb i))) xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero hz1]
  simp only [View.readAt_eq_ld, harg2.read_unread, harg3.read_unread, harg6.read_unread, View.ld_unit_zero (S := S512x1024) hz1, View.ld_unit_zero (S := S512x512) hz1]

/-- The first step leaves the same payload over the zero it has just stored. -/
theorem sout1_A_eq (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond1_0 i) (hc1 : ¬cond1_1 i) (x0 : Vec F S512x1024 .bf16) (x1 : Vec F S10240x512 .bf16) (x2 : Vec F S1x512 .f32) :
    sout1_A c i arg2 harg2 arg3 harg3 arg4 harg4 arg5 harg5 arg6 harg6 hc0 hc1 x0 x1 x2 = k1_pay2 x0 (View.ld x1 (Rect.unit (s := S10240x512) (k1_off1 i) S1024x512.size (k1_off1_inb i))) k1_pay1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S512x512) hz1, View.readCov_unit_zero (S := S512x512) _ hz1]
  simp only [View.readAt_eq_ld, harg2.read_unread, harg3.read_unread, View.ld_unit_zero (S := S512x1024) hz1, View.ld_unit_zero (S := S512x512) hz1]

/-- The last step leaves in the accumulator what a middle step does, -/
theorem sout1_C_eq (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) :
    sout1_C c i arg2 harg2 arg3 harg3 arg4 harg4 arg5 harg5 arg6 harg6 hc0 hc1 x0 x1 x2 xs0 = k1_pay2 x0 (View.ld x1 (Rect.unit (s := S10240x512) (k1_off1 i) S1024x512.size (k1_off1_inb i))) xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg6.read_unread, View.ld_unit_zero (S := S512x1024) hz1, View.ld_unit_zero (S := S512x512) hz1]

/-- and in the result's buffer the closing payload of that new accumulator and the bias row. -/
theorem out1_C_eq (c : Dev nD) (i : grid1.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond1_0 i) (hc1 : cond1_1 i) (x0 : Vec F S512x1024 .bf16) (x1 : Vec F S10240x512 .bf16) (x2 : Vec F S1x512 .f32) (xs0 : Vec F S512x512 .f32) :
    out1_C_3 c i arg2 harg2 arg3 harg3 arg4 harg4 arg5 harg5 arg6 harg6 hc0 hc1 x0 x1 x2 xs0 = k1_pay3 (k1_pay2 x0 (View.ld x1 (Rect.unit (s := S10240x512) (k1_off1 i) S1024x512.size (k1_off1_inb i))) xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz1]
  simp only [View.readCov_unit_zero (S := S512x512) _ hz1, View.readAt_eq_ld, harg2.read_unread, harg3.read_unread, harg4.read_unread, harg6.read_unread, View.ld_unit_zero (S := S512x1024) hz1, View.ld_unit_zero (S := S512x512) hz1, View.ld_unit_zero (S := S1x512) hz1]

end Pieces

/-! ## Blocks read off the arrays -/

section Value

variable (V : (c : Dev nD) → (b : Ref sig .tc) → Buf (Elt Ideal) ((c : Thread nD τ).loc b))

/-- The dense matrix, the features and the bias row as the region finds them. -/
abbrev Amat1 (c : Dev nD) : Vec Ideal S10240x10240 .bf16 := V c (Pipeline.arrRef spec1 0)
abbrev Hmat1 (c : Dev nD) : Vec Ideal S10240x512 .bf16 := V c (Pipeline.arrRef spec1 1)
abbrev Bvec1 (c : Dev nD) : Vec Ideal S1x512 .f32 := V c (Pipeline.arrRef spec1 2)

theorem lt_N1 (t : Fin cfg1.N) : t.val < 200 := Nat.lt_of_lt_of_eq t.isLt (show cfg1.N = 200 from N_1)

/-- Entry `(i, j)` of a matrix, and zero outside it: sums over row and column numbers are then sums over naturals. -/
def entry1 {n0 n1 : ℕ} (X : (⟨2, ![n0, n1]⟩ : Shape).Idx → EReal) (i j : ℕ) : EReal :=
  if h : i < n0 ∧ j < n1 then X (ix2 ⟨i, h.1⟩ ⟨j, h.2⟩) else 0

theorem entry1_of_lt {n0 n1 : ℕ} (X : (⟨2, ![n0, n1]⟩ : Shape).Idx → EReal) (i j : ℕ) (hi : i < n0) (hj : j < n1) :
    entry1 X i j = X (ix2 ⟨i, hi⟩ ⟨j, hj⟩) := dif_pos ⟨hi, hj⟩

/-- The printed index maps over the grid: point `t` is row tile `t / 10`, step `t % 10`; the matrix's block moves with both,
    the result's with the tile, the features and the bias stay, and the body loads its feature rows at `1024 (t % 10)`. -/
theorem idx_facts1 : ∀ t : Fin cfg1.N, win1_0.index t (0 : Fin 2) = t.val / 10 ∧ win1_0.index t (1 : Fin 2) = t.val % 10
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 10 ∧ win1_3.index t (1 : Fin 2) = 0
    ∧ k1_off1 (grid1.coords t) (0 : Fin 2) = 1024 * (t.val % 10) ∧ k1_off1 (grid1.coords t) (1 : Fin 2) = 0 :=
  (by decide +kernel : ∀ t : Fin grid1.N, _)

/-- The matrix's block at point `t`: rows `512 (t / 10) …`, columns `1024 (t % 10) …`. -/
theorem blk1_0_entry (c : Dev nD) (t : Fin cfg1.N) (r : Fin 512) (j' : Fin 1024) :
    (iblk1 V c 0 t : Vec Ideal S512x1024 .bf16) (ix2 r j') = entry1 (Amat1 V c) (512 * (t.val / 10) + r.val) (t.val % 10 * 1024 + j'.val) := by
  have ht := lt_N1 t
  obtain ⟨e0, e1, -⟩ := idx_facts1 t
  rw [entry1_of_lt _ _ _ (by omega) (by omega)]
  unfold iblk1
  rw [View.read_apply]
  show V c (Pipeline.arrRef spec1 0) (((cfg1.win 0).blk t).view.emb (ix2 r j')) = V c (Pipeline.arrRef spec1 0) _
  refine congrArg (V c (Pipeline.arrRef spec1 0)) (funext fun a => Fin.ext ?_)
  match a with
  | ⟨0, _⟩ => show win1_0.index t (0 : Fin 2) * 512 + 1 * r.val = 512 * (t.val / 10) + r.val; rw [e0]; omega
  | ⟨1, _⟩ => show win1_0.index t (1 : Fin 2) * 1024 + 1 * j'.val = t.val % 10 * 1024 + j'.val; rw [e1]; omega

/-- The features' block is the whole array, and the body's load takes its rows `1024 (t % 10) …`. -/
theorem blk1_1_entry (c : Dev nD) (t : Fin cfg1.N) (j' : Fin 1024) (cc : Fin 512) :
    (View.ld (iblk1 V c 1 t : Vec Ideal S10240x512 .bf16) (Rect.unit (s := S10240x512) (k1_off1 (grid1.coords t)) S1024x512.size (k1_off1_inb (grid1.coords t)))) (ix2 j' cc)
      = entry1 (Hmat1 V c) (t.val % 10 * 1024 + j'.val) cc.val := by
  have ht := lt_N1 t
  obtain ⟨-, -, e2, e3, -, -, -, -, e8, e9⟩ := idx_facts1 t
  rw [entry1_of_lt _ _ _ (by omega) cc.isLt]
  unfold iblk1
  show View.read _ _ _ ((Rect.unit (s := S10240x512) (k1_off1 (grid1.coords t)) S1024x512.size (k1_off1_inb (grid1.coords t))).idx (ix2 j' cc)) = _
  rw [View.read_apply]
  show V c (Pipeline.arrRef spec1 1) (((cfg1.win 1).blk t).view.emb _) = V c (Pipeline.arrRef spec1 1) _
  refine congrArg (V c (Pipeline.arrRef spec1 1)) (funext fun a => Fin.ext ?_)
  match a with
  | ⟨0, _⟩ => show win1_1.index t (0 : Fin 2) * 10240 + 1 * (k1_off1 (grid1.coords t) (0 : Fin 2) + 1 * j'.val) = t.val % 10 * 1024 + j'.val; rw [e2, e8]; omega
  | ⟨1, _⟩ => show win1_1.index t (1 : Fin 2) * 512 + 1 * (k1_off1 (grid1.coords t) (1 : Fin 2) + 1 * cc.val) = cc.val; rw [e3, e9]; omega

/-- The bias's block is the whole row. -/
theorem blk1_2_at (c : Dev nD) (t : Fin cfg1.N) (cc : Fin 512) :
    (iblk1 V c 2 t : Vec Ideal S1x512 .f32) (ix2 0 cc) = Bvec1 V c (ix2 0 cc) := by
  obtain ⟨-, -, -, -, e4, e5, -⟩ := idx_facts1 t
  unfold iblk1
  rw [View.read_apply]
  show V c (Pipeline.arrRef spec1 2) (((cfg1.win 2).blk t).view.emb (ix2 0 cc)) = V c (Pipeline.arrRef spec1 2) _
  refine congrArg (V c (Pipeline.arrRef spec1 2)) (funext fun a => Fin.ext ?_)
  match a with
  | ⟨0, _⟩ => show win1_2.index t (0 : Fin 2) * 1 + 1 * 0 = 0; rw [e4]
  | ⟨1, _⟩ => show win1_2.index t (1 : Fin 2) * 512 + 1 * cc.val = cc.val; rw [e5]; omega

/-! ## The accumulator after each point -/

/-- After a first step the accumulator is the step's payload over zero. -/
theorem acc1_A (c : Dev nD) (t : Fin cfg1.N) (h0 : t.val % 10 = 0) (h1 : ¬t.val % 10 = 9) :
    (outsAt1 V c t.val t.isLt).2 = k1_pay2 (iblk1 V c 0 t) (View.ld (iblk1 V c 1 t : Vec Ideal S10240x512 .bf16) (Rect.unit (s := S10240x512) (k1_off1 (grid1.coords t)) S1024x512.size (k1_off1_inb (grid1.coords t)))) (k1_pay1 (F := Ideal)) := by
  rw [outsAt1_A V c t h0 h1]
  dsimp only
  exact sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- After a middle step it is the step's payload over what the point before left. -/
theorem acc1_B (c : Dev nD) (t : Fin cfg1.N) (h0 : ¬t.val % 10 = 0) (h1 : ¬t.val % 10 = 9) :
    (outsAt1 V c t.val t.isLt).2 = k1_pay2 (iblk1 V c 0 t) (View.ld (iblk1 V c 1 t : Vec Ideal S10240x512 .bf16) (Rect.unit (s := S10240x512) (k1_off1 (grid1.coords t)) S1024x512.size (k1_off1_inb (grid1.coords t)))) (outsAt1 V c (t.val - 1) (Nat.lt_of_le_of_lt (Nat.sub_le _ _) t.isLt)).2 := by
  rw [outsAt1_B V c t h0 h1]
  dsimp only
  exact sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- After a last step likewise, -/
theorem acc1_C (c : Dev nD) (t : Fin cfg1.N) (h0 : ¬t.val % 10 = 0) (h1 : t.val % 10 = 9) :
    (outsAt1 V c t.val t.isLt).2 = k1_pay2 (iblk1 V c 0 t) (View.ld (iblk1 V c 1 t : Vec Ideal S10240x512 .bf16) (Rect.unit (s := S10240x512) (k1_off1 (grid1.coords t)) S1024x512.size (k1_off1_inb (grid1.coords t)))) (outsAt1 V c (t.val - 1) (Nat.lt_of_le_of_lt (Nat.sub_le _ _) t.isLt)).2 := by
  rw [outsAt1_C V c t h0 h1]
  dsimp only
  exact sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- and the result's buffer holds the closing payload of that accumulator and the bias row. -/
theorem res1_C (c : Dev nD) (t : Fin cfg1.N) (h0 : ¬t.val % 10 = 0) (h1 : t.val % 10 = 9) :
    (outsAt1 V c t.val t.isLt).1 = k1_pay3 (outsAt1 V c t.val t.isLt).2 (iblk1 V c 2 t) := by
  rw [acc1_C V c t h0 h1, outsAt1_C V c t h0 h1]
  dsimp only
  exact out1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- Row `row` of `A` against column `col` of `H` over the first `m` blocks of 1024 columns. -/
def partProd1 {n0 n1 n2 : ℕ} (A : (⟨2, ![n0, n1]⟩ : Shape).Idx → EReal) (H : (⟨2, ![n1, n2]⟩ : Shape).Idx → EReal) (row col m : ℕ) : EReal :=
  ∑ k' ∈ Finset.range m, ∑ j' : Fin 1024, entry1 A row (k' * 1024 + j'.val) * entry1 H (k' * 1024 + j'.val) col

/-- One reduction step, over blocks that are known entry by entry, extends the partial product by one block. -/
theorem step_partProd1 (A : Vec Ideal S10240x10240 .bf16) (H : Vec Ideal S10240x512 .bf16)
    (x0 : Vec Ideal S512x1024 .bf16) (hb : Vec Ideal S1024x512 .bf16) (acc : Vec Ideal S512x512 .f32)
    (row k : ℕ) (r : Fin 512) (cc : Fin 512)
    (hx0 : ∀ j' : Fin 1024, x0 (ix2 r j') = entry1 A row (k * 1024 + j'.val))
    (hhb : ∀ j' : Fin 1024, hb (ix2 j' cc) = entry1 H (k * 1024 + j'.val) cc.val)
    (hacc : acc (ix2 r cc) = partProd1 A H row cc.val k) :
    k1_pay2 x0 hb acc (ix2 r cc) = partProd1 A H row cc.val (k + 1) := by
  rw [pay1_2_at, hacc]
  unfold partProd1
  rw [Finset.sum_range_succ]
  refine congrArg (_ + ·) (Finset.sum_congr rfl fun j' _ => ?_)
  rw [hx0, hhb]

/-- THE ACCUMULATOR IN CLOSED FORM: after point `n` (row tile `n / 10`, step `n % 10`) its entry `(r, cc)` is row
    `512 (n / 10) + r` of the matrix against column `cc` of the features over the first `n % 10 + 1` column blocks. -/
theorem acc1_closed (c : Dev nD) : ∀ (n : ℕ) (hn : n < cfg1.N) (r : Fin 512) (cc : Fin 512),
    (outsAt1 V c n hn).2 (ix2 r cc) = partProd1 (Amat1 V c) (Hmat1 V c) (512 * (n / 10) + r.val) cc.val (n % 10 + 1) := by
  intro n
  induction n using Nat.strong_induction_on with
  | _ n ih =>
    intro hn r cc
    have hN : n < 200 := lt_N1 ⟨n, hn⟩
    by_cases h0 : n % 10 = 0
    · have h1 : ¬n % 10 = 9 := by omega
      refine (congrFun (acc1_A V c ⟨n, hn⟩ h0 h1) (ix2 r cc)).trans ?_
      rw [h0]
      refine step_partProd1 (Amat1 V c) (Hmat1 V c) (iblk1 V c 0 ⟨n, hn⟩) _ (k1_pay1 (F := Ideal)) (512 * (n / 10) + r.val) 0 r cc (fun j' => ?_) (fun j' => ?_) ?_
      · have e := blk1_0_entry V c ⟨n, hn⟩ r j'
        rw [show (⟨n, hn⟩ : Fin cfg1.N).val = n from rfl, h0] at e
        exact e
      · have e := blk1_1_entry V c ⟨n, hn⟩ j' cc
        rw [show (⟨n, hn⟩ : Fin cfg1.N).val = n from rfl, h0] at e
        exact e
      · rw [pay1_1_apply]
        unfold partProd1
        rw [Finset.sum_range_zero]
    · have hpos : 0 < n := by omega
      have hprev := ih (n - 1) (by omega) (Nat.lt_of_le_of_lt (Nat.sub_le _ _) hn) r cc
      rw [show (n - 1) / 10 = n / 10 from by omega, show (n - 1) % 10 + 1 = n % 10 from by omega] at hprev
      have hstep : k1_pay2 (iblk1 V c 0 ⟨n, hn⟩) (View.ld (iblk1 V c 1 ⟨n, hn⟩ : Vec Ideal S10240x512 .bf16) (Rect.unit (s := S10240x512) (k1_off1 (grid1.coords ⟨n, hn⟩)) S1024x512.size (k1_off1_inb (grid1.coords ⟨n, hn⟩)))) (outsAt1 V c (n - 1) (Nat.lt_of_le_of_lt (Nat.sub_le _ _) hn)).2 (ix2 r cc)
          = partProd1 (Amat1 V c) (Hmat1 V c) (512 * (n / 10) + r.val) cc.val (n % 10 + 1) :=
        step_partProd1 (Amat1 V c) (Hmat1 V c) (iblk1 V c 0 ⟨n, hn⟩) _ _ (512 * (n / 10) + r.val) (n % 10) r cc
          (fun j' => blk1_0_entry V c ⟨n, hn⟩ r j') (fun j' => blk1_1_entry V c ⟨n, hn⟩ j' cc) hprev
      by_cases h1 : n % 10 = 9
      · exact (congrFun (acc1_C V c ⟨n, hn⟩ h0 h1) (ix2 r cc)).trans hstep
      · exact (congrFun (acc1_B V c ⟨n, hn⟩ h0 h1) (ix2 r cc)).trans hstep

/-! ## From the row tiles to the array -/

/-- The whole partial product, ten blocks of 1024 columns, is the product over all 10240 columns. -/
theorem partProd1_full (A : Vec Ideal S10240x10240 .bf16) (H : Vec Ideal S10240x512 .bf16) (i : Fin 10240) (cc : Fin 512) :
    partProd1 A H i.val cc.val 10 = ∑ j : Fin 10240, A (ix2 i j) * H (ix2 j cc) := by
  unfold partProd1
  refine (Fin.sum_univ_eq_sum_range (fun k' => ∑ j' : Fin 1024, entry1 A i.val (k' * 1024 + j'.val) * entry1 H (k' * 1024 + j'.val) cc.val) 10).symm.trans ?_
  refine (Cert.Lib.BlockSums.sum_blocks 10 1024 (fun m => entry1 A i.val m * entry1 H m cc.val)).trans ?_
  show ∑ j : Fin 10240, entry1 A i.val j.val * entry1 H j.val cc.val = _
  refine Finset.sum_congr rfl fun j _ => ?_
  rw [entry1_of_lt A _ _ i.isLt j.isLt, entry1_of_lt H _ _ j.isLt cc.isLt]

/-- What the region's result array ends holding: each row of the matrix against each feature column, plus the bias, clamped
    below at zero. -/
def agg1 (A : Vec Ideal S10240x10240 .bf16) (H : Vec Ideal S10240x512 .bf16) (B : Vec Ideal S1x512 .f32) : Vec Ideal S10240x512 .f32 :=
  fun y => max ((∑ j : Fin 10240, A (ix2 ⟨(y 0).val, (y 0).isLt⟩ j) * H (ix2 j ⟨(y 1).val, (y 1).isLt⟩)) + B (ix2 0 ⟨(y 1).val, (y 1).isLt⟩)) 0

theorem agg1_at (A : Vec Ideal S10240x10240 .bf16) (H : Vec Ideal S10240x512 .bf16) (B : Vec Ideal S1x512 .f32) (i : Fin 10240) (cc : Fin 512) :
    agg1 A H B (ix2 i cc) = max ((∑ j : Fin 10240, A (ix2 i j) * H (ix2 j cc)) + B (ix2 0 cc)) 0 := rfl

/-- The closing payload over a finished accumulator is the tile of `agg1`: stated over variables. -/
theorem tile_agg1 (A : Vec Ideal S10240x10240 .bf16) (H : Vec Ideal S10240x512 .bf16) (B : Vec Ideal S1x512 .f32)
    (acc : Vec Ideal S512x512 .f32) (b : Vec Ideal S1x512 .f32) (i : Fin 10240) (r : Fin 512) (cc : Fin 512)
    (hacc : acc (ix2 r cc) = partProd1 A H i.val cc.val 10) (hb : b (ix2 0 cc) = B (ix2 0 cc)) :
    k1_pay3 acc b (ix2 r cc) = agg1 A H B (ix2 i cc) := by
  rw [pay1_3_at, hacc, hb, partProd1_full, agg1_at]

/-- WHAT A LAST STEP WRITES BACK is its row tile of `agg1` of the arrays the region found. -/
theorem flushed1_eq (c : Dev nD) (t : Fin cfg1.N) (hf : (cfg1.win 3).flush t = true) :
    (dat1 V c).flushed 3 t = ((cfg1.win 3).blk t).view.read (Elt Ideal) (agg1 (Amat1 V c) (Hmat1 V c) (Bvec1 V c)) := by
  have h9 : t.val % 10 = 9 := (flush1_3 t).mp hf
  have h0 : ¬t.val % 10 = 0 := by omega
  have ht := lt_N1 t
  obtain ⟨-, -, -, -, -, -, e6, e7, -⟩ := idx_facts1 t
  show (cfg1.win 3).cut (grid1.coords t) ((dat1 V c).after 3 t) = _
  rw [after1_3, res1_C V c t h0 h9]
  funext y
  obtain ⟨r, cc, rfl⟩ : ∃ (r : Fin 512) (cc : Fin 512), y = ix2 r cc := ⟨y 0, y 1, eq_ix2 y⟩
  rw [View.read_apply]
  have hemb : ((cfg1.win 3).blk t).view.emb (ix2 r cc) = (ix2 (⟨512 * (t.val / 10) + r.val, by omega⟩ : Fin 10240) cc : S10240x512.Idx) := by
    funext a
    apply Fin.ext
    match a with
    | ⟨0, _⟩ => show win1_3.index t (0 : Fin 2) * 512 + 1 * r.val = 512 * (t.val / 10) + r.val; rw [e6]; omega
    | ⟨1, _⟩ => show win1_3.index t (1 : Fin 2) * 512 + 1 * cc.val = cc.val; rw [e7]; omega
  show k1_pay3 (outsAt1 V c t.val t.isLt).2 (iblk1 V c 2 t) (ix2 r cc) = agg1 (Amat1 V c) (Hmat1 V c) (Bvec1 V c) (((cfg1.win 3).blk t).view.emb (ix2 r cc))
  rw [hemb]
  refine tile_agg1 (Amat1 V c) (Hmat1 V c) (Bvec1 V c) (outsAt1 V c t.val t.isLt).2 (iblk1 V c 2 t) ⟨512 * (t.val / 10) + r.val, by omega⟩ r cc ?_ (blk1_2_at V c t cc)
  have e := acc1_closed V c t.val t.isLt r cc
  rw [h9] at e
  exact e

/-- An index of the array is in point `t`'s block iff each coordinate is in the block's range on its axis. -/
theorem mem_blk1_3 (t : Fin cfg1.N) (i : S10240x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v49).slice (win1_3.rect t)).set ↔ _
  rw [View.set_slice_whole, Rect.mem_set_unit]
  exact Iff.rfl

/-- Every row is in the tile of the last step of its row tile. -/
theorem cover1_3 (i : S10240x512.Idx) : ∃ t : Fin cfg1.N, (cfg1.win 3).flush t = true ∧ i ∈ ((cfg1.win 3).blk t).view.set := by
  have hi0 : (i 0).val < 10240 := (i 0).isLt
  have hi1 : (i 1).val < 512 := (i 1).isLt
  have hN : cfg1.N = 200 := N_1
  refine ⟨⟨10 * ((i 0).val / 512) + 9, by rw [hN]; omega⟩, ?_, ?_⟩
  · exact (flush1_3 _).mpr (by show (10 * ((i 0).val / 512) + 9) % 10 = 9; omega)
  · rw [mem_blk1_3]
    obtain ⟨-, -, -, -, -, -, e6, e7, -⟩ := idx_facts1 ⟨10 * ((i 0).val / 512) + 9, by rw [hN]; omega⟩
    intro a
    match a with
    | ⟨0, _⟩ =>
      show win1_3.index _ (0 : Fin 2) * 512 ≤ (i 0).val ∧ (i 0).val < win1_3.index _ (0 : Fin 2) * 512 + 512
      rw [e6]
      show (10 * ((i 0).val / 512) + 9) / 10 * 512 ≤ (i 0).val ∧ (i 0).val < (10 * ((i 0).val / 512) + 9) / 10 * 512 + 512
      omega
    | ⟨1, _⟩ =>
      show win1_3.index _ (1 : Fin 2) * 512 ≤ (i 1).val ∧ (i 1).val < win1_3.index _ (1 : Fin 2) * 512 + 512
      rw [e7]
      omega

/-- THE RESULT ARRAY after the region: `relu (A @ h + b)` of the arrays the region found. -/
theorem final1_fun (c : Dev nD) : (dat1 V c).arrAt 3 cfg1.N = agg1 (Amat1 V c) (Hmat1 V c) (Bvec1 V c) :=
  (dat1 V c).arrAt_eq_of_cover 3 (agg1 (Amat1 V c) (Hmat1 V c) (Bvec1 V c)) (fun t hf => flushed1_eq V c t hf) (fun i => cover1_3 i)

/-- The same, entry by entry. -/
theorem final1 (c : Dev nD) (i : Fin 10240) (cc : Fin 512) :
    ((dat1 V c).arrAt 3 cfg1.N : Vec Ideal S10240x512 .f32) (ix2 i cc)
      = max ((∑ j : Fin 10240, Amat1 V c (ix2 i j) * Hmat1 V c (ix2 j cc)) + Bvec1 V c (ix2 0 cc)) 0 :=
  congrFun (final1_fun V c) (ix2 i cc)

end Value

end Cert.KernelIdeal.Hand

end
-- ==== Proof.AggVal3.lean ====
/-
  Region 3 of the kernel program, its value: what the aggregation `relu (A @ h + b)` leaves in its result array, as one
  function of the arrays the region found.

  The body's three pure payloads are read at an index over the extended reals: the reset is zero, a reduction step adds
  to the accumulator the product of a 512 x 1024 block of the matrix with 1024 rows of the features, and the last step
  adds the bias row and clamps below at zero. Each control case's found pieces are one covering store of such a payload.
  By induction over the grid points the accumulator after step `k` of a row tile is the partial product over the first
  `k + 1` column blocks; the last step of each row tile writes the tile back, the ten blocks of 1024 columns regroup
  into one sum over all 10240 columns, and the twenty tiles cover the array.
-/
import proofs.«160261_j68599217652370_2_alg».proof.Proof.Agg3
import proofs.«160261_j68599217652370_2_alg».proof.Proof.LibPlainDot
import proofs.«160261_j68599217652370_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The payloads at an index -/

/-- The reset stores zero. -/
theorem pay3_1_apply (j : S512x1024.Idx) : k3_pay1 (F := Ideal) j = 0 := by
  unfold k3_pay1
  (try dsimp only)
  rw [shapeCast_self]
  exact Ideal.ofBits_zero_f32

/-- A reduction step: the accumulator plus the block product, the contracted coordinate running over the block's 1024 columns. -/
theorem pay3_2_apply (a : Vec Ideal S512x1024 .bf16) (hb : Vec Ideal S1024x1024 .bf16) (acc : Vec Ideal S512x1024 .f32) (j : S512x1024.Idx) :
    k3_pay2 a hb acc j = acc j + ∑ k : Fin 1024, a (ix2 ⟨(j 0).val, (j 0).isLt⟩ k) * hb (ix2 k ⟨(j 1).val, (j 1).isLt⟩) := by
  unfold k3_pay2
  (try dsimp only)
  rw [shapeCast_self, shapeCast_self, shapeCast_self]
  refine (addf_apply _ _ j).trans ?_
  exact congrArg (acc j + ·) (Cert.Lib.PlainDot.matmul_zero_apply 512 1024 1024 none _ _ j)

/-- The same at explicit coordinates. -/
theorem pay3_2_at (a : Vec Ideal S512x1024 .bf16) (hb : Vec Ideal S1024x1024 .bf16) (acc : Vec Ideal S512x1024 .f32) (r : Fin 512) (cc : Fin 1024) :
    k3_pay2 a hb acc (ix2 r cc) = acc (ix2 r cc) + ∑ k : Fin 1024, a (ix2 r k) * hb (ix2 k cc) :=
  pay3_2_apply a hb acc (ix2 r cc)

/-- The last step at explicit coordinates: accumulator plus the bias row, clamped below at zero. -/
theorem pay3_3_at (acc : Vec Ideal S512x1024 .f32) (b : Vec Ideal S1x1024 .f32) (r : Fin 512) (cc : Fin 1024) :
    k3_pay3 acc b (ix2 r cc) = max (acc (ix2 r cc) + b (ix2 0 cc)) 0 := by
  unfold k3_pay3
  (try dsimp only)
  rw [shapeCast_self]
  refine (maximumf_apply _ _ _).trans ?_
  refine congrArg₂ max ?_ Ideal.ofBits_zero_f32
  refine (addf_apply _ _ _).trans ?_
  refine congrArg (acc (ix2 r cc) + ·) ?_
  refine broadcastTo_apply _ _ _ (ix2 0 cc) fun a => ?_
  match a with
  | ⟨0, _⟩ => rfl
  | ⟨1, _⟩ => rfl

/-- The last step at an index. -/
theorem pay3_3_apply (acc : Vec Ideal S512x1024 .f32) (b : Vec Ideal S1x1024 .f32) (j : S512x1024.Idx) :
    k3_pay3 acc b j = max (acc j + b (ix2 0 ⟨(j 1).val, (j 1).isLt⟩)) 0 := by
  have e := pay3_3_at acc b ⟨(j 0).val, (j 0).isLt⟩ ⟨(j 1).val, (j 1).isLt⟩
  have ej : (ix2 (⟨(j 0).val, (j 0).isLt⟩ : Fin 512) (⟨(j 1).val, (j 1).isLt⟩ : Fin 1024) : S512x1024.Idx) = j := by
    funext a
    match a with
    | ⟨0, _⟩ => rfl
    | ⟨1, _⟩ => rfl
  rw [ej] at e
  exact e

/-! ## The found pieces are payloads of the blocks -/

section Pieces

variable {F : FTy → Type} [FloatOps F]

theorem hz3 : (![0, 0] : Fin 2 → Nat) = fun _ => 0 := funext fun a => by fin_cases a <;> rfl

/-- A middle step leaves in the accumulator the step's payload of the matrix block, the 1024 feature rows at the step's
    offset, and what the accumulator held. -/
theorem sout3_B_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i) (x0 : Vec F S512x1024 .bf16) (x1 : Vec F S10240x1024 .bf16) (x2 : Vec F S1x1024 .f32) (xs0 : Vec F S512x1024 .f32) :
    sout3_B c i arg2 harg2 arg3 harg3 arg4 harg4 arg5 harg5 arg6 harg6 hc0 hc1 x0 x1 x2 xs0 = k3_pay2 x0 (View.ld x1 (Rect.unit (s := S10240x1024) (k3_off1 i) S1024x1024.size (k3_off1_inb i))) xs0 := by
  unfold sout3_B
  rw [View.read_writes_eq_canon _ _ _ (scover3_B c i arg2 harg2 arg3 harg3 arg4 harg4 arg5 harg5 arg6 harg6 hc0 hc1 x0 x1 x2 xs0)]
  unfold kernelRun3_B
  dsimp only
  rw [View.canon_unit_zero hz3]
  simp only [View.readAt_eq_ld, harg2.read_unread, harg3.read_unread, harg6.read_unread, View.ld_unit_zero (S := S512x1024) hz3, View.ld_unit_zero (S := S512x1024) hz3]

/-- The first step leaves the same payload over the zero it has just stored. -/
theorem sout3_A_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i) (x0 : Vec F S512x1024 .bf16) (x1 : Vec F S10240x1024 .bf16) (x2 : Vec F S1x1024 .f32) :
    sout3_A c i arg2 harg2 arg3 harg3 arg4 harg4 arg5 harg5 arg6 harg6 hc0 hc1 x0 x1 x2 = k3_pay2 x0 (View.ld x1 (Rect.unit (s := S10240x1024) (k3_off1 i) S1024x1024.size (k3_off1_inb i))) k3_pay1 := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero (S := S512x1024) hz3, View.readCov_unit_zero (S := S512x1024) _ hz3]
  simp only [View.readAt_eq_ld, harg2.read_unread, harg3.read_unread, View.ld_unit_zero (S := S512x1024) hz3, View.ld_unit_zero (S := S512x1024) hz3]

/-- The last step leaves in the accumulator what a middle step does, -/
theorem sout3_C_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) :
    sout3_C c i arg2 harg2 arg3 harg3 arg4 harg4 arg5 harg5 arg6 harg6 hc0 hc1 x0 x1 x2 xs0 = k3_pay2 x0 (View.ld x1 (Rect.unit (s := S10240x1024) (k3_off1 i) S1024x1024.size (k3_off1_inb i))) xs0 := by
  unfold sout3_C
  rw [View.read_writes_eq_canon _ _ _ (scover3_C c i arg2 harg2 arg3 harg3 arg4 harg4 arg5 harg5 arg6 harg6 hc0 hc1 x0 x1 x2 xs0)]
  unfold kernelRun3_C
  dsimp only
  sl_unfold_words
  rw [View.canon_unit_zero hz3]
  simp only [View.readAt_eq_ld, harg2.read_unread, harg3.read_unread, harg6.read_unread, View.ld_unit_zero (S := S512x1024) hz3, View.ld_unit_zero (S := S512x1024) hz3]

/-- and in the result's buffer the closing payload of that new accumulator and the bias row. -/
theorem out3_C_eq (c : Dev nD) (i : grid3.Coords) (arg2 : Memref sig .tc .vmem S512x1024 .bf16) (harg2 : arg2.IsWhole) (arg3 : Memref sig .tc .vmem S10240x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i) (x0 : Vec F S512x1024 .bf16) (x1 : Vec F S10240x1024 .bf16) (x2 : Vec F S1x1024 .f32) (xs0 : Vec F S512x1024 .f32) :
    out3_C_3 c i arg2 harg2 arg3 harg3 arg4 harg4 arg5 harg5 arg6 harg6 hc0 hc1 x0 x1 x2 xs0 = k3_pay3 (k3_pay2 x0 (View.ld x1 (Rect.unit (s := S10240x1024) (k3_off1 i) S1024x1024.size (k3_off1_inb i))) xs0) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hz3]
  simp only [View.readCov_unit_zero (S := S512x1024) _ hz3, View.readAt_eq_ld, harg2.read_unread, harg3.read_unread, harg4.read_unread, harg6.read_unread, View.ld_unit_zero (S := S512x1024) hz3, View.ld_unit_zero (S := S512x1024) hz3, View.ld_unit_zero (S := S1x1024) hz3]

end Pieces

/-! ## Blocks read off the arrays -/

section Value

variable (V : (c : Dev nD) → (b : Ref sig .tc) → Buf (Elt Ideal) ((c : Thread nD τ).loc b))

/-- The dense matrix, the features and the bias row as the region finds them. -/
abbrev Amat3 (c : Dev nD) : Vec Ideal S10240x10240 .bf16 := V c (Pipeline.arrRef spec3 0)
abbrev Hmat3 (c : Dev nD) : Vec Ideal S10240x1024 .bf16 := V c (Pipeline.arrRef spec3 1)
abbrev Bvec3 (c : Dev nD) : Vec Ideal S1x1024 .f32 := V c (Pipeline.arrRef spec3 2)

theorem lt_N3 (t : Fin cfg3.N) : t.val < 200 := Nat.lt_of_lt_of_eq t.isLt (show cfg3.N = 200 from N_3)

/-- Entry `(i, j)` of a matrix, and zero outside it: sums over row and column numbers are then sums over naturals. -/
def entry3 {n0 n1 : ℕ} (X : (⟨2, ![n0, n1]⟩ : Shape).Idx → EReal) (i j : ℕ) : EReal :=
  if h : i < n0 ∧ j < n1 then X (ix2 ⟨i, h.1⟩ ⟨j, h.2⟩) else 0

theorem entry3_of_lt {n0 n1 : ℕ} (X : (⟨2, ![n0, n1]⟩ : Shape).Idx → EReal) (i j : ℕ) (hi : i < n0) (hj : j < n1) :
    entry3 X i j = X (ix2 ⟨i, hi⟩ ⟨j, hj⟩) := dif_pos ⟨hi, hj⟩

/-- The printed index maps over the grid: point `t` is row tile `t / 10`, step `t % 10`; the matrix's block moves with both,
    the result's with the tile, the features and the bias stay, and the body loads its feature rows at `1024 (t % 10)`. -/
theorem idx_facts3 : ∀ t : Fin cfg3.N, win3_0.index t (0 : Fin 2) = t.val / 10 ∧ win3_0.index t (1 : Fin 2) = t.val % 10
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0
    ∧ k3_off1 (grid3.coords t) (0 : Fin 2) = 1024 * (t.val % 10) ∧ k3_off1 (grid3.coords t) (1 : Fin 2) = 0 :=
  (by decide +kernel : ∀ t : Fin grid3.N, _)

/-- The matrix's block at point `t`: rows `512 (t / 10) …`, columns `1024 (t % 10) …`. -/
theorem blk3_0_entry (c : Dev nD) (t : Fin cfg3.N) (r : Fin 512) (j' : Fin 1024) :
    (iblk3 V c 0 t : Vec Ideal S512x1024 .bf16) (ix2 r j') = entry3 (Amat3 V c) (512 * (t.val / 10) + r.val) (t.val % 10 * 1024 + j'.val) := by
  have ht := lt_N3 t
  obtain ⟨e0, e1, -⟩ := idx_facts3 t
  rw [entry3_of_lt _ _ _ (by omega) (by omega)]
  unfold iblk3
  rw [View.read_apply]
  show V c (Pipeline.arrRef spec3 0) (((cfg3.win 0).blk t).view.emb (ix2 r j')) = V c (Pipeline.arrRef spec3 0) _
  refine congrArg (V c (Pipeline.arrRef spec3 0)) (funext fun a => Fin.ext ?_)
  match a with
  | ⟨0, _⟩ => show win3_0.index t (0 : Fin 2) * 512 + 1 * r.val = 512 * (t.val / 10) + r.val; rw [e0]; omega
  | ⟨1, _⟩ => show win3_0.index t (1 : Fin 2) * 1024 + 1 * j'.val = t.val % 10 * 1024 + j'.val; rw [e1]; omega

/-- The features' block is the whole array, and the body's load takes its rows `1024 (t % 10) …`. -/
theorem blk3_1_entry (c : Dev nD) (t : Fin cfg3.N) (j' : Fin 1024) (cc : Fin 1024) :
    (View.ld (iblk3 V c 1 t : Vec Ideal S10240x1024 .bf16) (Rect.unit (s := S10240x1024) (k3_off1 (grid3.coords t)) S1024x1024.size (k3_off1_inb (grid3.coords t)))) (ix2 j' cc)
      = entry3 (Hmat3 V c) (t.val % 10 * 1024 + j'.val) cc.val := by
  have ht := lt_N3 t
  obtain ⟨-, -, e2, e3, -, -, -, -, e8, e9⟩ := idx_facts3 t
  rw [entry3_of_lt _ _ _ (by omega) cc.isLt]
  unfold iblk3
  show View.read _ _ _ ((Rect.unit (s := S10240x1024) (k3_off1 (grid3.coords t)) S1024x1024.size (k3_off1_inb (grid3.coords t))).idx (ix2 j' cc)) = _
  rw [View.read_apply]
  show V c (Pipeline.arrRef spec3 1) (((cfg3.win 1).blk t).view.emb _) = V c (Pipeline.arrRef spec3 1) _
  refine congrArg (V c (Pipeline.arrRef spec3 1)) (funext fun a => Fin.ext ?_)
  match a with
  | ⟨0, _⟩ => show win3_1.index t (0 : Fin 2) * 10240 + 1 * (k3_off1 (grid3.coords t) (0 : Fin 2) + 1 * j'.val) = t.val % 10 * 1024 + j'.val; rw [e2, e8]; omega
  | ⟨1, _⟩ => show win3_1.index t (1 : Fin 2) * 1024 + 1 * (k3_off1 (grid3.coords t) (1 : Fin 2) + 1 * cc.val) = cc.val; rw [e3, e9]; omega

/-- The bias's block is the whole row. -/
theorem blk3_2_at (c : Dev nD) (t : Fin cfg3.N) (cc : Fin 1024) :
    (iblk3 V c 2 t : Vec Ideal S1x1024 .f32) (ix2 0 cc) = Bvec3 V c (ix2 0 cc) := by
  obtain ⟨-, -, -, -, e4, e5, -⟩ := idx_facts3 t
  unfold iblk3
  rw [View.read_apply]
  show V c (Pipeline.arrRef spec3 2) (((cfg3.win 2).blk t).view.emb (ix2 0 cc)) = V c (Pipeline.arrRef spec3 2) _
  refine congrArg (V c (Pipeline.arrRef spec3 2)) (funext fun a => Fin.ext ?_)
  match a with
  | ⟨0, _⟩ => show win3_2.index t (0 : Fin 2) * 1 + 1 * 0 = 0; rw [e4]
  | ⟨1, _⟩ => show win3_2.index t (1 : Fin 2) * 1024 + 1 * cc.val = cc.val; rw [e5]; omega

/-! ## The accumulator after each point -/

/-- After a first step the accumulator is the step's payload over zero. -/
theorem acc3_A (c : Dev nD) (t : Fin cfg3.N) (h0 : t.val % 10 = 0) (h1 : ¬t.val % 10 = 9) :
    (outsAt3 V c t.val t.isLt).2 = k3_pay2 (iblk3 V c 0 t) (View.ld (iblk3 V c 1 t : Vec Ideal S10240x1024 .bf16) (Rect.unit (s := S10240x1024) (k3_off1 (grid3.coords t)) S1024x1024.size (k3_off1_inb (grid3.coords t)))) (k3_pay1 (F := Ideal)) := by
  rw [outsAt3_A V c t h0 h1]
  dsimp only
  exact sout3_A_eq (F := Ideal) c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)

/-- After a middle step it is the step's payload over what the point before left. -/
theorem acc3_B (c : Dev nD) (t : Fin cfg3.N) (h0 : ¬t.val % 10 = 0) (h1 : ¬t.val % 10 = 9) :
    (outsAt3 V c t.val t.isLt).2 = k3_pay2 (iblk3 V c 0 t) (View.ld (iblk3 V c 1 t : Vec Ideal S10240x1024 .bf16) (Rect.unit (s := S10240x1024) (k3_off1 (grid3.coords t)) S1024x1024.size (k3_off1_inb (grid3.coords t)))) (outsAt3 V c (t.val - 1) (Nat.lt_of_le_of_lt (Nat.sub_le _ _) t.isLt)).2 := by
  rw [outsAt3_B V c t h0 h1]
  dsimp only
  exact sout3_B_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2

/-- After a last step likewise, -/
theorem acc3_C (c : Dev nD) (t : Fin cfg3.N) (h0 : ¬t.val % 10 = 0) (h1 : t.val % 10 = 9) :
    (outsAt3 V c t.val t.isLt).2 = k3_pay2 (iblk3 V c 0 t) (View.ld (iblk3 V c 1 t : Vec Ideal S10240x1024 .bf16) (Rect.unit (s := S10240x1024) (k3_off1 (grid3.coords t)) S1024x1024.size (k3_off1_inb (grid3.coords t)))) (outsAt3 V c (t.val - 1) (Nat.lt_of_le_of_lt (Nat.sub_le _ _) t.isLt)).2 := by
  rw [outsAt3_C V c t h0 h1]
  dsimp only
  exact sout3_C_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2

/-- and the result's buffer holds the closing payload of that accumulator and the bias row. -/
theorem res3_C (c : Dev nD) (t : Fin cfg3.N) (h0 : ¬t.val % 10 = 0) (h1 : t.val % 10 = 9) :
    (outsAt3 V c t.val t.isLt).1 = k3_pay3 (outsAt3 V c t.val t.isLt).2 (iblk3 V c 2 t) := by
  rw [acc3_C V c t h0 h1, outsAt3_C V c t h0 h1]
  dsimp only
  exact out3_C_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2

/-- Row `row` of `A` against column `col` of `H` over the first `m` blocks of 1024 columns. -/
def partProd3 {n0 n1 n2 : ℕ} (A : (⟨2, ![n0, n1]⟩ : Shape).Idx → EReal) (H : (⟨2, ![n1, n2]⟩ : Shape).Idx → EReal) (row col m : ℕ) : EReal :=
  ∑ k' ∈ Finset.range m, ∑ j' : Fin 1024, entry3 A row (k' * 1024 + j'.val) * entry3 H (k' * 1024 + j'.val) col

/-- One reduction step, over blocks that are known entry by entry, extends the partial product by one block. -/
theorem step_partProd3 (A : Vec Ideal S10240x10240 .bf16) (H : Vec Ideal S10240x1024 .bf16)
    (x0 : Vec Ideal S512x1024 .bf16) (hb : Vec Ideal S1024x1024 .bf16) (acc : Vec Ideal S512x1024 .f32)
    (row k : ℕ) (r : Fin 512) (cc : Fin 1024)
    (hx0 : ∀ j' : Fin 1024, x0 (ix2 r j') = entry3 A row (k * 1024 + j'.val))
    (hhb : ∀ j' : Fin 1024, hb (ix2 j' cc) = entry3 H (k * 1024 + j'.val) cc.val)
    (hacc : acc (ix2 r cc) = partProd3 A H row cc.val k) :
    k3_pay2 x0 hb acc (ix2 r cc) = partProd3 A H row cc.val (k + 1) := by
  rw [pay3_2_at, hacc]
  unfold partProd3
  rw [Finset.sum_range_succ]
  refine congrArg (_ + ·) (Finset.sum_congr rfl fun j' _ => ?_)
  rw [hx0, hhb]

/-- THE ACCUMULATOR IN CLOSED FORM: after point `n` (row tile `n / 10`, step `n % 10`) its entry `(r, cc)` is row
    `512 (n / 10) + r` of the matrix against column `cc` of the features over the first `n % 10 + 1` column blocks. -/
theorem acc3_closed (c : Dev nD) : ∀ (n : ℕ) (hn : n < cfg3.N) (r : Fin 512) (cc : Fin 1024),
    (outsAt3 V c n hn).2 (ix2 r cc) = partProd3 (Amat3 V c) (Hmat3 V c) (512 * (n / 10) + r.val) cc.val (n % 10 + 1) := by
  intro n
  induction n using Nat.strong_induction_on with
  | _ n ih =>
    intro hn r cc
    have hN : n < 200 := lt_N3 ⟨n, hn⟩
    by_cases h0 : n % 10 = 0
    · have h1 : ¬n % 10 = 9 := by omega
      refine (congrFun (acc3_A V c ⟨n, hn⟩ h0 h1) (ix2 r cc)).trans ?_
      rw [h0]
      refine step_partProd3 (Amat3 V c) (Hmat3 V c) (iblk3 V c 0 ⟨n, hn⟩) _ (k3_pay1 (F := Ideal)) (512 * (n / 10) + r.val) 0 r cc (fun j' => ?_) (fun j' => ?_) ?_
      · have e := blk3_0_entry V c ⟨n, hn⟩ r j'
        rw [show (⟨n, hn⟩ : Fin cfg3.N).val = n from rfl, h0] at e
        exact e
      · have e := blk3_1_entry V c ⟨n, hn⟩ j' cc
        rw [show (⟨n, hn⟩ : Fin cfg3.N).val = n from rfl, h0] at e
        exact e
      · rw [pay3_1_apply]
        unfold partProd3
        rw [Finset.sum_range_zero]
    · have hpos : 0 < n := by omega
      have hprev := ih (n - 1) (by omega) (Nat.lt_of_le_of_lt (Nat.sub_le _ _) hn) r cc
      rw [show (n - 1) / 10 = n / 10 from by omega, show (n - 1) % 10 + 1 = n % 10 from by omega] at hprev
      have hstep : k3_pay2 (iblk3 V c 0 ⟨n, hn⟩) (View.ld (iblk3 V c 1 ⟨n, hn⟩ : Vec Ideal S10240x1024 .bf16) (Rect.unit (s := S10240x1024) (k3_off1 (grid3.coords ⟨n, hn⟩)) S1024x1024.size (k3_off1_inb (grid3.coords ⟨n, hn⟩)))) (outsAt3 V c (n - 1) (Nat.lt_of_le_of_lt (Nat.sub_le _ _) hn)).2 (ix2 r cc)
          = partProd3 (Amat3 V c) (Hmat3 V c) (512 * (n / 10) + r.val) cc.val (n % 10 + 1) :=
        step_partProd3 (Amat3 V c) (Hmat3 V c) (iblk3 V c 0 ⟨n, hn⟩) _ _ (512 * (n / 10) + r.val) (n % 10) r cc
          (fun j' => blk3_0_entry V c ⟨n, hn⟩ r j') (fun j' => blk3_1_entry V c ⟨n, hn⟩ j' cc) hprev
      by_cases h1 : n % 10 = 9
      · exact (congrFun (acc3_C V c ⟨n, hn⟩ h0 h1) (ix2 r cc)).trans hstep
      · exact (congrFun (acc3_B V c ⟨n, hn⟩ h0 h1) (ix2 r cc)).trans hstep

/-! ## From the row tiles to the array -/

/-- The whole partial product, ten blocks of 1024 columns, is the product over all 10240 columns. -/
theorem partProd3_full (A : Vec Ideal S10240x10240 .bf16) (H : Vec Ideal S10240x1024 .bf16) (i : Fin 10240) (cc : Fin 1024) :
    partProd3 A H i.val cc.val 10 = ∑ j : Fin 10240, A (ix2 i j) * H (ix2 j cc) := by
  unfold partProd3
  refine (Fin.sum_univ_eq_sum_range (fun k' => ∑ j' : Fin 1024, entry3 A i.val (k' * 1024 + j'.val) * entry3 H (k' * 1024 + j'.val) cc.val) 10).symm.trans ?_
  refine (Cert.Lib.BlockSums.sum_blocks 10 1024 (fun m => entry3 A i.val m * entry3 H m cc.val)).trans ?_
  show ∑ j : Fin 10240, entry3 A i.val j.val * entry3 H j.val cc.val = _
  refine Finset.sum_congr rfl fun j _ => ?_
  rw [entry3_of_lt A _ _ i.isLt j.isLt, entry3_of_lt H _ _ j.isLt cc.isLt]

/-- What the region's result array ends holding: each row of the matrix against each feature column, plus the bias, clamped
    below at zero. -/
def agg3 (A : Vec Ideal S10240x10240 .bf16) (H : Vec Ideal S10240x1024 .bf16) (B : Vec Ideal S1x1024 .f32) : Vec Ideal S10240x1024 .f32 :=
  fun y => max ((∑ j : Fin 10240, A (ix2 ⟨(y 0).val, (y 0).isLt⟩ j) * H (ix2 j ⟨(y 1).val, (y 1).isLt⟩)) + B (ix2 0 ⟨(y 1).val, (y 1).isLt⟩)) 0

theorem agg3_at (A : Vec Ideal S10240x10240 .bf16) (H : Vec Ideal S10240x1024 .bf16) (B : Vec Ideal S1x1024 .f32) (i : Fin 10240) (cc : Fin 1024) :
    agg3 A H B (ix2 i cc) = max ((∑ j : Fin 10240, A (ix2 i j) * H (ix2 j cc)) + B (ix2 0 cc)) 0 := rfl

/-- The closing payload over a finished accumulator is the tile of `agg3`: stated over variables. -/
theorem tile_agg3 (A : Vec Ideal S10240x10240 .bf16) (H : Vec Ideal S10240x1024 .bf16) (B : Vec Ideal S1x1024 .f32)
    (acc : Vec Ideal S512x1024 .f32) (b : Vec Ideal S1x1024 .f32) (i : Fin 10240) (r : Fin 512) (cc : Fin 1024)
    (hacc : acc (ix2 r cc) = partProd3 A H i.val cc.val 10) (hb : b (ix2 0 cc) = B (ix2 0 cc)) :
    k3_pay3 acc b (ix2 r cc) = agg3 A H B (ix2 i cc) := by
  rw [pay3_3_at, hacc, hb, partProd3_full, agg3_at]

/-- WHAT A LAST STEP WRITES BACK is its row tile of `agg3` of the arrays the region found. -/
theorem flushed3_eq (c : Dev nD) (t : Fin cfg3.N) (hf : (cfg3.win 3).flush t = true) :
    (dat3 V c).flushed 3 t = ((cfg3.win 3).blk t).view.read (Elt Ideal) (agg3 (Amat3 V c) (Hmat3 V c) (Bvec3 V c)) := by
  have h9 : t.val % 10 = 9 := (flush3_3 t).mp hf
  have h0 : ¬t.val % 10 = 0 := by omega
  have ht := lt_N3 t
  obtain ⟨-, -, -, -, -, -, e6, e7, -⟩ := idx_facts3 t
  show (cfg3.win 3).cut (grid3.coords t) ((dat3 V c).after 3 t) = _
  rw [after3_3, res3_C V c t h0 h9]
  funext y
  obtain ⟨r, cc, rfl⟩ : ∃ (r : Fin 512) (cc : Fin 1024), y = ix2 r cc := ⟨y 0, y 1, eq_ix2 y⟩
  rw [View.read_apply]
  have hemb : ((cfg3.win 3).blk t).view.emb (ix2 r cc) = (ix2 (⟨512 * (t.val / 10) + r.val, by omega⟩ : Fin 10240) cc : S10240x1024.Idx) := by
    funext a
    apply Fin.ext
    match a with
    | ⟨0, _⟩ => show win3_3.index t (0 : Fin 2) * 512 + 1 * r.val = 512 * (t.val / 10) + r.val; rw [e6]; omega
    | ⟨1, _⟩ => show win3_3.index t (1 : Fin 2) * 1024 + 1 * cc.val = cc.val; rw [e7]; omega
  show k3_pay3 (outsAt3 V c t.val t.isLt).2 (iblk3 V c 2 t) (ix2 r cc) = agg3 (Amat3 V c) (Hmat3 V c) (Bvec3 V c) (((cfg3.win 3).blk t).view.emb (ix2 r cc))
  rw [hemb]
  refine tile_agg3 (Amat3 V c) (Hmat3 V c) (Bvec3 V c) (outsAt3 V c t.val t.isLt).2 (iblk3 V c 2 t) ⟨512 * (t.val / 10) + r.val, by omega⟩ r cc ?_ (blk3_2_at V c t cc)
  have e := acc3_closed V c t.val t.isLt r cc
  rw [h9] at e
  exact e

/-- An index of the array is in point `t`'s block iff each coordinate is in the block's range on its axis. -/
theorem mem_blk3_3 (t : Fin cfg3.N) (i : S10240x1024.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v52).slice (win3_3.rect t)).set ↔ _
  rw [View.set_slice_whole, Rect.mem_set_unit]
  exact Iff.rfl

/-- Every row is in the tile of the last step of its row tile. -/
theorem cover3_3 (i : S10240x1024.Idx) : ∃ t : Fin cfg3.N, (cfg3.win 3).flush t = true ∧ i ∈ ((cfg3.win 3).blk t).view.set := by
  have hi0 : (i 0).val < 10240 := (i 0).isLt
  have hi1 : (i 1).val < 1024 := (i 1).isLt
  have hN : cfg3.N = 200 := N_3
  refine ⟨⟨10 * ((i 0).val / 512) + 9, by rw [hN]; omega⟩, ?_, ?_⟩
  · exact (flush3_3 _).mpr (by show (10 * ((i 0).val / 512) + 9) % 10 = 9; omega)
  · rw [mem_blk3_3]
    obtain ⟨-, -, -, -, -, -, e6, e7, -⟩ := idx_facts3 ⟨10 * ((i 0).val / 512) + 9, by rw [hN]; omega⟩
    intro a
    match a with
    | ⟨0, _⟩ =>
      show win3_3.index _ (0 : Fin 2) * 512 ≤ (i 0).val ∧ (i 0).val < win3_3.index _ (0 : Fin 2) * 512 + 512
      rw [e6]
      show (10 * ((i 0).val / 512) + 9) / 10 * 512 ≤ (i 0).val ∧ (i 0).val < (10 * ((i 0).val / 512) + 9) / 10 * 512 + 512
      omega
    | ⟨1, _⟩ =>
      show win3_3.index _ (1 : Fin 2) * 1024 ≤ (i 1).val ∧ (i 1).val < win3_3.index _ (1 : Fin 2) * 1024 + 1024
      rw [e7]
      omega

/-- THE RESULT ARRAY after the region: `relu (A @ h + b)` of the arrays the region found. -/
theorem final3_fun (c : Dev nD) : (dat3 V c).arrAt 3 cfg3.N = agg3 (Amat3 V c) (Hmat3 V c) (Bvec3 V c) :=
  (dat3 V c).arrAt_eq_of_cover 3 (agg3 (Amat3 V c) (Hmat3 V c) (Bvec3 V c)) (fun t hf => flushed3_eq V c t hf) (fun i => cover3_3 i)

/-- The same, entry by entry. -/
theorem final3 (c : Dev nD) (i : Fin 10240) (cc : Fin 1024) :
    ((dat3 V c).arrAt 3 cfg3.N : Vec Ideal S10240x1024 .f32) (ix2 i cc)
      = max ((∑ j : Fin 10240, Amat3 V c (ix2 i j) * Hmat3 V c (ix2 j cc)) + Bvec3 V c (ix2 0 cc)) 0 :=
  congrFun (final3_fun V c) (ix2 i cc)

end Value

end Cert.KernelIdeal.Hand

end
-- ==== Proof.AggVal5.lean ====
/-
  Region 5 of the kernel program, its value: what the aggregation `relu (A @ h + b)` leaves in its result array, as one
  function of the arrays the region found.

  The body's three pure payloads are read at an index over the extended reals: the reset is zero, a reduction step adds
  to the accumulator the product of a 512 x 1024 block of the matrix with 1024 rows of the features, and the last step
  adds the bias row and clamps below at zero. Each control case's found pieces are one covering store of such a payload.
  By induction over the grid points the accumulator after step `k` of a row tile is the partial product over the first
  `k + 1` column blocks; the last step of each row tile writes the tile back, the ten blocks of 1024 columns regroup
  into one sum over all 10240 columns, and the twenty tiles cover the array.
-/
import proofs.«160261_j68599217652370_2_alg».proof.Proof.Agg5
import proofs.«160261_j68599217652370_2_alg».proof.Proof.LibPlainDot
import proofs.«160261_j68599217652370_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The payloads at an index -/

/-- The reset stores zero. -/
theorem pay5_1_apply (j : S512x512.Idx) : k5_pay1 (F := Ideal) j = 0 := by
  unfold k5_pay1
  (try dsimp only)
  rw [shapeCast_self]
  exact Ideal.ofBits_zero_f32

/-- A reduction step: the accumulator plus the block product, the contracted coordinate running over the block's 1024 columns. -/
theorem pay5_2_apply (a : Vec Ideal S512x1024 .bf16) (hb : Vec Ideal S1024x512 .bf16) (acc : Vec Ideal S512x512 .f32) (j : S512x512.Idx) :
    k5_pay2 a hb acc j = acc j + ∑ k : Fin 1024, a (ix2 ⟨(j 0).val, (j 0).isLt⟩ k) * hb (ix2 k ⟨(j 1).val, (j 1).isLt⟩) := by
  unfold k5_pay2
  (try dsimp only)
  rw [shapeCast_self, shapeCast_self, shapeCast_self]
  refine (addf_apply _ _ j).trans ?_
  exact congrArg (acc j + ·) (Cert.Lib.PlainDot.matmul_zero_apply 512 1024 512 none _ _ j)

/-- The same at explicit coordinates. -/
theorem pay5_2_at (a : Vec Ideal S512x1024 .bf16) (hb : Vec Ideal S1024x512 .bf16) (acc : Vec Ideal S512x512 .f32) (r : Fin 512) (cc : Fin 512) :
    k5_pay2 a hb acc (ix2 r cc) = acc (ix2 r cc) + ∑ k : Fin 1024, a (ix2 r k) * hb (ix2 k cc) :=
  pay5_2_apply a hb acc (ix2 r cc)

/-- The last step at explicit coordinates: accumulator plus the bias row, clamped below at zero. -/
theorem pay5_3_at (acc : Vec Ideal S512x512 .f32) (b : Vec Ideal S1x512 .f32) (r : Fin 512) (cc : Fin 512) :
    k5_pay3 acc b (ix2 r cc) = max (acc (ix2 r cc) + b (ix2 0 cc)) 0 := by
  unfold k5_pay3
  (try dsimp only)
  rw [shapeCast_self]
  refine (maximumf_apply _ _ _).trans ?_
  refine congrArg₂ max ?_ Ideal.ofBits_zero_f32
  refine (addf_apply _ _ _).trans ?_
  refine congrArg (acc (ix2 r cc) + ·) ?_
  refine broadcastTo_apply _ _ _ (ix2 0 cc) fun a => ?_
  match a with
  | ⟨0, _⟩ => rfl
  | ⟨1, _⟩ => rfl

/-- The last step at an index. -/
theorem pay5_3_apply (acc : Vec Ideal S512x512 .f32) (b : Vec Ideal S1x512 .f32) (j : S512x512.Idx) :
    k5_pay3 acc b j = max (acc j + b (ix2 0 ⟨(j 1).val, (j 1).isLt⟩)) 0 := by
  have e := pay5_3_at acc b ⟨(j 0).val, (j 0).isLt⟩ ⟨(j 1).val, (j 1).isLt⟩
  have ej : (ix2 (⟨(j 0).val, (j 0).isLt⟩ : Fin 512) (⟨(j 1).val, (j 1).isLt⟩ : Fin 512) : S512x512.Idx) = j := by
    funext a
    match a with
    | ⟨0, _⟩ => rfl
    | ⟨1, _⟩ => rfl
  rw [ej] at e
  exact e

/-! ## The found pieces are payloads of the blocks -/

section Pieces

variable {F : FTy → Type} [FloatOps F]

theorem hz5 : (![0, 0] : Fin 2 → Nat) = fun _ => 0 := funext fun a => by fin_cases a <;> rfl

/-- A middle step leaves in the accumulator the step's payload of the matrix block, the 1024 feature rows at the step's
    offset, and what the accumulator held. -/
theorem sout5_B_eq (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i) (x0 : Vec F S512x1024 .bf16) (x1 : Vec F S10240x512 .bf16) (x2 : Vec F S1x512 .f32) (xs0 : Vec F S512x512 .f32) :
    sout5_B c i arg2 harg2 arg3 harg3 arg4 harg4 arg5 harg5 arg6 harg6 hc0 hc1 x0 x1 x2 xs0 = k5_pay2 x0 (View.ld x1 (Rect.unit (s := S10240x512) (k5_off1 i) S1024x512.size (k5_off1_inb i))) xs0 := by
  unfold sout5_B
  rw [View.read_writes_eq_canon _ _ _ (scover5_B c i arg2 harg2 arg3 harg3 arg4 harg4 arg5 harg5 arg6 harg6 hc0 hc1 x0 x1 x2 xs0)]
  unfold kernelRun5_B
  dsimp only
  rw [View.canon_unit_zero hz5]
  simp only [View.readAt_eq_ld, harg2.read_unread, harg3.read_unread, harg6.read_unread, View.ld_unit_zero (S := S512x1024) hz5, View.ld_unit_zero (S := S512x512) hz5]

/-- The first step leaves the same payload over the zero it has just stored. -/
theorem sout5_A_eq (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i) (x0 : Vec F S512x1024 .bf16) (x1 : Vec F S10240x512 .bf16) (x2 : Vec F S1x512 .f32) :
    sout5_A c i arg2 harg2 arg3 harg3 arg4 harg4 arg5 harg5 arg6 harg6 hc0 hc1 x0 x1 x2 = k5_pay2 x0 (View.ld x1 (Rect.unit (s := S10240x512) (k5_off1 i) S1024x512.size (k5_off1_inb i))) k5_pay1 := by
  unfold sout5_A
  rw [View.read_writes_eq_canon _ _ _ (scover5_A c i arg2 harg2 arg3 harg3 arg4 harg4 arg5 harg5 arg6 harg6 hc0 hc1 x0 x1 x2)]
  unfold kernelRun5_A
  dsimp only
  sl_unfold_words
  rw [View.canon_cons_unit_zero (S := S512x512) hz5, View.readCov_unit_zero (S := S512x512) _ hz5]
  simp only [View.readAt_eq_ld, harg2.read_unread, harg3.read_unread, View.ld_unit_zero (S := S512x1024) hz5, View.ld_unit_zero (S := S512x512) hz5]

/-- The last step leaves in the accumulator what a middle step does, -/
theorem sout5_C_eq (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) :
    sout5_C c i arg2 harg2 arg3 harg3 arg4 harg4 arg5 harg5 arg6 harg6 hc0 hc1 x0 x1 x2 xs0 = k5_pay2 x0 (View.ld x1 (Rect.unit (s := S10240x512) (k5_off1 i) S1024x512.size (k5_off1_inb i))) xs0 := by
  unfold sout5_C
  rw [View.read_writes_eq_canon _ _ _ (scover5_C c i arg2 harg2 arg3 harg3 arg4 harg4 arg5 harg5 arg6 harg6 hc0 hc1 x0 x1 x2 xs0)]
  unfold kernelRun5_C
  dsimp only
  sl_unfold_words
  rw [View.canon_unit_zero hz5]
  simp only [View.readAt_eq_ld, harg2.read_unread, harg3.read_unread, harg6.read_unread, View.ld_unit_zero (S := S512x1024) hz5, View.ld_unit_zero (S := S512x512) hz5]

/-- and in the result's buffer the closing payload of that new accumulator and the bias row. -/
theorem out5_C_eq (c : Dev nD) (i : grid5.Coords) (arg2 : Memref sig .tc .vmem S512x1024 .bf16) (harg2 : arg2.IsWhole) (arg3 : Memref sig .tc .vmem S10240x512 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i) (x0 : Vec F S512x1024 .bf16) (x1 : Vec F S10240x512 .bf16) (x2 : Vec F S1x512 .f32) (xs0 : Vec F S512x512 .f32) :
    out5_C_3 c i arg2 harg2 arg3 harg3 arg4 harg4 arg5 harg5 arg6 harg6 hc0 hc1 x0 x1 x2 xs0 = k5_pay3 (k5_pay2 x0 (View.ld x1 (Rect.unit (s := S10240x512) (k5_off1 i) S1024x512.size (k5_off1_inb i))) xs0) x2 := by
  unfold out5_C_3
  rw [View.read_writes_eq_canon _ _ _ (cover5_C_3 c i arg2 harg2 arg3 harg3 arg4 harg4 arg5 harg5 arg6 harg6 hc0 hc1 x0 x1 x2 xs0)]
  unfold kernelRun5_C
  dsimp only
  sl_unfold_words
  rw [View.canon_unit_zero hz5]
  simp only [View.readCov_unit_zero (S := S512x512) _ hz5, View.readAt_eq_ld, harg2.read_unread, harg3.read_unread, harg4.read_unread, harg6.read_unread, View.ld_unit_zero (S := S512x1024) hz5, View.ld_unit_zero (S := S512x512) hz5, View.ld_unit_zero (S := S1x512) hz5]

end Pieces

/-! ## Blocks read off the arrays -/

section Value

variable (V : (c : Dev nD) → (b : Ref sig .tc) → Buf (Elt Ideal) ((c : Thread nD τ).loc b))

/-- The dense matrix, the features and the bias row as the region finds them. -/
abbrev Amat5 (c : Dev nD) : Vec Ideal S10240x10240 .bf16 := V c (Pipeline.arrRef spec5 0)
abbrev Hmat5 (c : Dev nD) : Vec Ideal S10240x512 .bf16 := V c (Pipeline.arrRef spec5 1)
abbrev Bvec5 (c : Dev nD) : Vec Ideal S1x512 .f32 := V c (Pipeline.arrRef spec5 2)

theorem lt_N5 (t : Fin cfg5.N) : t.val < 200 := Nat.lt_of_lt_of_eq t.isLt (show cfg5.N = 200 from N_5)

/-- Entry `(i, j)` of a matrix, and zero outside it: sums over row and column numbers are then sums over naturals. -/
def entry5 {n0 n1 : ℕ} (X : (⟨2, ![n0, n1]⟩ : Shape).Idx → EReal) (i j : ℕ) : EReal :=
  if h : i < n0 ∧ j < n1 then X (ix2 ⟨i, h.1⟩ ⟨j, h.2⟩) else 0

theorem entry5_of_lt {n0 n1 : ℕ} (X : (⟨2, ![n0, n1]⟩ : Shape).Idx → EReal) (i j : ℕ) (hi : i < n0) (hj : j < n1) :
    entry5 X i j = X (ix2 ⟨i, hi⟩ ⟨j, hj⟩) := dif_pos ⟨hi, hj⟩

/-- The printed index maps over the grid: point `t` is row tile `t / 10`, step `t % 10`; the matrix's block moves with both,
    the result's with the tile, the features and the bias stay, and the body loads its feature rows at `1024 (t % 10)`. -/
theorem idx_facts5 : ∀ t : Fin cfg5.N, win5_0.index t (0 : Fin 2) = t.val / 10 ∧ win5_0.index t (1 : Fin 2) = t.val % 10
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val / 10 ∧ win5_3.index t (1 : Fin 2) = 0
    ∧ k5_off1 (grid5.coords t) (0 : Fin 2) = 1024 * (t.val % 10) ∧ k5_off1 (grid5.coords t) (1 : Fin 2) = 0 :=
  (by decide +kernel : ∀ t : Fin grid5.N, _)

/-- The matrix's block at point `t`: rows `512 (t / 10) …`, columns `1024 (t % 10) …`. -/
theorem blk5_0_entry (c : Dev nD) (t : Fin cfg5.N) (r : Fin 512) (j' : Fin 1024) :
    (iblk5 V c 0 t : Vec Ideal S512x1024 .bf16) (ix2 r j') = entry5 (Amat5 V c) (512 * (t.val / 10) + r.val) (t.val % 10 * 1024 + j'.val) := by
  have ht := lt_N5 t
  obtain ⟨e0, e1, -⟩ := idx_facts5 t
  rw [entry5_of_lt _ _ _ (by omega) (by omega)]
  unfold iblk5
  rw [View.read_apply]
  show V c (Pipeline.arrRef spec5 0) (((cfg5.win 0).blk t).view.emb (ix2 r j')) = V c (Pipeline.arrRef spec5 0) _
  refine congrArg (V c (Pipeline.arrRef spec5 0)) (funext fun a => Fin.ext ?_)
  match a with
  | ⟨0, _⟩ => show win5_0.index t (0 : Fin 2) * 512 + 1 * r.val = 512 * (t.val / 10) + r.val; rw [e0]; omega
  | ⟨1, _⟩ => show win5_0.index t (1 : Fin 2) * 1024 + 1 * j'.val = t.val % 10 * 1024 + j'.val; rw [e1]; omega

/-- The features' block is the whole array, and the body's load takes its rows `1024 (t % 10) …`. -/
theorem blk5_1_entry (c : Dev nD) (t : Fin cfg5.N) (j' : Fin 1024) (cc : Fin 512) :
    (View.ld (iblk5 V c 1 t : Vec Ideal S10240x512 .bf16) (Rect.unit (s := S10240x512) (k5_off1 (grid5.coords t)) S1024x512.size (k5_off1_inb (grid5.coords t)))) (ix2 j' cc)
      = entry5 (Hmat5 V c) (t.val % 10 * 1024 + j'.val) cc.val := by
  have ht := lt_N5 t
  obtain ⟨-, -, e2, e3, -, -, -, -, e8, e9⟩ := idx_facts5 t
  rw [entry5_of_lt _ _ _ (by omega) cc.isLt]
  unfold iblk5
  show View.read _ _ _ ((Rect.unit (s := S10240x512) (k5_off1 (grid5.coords t)) S1024x512.size (k5_off1_inb (grid5.coords t))).idx (ix2 j' cc)) = _
  rw [View.read_apply]
  show V c (Pipeline.arrRef spec5 1) (((cfg5.win 1).blk t).view.emb _) = V c (Pipeline.arrRef spec5 1) _
  refine congrArg (V c (Pipeline.arrRef spec5 1)) (funext fun a => Fin.ext ?_)
  match a with
  | ⟨0, _⟩ => show win5_1.index t (0 : Fin 2) * 10240 + 1 * (k5_off1 (grid5.coords t) (0 : Fin 2) + 1 * j'.val) = t.val % 10 * 1024 + j'.val; rw [e2, e8]; omega
  | ⟨1, _⟩ => show win5_1.index t (1 : Fin 2) * 512 + 1 * (k5_off1 (grid5.coords t) (1 : Fin 2) + 1 * cc.val) = cc.val; rw [e3, e9]; omega

/-- The bias's block is the whole row. -/
theorem blk5_2_at (c : Dev nD) (t : Fin cfg5.N) (cc : Fin 512) :
    (iblk5 V c 2 t : Vec Ideal S1x512 .f32) (ix2 0 cc) = Bvec5 V c (ix2 0 cc) := by
  obtain ⟨-, -, -, -, e4, e5, -⟩ := idx_facts5 t
  unfold iblk5
  rw [View.read_apply]
  show V c (Pipeline.arrRef spec5 2) (((cfg5.win 2).blk t).view.emb (ix2 0 cc)) = V c (Pipeline.arrRef spec5 2) _
  refine congrArg (V c (Pipeline.arrRef spec5 2)) (funext fun a => Fin.ext ?_)
  match a with
  | ⟨0, _⟩ => show win5_2.index t (0 : Fin 2) * 1 + 1 * 0 = 0; rw [e4]
  | ⟨1, _⟩ => show win5_2.index t (1 : Fin 2) * 512 + 1 * cc.val = cc.val; rw [e5]; omega

/-! ## The accumulator after each point -/

/-- After a first step the accumulator is the step's payload over zero. -/
theorem acc5_A (c : Dev nD) (t : Fin cfg5.N) (h0 : t.val % 10 = 0) (h1 : ¬t.val % 10 = 9) :
    (outsAt5 V c t.val t.isLt).2 = k5_pay2 (iblk5 V c 0 t) (View.ld (iblk5 V c 1 t : Vec Ideal S10240x512 .bf16) (Rect.unit (s := S10240x512) (k5_off1 (grid5.coords t)) S1024x512.size (k5_off1_inb (grid5.coords t)))) (k5_pay1 (F := Ideal)) := by
  rw [outsAt5_A V c t h0 h1]
  dsimp only
  exact sout5_A_eq (F := Ideal) c (grid5.coords t) (ms5_0 t) (hs5_0 t) (ms5_1 t) (hs5_1 t) (ms5_2 t) (hs5_2 t) (ms5_3 t) (hs5_3 t) scM5 (Memref.isWhole_whole _) ((hcond5_0 t).mpr h0) (fun h => h1 ((hcond5_1 t).mp h)) (iblk5 V c 0 t) (iblk5 V c 1 t) (iblk5 V c 2 t)

/-- After a middle step it is the step's payload over what the point before left. -/
theorem acc5_B (c : Dev nD) (t : Fin cfg5.N) (h0 : ¬t.val % 10 = 0) (h1 : ¬t.val % 10 = 9) :
    (outsAt5 V c t.val t.isLt).2 = k5_pay2 (iblk5 V c 0 t) (View.ld (iblk5 V c 1 t : Vec Ideal S10240x512 .bf16) (Rect.unit (s := S10240x512) (k5_off1 (grid5.coords t)) S1024x512.size (k5_off1_inb (grid5.coords t)))) (outsAt5 V c (t.val - 1) (Nat.lt_of_le_of_lt (Nat.sub_le _ _) t.isLt)).2 := by
  rw [outsAt5_B V c t h0 h1]
  dsimp only
  exact sout5_B_eq (F := Ideal) c (grid5.coords t) (ms5_0 t) (hs5_0 t) (ms5_1 t) (hs5_1 t) (ms5_2 t) (hs5_2 t) (ms5_3 t) (hs5_3 t) scM5 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2

/-- After a last step likewise, -/
theorem acc5_C (c : Dev nD) (t : Fin cfg5.N) (h0 : ¬t.val % 10 = 0) (h1 : t.val % 10 = 9) :
    (outsAt5 V c t.val t.isLt).2 = k5_pay2 (iblk5 V c 0 t) (View.ld (iblk5 V c 1 t : Vec Ideal S10240x512 .bf16) (Rect.unit (s := S10240x512) (k5_off1 (grid5.coords t)) S1024x512.size (k5_off1_inb (grid5.coords t)))) (outsAt5 V c (t.val - 1) (Nat.lt_of_le_of_lt (Nat.sub_le _ _) t.isLt)).2 := by
  rw [outsAt5_C V c t h0 h1]
  dsimp only
  exact sout5_C_eq (F := Ideal) c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2

/-- and the result's buffer holds the closing payload of that accumulator and the bias row. -/
theorem res5_C (c : Dev nD) (t : Fin cfg5.N) (h0 : ¬t.val % 10 = 0) (h1 : t.val % 10 = 9) :
    (outsAt5 V c t.val t.isLt).1 = k5_pay3 (outsAt5 V c t.val t.isLt).2 (iblk5 V c 2 t) := by
  rw [acc5_C V c t h0 h1, outsAt5_C V c t h0 h1]
  dsimp only
  exact out5_C_eq (F := Ideal) c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2

/-- Row `row` of `A` against column `col` of `H` over the first `m` blocks of 1024 columns. -/
def partProd5 {n0 n1 n2 : ℕ} (A : (⟨2, ![n0, n1]⟩ : Shape).Idx → EReal) (H : (⟨2, ![n1, n2]⟩ : Shape).Idx → EReal) (row col m : ℕ) : EReal :=
  ∑ k' ∈ Finset.range m, ∑ j' : Fin 1024, entry5 A row (k' * 1024 + j'.val) * entry5 H (k' * 1024 + j'.val) col

/-- One reduction step, over blocks that are known entry by entry, extends the partial product by one block. -/
theorem step_partProd5 (A : Vec Ideal S10240x10240 .bf16) (H : Vec Ideal S10240x512 .bf16)
    (x0 : Vec Ideal S512x1024 .bf16) (hb : Vec Ideal S1024x512 .bf16) (acc : Vec Ideal S512x512 .f32)
    (row k : ℕ) (r : Fin 512) (cc : Fin 512)
    (hx0 : ∀ j' : Fin 1024, x0 (ix2 r j') = entry5 A row (k * 1024 + j'.val))
    (hhb : ∀ j' : Fin 1024, hb (ix2 j' cc) = entry5 H (k * 1024 + j'.val) cc.val)
    (hacc : acc (ix2 r cc) = partProd5 A H row cc.val k) :
    k5_pay2 x0 hb acc (ix2 r cc) = partProd5 A H row cc.val (k + 1) := by
  rw [pay5_2_at, hacc]
  unfold partProd5
  rw [Finset.sum_range_succ]
  refine congrArg (_ + ·) (Finset.sum_congr rfl fun j' _ => ?_)
  rw [hx0, hhb]

/-- THE ACCUMULATOR IN CLOSED FORM: after point `n` (row tile `n / 10`, step `n % 10`) its entry `(r, cc)` is row
    `512 (n / 10) + r` of the matrix against column `cc` of the features over the first `n % 10 + 1` column blocks. -/
theorem acc5_closed (c : Dev nD) : ∀ (n : ℕ) (hn : n < cfg5.N) (r : Fin 512) (cc : Fin 512),
    (outsAt5 V c n hn).2 (ix2 r cc) = partProd5 (Amat5 V c) (Hmat5 V c) (512 * (n / 10) + r.val) cc.val (n % 10 + 1) := by
  intro n
  induction n using Nat.strong_induction_on with
  | _ n ih =>
    intro hn r cc
    have hN : n < 200 := lt_N5 ⟨n, hn⟩
    by_cases h0 : n % 10 = 0
    · have h1 : ¬n % 10 = 9 := by omega
      refine (congrFun (acc5_A V c ⟨n, hn⟩ h0 h1) (ix2 r cc)).trans ?_
      rw [h0]
      refine step_partProd5 (Amat5 V c) (Hmat5 V c) (iblk5 V c 0 ⟨n, hn⟩) _ (k5_pay1 (F := Ideal)) (512 * (n / 10) + r.val) 0 r cc (fun j' => ?_) (fun j' => ?_) ?_
      · have e := blk5_0_entry V c ⟨n, hn⟩ r j'
        rw [show (⟨n, hn⟩ : Fin cfg5.N).val = n from rfl, h0] at e
        exact e
      · have e := blk5_1_entry V c ⟨n, hn⟩ j' cc
        rw [show (⟨n, hn⟩ : Fin cfg5.N).val = n from rfl, h0] at e
        exact e
      · rw [pay5_1_apply]
        unfold partProd5
        rw [Finset.sum_range_zero]
    · have hpos : 0 < n := by omega
      have hprev := ih (n - 1) (by omega) (Nat.lt_of_le_of_lt (Nat.sub_le _ _) hn) r cc
      rw [show (n - 1) / 10 = n / 10 from by omega, show (n - 1) % 10 + 1 = n % 10 from by omega] at hprev
      have hstep : k5_pay2 (iblk5 V c 0 ⟨n, hn⟩) (View.ld (iblk5 V c 1 ⟨n, hn⟩ : Vec Ideal S10240x512 .bf16) (Rect.unit (s := S10240x512) (k5_off1 (grid5.coords ⟨n, hn⟩)) S1024x512.size (k5_off1_inb (grid5.coords ⟨n, hn⟩)))) (outsAt5 V c (n - 1) (Nat.lt_of_le_of_lt (Nat.sub_le _ _) hn)).2 (ix2 r cc)
          = partProd5 (Amat5 V c) (Hmat5 V c) (512 * (n / 10) + r.val) cc.val (n % 10 + 1) :=
        step_partProd5 (Amat5 V c) (Hmat5 V c) (iblk5 V c 0 ⟨n, hn⟩) _ _ (512 * (n / 10) + r.val) (n % 10) r cc
          (fun j' => blk5_0_entry V c ⟨n, hn⟩ r j') (fun j' => blk5_1_entry V c ⟨n, hn⟩ j' cc) hprev
      by_cases h1 : n % 10 = 9
      · exact (congrFun (acc5_C V c ⟨n, hn⟩ h0 h1) (ix2 r cc)).trans hstep
      · exact (congrFun (acc5_B V c ⟨n, hn⟩ h0 h1) (ix2 r cc)).trans hstep

/-! ## From the row tiles to the array -/

/-- The whole partial product, ten blocks of 1024 columns, is the product over all 10240 columns. -/
theorem partProd5_full (A : Vec Ideal S10240x10240 .bf16) (H : Vec Ideal S10240x512 .bf16) (i : Fin 10240) (cc : Fin 512) :
    partProd5 A H i.val cc.val 10 = ∑ j : Fin 10240, A (ix2 i j) * H (ix2 j cc) := by
  unfold partProd5
  refine (Fin.sum_univ_eq_sum_range (fun k' => ∑ j' : Fin 1024, entry5 A i.val (k' * 1024 + j'.val) * entry5 H (k' * 1024 + j'.val) cc.val) 10).symm.trans ?_
  refine (Cert.Lib.BlockSums.sum_blocks 10 1024 (fun m => entry5 A i.val m * entry5 H m cc.val)).trans ?_
  show ∑ j : Fin 10240, entry5 A i.val j.val * entry5 H j.val cc.val = _
  refine Finset.sum_congr rfl fun j _ => ?_
  rw [entry5_of_lt A _ _ i.isLt j.isLt, entry5_of_lt H _ _ j.isLt cc.isLt]

/-- What the region's result array ends holding: each row of the matrix against each feature column, plus the bias, clamped
    below at zero. -/
def agg5 (A : Vec Ideal S10240x10240 .bf16) (H : Vec Ideal S10240x512 .bf16) (B : Vec Ideal S1x512 .f32) : Vec Ideal S10240x512 .f32 :=
  fun y => max ((∑ j : Fin 10240, A (ix2 ⟨(y 0).val, (y 0).isLt⟩ j) * H (ix2 j ⟨(y 1).val, (y 1).isLt⟩)) + B (ix2 0 ⟨(y 1).val, (y 1).isLt⟩)) 0

theorem agg5_at (A : Vec Ideal S10240x10240 .bf16) (H : Vec Ideal S10240x512 .bf16) (B : Vec Ideal S1x512 .f32) (i : Fin 10240) (cc : Fin 512) :
    agg5 A H B (ix2 i cc) = max ((∑ j : Fin 10240, A (ix2 i j) * H (ix2 j cc)) + B (ix2 0 cc)) 0 := rfl

/-- The closing payload over a finished accumulator is the tile of `agg5`: stated over variables. -/
theorem tile_agg5 (A : Vec Ideal S10240x10240 .bf16) (H : Vec Ideal S10240x512 .bf16) (B : Vec Ideal S1x512 .f32)
    (acc : Vec Ideal S512x512 .f32) (b : Vec Ideal S1x512 .f32) (i : Fin 10240) (r : Fin 512) (cc : Fin 512)
    (hacc : acc (ix2 r cc) = partProd5 A H i.val cc.val 10) (hb : b (ix2 0 cc) = B (ix2 0 cc)) :
    k5_pay3 acc b (ix2 r cc) = agg5 A H B (ix2 i cc) := by
  rw [pay5_3_at, hacc, hb, partProd5_full, agg5_at]

/-- WHAT A LAST STEP WRITES BACK is its row tile of `agg5` of the arrays the region found. -/
theorem flushed5_eq (c : Dev nD) (t : Fin cfg5.N) (hf : (cfg5.win 3).flush t = true) :
    (dat5 V c).flushed 3 t = ((cfg5.win 3).blk t).view.read (Elt Ideal) (agg5 (Amat5 V c) (Hmat5 V c) (Bvec5 V c)) := by
  have h9 : t.val % 10 = 9 := (flush5_3 t).mp hf
  have h0 : ¬t.val % 10 = 0 := by omega
  have ht := lt_N5 t
  obtain ⟨-, -, -, -, -, -, e6, e7, -⟩ := idx_facts5 t
  show (cfg5.win 3).cut (grid5.coords t) ((dat5 V c).after 3 t) = _
  rw [after5_3, res5_C V c t h0 h9]
  funext y
  obtain ⟨r, cc, rfl⟩ : ∃ (r : Fin 512) (cc : Fin 512), y = ix2 r cc := ⟨y 0, y 1, eq_ix2 y⟩
  rw [View.read_apply]
  have hemb : ((cfg5.win 3).blk t).view.emb (ix2 r cc) = (ix2 (⟨512 * (t.val / 10) + r.val, by omega⟩ : Fin 10240) cc : S10240x512.Idx) := by
    funext a
    apply Fin.ext
    match a with
    | ⟨0, _⟩ => show win5_3.index t (0 : Fin 2) * 512 + 1 * r.val = 512 * (t.val / 10) + r.val; rw [e6]; omega
    | ⟨1, _⟩ => show win5_3.index t (1 : Fin 2) * 512 + 1 * cc.val = cc.val; rw [e7]; omega
  show k5_pay3 (outsAt5 V c t.val t.isLt).2 (iblk5 V c 2 t) (ix2 r cc) = agg5 (Amat5 V c) (Hmat5 V c) (Bvec5 V c) (((cfg5.win 3).blk t).view.emb (ix2 r cc))
  rw [hemb]
  refine tile_agg5 (Amat5 V c) (Hmat5 V c) (Bvec5 V c) (outsAt5 V c t.val t.isLt).2 (iblk5 V c 2 t) ⟨512 * (t.val / 10) + r.val, by omega⟩ r cc ?_ (blk5_2_at V c t cc)
  have e := acc5_closed V c t.val t.isLt r cc
  rw [h9] at e
  exact e

/-- An index of the array is in point `t`'s block iff each coordinate is in the block's range on its axis. -/
theorem mem_blk5_3 (t : Fin cfg5.N) (i : S10240x512.Idx) :
    i ∈ ((cfg5.win 3).blk t).view.set ↔ ∀ a : Fin 2, win5_3.index t a * S512x512.size a ≤ (i a).val ∧ (i a).val < win5_3.index t a * S512x512.size a + S512x512.size a := by
  show i ∈ ((View.whole main_v55).slice (win5_3.rect t)).set ↔ _
  rw [View.set_slice_whole, Rect.mem_set_unit]
  exact Iff.rfl

/-- Every row is in the tile of the last step of its row tile. -/
theorem cover5_3 (i : S10240x512.Idx) : ∃ t : Fin cfg5.N, (cfg5.win 3).flush t = true ∧ i ∈ ((cfg5.win 3).blk t).view.set := by
  have hi0 : (i 0).val < 10240 := (i 0).isLt
  have hi1 : (i 1).val < 512 := (i 1).isLt
  have hN : cfg5.N = 200 := N_5
  refine ⟨⟨10 * ((i 0).val / 512) + 9, by rw [hN]; omega⟩, ?_, ?_⟩
  · exact (flush5_3 _).mpr (by show (10 * ((i 0).val / 512) + 9) % 10 = 9; omega)
  · rw [mem_blk5_3]
    obtain ⟨-, -, -, -, -, -, e6, e7, -⟩ := idx_facts5 ⟨10 * ((i 0).val / 512) + 9, by rw [hN]; omega⟩
    intro a
    match a with
    | ⟨0, _⟩ =>
      show win5_3.index _ (0 : Fin 2) * 512 ≤ (i 0).val ∧ (i 0).val < win5_3.index _ (0 : Fin 2) * 512 + 512
      rw [e6]
      show (10 * ((i 0).val / 512) + 9) / 10 * 512 ≤ (i 0).val ∧ (i 0).val < (10 * ((i 0).val / 512) + 9) / 10 * 512 + 512
      omega
    | ⟨1, _⟩ =>
      show win5_3.index _ (1 : Fin 2) * 512 ≤ (i 1).val ∧ (i 1).val < win5_3.index _ (1 : Fin 2) * 512 + 512
      rw [e7]
      omega

/-- THE RESULT ARRAY after the region: `relu (A @ h + b)` of the arrays the region found. -/
theorem final5_fun (c : Dev nD) : (dat5 V c).arrAt 3 cfg5.N = agg5 (Amat5 V c) (Hmat5 V c) (Bvec5 V c) :=
  (dat5 V c).arrAt_eq_of_cover 3 (agg5 (Amat5 V c) (Hmat5 V c) (Bvec5 V c)) (fun t hf => flushed5_eq V c t hf) (fun i => cover5_3 i)

/-- The same, entry by entry. -/
theorem final5 (c : Dev nD) (i : Fin 10240) (cc : Fin 512) :
    ((dat5 V c).arrAt 3 cfg5.N : Vec Ideal S10240x512 .f32) (ix2 i cc)
      = max ((∑ j : Fin 10240, Amat5 V c (ix2 i j) * Hmat5 V c (ix2 j cc)) + Bvec5 V c (ix2 0 cc)) 0 :=
  congrFun (final5_fun V c) (ix2 i cc)

end Value

end Cert.KernelIdeal.Hand

end
-- ==== Proof.AggVal7.lean ====
/-
  Region 7 of the kernel program, its value: what the aggregation `A @ h + b` leaves in its result array, as one
  function of the arrays the region found.

  The body's three pure payloads are read at an index over the extended reals: the reset is zero, a reduction step adds
  to the accumulator the product of a 512 x 1024 block of the matrix with 1024 rows of the features, and the last step
  adds the bias row. Each control case's found pieces are one covering store of such a payload.
  By induction over the grid points the accumulator after step `k` of a row tile is the partial product over the first
  `k + 1` column blocks; the last step of each row tile writes the tile back, the ten blocks of 1024 columns regroup
  into one sum over all 10240 columns, and the twenty tiles cover the array.
-/
import proofs.«160261_j68599217652370_2_alg».proof.Proof.Agg7
import proofs.«160261_j68599217652370_2_alg».proof.Proof.LibPlainDot
import proofs.«160261_j68599217652370_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The payloads at an index -/

/-- The reset stores zero. -/
theorem pay7_1_apply (j : S512x128.Idx) : k7_pay1 (F := Ideal) j = 0 := by
  unfold k7_pay1
  (try dsimp only)
  rw [shapeCast_self]
  exact Ideal.ofBits_zero_f32

/-- A reduction step: the accumulator plus the block product, the contracted coordinate running over the block's 1024 columns. -/
theorem pay7_2_apply (a : Vec Ideal S512x1024 .bf16) (hb : Vec Ideal S1024x128 .bf16) (acc : Vec Ideal S512x128 .f32) (j : S512x128.Idx) :
    k7_pay2 a hb acc j = acc j + ∑ k : Fin 1024, a (ix2 ⟨(j 0).val, (j 0).isLt⟩ k) * hb (ix2 k ⟨(j 1).val, (j 1).isLt⟩) := by
  unfold k7_pay2
  (try dsimp only)
  rw [shapeCast_self, shapeCast_self, shapeCast_self]
  refine (addf_apply _ _ j).trans ?_
  exact congrArg (acc j + ·) (Cert.Lib.PlainDot.matmul_zero_apply 512 1024 128 none _ _ j)

/-- The same at explicit coordinates. -/
theorem pay7_2_at (a : Vec Ideal S512x1024 .bf16) (hb : Vec Ideal S1024x128 .bf16) (acc : Vec Ideal S512x128 .f32) (r : Fin 512) (cc : Fin 128) :
    k7_pay2 a hb acc (ix2 r cc) = acc (ix2 r cc) + ∑ k : Fin 1024, a (ix2 r k) * hb (ix2 k cc) :=
  pay7_2_apply a hb acc (ix2 r cc)

/-- The last step at explicit coordinates: accumulator plus the bias row. -/
theorem pay7_3_at (acc : Vec Ideal S512x128 .f32) (b : Vec Ideal S1x128 .f32) (r : Fin 512) (cc : Fin 128) :
    k7_pay3 acc b (ix2 r cc) = acc (ix2 r cc) + b (ix2 0 cc) := by
  unfold k7_pay3
  (try dsimp only)
  rw [shapeCast_self]
  refine (addf_apply _ _ _).trans ?_
  refine congrArg (acc (ix2 r cc) + ·) ?_
  refine broadcastTo_apply _ _ _ (ix2 0 cc) fun a => ?_
  match a with
  | ⟨0, _⟩ => rfl
  | ⟨1, _⟩ => rfl

/-- The last step at an index. -/
theorem pay7_3_apply (acc : Vec Ideal S512x128 .f32) (b : Vec Ideal S1x128 .f32) (j : S512x128.Idx) :
    k7_pay3 acc b j = acc j + b (ix2 0 ⟨(j 1).val, (j 1).isLt⟩) := by
  have e := pay7_3_at acc b ⟨(j 0).val, (j 0).isLt⟩ ⟨(j 1).val, (j 1).isLt⟩
  have ej : (ix2 (⟨(j 0).val, (j 0).isLt⟩ : Fin 512) (⟨(j 1).val, (j 1).isLt⟩ : Fin 128) : S512x128.Idx) = j := by
    funext a
    match a with
    | ⟨0, _⟩ => rfl
    | ⟨1, _⟩ => rfl
  rw [ej] at e
  exact e

/-! ## The found pieces are payloads of the blocks -/

section Pieces

variable {F : FTy → Type} [FloatOps F]

theorem hz7 : (![0, 0] : Fin 2 → Nat) = fun _ => 0 := funext fun a => by fin_cases a <;> rfl

/-- A middle step leaves in the accumulator the step's payload of the matrix block, the 1024 feature rows at the step's
    offset, and what the accumulator held. -/
theorem sout7_B_eq (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : ¬cond7_1 i) (x0 : Vec F S512x1024 .bf16) (x1 : Vec F S10240x128 .bf16) (x2 : Vec F S1x128 .f32) (xs0 : Vec F S512x128 .f32) :
    sout7_B c i arg2 harg2 arg3 harg3 arg4 harg4 arg5 harg5 arg6 harg6 hc0 hc1 x0 x1 x2 xs0 = k7_pay2 x0 (View.ld x1 (Rect.unit (s := S10240x128) (k7_off1 i) S1024x128.size (k7_off1_inb i))) xs0 := by
  unfold sout7_B
  rw [View.read_writes_eq_canon _ _ _ (scover7_B c i arg2 harg2 arg3 harg3 arg4 harg4 arg5 harg5 arg6 harg6 hc0 hc1 x0 x1 x2 xs0)]
  unfold kernelRun7_B
  dsimp only
  rw [View.canon_unit_zero hz7]
  simp only [View.readAt_eq_ld, harg2.read_unread, harg3.read_unread, harg6.read_unread, View.ld_unit_zero (S := S512x1024) hz7, View.ld_unit_zero (S := S512x128) hz7]

/-- The first step leaves the same payload over the zero it has just stored. -/
theorem sout7_A_eq (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond7_0 i) (hc1 : ¬cond7_1 i) (x0 : Vec F S512x1024 .bf16) (x1 : Vec F S10240x128 .bf16) (x2 : Vec F S1x128 .f32) :
    sout7_A c i arg2 harg2 arg3 harg3 arg4 harg4 arg5 harg5 arg6 harg6 hc0 hc1 x0 x1 x2 = k7_pay2 x0 (View.ld x1 (Rect.unit (s := S10240x128) (k7_off1 i) S1024x128.size (k7_off1_inb i))) k7_pay1 := by
  unfold sout7_A
  rw [View.read_writes_eq_canon _ _ _ (scover7_A c i arg2 harg2 arg3 harg3 arg4 harg4 arg5 harg5 arg6 harg6 hc0 hc1 x0 x1 x2)]
  unfold kernelRun7_A
  dsimp only
  sl_unfold_words
  rw [View.canon_cons_unit_zero (S := S512x128) hz7, View.readCov_unit_zero (S := S512x128) _ hz7]
  simp only [View.readAt_eq_ld, harg2.read_unread, harg3.read_unread, View.ld_unit_zero (S := S512x1024) hz7, View.ld_unit_zero (S := S512x128) hz7]

/-- The last step leaves in the accumulator what a middle step does, -/
theorem sout7_C_eq (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) :
    sout7_C c i arg2 harg2 arg3 harg3 arg4 harg4 arg5 harg5 arg6 harg6 hc0 hc1 x0 x1 x2 xs0 = k7_pay2 x0 (View.ld x1 (Rect.unit (s := S10240x128) (k7_off1 i) S1024x128.size (k7_off1_inb i))) xs0 := by
  unfold sout7_C
  rw [View.read_writes_eq_canon _ _ _ (scover7_C c i arg2 harg2 arg3 harg3 arg4 harg4 arg5 harg5 arg6 harg6 hc0 hc1 x0 x1 x2 xs0)]
  unfold kernelRun7_C
  dsimp only
  sl_unfold_words
  rw [View.canon_unit_zero hz7]
  simp only [View.readAt_eq_ld, harg2.read_unread, harg3.read_unread, harg6.read_unread, View.ld_unit_zero (S := S512x1024) hz7, View.ld_unit_zero (S := S512x128) hz7]

/-- and in the result's buffer the closing payload of that new accumulator and the bias row. -/
theorem out7_C_eq (c : Dev nD) (i : grid7.Coords) (arg2 : Memref sig .tc .vmem S512x1024 .bf16) (harg2 : arg2.IsWhole) (arg3 : Memref sig .tc .vmem S10240x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond7_0 i) (hc1 : cond7_1 i) (x0 : Vec F S512x1024 .bf16) (x1 : Vec F S10240x128 .bf16) (x2 : Vec F S1x128 .f32) (xs0 : Vec F S512x128 .f32) :
    out7_C_3 c i arg2 harg2 arg3 harg3 arg4 harg4 arg5 harg5 arg6 harg6 hc0 hc1 x0 x1 x2 xs0 = k7_pay3 (k7_pay2 x0 (View.ld x1 (Rect.unit (s := S10240x128) (k7_off1 i) S1024x128.size (k7_off1_inb i))) xs0) x2 := by
  unfold out7_C_3
  rw [View.read_writes_eq_canon _ _ _ (cover7_C_3 c i arg2 harg2 arg3 harg3 arg4 harg4 arg5 harg5 arg6 harg6 hc0 hc1 x0 x1 x2 xs0)]
  unfold kernelRun7_C
  dsimp only
  sl_unfold_words
  rw [View.canon_unit_zero hz7]
  simp only [View.readCov_unit_zero (S := S512x128) _ hz7, View.readAt_eq_ld, harg2.read_unread, harg3.read_unread, harg4.read_unread, harg6.read_unread, View.ld_unit_zero (S := S512x1024) hz7, View.ld_unit_zero (S := S512x128) hz7, View.ld_unit_zero (S := S1x128) hz7]

end Pieces

/-! ## Blocks read off the arrays -/

section Value

variable (V : (c : Dev nD) → (b : Ref sig .tc) → Buf (Elt Ideal) ((c : Thread nD τ).loc b))

/-- The dense matrix, the features and the bias row as the region finds them. -/
abbrev Amat7 (c : Dev nD) : Vec Ideal S10240x10240 .bf16 := V c (Pipeline.arrRef spec7 0)
abbrev Hmat7 (c : Dev nD) : Vec Ideal S10240x128 .bf16 := V c (Pipeline.arrRef spec7 1)
abbrev Bvec7 (c : Dev nD) : Vec Ideal S1x128 .f32 := V c (Pipeline.arrRef spec7 2)

theorem lt_N7 (t : Fin cfg7.N) : t.val < 200 := Nat.lt_of_lt_of_eq t.isLt (show cfg7.N = 200 from N_7)

/-- Entry `(i, j)` of a matrix, and zero outside it: sums over row and column numbers are then sums over naturals. -/
def entry7 {n0 n1 : ℕ} (X : (⟨2, ![n0, n1]⟩ : Shape).Idx → EReal) (i j : ℕ) : EReal :=
  if h : i < n0 ∧ j < n1 then X (ix2 ⟨i, h.1⟩ ⟨j, h.2⟩) else 0

theorem entry7_of_lt {n0 n1 : ℕ} (X : (⟨2, ![n0, n1]⟩ : Shape).Idx → EReal) (i j : ℕ) (hi : i < n0) (hj : j < n1) :
    entry7 X i j = X (ix2 ⟨i, hi⟩ ⟨j, hj⟩) := dif_pos ⟨hi, hj⟩

/-- The printed index maps over the grid: point `t` is row tile `t / 10`, step `t % 10`; the matrix's block moves with both,
    the result's with the tile, the features and the bias stay, and the body loads its feature rows at `1024 (t % 10)`. -/
theorem idx_facts7 : ∀ t : Fin cfg7.N, win7_0.index t (0 : Fin 2) = t.val / 10 ∧ win7_0.index t (1 : Fin 2) = t.val % 10
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val / 10 ∧ win7_3.index t (1 : Fin 2) = 0
    ∧ k7_off1 (grid7.coords t) (0 : Fin 2) = 1024 * (t.val % 10) ∧ k7_off1 (grid7.coords t) (1 : Fin 2) = 0 :=
  (by decide +kernel : ∀ t : Fin grid7.N, _)

/-- The matrix's block at point `t`: rows `512 (t / 10) …`, columns `1024 (t % 10) …`. -/
theorem blk7_0_entry (c : Dev nD) (t : Fin cfg7.N) (r : Fin 512) (j' : Fin 1024) :
    (iblk7 V c 0 t : Vec Ideal S512x1024 .bf16) (ix2 r j') = entry7 (Amat7 V c) (512 * (t.val / 10) + r.val) (t.val % 10 * 1024 + j'.val) := by
  have ht := lt_N7 t
  obtain ⟨e0, e1, -⟩ := idx_facts7 t
  rw [entry7_of_lt _ _ _ (by omega) (by omega)]
  unfold iblk7
  rw [View.read_apply]
  show V c (Pipeline.arrRef spec7 0) (((cfg7.win 0).blk t).view.emb (ix2 r j')) = V c (Pipeline.arrRef spec7 0) _
  refine congrArg (V c (Pipeline.arrRef spec7 0)) (funext fun a => Fin.ext ?_)
  match a with
  | ⟨0, _⟩ => show win7_0.index t (0 : Fin 2) * 512 + 1 * r.val = 512 * (t.val / 10) + r.val; rw [e0]; omega
  | ⟨1, _⟩ => show win7_0.index t (1 : Fin 2) * 1024 + 1 * j'.val = t.val % 10 * 1024 + j'.val; rw [e1]; omega

/-- The features' block is the whole array, and the body's load takes its rows `1024 (t % 10) …`. -/
theorem blk7_1_entry (c : Dev nD) (t : Fin cfg7.N) (j' : Fin 1024) (cc : Fin 128) :
    (View.ld (iblk7 V c 1 t : Vec Ideal S10240x128 .bf16) (Rect.unit (s := S10240x128) (k7_off1 (grid7.coords t)) S1024x128.size (k7_off1_inb (grid7.coords t)))) (ix2 j' cc)
      = entry7 (Hmat7 V c) (t.val % 10 * 1024 + j'.val) cc.val := by
  have ht := lt_N7 t
  obtain ⟨-, -, e2, e3, -, -, -, -, e8, e9⟩ := idx_facts7 t
  rw [entry7_of_lt _ _ _ (by omega) cc.isLt]
  unfold iblk7
  show View.read _ _ _ ((Rect.unit (s := S10240x128) (k7_off1 (grid7.coords t)) S1024x128.size (k7_off1_inb (grid7.coords t))).idx (ix2 j' cc)) = _
  rw [View.read_apply]
  show V c (Pipeline.arrRef spec7 1) (((cfg7.win 1).blk t).view.emb _) = V c (Pipeline.arrRef spec7 1) _
  refine congrArg (V c (Pipeline.arrRef spec7 1)) (funext fun a => Fin.ext ?_)
  match a with
  | ⟨0, _⟩ => show win7_1.index t (0 : Fin 2) * 10240 + 1 * (k7_off1 (grid7.coords t) (0 : Fin 2) + 1 * j'.val) = t.val % 10 * 1024 + j'.val; rw [e2, e8]; omega
  | ⟨1, _⟩ => show win7_1.index t (1 : Fin 2) * 128 + 1 * (k7_off1 (grid7.coords t) (1 : Fin 2) + 1 * cc.val) = cc.val; rw [e3, e9]; omega

/-- The bias's block is the whole row. -/
theorem blk7_2_at (c : Dev nD) (t : Fin cfg7.N) (cc : Fin 128) :
    (iblk7 V c 2 t : Vec Ideal S1x128 .f32) (ix2 0 cc) = Bvec7 V c (ix2 0 cc) := by
  obtain ⟨-, -, -, -, e4, e5, -⟩ := idx_facts7 t
  unfold iblk7
  rw [View.read_apply]
  show V c (Pipeline.arrRef spec7 2) (((cfg7.win 2).blk t).view.emb (ix2 0 cc)) = V c (Pipeline.arrRef spec7 2) _
  refine congrArg (V c (Pipeline.arrRef spec7 2)) (funext fun a => Fin.ext ?_)
  match a with
  | ⟨0, _⟩ => show win7_2.index t (0 : Fin 2) * 1 + 1 * 0 = 0; rw [e4]
  | ⟨1, _⟩ => show win7_2.index t (1 : Fin 2) * 128 + 1 * cc.val = cc.val; rw [e5]; omega

/-! ## The accumulator after each point -/

/-- After a first step the accumulator is the step's payload over zero. -/
theorem acc7_A (c : Dev nD) (t : Fin cfg7.N) (h0 : t.val % 10 = 0) (h1 : ¬t.val % 10 = 9) :
    (outsAt7 V c t.val t.isLt).2 = k7_pay2 (iblk7 V c 0 t) (View.ld (iblk7 V c 1 t : Vec Ideal S10240x128 .bf16) (Rect.unit (s := S10240x128) (k7_off1 (grid7.coords t)) S1024x128.size (k7_off1_inb (grid7.coords t)))) (k7_pay1 (F := Ideal)) := by
  rw [outsAt7_A V c t h0 h1]
  dsimp only
  exact sout7_A_eq (F := Ideal) c (grid7.coords t) (ms7_0 t) (hs7_0 t) (ms7_1 t) (hs7_1 t) (ms7_2 t) (hs7_2 t) (ms7_3 t) (hs7_3 t) scM7 (Memref.isWhole_whole _) ((hcond7_0 t).mpr h0) (fun h => h1 ((hcond7_1 t).mp h)) (iblk7 V c 0 t) (iblk7 V c 1 t) (iblk7 V c 2 t)

/-- After a middle step it is the step's payload over what the point before left. -/
theorem acc7_B (c : Dev nD) (t : Fin cfg7.N) (h0 : ¬t.val % 10 = 0) (h1 : ¬t.val % 10 = 9) :
    (outsAt7 V c t.val t.isLt).2 = k7_pay2 (iblk7 V c 0 t) (View.ld (iblk7 V c 1 t : Vec Ideal S10240x128 .bf16) (Rect.unit (s := S10240x128) (k7_off1 (grid7.coords t)) S1024x128.size (k7_off1_inb (grid7.coords t)))) (outsAt7 V c (t.val - 1) (Nat.lt_of_le_of_lt (Nat.sub_le _ _) t.isLt)).2 := by
  rw [outsAt7_B V c t h0 h1]
  dsimp only
  exact sout7_B_eq (F := Ideal) c (grid7.coords t) (ms7_0 t) (hs7_0 t) (ms7_1 t) (hs7_1 t) (ms7_2 t) (hs7_2 t) (ms7_3 t) (hs7_3 t) scM7 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2

/-- After a last step likewise, -/
theorem acc7_C (c : Dev nD) (t : Fin cfg7.N) (h0 : ¬t.val % 10 = 0) (h1 : t.val % 10 = 9) :
    (outsAt7 V c t.val t.isLt).2 = k7_pay2 (iblk7 V c 0 t) (View.ld (iblk7 V c 1 t : Vec Ideal S10240x128 .bf16) (Rect.unit (s := S10240x128) (k7_off1 (grid7.coords t)) S1024x128.size (k7_off1_inb (grid7.coords t)))) (outsAt7 V c (t.val - 1) (Nat.lt_of_le_of_lt (Nat.sub_le _ _) t.isLt)).2 := by
  rw [outsAt7_C V c t h0 h1]
  dsimp only
  exact sout7_C_eq (F := Ideal) c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2

/-- and the result's buffer holds the closing payload of that accumulator and the bias row. -/
theorem res7_C (c : Dev nD) (t : Fin cfg7.N) (h0 : ¬t.val % 10 = 0) (h1 : t.val % 10 = 9) :
    (outsAt7 V c t.val t.isLt).1 = k7_pay3 (outsAt7 V c t.val t.isLt).2 (iblk7 V c 2 t) := by
  rw [acc7_C V c t h0 h1, outsAt7_C V c t h0 h1]
  dsimp only
  exact out7_C_eq (F := Ideal) c (grid7.coords t) (ms7_0 t) (hs7_0 t) (ms7_1 t) (hs7_1 t) (ms7_2 t) (hs7_2 t) (ms7_3 t) (hs7_3 t) scM7 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2

/-- Row `row` of `A` against column `col` of `H` over the first `m` blocks of 1024 columns. -/
def partProd7 {n0 n1 n2 : ℕ} (A : (⟨2, ![n0, n1]⟩ : Shape).Idx → EReal) (H : (⟨2, ![n1, n2]⟩ : Shape).Idx → EReal) (row col m : ℕ) : EReal :=
  ∑ k' ∈ Finset.range m, ∑ j' : Fin 1024, entry7 A row (k' * 1024 + j'.val) * entry7 H (k' * 1024 + j'.val) col

/-- One reduction step, over blocks that are known entry by entry, extends the partial product by one block. -/
theorem step_partProd7 (A : Vec Ideal S10240x10240 .bf16) (H : Vec Ideal S10240x128 .bf16)
    (x0 : Vec Ideal S512x1024 .bf16) (hb : Vec Ideal S1024x128 .bf16) (acc : Vec Ideal S512x128 .f32)
    (row k : ℕ) (r : Fin 512) (cc : Fin 128)
    (hx0 : ∀ j' : Fin 1024, x0 (ix2 r j') = entry7 A row (k * 1024 + j'.val))
    (hhb : ∀ j' : Fin 1024, hb (ix2 j' cc) = entry7 H (k * 1024 + j'.val) cc.val)
    (hacc : acc (ix2 r cc) = partProd7 A H row cc.val k) :
    k7_pay2 x0 hb acc (ix2 r cc) = partProd7 A H row cc.val (k + 1) := by
  rw [pay7_2_at, hacc]
  unfold partProd7
  rw [Finset.sum_range_succ]
  refine congrArg (_ + ·) (Finset.sum_congr rfl fun j' _ => ?_)
  rw [hx0, hhb]

/-- THE ACCUMULATOR IN CLOSED FORM: after point `n` (row tile `n / 10`, step `n % 10`) its entry `(r, cc)` is row
    `512 (n / 10) + r` of the matrix against column `cc` of the features over the first `n % 10 + 1` column blocks. -/
theorem acc7_closed (c : Dev nD) : ∀ (n : ℕ) (hn : n < cfg7.N) (r : Fin 512) (cc : Fin 128),
    (outsAt7 V c n hn).2 (ix2 r cc) = partProd7 (Amat7 V c) (Hmat7 V c) (512 * (n / 10) + r.val) cc.val (n % 10 + 1) := by
  intro n
  induction n using Nat.strong_induction_on with
  | _ n ih =>
    intro hn r cc
    have hN : n < 200 := lt_N7 ⟨n, hn⟩
    by_cases h0 : n % 10 = 0
    · have h1 : ¬n % 10 = 9 := by omega
      refine (congrFun (acc7_A V c ⟨n, hn⟩ h0 h1) (ix2 r cc)).trans ?_
      rw [h0]
      refine step_partProd7 (Amat7 V c) (Hmat7 V c) (iblk7 V c 0 ⟨n, hn⟩) _ (k7_pay1 (F := Ideal)) (512 * (n / 10) + r.val) 0 r cc (fun j' => ?_) (fun j' => ?_) ?_
      · have e := blk7_0_entry V c ⟨n, hn⟩ r j'
        rw [show (⟨n, hn⟩ : Fin cfg7.N).val = n from rfl, h0] at e
        exact e
      · have e := blk7_1_entry V c ⟨n, hn⟩ j' cc
        rw [show (⟨n, hn⟩ : Fin cfg7.N).val = n from rfl, h0] at e
        exact e
      · rw [pay7_1_apply]
        unfold partProd7
        rw [Finset.sum_range_zero]
    · have hpos : 0 < n := by omega
      have hprev := ih (n - 1) (by omega) (Nat.lt_of_le_of_lt (Nat.sub_le _ _) hn) r cc
      rw [show (n - 1) / 10 = n / 10 from by omega, show (n - 1) % 10 + 1 = n % 10 from by omega] at hprev
      have hstep : k7_pay2 (iblk7 V c 0 ⟨n, hn⟩) (View.ld (iblk7 V c 1 ⟨n, hn⟩ : Vec Ideal S10240x128 .bf16) (Rect.unit (s := S10240x128) (k7_off1 (grid7.coords ⟨n, hn⟩)) S1024x128.size (k7_off1_inb (grid7.coords ⟨n, hn⟩)))) (outsAt7 V c (n - 1) (Nat.lt_of_le_of_lt (Nat.sub_le _ _) hn)).2 (ix2 r cc)
          = partProd7 (Amat7 V c) (Hmat7 V c) (512 * (n / 10) + r.val) cc.val (n % 10 + 1) :=
        step_partProd7 (Amat7 V c) (Hmat7 V c) (iblk7 V c 0 ⟨n, hn⟩) _ _ (512 * (n / 10) + r.val) (n % 10) r cc
          (fun j' => blk7_0_entry V c ⟨n, hn⟩ r j') (fun j' => blk7_1_entry V c ⟨n, hn⟩ j' cc) hprev
      by_cases h1 : n % 10 = 9
      · exact (congrFun (acc7_C V c ⟨n, hn⟩ h0 h1) (ix2 r cc)).trans hstep
      · exact (congrFun (acc7_B V c ⟨n, hn⟩ h0 h1) (ix2 r cc)).trans hstep

/-! ## From the row tiles to the array -/

/-- The whole partial product, ten blocks of 1024 columns, is the product over all 10240 columns. -/
theorem partProd7_full (A : Vec Ideal S10240x10240 .bf16) (H : Vec Ideal S10240x128 .bf16) (i : Fin 10240) (cc : Fin 128) :
    partProd7 A H i.val cc.val 10 = ∑ j : Fin 10240, A (ix2 i j) * H (ix2 j cc) := by
  unfold partProd7
  refine (Fin.sum_univ_eq_sum_range (fun k' => ∑ j' : Fin 1024, entry7 A i.val (k' * 1024 + j'.val) * entry7 H (k' * 1024 + j'.val) cc.val) 10).symm.trans ?_
  refine (Cert.Lib.BlockSums.sum_blocks 10 1024 (fun m => entry7 A i.val m * entry7 H m cc.val)).trans ?_
  show ∑ j : Fin 10240, entry7 A i.val j.val * entry7 H j.val cc.val = _
  refine Finset.sum_congr rfl fun j _ => ?_
  rw [entry7_of_lt A _ _ i.isLt j.isLt, entry7_of_lt H _ _ j.isLt cc.isLt]

/-- What the region's result array ends holding: each row of the matrix against each feature column, plus the bias. -/
def agg7 (A : Vec Ideal S10240x10240 .bf16) (H : Vec Ideal S10240x128 .bf16) (B : Vec Ideal S1x128 .f32) : Vec Ideal S10240x128 .f32 :=
  fun y => (∑ j : Fin 10240, A (ix2 ⟨(y 0).val, (y 0).isLt⟩ j) * H (ix2 j ⟨(y 1).val, (y 1).isLt⟩)) + B (ix2 0 ⟨(y 1).val, (y 1).isLt⟩)

theorem agg7_at (A : Vec Ideal S10240x10240 .bf16) (H : Vec Ideal S10240x128 .bf16) (B : Vec Ideal S1x128 .f32) (i : Fin 10240) (cc : Fin 128) :
    agg7 A H B (ix2 i cc) = (∑ j : Fin 10240, A (ix2 i j) * H (ix2 j cc)) + B (ix2 0 cc) := rfl

/-- The closing payload over a finished accumulator is the tile of `agg7`: stated over variables. -/
theorem tile_agg7 (A : Vec Ideal S10240x10240 .bf16) (H : Vec Ideal S10240x128 .bf16) (B : Vec Ideal S1x128 .f32)
    (acc : Vec Ideal S512x128 .f32) (b : Vec Ideal S1x128 .f32) (i : Fin 10240) (r : Fin 512) (cc : Fin 128)
    (hacc : acc (ix2 r cc) = partProd7 A H i.val cc.val 10) (hb : b (ix2 0 cc) = B (ix2 0 cc)) :
    k7_pay3 acc b (ix2 r cc) = agg7 A H B (ix2 i cc) := by
  rw [pay7_3_at, hacc, hb, partProd7_full, agg7_at]

/-- WHAT A LAST STEP WRITES BACK is its row tile of `agg7` of the arrays the region found. -/
theorem flushed7_eq (c : Dev nD) (t : Fin cfg7.N) (hf : (cfg7.win 3).flush t = true) :
    (dat7 V c).flushed 3 t = ((cfg7.win 3).blk t).view.read (Elt Ideal) (agg7 (Amat7 V c) (Hmat7 V c) (Bvec7 V c)) := by
  have h9 : t.val % 10 = 9 := (flush7_3 t).mp hf
  have h0 : ¬t.val % 10 = 0 := by omega
  have ht := lt_N7 t
  obtain ⟨-, -, -, -, -, -, e6, e7, -⟩ := idx_facts7 t
  show (cfg7.win 3).cut (grid7.coords t) ((dat7 V c).after 3 t) = _
  rw [after7_3, res7_C V c t h0 h9]
  funext y
  obtain ⟨r, cc, rfl⟩ : ∃ (r : Fin 512) (cc : Fin 128), y = ix2 r cc := ⟨y 0, y 1, eq_ix2 y⟩
  rw [View.read_apply]
  have hemb : ((cfg7.win 3).blk t).view.emb (ix2 r cc) = (ix2 (⟨512 * (t.val / 10) + r.val, by omega⟩ : Fin 10240) cc : S10240x128.Idx) := by
    funext a
    apply Fin.ext
    match a with
    | ⟨0, _⟩ => show win7_3.index t (0 : Fin 2) * 512 + 1 * r.val = 512 * (t.val / 10) + r.val; rw [e6]; omega
    | ⟨1, _⟩ => show win7_3.index t (1 : Fin 2) * 128 + 1 * cc.val = cc.val; rw [e7]; omega
  show k7_pay3 (outsAt7 V c t.val t.isLt).2 (iblk7 V c 2 t) (ix2 r cc) = agg7 (Amat7 V c) (Hmat7 V c) (Bvec7 V c) (((cfg7.win 3).blk t).view.emb (ix2 r cc))
  rw [hemb]
  refine tile_agg7 (Amat7 V c) (Hmat7 V c) (Bvec7 V c) (outsAt7 V c t.val t.isLt).2 (iblk7 V c 2 t) ⟨512 * (t.val / 10) + r.val, by omega⟩ r cc ?_ (blk7_2_at V c t cc)
  have e := acc7_closed V c t.val t.isLt r cc
  rw [h9] at e
  exact e

/-- An index of the array is in point `t`'s block iff each coordinate is in the block's range on its axis. -/
theorem mem_blk7_3 (t : Fin cfg7.N) (i : S10240x128.Idx) :
    i ∈ ((cfg7.win 3).blk t).view.set ↔ ∀ a : Fin 2, win7_3.index t a * S512x128.size a ≤ (i a).val ∧ (i a).val < win7_3.index t a * S512x128.size a + S512x128.size a := by
  show i ∈ ((View.whole main_v60).slice (win7_3.rect t)).set ↔ _
  rw [View.set_slice_whole, Rect.mem_set_unit]
  exact Iff.rfl

/-- Every row is in the tile of the last step of its row tile. -/
theorem cover7_3 (i : S10240x128.Idx) : ∃ t : Fin cfg7.N, (cfg7.win 3).flush t = true ∧ i ∈ ((cfg7.win 3).blk t).view.set := by
  have hi0 : (i 0).val < 10240 := (i 0).isLt
  have hi1 : (i 1).val < 128 := (i 1).isLt
  have hN : cfg7.N = 200 := N_7
  refine ⟨⟨10 * ((i 0).val / 512) + 9, by rw [hN]; omega⟩, ?_, ?_⟩
  · exact (flush7_3 _).mpr (by show (10 * ((i 0).val / 512) + 9) % 10 = 9; omega)
  · rw [mem_blk7_3]
    obtain ⟨-, -, -, -, -, -, e6, e7, -⟩ := idx_facts7 ⟨10 * ((i 0).val / 512) + 9, by rw [hN]; omega⟩
    intro a
    match a with
    | ⟨0, _⟩ =>
      show win7_3.index _ (0 : Fin 2) * 512 ≤ (i 0).val ∧ (i 0).val < win7_3.index _ (0 : Fin 2) * 512 + 512
      rw [e6]
      show (10 * ((i 0).val / 512) + 9) / 10 * 512 ≤ (i 0).val ∧ (i 0).val < (10 * ((i 0).val / 512) + 9) / 10 * 512 + 512
      omega
    | ⟨1, _⟩ =>
      show win7_3.index _ (1 : Fin 2) * 128 ≤ (i 1).val ∧ (i 1).val < win7_3.index _ (1 : Fin 2) * 128 + 128
      rw [e7]
      omega

/-- THE RESULT ARRAY after the region: `A @ h + b` of the arrays the region found. -/
theorem final7_fun (c : Dev nD) : (dat7 V c).arrAt 3 cfg7.N = agg7 (Amat7 V c) (Hmat7 V c) (Bvec7 V c) :=
  (dat7 V c).arrAt_eq_of_cover 3 (agg7 (Amat7 V c) (Hmat7 V c) (Bvec7 V c)) (fun t hf => flushed7_eq V c t hf) (fun i => cover7_3 i)

/-- The same, entry by entry. -/
theorem final7 (c : Dev nD) (i : Fin 10240) (cc : Fin 128) :
    ((dat7 V c).arrAt 3 cfg7.N : Vec Ideal S10240x128 .f32) (ix2 i cc)
      = (∑ j : Fin 10240, Amat7 V c (ix2 i j) * Hmat7 V c (ix2 j cc)) + Bvec7 V c (ix2 0 cc) :=
  congrFun (final7_fun V c) (ix2 i cc)

end Value

end Cert.KernelIdeal.Hand

end
-- ==== Proof.KerChain.lean ====
/-
  The idealized kernel program's four layer outputs as curried functions of its launch memory.

  Each aggregation region's output array is, entry by entry, the dense matrix's row times the previous product region's
  output column, plus the bias, clamped below at zero in the first three layers; each product region's output is the
  previous aggregation's output times the layer's weights. Composing the two gives each layer's output in terms of the
  previous layer's. The host operations between the regions only reshape the biases and pad the last layer's weights
  and bias with zero columns; the first product's input is the argument padded with zero rows.
-/
import proofs.«160261_j68599217652370_2_alg».proof.Proof.KerHost
import proofs.«160261_j68599217652370_2_alg».proof.Proof.FeatVal0
import proofs.«160261_j68599217652370_2_alg».proof.Proof.FeatVal2
import proofs.«160261_j68599217652370_2_alg».proof.Proof.FeatVal4
import proofs.«160261_j68599217652370_2_alg».proof.Proof.FeatVal6
import proofs.«160261_j68599217652370_2_alg».proof.Proof.AggVal1
import proofs.«160261_j68599217652370_2_alg».proof.Proof.AggVal3
import proofs.«160261_j68599217652370_2_alg».proof.Proof.AggVal5
import proofs.«160261_j68599217652370_2_alg».proof.Proof.AggVal7

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The arrays, curried -/

def XpK (c : Dev nD) : Fin 10240 → Fin 128 → EReal := fun i k => (W4 m c main_v46 : Cn ⟨S10240x128, .f32⟩) (ix2 i k)
def AK (c : Dev nD) : Fin 10240 → Fin 10240 → EReal := fun i j => (W4 m c main_v45 : Cn ⟨S10240x10240, .bf16⟩) (ix2 i j)
def xc (c : Dev nD) : Fin 10000 → Fin 128 → EReal := fun i k => (m ((c : Thread nD τ).loc main_arg0) : Cn ⟨S10000x128, .f32⟩) (ix2 i k)
def W1c (c : Dev nD) : Fin 128 → Fin 512 → EReal := fun k cc => (m ((c : Thread nD τ).loc main_arg2) : Cn ⟨S128x512, .f32⟩) (ix2 k cc)
def b1c (c : Dev nD) : Fin 512 → EReal := fun cc => (m ((c : Thread nD τ).loc main_arg3) : Cn ⟨S512, .f32⟩) (ix1 cc)
def W2c (c : Dev nD) : Fin 512 → Fin 1024 → EReal := fun k cc => (m ((c : Thread nD τ).loc main_arg4) : Cn ⟨S512x1024, .f32⟩) (ix2 k cc)
def b2c (c : Dev nD) : Fin 1024 → EReal := fun cc => (m ((c : Thread nD τ).loc main_arg5) : Cn ⟨S1024, .f32⟩) (ix1 cc)
def W3c (c : Dev nD) : Fin 1024 → Fin 512 → EReal := fun k cc => (m ((c : Thread nD τ).loc main_arg6) : Cn ⟨S1024x512, .f32⟩) (ix2 k cc)
def b3c (c : Dev nD) : Fin 512 → EReal := fun cc => (m ((c : Thread nD τ).loc main_arg7) : Cn ⟨S512, .f32⟩) (ix1 cc)
def W4c (c : Dev nD) : Fin 512 → Fin 32 → EReal := fun k cc => (m ((c : Thread nD τ).loc main_arg8) : Cn ⟨S512x32, .f32⟩) (ix2 k cc)
def b4c (c : Dev nD) : Fin 32 → EReal := fun cc => (m ((c : Thread nD τ).loc main_arg9) : Cn ⟨S32, .f32⟩) (ix1 cc)
def W4pc (c : Dev nD) : Fin 512 → Fin 128 → EReal := fun k cc => (W17 m c main_v56 : Cn ⟨S512x128, .f32⟩) (ix2 k cc)
def b4pc (c : Dev nD) : Fin 128 → EReal := fun cc => (W19 m c main_v59 : Cn ⟨S1x128, .f32⟩) (ix2 0 cc)
def O1K (c : Dev nD) : Fin 10240 → Fin 512 → EReal := fun i cc => (o7 m c : Cn ⟨S10240x512, .f32⟩) (ix2 i cc)
def O2K (c : Dev nD) : Fin 10240 → Fin 1024 → EReal := fun i cc => (o10 m c : Cn ⟨S10240x1024, .f32⟩) (ix2 i cc)
def O3K (c : Dev nD) : Fin 10240 → Fin 512 → EReal := fun i cc => (o13 m c : Cn ⟨S10240x512, .f32⟩) (ix2 i cc)
def O4K (c : Dev nD) : Fin 10240 → Fin 128 → EReal := fun i cc => (o20 m c : Cn ⟨S10240x128, .f32⟩) (ix2 i cc)

/-! ## The padding -/

theorem hxK (c : Dev nD) (j : Fin 10000) (k : Fin 128) : XpK m c (Fin.castLE (by decide) j) k = xc m c j k := by
  unfold XpK xc
  rw [W4_v46_apply]
  exact dif_pos j.isLt

theorem hW4K (c : Dev nD) (k : Fin 512) (cc : Fin 32) : W4pc m c k (Fin.castLE (by decide) cc) = W4c m c k cc := by
  unfold W4pc W4c
  rw [W17_v56_apply]
  exact dif_pos cc.isLt

theorem hb4K (c : Dev nD) (cc : Fin 32) : b4pc m c (Fin.castLE (by decide) cc) = b4c m c cc := by
  unfold b4pc b4c
  rw [W19_v59_apply]
  exact dif_pos cc.isLt

/-! ## The product regions -/

theorem o5_apply (c : Dev nD) (j : Fin 10240) (cc : Fin 512) :
    (o5 m c : Cn ⟨S10240x512, .bf16⟩) (ix2 j cc) = ∑ k : Fin 128, XpK m c j k * W1c m c k cc := by
  have h : (o5 m c : Cn ⟨S10240x512, .bf16⟩) = mm0 (W4 m c main_v46) (W4 m c main_arg2) := final0 (R4 m) c
  rw [h, W4_arg2]
  rfl

theorem o8_apply (c : Dev nD) (j : Fin 10240) (cc : Fin 1024) :
    (o8 m c : Cn ⟨S10240x1024, .bf16⟩) (ix2 j cc) = ∑ k : Fin 512, O1K m c j k * W2c m c k cc := by
  have h : (o8 m c : Cn ⟨S10240x1024, .bf16⟩) = mm2 (W7 m c main_v49) (W7 m c main_arg4) := final2 (R7 m) c
  rw [h, W7_v49, W7_arg4]
  rfl

theorem o11_apply (c : Dev nD) (j : Fin 10240) (cc : Fin 512) :
    (o11 m c : Cn ⟨S10240x512, .bf16⟩) (ix2 j cc) = ∑ k : Fin 1024, O2K m c j k * W3c m c k cc := by
  have h : (o11 m c : Cn ⟨S10240x512, .bf16⟩) = mm4 (W10 m c main_v52) (W10 m c main_arg6) := final4 (R10 m) c
  rw [h, W10_v52, W10_arg6]
  rfl

theorem o18_apply (c : Dev nD) (j : Fin 10240) (cc : Fin 128) :
    (o18 m c : Cn ⟨S10240x128, .bf16⟩) (ix2 j cc) = ∑ k : Fin 512, O3K m c j k * W4pc m c k cc := by
  have h : (o18 m c : Cn ⟨S10240x128, .bf16⟩) = mm6 (W17 m c main_v55) (W17 m c main_v56) := final6 (R17 m) c
  rw [h, W17_v55]
  rfl

/-! ## The layers -/

theorem hO1K (c : Dev nD) (i : Fin 10240) (cc : Fin 512) :
    O1K m c i cc = max ((∑ j : Fin 10240, AK m c i j * (∑ k : Fin 128, XpK m c j k * W1c m c k cc)) + b1c m c cc) 0 := by
  have hA : Amat1 (R6 m) c = (W4 m c main_v45 : Cn ⟨S10240x10240, .bf16⟩) := W6_v45 m c
  have hH : Hmat1 (R6 m) c = (o5 m c : Cn ⟨S10240x512, .bf16⟩) := W6_v47 m c
  have hB : Bvec1 (R6 m) c (ix2 0 cc) = b1c m c cc := W6_v48_apply m c 0 cc
  unfold O1K
  refine (final1 (R6 m) c i cc).trans ?_
  rw [hA, hH, hB]
  simp only [o5_apply]
  rfl

theorem hO2K (c : Dev nD) (i : Fin 10240) (cc : Fin 1024) :
    O2K m c i cc = max ((∑ j : Fin 10240, AK m c i j * (∑ k : Fin 512, O1K m c j k * W2c m c k cc)) + b2c m c cc) 0 := by
  have hA : Amat3 (R9 m) c = (W4 m c main_v45 : Cn ⟨S10240x10240, .bf16⟩) := W9_v45 m c
  have hH : Hmat3 (R9 m) c = (o8 m c : Cn ⟨S10240x1024, .bf16⟩) := W9_v50 m c
  have hB : Bvec3 (R9 m) c (ix2 0 cc) = b2c m c cc := W9_v51_apply m c 0 cc
  unfold O2K
  refine (final3 (R9 m) c i cc).trans ?_
  rw [hA, hH, hB]
  simp only [o8_apply]
  rfl

theorem hO3K (c : Dev nD) (i : Fin 10240) (cc : Fin 512) :
    O3K m c i cc = max ((∑ j : Fin 10240, AK m c i j * (∑ k : Fin 1024, O2K m c j k * W3c m c k cc)) + b3c m c cc) 0 := by
  have hA : Amat5 (R12 m) c = (W4 m c main_v45 : Cn ⟨S10240x10240, .bf16⟩) := W12_v45 m c
  have hH : Hmat5 (R12 m) c = (o11 m c : Cn ⟨S10240x512, .bf16⟩) := W12_v53 m c
  have hB : Bvec5 (R12 m) c (ix2 0 cc) = b3c m c cc := W12_v54_apply m c 0 cc
  unfold O3K
  refine (final5 (R12 m) c i cc).trans ?_
  rw [hA, hH, hB]
  simp only [o11_apply]
  rfl

theorem hO4K (c : Dev nD) (i : Fin 10240) (cc : Fin 128) :
    O4K m c i cc = (∑ j : Fin 10240, AK m c i j * (∑ k : Fin 512, O3K m c j k * W4pc m c k cc)) + b4pc m c cc := by
  have hA : Amat7 (R19 m) c = (W4 m c main_v45 : Cn ⟨S10240x10240, .bf16⟩) := W19_v45 m c
  have hH : Hmat7 (R19 m) c = (o18 m c : Cn ⟨S10240x128, .bf16⟩) := W19_v58 m c
  unfold O4K
  refine (final7 (R19 m) c i cc).trans ?_
  rw [hA, hH]
  simp only [o18_apply]
  rfl

end Cert.KernelIdeal.Hand

end
-- ==== Proof.RefValue.lean ====
/-
  The reference's result in closed form, one layer at a time.

  The reference is a line of 144 operations, each writing one buffer of its own from buffers written before it. So what
  the whole line leaves at an operation's buffer is that operation's function of what the line leaves at its operands:
  no later operation writes either. `val m c r` names what buffer `r` holds after the run; it is never opened past the
  one-operation lemmas. Read at an index, a layer is

      out (i, c) = act ((0 + ∑ over the edges e with dst e = i of h (src e, c) * norm e) + b c),   h (j, c) = ∑ k, in (j, k) * W (k, c)

  with `act` the maximum with zero for the first three layers and the identity for the last, and the final result is the
  row-wise log-softmax of the last layer's output, kept as one function `LS`.
-/
import proofs.«160261_j68599217652370_2_alg».proof.Proof.RefRun
import proofs.«160261_j68599217652370_2_alg».proof.Proof.LibHostIndex
import proofs.«160261_j68599217652370_2_alg».proof.Proof.LibPlainDot
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

/-! ## A line of operations that each write one buffer of their own -/

section Line

variable {τ' : Topo} {sig' : RefSig} {Val : EltTy → Type}

/-- Two lines run one after the other: the second folds over what the first leaves. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The operations of a line write, in order, exactly the references of a list: one buffer each. -/
def Writes : List (HloOp τ' sig' Val) → List (Ref sig' .tc) → Prop
  | [], [] => True
  | op :: l, w :: ws => op.writes = {Proc.devRef .tc w} ∧ Writes l ws
  | [], _ :: _ => False
  | _ :: _, [] => False

theorem Writes.drop : ∀ {l : List (HloOp τ' sig' Val)} {ws : List (Ref sig' .tc)} (k : Nat), Writes l ws → Writes (l.drop k) (ws.drop k)
  | _, _, 0, h => h
  | [], [], _ + 1, _ => trivial
  | _ :: _, _ :: _, k + 1, h => Writes.drop k h.2
  | [], _ :: _, _ + 1, h => h.elim
  | _ :: _, [], _ + 1, h => h.elim

/-- A reference none of the line's operations writes keeps its contents. -/
theorem after_of_writes : ∀ {l : List (HloOp τ' sig' Val)} {ws : List (Ref sig' .tc)}, Writes l ws →
    ∀ {r : Ref sig' .tc}, r ∉ ws → ∀ V : Valuation τ' sig' Val, after l V (Proc.devRef .tc r) = V (Proc.devRef .tc r)
  | [], [], _, _, _, _ => rfl
  | op :: l, w :: ws, h, r, hr, V => by
    rw [after_cons, after_of_writes h.2 (fun hm => hr (List.mem_cons_of_mem _ hm)),
      op.result_of_not_mem V (by rw [h.1, Finset.mem_singleton]; exact devRef_ne_of_ne fun e => hr (e ▸ List.mem_cons_self))]
  | [], _ :: _, h, _, _, _ => h.elim
  | _ :: _, [], h, _, _, _ => h.elim

/-- What the first `k` operations leave at a reference none of the later ones writes is what the whole line leaves. -/
theorem after_take {l : List (HloOp τ' sig' Val)} {ws : List (Ref sig' .tc)} (h : Writes l ws) (k : Nat)
    {a : Ref sig' .tc} (ha : a ∉ ws.drop k) (V : Valuation τ' sig' Val) :
    after (l.take k) V (Proc.devRef .tc a) = after l V (Proc.devRef .tc a) := by
  conv_rhs => rw [← List.take_append_drop k l, after_append]
  exact (after_of_writes (h.drop k) ha _).symm

/-- The whole line at the buffer its `k`-th operation writes: that operation's result over what the first `k` leave. -/
theorem after_step {l : List (HloOp τ' sig' Val)} {ws : List (Ref sig' .tc)} (h : Writes l ws) (k : Nat)
    {op : HloOp τ' sig' Val} (hop : l.drop k = op :: l.drop (k + 1))
    {y : Ref sig' .tc} (hy : y ∉ ws.drop (k + 1)) (V : Valuation τ' sig' Val) :
    after l V (Proc.devRef .tc y) = op.result (after (l.take k) V) (Proc.devRef .tc y) := by
  conv_lhs => rw [← List.take_append_drop k l, after_append, hop, after_cons]
  exact after_of_writes (h.drop (k + 1)) hy _

end Line

/-! ### One operation of the line, by the number of its operands

`v` names what the whole line leaves at each reference (`hv`); the lemmas never open it. -/

section Line

variable {τ' : Topo} {sig' : RefSig} {Val : EltTy → Type}
variable {l : List (HloOp τ' sig' Val)} {ws : List (Ref sig' .tc)} (h : Writes l ws) {V : Valuation τ' sig' Val}
variable {v : (r : Ref sig' .tc) → r.ty.Contents Val} (hv : ∀ r, v r = after l V (Proc.devRef .tc r)) (k : Nat)

include h hv in
theorem read_nullary {y : Ref sig' .tc} {v₀ : y.ty.Contents Val} {hy}
    (hop : l.drop k = nullary y v₀ hy :: l.drop (k + 1)) (hy' : y ∉ ws.drop (k + 1)) : v y = v₀ := by
  rw [hv, after_step h k hop hy' V, nullary_result]

include h hv in
theorem read_unary {a y : Ref sig' .tc} {f : a.ty.Contents Val → y.ty.Contents Val} {ha hy}
    (hop : l.drop k = unary a y f ha hy :: l.drop (k + 1)) (hy' : y ∉ ws.drop (k + 1)) (ha' : a ∉ ws.drop k) :
    v y = f (v a) := by
  rw [hv, hv, after_step h k hop hy' V, unary_result, after_take h k ha']

include h hv in
theorem read_binary {a b y : Ref sig' .tc} {f : a.ty.Contents Val → b.ty.Contents Val → y.ty.Contents Val} {ha hb hy}
    (hop : l.drop k = binary a b y f ha hb hy :: l.drop (k + 1)) (hy' : y ∉ ws.drop (k + 1)) (ha' : a ∉ ws.drop k)
    (hb' : b ∉ ws.drop k) : v y = f (v a) (v b) := by
  rw [hv, hv, hv, after_step h k hop hy' V, binary_result, after_take h k ha', after_take h k hb']

include h hv in
theorem read_ternary {c a b y : Ref sig' .tc}
    {f : c.ty.Contents Val → a.ty.Contents Val → b.ty.Contents Val → y.ty.Contents Val} {hc ha hb hy}
    (hop : l.drop k = ternary c a b y f hc ha hb hy :: l.drop (k + 1)) (hy' : y ∉ ws.drop (k + 1)) (hc' : c ∉ ws.drop k)
    (ha' : a ∉ ws.drop k) (hb' : b ∉ ws.drop k) : v y = f (v c) (v a) (v b) := by
  rw [hv, hv, hv, hv, after_step h k hop hy' V, ternary_result, after_take h k hc', after_take h k ha', after_take h k hb']

/-! The same for the operations of a called function, which name their buffers with the type of the value they hold:
    contents are moved to that type and back along an equation that is `rfl` at a literal reference. -/

theorem ofBuf_toBuf {T : BufTy} (x : TRef sig' T) (u : T.Contents Val) : x.ofBuf (x.toBuf u) = u := by
  obtain ⟨r, rfl, _, _⟩ := x; rfl

variable {Ta Tb Tc Ty : BufTy}

include h hv in
theorem read_tnullary {y : TRef sig' Ty} {v₀ : Ty.Contents Val}
    (hop : l.drop k = TRef.nullary y v₀ :: l.drop (k + 1)) (hy' : y.ref ∉ ws.drop (k + 1)) : y.ofBuf (v y.ref) = v₀ := by
  rw [read_nullary h hv k hop hy', ofBuf_toBuf]

include h hv in
theorem read_tunary {a : TRef sig' Ta} {y : TRef sig' Ty} {f : Ta.Contents Val → Ty.Contents Val}
    (hop : l.drop k = TRef.unary a y f :: l.drop (k + 1)) (hy' : y.ref ∉ ws.drop (k + 1)) (ha' : a.ref ∉ ws.drop k) :
    y.ofBuf (v y.ref) = f (a.ofBuf (v a.ref)) := by
  rw [read_unary h hv k hop hy' ha', ofBuf_toBuf]

include h hv in
theorem read_tbinary {a : TRef sig' Ta} {b : TRef sig' Tb} {y : TRef sig' Ty}
    {f : Ta.Contents Val → Tb.Contents Val → Ty.Contents Val}
    (hop : l.drop k = TRef.binary a b y f :: l.drop (k + 1)) (hy' : y.ref ∉ ws.drop (k + 1)) (ha' : a.ref ∉ ws.drop k)
    (hb' : b.ref ∉ ws.drop k) : y.ofBuf (v y.ref) = f (a.ofBuf (v a.ref)) (b.ofBuf (v b.ref)) := by
  rw [read_binary h hv k hop hy' ha' hb', ofBuf_toBuf]

include h hv in
theorem read_tternary {c : TRef sig' Tc} {a : TRef sig' Ta} {b : TRef sig' Tb} {y : TRef sig' Ty}
    {f : Tc.Contents Val → Ta.Contents Val → Tb.Contents Val → Ty.Contents Val}
    (hop : l.drop k = TRef.ternary c a b y f :: l.drop (k + 1)) (hy' : y.ref ∉ ws.drop (k + 1)) (hc' : c.ref ∉ ws.drop k)
    (ha' : a.ref ∉ ws.drop k) (hb' : b.ref ∉ ws.drop k) :
    y.ofBuf (v y.ref) = f (c.ofBuf (v c.ref)) (a.ofBuf (v a.ref)) (b.ofBuf (v b.ref)) := by
  rw [read_ternary h hv k hop hy' hc' ha' hb', ofBuf_toBuf]

end Line

/-! ## The reference's buffers after its run -/

/-- The references the reference's 144 operations write, in order. -/
def W : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_c_9, main_v49, main_v50, main_c_10, main_v51, main_v52, main_v53, main_v54, main_v55, main_v56, main_v57, main_v58, main_cst_11, main_v59, main_v60, main_v61, main_v62, main_v63, main_v64, main_call2_cst, main_call2_v0, main_v65, main_v66, main_c_12, main_v67, main_v68, main_c_13, main_v69, main_v70, main_v71, main_v72, main_v73, main_v74, main_v75, main_v76, main_cst_14, main_v77, main_v78, main_v79, main_v80, main_v81, main_v82, main_call3_cst, main_call3_v0, main_v83, main_v84, main_c_15, main_v85, main_v86, main_c_16, main_v87, main_v88, main_v89, main_v90, main_v91, main_v92, main_v93, main_v94, main_cst_17, main_v95, main_v96, main_v97, main_v98, main_v99, main_v100, main_call4_cst, main_call4_v0, main_call4_cst_0, main_call4_v1, main_call4_v2, main_call4_v3, main_call4_v4, main_call4_v5, main_call4_v6, main_call4_cst_1, main_call4_v7, main_call4_v8, main_call4_v9, main_call4_v10, main_v101]

set_option maxRecDepth 8192 in
theorem ops_writes : Writes (ops (F := Ideal) : List (HloOp τ sig (Elt Ideal))) W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (m : (ℓ : Loc nD τ sig) → Buf (Elt Ideal) ℓ) (c : Dev nD)

/-- What buffer `r` of device `c` holds once the reference has run from memory `m`. -/
def val (r : Ref sig .tc) : r.ty.Contents (Elt Ideal) :=
  StableHlo.after (ops (F := Ideal)) (launchContents m c) (Proc.devRef .tc r)

theorem val_def (r : Ref sig .tc) :
    val m c r = StableHlo.after (ops (F := Ideal)) (launchContents m c) (Proc.devRef .tc r) := rfl

/-- An argument array is written by no operation: it ends as launched. -/
theorem val_arg {r : Ref sig .tc} (hr : r ∉ W) : val m c r = m ((c.tc : Thread nD τ).loc r) :=
  after_of_writes ops_writes hr _

set_option maxRecDepth 8192 in
set_option maxHeartbeats 4000000 in
/-- On every device, from any memory with zero counters: every weakly fair execution of @main terminates, leaves the result
    buffer at `val` and the ten argument arrays as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = val m c main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v101,
      (h c main_arg0).trans (val_arg m c (by decide)),
      (h c main_arg1).trans (val_arg m c (by decide)),
      (h c main_arg2).trans (val_arg m c (by decide)),
      (h c main_arg3).trans (val_arg m c (by decide)),
      (h c main_arg4).trans (val_arg m c (by decide)),
      (h c main_arg5).trans (val_arg m c (by decide)),
      (h c main_arg6).trans (val_arg m c (by decide)),
      (h c main_arg7).trans (val_arg m c (by decide)),
      (h c main_arg8).trans (val_arg m c (by decide)),
      (h c main_arg9).trans (val_arg m c (by decide))⟩)
    (run_seq scopedRefs_eq scopedSems_eq defs main (fun _ => ops) main_eq (fun _ => ops_sub) m ρ)

-- from here on `val` is a name: every fact about it comes from the operations' lemmas above
attribute [irreducible] val

/-! ## The operations, one at a time

Each statement is the operation's own function applied to what the run leaves at its operands. -/

theorem step_main_c : val m c main_c = ((constantI S_ 32 0#32) : (⟨S_, .i32⟩ : BufTy).Contents (Elt Ideal)) :=
  read_nullary ops_writes (val_def m c) 21 (y := main_c) (v₀ := ((constantI S_ 32 0#32) : (⟨S_, .i32⟩ : BufTy).Contents (Elt Ideal))) rfl (by decide)

theorem step_main_v15 : val m c main_v15 = (broadcastInDim S170000 ![] bcast_S_S170000 : (⟨S_, .i32⟩ : BufTy).Contents (Elt Ideal) → (⟨S170000, .i32⟩ : BufTy).Contents (Elt Ideal)) (val m c main_c) :=
  read_unary ops_writes (val_def m c) 22 (a := main_c) (y := main_v15) (f := (broadcastInDim S170000 ![] bcast_S_S170000 : (⟨S_, .i32⟩ : BufTy).Contents (Elt Ideal) → (⟨S170000, .i32⟩ : BufTy).Contents (Elt Ideal))) rfl (by decide) (by decide)

theorem step_main_v16 : val m c main_v16 = (cmpi .slt : (⟨S170000, .i32⟩ : BufTy).Contents (Elt Ideal) → (⟨S170000, .i32⟩ : BufTy).Contents (Elt Ideal) → (⟨S170000, .i1⟩ : BufTy).Contents (Elt Ideal)) (val m c main_v3) (val m c main_v15) :=
  read_binary ops_writes (val_def m c) 23 (a := main_v3) (b := main_v15) (y := main_v16) (f := (cmpi .slt : (⟨S170000, .i32⟩ : BufTy).Contents (Elt Ideal) → (⟨S170000, .i32⟩ : BufTy).Contents (Elt Ideal) → (⟨S170000, .i1⟩ : BufTy).Contents (Elt Ideal))) rfl (by decide) (by decide) (by decide)

theorem step_main_c_3 : val m c main_c_3 = ((constantI S_ 32 10000#32) : (⟨S_, .i32⟩ : BufTy).Contents (Elt Ideal)) :=
  read_nullary ops_writes (val_def m c) 24 (y := main_c_3) (v₀ := ((constantI S_ 32 10000#32) : (⟨S_, .i32⟩ : BufTy).Contents (Elt Ideal))) rfl (by decide)

theorem step_main_v17 : val m c main_v17 = (broadcastInDim S170000 ![] bcast_S_S170000 : (⟨S_, .i32⟩ : BufTy).Contents (Elt Ideal) → (⟨S170000, .i32⟩ : BufTy).Contents (Elt Ideal)) (val m c main_c_3) :=
  read_unary ops_writes (val_def m c) 25 (a := main_c_3) (y := main_v17) (f := (broadcastInDim S170000 ![] bcast_S_S170000 : (⟨S_, .i32⟩ : BufTy).Contents (Elt Ideal) → (⟨S170000, .i32⟩ : BufTy).Contents (Elt Ideal))) rfl (by decide) (by decide)

theorem step_main_v18 : val m c main_v18 = (addi : (⟨S170000, .i32⟩ : BufTy).Contents (Elt Ideal) → (⟨S170000, .i32⟩ : BufTy).Contents (Elt Ideal) → (⟨S170000, .i32⟩ : BufTy).Contents (Elt Ideal)) (val m c main_v3) (val m c main_v17) :=
  read_binary ops_writes (val_def m c) 26 (a := main_v3) (b := main_v17) (y := main_v18) (f := (addi : (⟨S170000, .i32⟩ : BufTy).Contents (Elt Ideal) → (⟨S170000, .i32⟩ : BufTy).Contents (Elt Ideal) → (⟨S170000, .i32⟩ : BufTy).Contents (Elt Ideal))) rfl (by decide) (by decide) (by decide)

theorem step_main_v19 : val m c main_v19 = (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal)) (val m c main_v16) (val m c main_v18) (val m c main_v3) :=
  read_ternary ops_writes (val_def m c) 27 (c := main_v16) (a := main_v18) (b := main_v3) (y := main_v19) (f := (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal))) rfl (by decide) (by decide) (by decide) (by decide)

theorem step_main_v30 : val m c main_v30 = ((fun l r => Host.dotGeneral (F := Ideal) (φ₁ := .f32) (φ₂ := .f32) dot_S10000x128_S128x512_S10000x512_1_0_0_1_n_n none l r) : (⟨S10000x128, .f32⟩ : BufTy).Contents (Elt Ideal) → (⟨S128x512, .f32⟩ : BufTy).Contents (Elt Ideal) → (⟨S10000x512, .f32⟩ : BufTy).Contents (Elt Ideal)) (val m c main_arg0) (val m c main_arg2) :=
  read_binary ops_writes (val_def m c) 40 (a := main_arg0) (b := main_arg2) (y := main_v30) (f := ((fun l r => Host.dotGeneral (F := Ideal) (φ₁ := .f32) (φ₂ := .f32) dot_S10000x128_S128x512_S10000x512_1_0_0_1_n_n none l r) : (⟨S10000x128, .f32⟩ : BufTy).Contents (Elt Ideal) → (⟨S128x512, .f32⟩ : BufTy).Contents (Elt Ideal) → (⟨S10000x512, .f32⟩ : BufTy).Contents (Elt Ideal))) rfl (by decide) (by decide) (by decide)

theorem step_main_c_6 : val m c main_c_6 = ((constantI S_ 32 0#32) : (⟨S_, .i32⟩ : BufTy).Contents (Elt Ideal)) :=
  read_nullary ops_writes (val_def m c) 41 (y := main_c_6) (v₀ := ((constantI S_ 32 0#32) : (⟨S_, .i32⟩ : BufTy).Contents (Elt Ideal))) rfl (by decide)

theorem step_main_v31 : val m c main_v31 = (broadcastInDim S170000 ![] bcast_S_S170000 : (⟨S_, .i32⟩ : BufTy).Contents (Elt Ideal) → (⟨S170000, .i32⟩ : BufTy).Contents (Elt Ideal)) (val m c main_c_6) :=
  read_unary ops_writes (val_def m c) 42 (a := main_c_6) (y := main_v31) (f := (broadcastInDim S170000 ![] bcast_S_S170000 : (⟨S_, .i32⟩ : BufTy).Contents (Elt Ideal) → (⟨S170000, .i32⟩ : BufTy).Contents (Elt Ideal))) rfl (by decide) (by decide)

theorem step_main_v32 : val m c main_v32 = (cmpi .slt : (⟨S170000, .i32⟩ : BufTy).Contents (Elt Ideal) → (⟨S170000, .i32⟩ : BufTy).Contents (Elt Ideal) → (⟨S170000, .i1⟩ : BufTy).Contents (Elt Ideal)) (val m c main_v3) (val m c main_v31) :=
  read_binary ops_writes (val_def m c) 43 (a := main_v3) (b := main_v31) (y := main_v32) (f := (cmpi .slt : (⟨S170000, .i32⟩ : BufTy).Contents (Elt Ideal) → (⟨S170000, .i32⟩ : BufTy).Contents (Elt Ideal) → (⟨S170000, .i1⟩ : BufTy).Contents (Elt Ideal))) rfl (by decide) (by decide) (by decide)

theorem step_main_c_7 : val m c main_c_7 = ((constantI S_ 32 10000#32) : (⟨S_, .i32⟩ : BufTy).Contents (Elt Ideal)) :=
  read_nullary ops_writes (val_def m c) 44 (y := main_c_7) (v₀ := ((constantI S_ 32 10000#32) : (⟨S_, .i32⟩ : BufTy).Contents (Elt Ideal))) rfl (by decide)

theorem step_main_v33 : val m c main_v33 = (broadcastInDim S170000 ![] bcast_S_S170000 : (⟨S_, .i32⟩ : BufTy).Contents (Elt Ideal) → (⟨S170000, .i32⟩ : BufTy).Contents (Elt Ideal)) (val m c main_c_7) :=
  read_unary ops_writes (val_def m c) 45 (a := main_c_7) (y := main_v33) (f := (broadcastInDim S170000 ![] bcast_S_S170000 : (⟨S_, .i32⟩ : BufTy).Contents (Elt Ideal) → (⟨S170000, .i32⟩ : BufTy).Contents (Elt Ideal))) rfl (by decide) (by decide)

theorem step_main_v34 : val m c main_v34 = (addi : (⟨S170000, .i32⟩ : BufTy).Contents (Elt Ideal) → (⟨S170000, .i32⟩ : BufTy).Contents (Elt Ideal) → (⟨S170000, .i32⟩ : BufTy).Contents (Elt Ideal)) (val m c main_v3) (val m c main_v33) :=
  read_binary ops_writes (val_def m c) 46 (a := main_v3) (b := main_v33) (y := main_v34) (f := (addi : (⟨S170000, .i32⟩ : BufTy).Contents (Elt Ideal) → (⟨S170000, .i32⟩ : BufTy).Contents (Elt Ideal) → (⟨S170000, .i32⟩ : BufTy).Contents (Elt Ideal))) rfl (by decide) (by decide) (by decide)

theorem step_main_v35 : val m c main_v35 = (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal)) (val m c main_v32) (val m c main_v34) (val m c main_v3) :=
  read_ternary ops_writes (val_def m c) 47 (c := main_v32) (a := main_v34) (b := main_v3) (y := main_v35) (f := (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal))) rfl (by decide) (by decide) (by decide) (by decide)

theorem step_main_v36 : val m c main_v36 = (broadcastInDim S170000x1 ![0] bcast_S170000_S170000x1_0 : (⟨S170000, .i32⟩ : BufTy).Contents (Elt Ideal) → (⟨S170000x1, .i32⟩ : BufTy).Contents (Elt Ideal)) (val m c main_v35) :=
  read_unary ops_writes (val_def m c) 48 (a := main_v35) (y := main_v36) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v37 : val m c main_v37 = ((fun x i => Host.gather gather_S10000x512_S170000x1_S170000x512_1_0_n_n_0_1_1512 x i) : (⟨S10000x512, .f32⟩ : BufTy).Contents (Elt Ideal) → (⟨S170000x1, .i32⟩ : BufTy).Contents (Elt Ideal) → (⟨S170000x512, .f32⟩ : BufTy).Contents (Elt Ideal)) (val m c main_v30) (val m c main_v36) :=
  read_binary ops_writes (val_def m c) 49 (a := main_v30) (b := main_v36) (y := main_v37) (f := ((fun x i => Host.gather gather_S10000x512_S170000x1_S170000x512_1_0_n_n_0_1_1512 x i) : (⟨S10000x512, .f32⟩ : BufTy).Contents (Elt Ideal) → (⟨S170000x1, .i32⟩ : BufTy).Contents (Elt Ideal) → (⟨S170000x512, .f32⟩ : BufTy).Contents (Elt Ideal))) rfl (by decide) (by decide) (by decide)

theorem step_main_v38 : val m c main_v38 = (broadcastInDim S170000x1 ![0] bcast_S170000_S170000x1_0 : (⟨S170000, .f32⟩ : BufTy).Contents (Elt Ideal) → (⟨S170000x1, .f32⟩ : BufTy).Contents (Elt Ideal)) (val m c main_v29) :=
  read_unary ops_writes (val_def m c) 50 (a := main_v29) (y := main_v38) (f := (broadcastInDim S170000x1 ![0] bcast_S170000_S170000x1_0 : (⟨S170000, .f32⟩ : BufTy).Contents (Elt Ideal) → (⟨S170000x1, .f32⟩ : BufTy).Contents (Elt Ideal))) rfl (by decide) (by decide)

theorem step_main_v39 : val m c main_v39 = (broadcastInDim S170000x512 ![0, 1] bcast_S170000x1_S170000x512_0_1 : (⟨S170000x1, .f32⟩ : BufTy).Contents (Elt Ideal) → (⟨S170000x512, .f32⟩ : BufTy).Contents (Elt Ideal)) (val m c main_v38) :=
  read_unary ops_writes (val_def m c) 51 (a := main_v38) (y := main_v39) (f := (broadcastInDim S170000x512 ![0, 1] bcast_S170000x1_S170000x512_0_1 : (⟨S170000x1, .f32⟩ : BufTy).Contents (Elt Ideal) → (⟨S170000x512, .f32⟩ : BufTy).Contents (Elt Ideal))) rfl (by decide) (by decide)

theorem step_main_v40 : val m c main_v40 = (mulf (F := Ideal) (φ := .f32) : (⟨S170000x512, .f32⟩ : BufTy).Contents (Elt Ideal) → (⟨S170000x512, .f32⟩ : BufTy).Contents (Elt Ideal) → (⟨S170000x512, .f32⟩ : BufTy).Contents (Elt Ideal)) (val m c main_v37) (val m c main_v39) :=
  read_binary ops_writes (val_def m c) 52 (a := main_v37) (b := main_v39) (y := main_v40) (f := (mulf (F := Ideal) (φ := .f32) : (⟨S170000x512, .f32⟩ : BufTy).Contents (Elt Ideal) → (⟨S170000x512, .f32⟩ : BufTy).Contents (Elt Ideal) → (⟨S170000x512, .f32⟩ : BufTy).Contents (Elt Ideal))) rfl (by decide) (by decide) (by decide)

theorem step_main_cst_8 : val m c main_cst_8 = ((constant (F := Ideal) S_ .f32 0x00000000#32) : (⟨S_, .f32⟩ : BufTy).Contents (Elt Ideal)) :=
  read_nullary ops_writes (val_def m c) 53 (y := main_cst_8) (v₀ := ((constant (F := Ideal) S_ .f32 0x00000000#32) : (⟨S_, .f32⟩ : BufTy).Contents (Elt Ideal))) rfl (by decide)

theorem step_main_v41 : val m c main_v41 = (broadcastInDim S10000x512 ![] bcast_S_S10000x512 : (⟨S_, .f32⟩ : BufTy).Contents (Elt Ideal) → (⟨S10000x512, .f32⟩ : BufTy).Contents (Elt Ideal)) (val m c main_cst_8) :=
  read_unary ops_writes (val_def m c) 54 (a := main_cst_8) (y := main_v41) (f := (broadcastInDim S10000x512 ![] bcast_S_S10000x512 : (⟨S_, .f32⟩ : BufTy).Contents (Elt Ideal) → (⟨S10000x512, .f32⟩ : BufTy).Contents (Elt Ideal))) rfl (by decide) (by decide)

theorem step_main_v42 : val m c main_v42 = (broadcastInDim S170000x1 ![0] bcast_S170000_S170000x1_0 : (⟨S170000, .i32⟩ : BufTy).Contents (Elt Ideal) → (⟨S170000x1, .i32⟩ : BufTy).Contents (Elt Ideal)) (val m c main_v6) :=
  read_unary ops_writes (val_def m c) 55 (a := main_v6) (y := main_v42) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v43 : val m c main_v43 = ((fun x i u => Host.scatterAdd (F := Ideal) (φ := .f32) scatter_S10000x512_S170000x1_S170000x512_1_0_0_1 x i u) : (⟨S10000x512, .f32⟩ : BufTy).Contents (Elt Ideal) → (⟨S170000x1, .i32⟩ : BufTy).Contents (Elt Ideal) → (⟨S170000x512, .f32⟩ : BufTy).Contents (Elt Ideal) → (⟨S10000x512, .f32⟩ : BufTy).Contents (Elt Ideal)) (val m c main_v41) (val m c main_v42) (val m c main_v40) :=
  read_ternary ops_writes (val_def m c) 56 (c := main_v41) (a := main_v42) (b := main_v40) (y := main_v43) (f := ((fun x i u => Host.scatterAdd (F := Ideal) (φ := .f32) scatter_S10000x512_S170000x1_S170000x512_1_0_0_1 x i u) : (⟨S10000x512, .f32⟩ : BufTy).Contents (Elt Ideal) → (⟨S170000x1, .i32⟩ : BufTy).Contents (Elt Ideal) → (⟨S170000x512, .f32⟩ : BufTy).Contents (Elt Ideal) → (⟨S10000x512, .f32⟩ : BufTy).Contents (Elt Ideal))) rfl (by decide) (by decide) (by decide) (by decide)

theorem step_main_v44 : val m c main_v44 = (broadcastInDim S1x512 ![1] bcast_S512_S1x512_1 : (⟨S512, .f32⟩ : BufTy).Contents (Elt Ideal) → (⟨S1x512, .f32⟩ : BufTy).Contents (Elt Ideal)) (val m c main_arg3) :=
  read_unary ops_writes (val_def m c) 57 (a := main_arg3) (y := main_v44) (f := (broadcastInDim S1x512 ![1] bcast_S512_S1x512_1 : (⟨S512, .f32⟩ : BufTy).Contents (Elt Ideal) → (⟨S1x512, .f32⟩ : BufTy).Contents (Elt Ideal))) rfl (by decide) (by decide)

theorem step_main_v45 : val m c main_v45 = (broadcastInDim S10000x512 ![0, 1] bcast_S1x512_S10000x512_0_1 : (⟨S1x512, .f32⟩ : BufTy).Contents (Elt Ideal) → (⟨S10000x512, .f32⟩ : BufTy).Contents (Elt Ideal)) (val m c main_v44) :=
  read_unary ops_writes (val_def m c) 58 (a := main_v44) (y := main_v45) (f := (broadcastInDim S10000x512 ![0, 1] bcast_S1x512_S10000x512_0_1 : (⟨S1x512, .f32⟩ : BufTy).Contents (Elt Ideal) → (⟨S10000x512, .f32⟩ : BufTy).Contents (Elt Ideal))) rfl (by decide) (by decide)

theorem step_main_v46 : val m c main_v46 = (addf (F := Ideal) (φ := .f32) : (⟨S10000x512, .f32⟩ : BufTy).Contents (Elt Ideal) → (⟨S10000x512, .f32⟩ : BufTy).Contents (Elt Ideal) → (⟨S10000x512, .f32⟩ : BufTy).Contents (Elt Ideal)) (val m c main_v43) (val m c main_v45) :=
  read_binary ops_writes (val_def m c) 59 (a := main_v43) (b := main_v45) (y := main_v46) (f := (addf (F := Ideal) (φ := .f32) : (⟨S10000x512, .f32⟩ : BufTy).Contents (Elt Ideal) → (⟨S10000x512, .f32⟩ : BufTy).Contents (Elt Ideal) → (⟨S10000x512, .f32⟩ : BufTy).Contents (Elt Ideal))) rfl (by decide) (by decide) (by decide)

theorem step_main_call1_cst : val m c main_call1_cst = ((constant (F := Ideal) S_ .f32 0x00000000#32) : (⟨S_, .f32⟩ : BufTy).Contents (Elt Ideal)) :=
  read_tnullary ops_writes (val_def m c) 60 (y := TRef.of (T := ⟨S_, .f32⟩) main_call1_cst) (v₀ := ((constant (F := Ideal) S_ .f32 0x00000000#32) : (⟨S_, .f32⟩ : BufTy).Contents (Elt Ideal))) rfl (by decide)

theorem step_main_call1_v0 : val m c main_call1_v0 = (((broadcastInDim S10000x512 ![] bcast_S_S10000x512)) : (⟨S_, .f32⟩ : BufTy).Contents (Elt Ideal) → (⟨S10000x512, .f32⟩ : BufTy).Contents (Elt Ideal)) (val m c main_call1_cst) :=
  read_tunary ops_writes (val_def m c) 61 (a := TRef.of (T := ⟨S_, .f32⟩) main_call1_cst) (y := TRef.of (T := ⟨S10000x512, .f32⟩) main_call1_v0) (f := (((broadcastInDim S10000x512 ![] bcast_S_S10000x512)) : (⟨S_, .f32⟩ : BufTy).Contents (Elt Ideal) → (⟨S10000x512, .f32⟩ : BufTy).Contents (Elt Ideal))) rfl (by decide) (by decide)

theorem step_main_v47 : val m c main_v47 = ((maximumf (F := Ideal) (φ := .f32)) : (⟨S10000x512, .f32⟩ : BufTy).Contents (Elt Ideal) → (⟨S10000x512, .f32⟩ : BufTy).Contents (Elt Ideal) → (⟨S10000x512, .f32⟩ : BufTy).Contents (Elt Ideal)) (val m c main_v46) (val m c main_call1_v0) :=
  read_tbinary ops_writes (val_def m c) 62 (a := TRef.of (T := ⟨S10000x512, .f32⟩) main_v46) (b := TRef.of (T := ⟨S10000x512, .f32⟩) main_call1_v0) (y := TRef.of (T := ⟨S10000x512, .f32⟩) main_v47) (f := ((maximumf (F := Ideal) (φ := .f32)) : (⟨S10000x512, .f32⟩ : BufTy).Contents (Elt Ideal) → (⟨S10000x512, .f32⟩ : BufTy).Contents (Elt Ideal) → (⟨S10000x512, .f32⟩ : BufTy).Contents (Elt Ideal))) rfl (by decide) (by decide) (by decide)

theorem step_main_v48 : val m c main_v48 = ((fun l r => Host.dotGeneral (F := Ideal) (φ₁ := .f32) (φ₂ := .f32) dot_S10000x512_S512x1024_S10000x1024_1_0_0_1_n_n none l r) : (⟨S10000x512, .f32⟩ : BufTy).Contents (Elt Ideal) → (⟨S512x1024, .f32⟩ : BufTy).Contents (Elt Ideal) → (⟨S10000x1024, .f32⟩ : BufTy).Contents (Elt Ideal)) (val m c main_v47) (val m c main_arg4) :=
  read_binary ops_writes (val_def m c) 63 (a := main_v47) (b := main_arg4) (y := main_v48) (f := ((fun l r => Host.dotGeneral (F := Ideal) (φ₁ := .f32) (φ₂ := .f32) dot_S10000x512_S512x1024_S10000x1024_1_0_0_1_n_n none l r) : (⟨S10000x512, .f32⟩ : BufTy).Contents (Elt Ideal) → (⟨S512x1024, .f32⟩ : BufTy).Contents (Elt Ideal) → (⟨S10000x1024, .f32⟩ : BufTy).Contents (Elt Ideal))) rfl (by decide) (by decide) (by decide)

theorem step_main_c_9 : val m c main_c_9 = ((constantI S_ 32 0#32) : (⟨S_, .i32⟩ : BufTy).Contents (Elt Ideal)) :=
  read_nullary ops_writes (val_def m c) 64 (y := main_c_9) (v₀ := ((constantI S_ 32 0#32) : (⟨S_, .i32⟩ : BufTy).Contents (Elt Ideal))) rfl (by decide)

theorem step_main_v49 : val m c main_v49 = (broadcastInDim S170000 ![] bcast_S_S170000 : (⟨S_, .i32⟩ : BufTy).Contents (Elt Ideal) → (⟨S170000, .i32⟩ : BufTy).Contents (Elt Ideal)) (val m c main_c_9) :=
  read_unary ops_writes (val_def m c) 65 (a := main_c_9) (y := main_v49) (f := (broadcastInDim S170000 ![] bcast_S_S170000 : (⟨S_, .i32⟩ : BufTy).Contents (Elt Ideal) → (⟨S170000, .i32⟩ : BufTy).Contents (Elt Ideal))) rfl (by decide) (by decide)

theorem step_main_v50 : val m c main_v50 = (cmpi .slt : (⟨S170000, .i32⟩ : BufTy).Contents (Elt Ideal) → (⟨S170000, .i32⟩ : BufTy).Contents (Elt Ideal) → (⟨S170000, .i1⟩ : BufTy).Contents (Elt Ideal)) (val m c main_v3) (val m c main_v49) :=
  read_binary ops_writes (val_def m c) 66 (a := main_v3) (b := main_v49) (y := main_v50) (f := (cmpi .slt : (⟨S170000, .i32⟩ : BufTy).Contents (Elt Ideal) → (⟨S170000, .i32⟩ : BufTy).Contents (Elt Ideal) → (⟨S170000, .i1⟩ : BufTy).Contents (Elt Ideal))) rfl (by decide) (by decide) (by decide)

theorem step_main_c_10 : val m c main_c_10 = ((constantI S_ 32 10000#32) : (⟨S_, .i32⟩ : BufTy).Contents (Elt Ideal)) :=
  read_nullary ops_writes (val_def m c) 67 (y := main_c_10) (v₀ := ((constantI S_ 32 10000#32) : (⟨S_, .i32⟩ : BufTy).Contents (Elt Ideal))) rfl (by decide)

theorem step_main_v51 : val m c main_v51 = (broadcastInDim S170000 ![] bcast_S_S170000 : (⟨S_, .i32⟩ : BufTy).Contents (Elt Ideal) → (⟨S170000, .i32⟩ : BufTy).Contents (Elt Ideal)) (val m c main_c_10) :=
  read_unary ops_writes (val_def m c) 68 (a := main_c_10) (y := main_v51) (f := (broadcastInDim S170000 ![] bcast_S_S170000 : (⟨S_, .i32⟩ : BufTy).Contents (Elt Ideal) → (⟨S170000, .i32⟩ : BufTy).Contents (Elt Ideal))) rfl (by decide) (by decide)

theorem step_main_v52 : val m c main_v52 = (addi : (⟨S170000, .i32⟩ : BufTy).Contents (Elt Ideal) → (⟨S170000, .i32⟩ : BufTy).Contents (Elt Ideal) → (⟨S170000, .i32⟩ : BufTy).Contents (Elt Ideal)) (val m c main_v3) (val m c main_v51) :=
  read_binary ops_writes (val_def m c) 69 (a := main_v3) (b := main_v51) (y := main_v52) (f := (addi : (⟨S170000, .i32⟩ : BufTy).Contents (Elt Ideal) → (⟨S170000, .i32⟩ : BufTy).Contents (Elt Ideal) → (⟨S170000, .i32⟩ : BufTy).Contents (Elt Ideal))) rfl (by decide) (by decide) (by decide)

theorem step_main_v53 : val m c main_v53 = (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal)) (val m c main_v50) (val m c main_v52) (val m c main_v3) :=
  read_ternary ops_writes (val_def m c) 70 (c := main_v50) (a := main_v52) (b := main_v3) (y := main_v53) (f := (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal))) rfl (by decide) (by decide) (by decide) (by decide)

theorem step_main_v54 : val m c main_v54 = (broadcastInDim S170000x1 ![0] bcast_S170000_S170000x1_0 : (⟨S170000, .i32⟩ : BufTy).Contents (Elt Ideal) → (⟨S170000x1, .i32⟩ : BufTy).Contents (Elt Ideal)) (val m c main_v53) :=
  read_unary ops_writes (val_def m c) 71 (a := main_v53) (y := main_v54) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v55 : val m c main_v55 = ((fun x i => Host.gather gather_S10000x1024_S170000x1_S170000x1024_1_0_n_n_0_1_11024 x i) : (⟨S10000x1024, .f32⟩ : BufTy).Contents (Elt Ideal) → (⟨S170000x1, .i32⟩ : BufTy).Contents (Elt Ideal) → (⟨S170000x1024, .f32⟩ : BufTy).Contents (Elt Ideal)) (val m c main_v48) (val m c main_v54) :=
  read_binary ops_writes (val_def m c) 72 (a := main_v48) (b := main_v54) (y := main_v55) (f := ((fun x i => Host.gather gather_S10000x1024_S170000x1_S170000x1024_1_0_n_n_0_1_11024 x i) : (⟨S10000x1024, .f32⟩ : BufTy).Contents (Elt Ideal) → (⟨S170000x1, .i32⟩ : BufTy).Contents (Elt Ideal) → (⟨S170000x1024, .f32⟩ : BufTy).Contents (Elt Ideal))) rfl (by decide) (by decide) (by decide)

theorem step_main_v56 : val m c main_v56 = (broadcastInDim S170000x1 ![0] bcast_S170000_S170000x1_0 : (⟨S170000, .f32⟩ : BufTy).Contents (Elt Ideal) → (⟨S170000x1, .f32⟩ : BufTy).Contents (Elt Ideal)) (val m c main_v29) :=
  read_unary ops_writes (val_def m c) 73 (a := main_v29) (y := main_v56) (f := (broadcastInDim S170000x1 ![0] bcast_S170000_S170000x1_0 : (⟨S170000, .f32⟩ : BufTy).Contents (Elt Ideal) → (⟨S170000x1, .f32⟩ : BufTy).Contents (Elt Ideal))) rfl (by decide) (by decide)

theorem step_main_v57 : val m c main_v57 = (broadcastInDim S170000x1024 ![0, 1] bcast_S170000x1_S170000x1024_0_1 : (⟨S170000x1, .f32⟩ : BufTy).Contents (Elt Ideal) → (⟨S170000x1024, .f32⟩ : BufTy).Contents (Elt Ideal)) (val m c main_v56) :=
  read_unary ops_writes (val_def m c) 74 (a := main_v56) (y := main_v57) (f := (broadcastInDim S170000x1024 ![0, 1] bcast_S170000x1_S170000x1024_0_1 : (⟨S170000x1, .f32⟩ : BufTy).Contents (Elt Ideal) → (⟨S170000x1024, .f32⟩ : BufTy).Contents (Elt Ideal))) rfl (by decide) (by decide)

theorem step_main_v58 : val m c main_v58 = (mulf (F := Ideal) (φ := .f32) : (⟨S170000x1024, .f32⟩ : BufTy).Contents (Elt Ideal) → (⟨S170000x1024, .f32⟩ : BufTy).Contents (Elt Ideal) → (⟨S170000x1024, .f32⟩ : BufTy).Contents (Elt Ideal)) (val m c main_v55) (val m c main_v57) :=
  read_binary ops_writes (val_def m c) 75 (a := main_v55) (b := main_v57) (y := main_v58) (f := (mulf (F := Ideal) (φ := .f32) : (⟨S170000x1024, .f32⟩ : BufTy).Contents (Elt Ideal) → (⟨S170000x1024, .f32⟩ : BufTy).Contents (Elt Ideal) → (⟨S170000x1024, .f32⟩ : BufTy).Contents (Elt Ideal))) rfl (by decide) (by decide) (by decide)

theorem step_main_cst_11 : val m c main_cst_11 = ((constant (F := Ideal) S_ .f32 0x00000000#32) : (⟨S_, .f32⟩ : BufTy).Contents (Elt Ideal)) :=
  read_nullary ops_writes (val_def m c) 76 (y := main_cst_11) (v₀ := ((constant (F := Ideal) S_ .f32 0x00000000#32) : (⟨S_, .f32⟩ : BufTy).Contents (Elt Ideal))) rfl (by decide)

theorem step_main_v59 : val m c main_v59 = (broadcastInDim S10000x1024 ![] bcast_S_S10000x1024 : (⟨S_, .f32⟩ : BufTy).Contents (Elt Ideal) → (⟨S10000x1024, .f32⟩ : BufTy).Contents (Elt Ideal)) (val m c main_cst_11) :=
  read_unary ops_writes (val_def m c) 77 (a := main_cst_11) (y := main_v59) (f := (broadcastInDim S10000x1024 ![] bcast_S_S10000x1024 : (⟨S_, .f32⟩ : BufTy).Contents (Elt Ideal) → (⟨S10000x1024, .f32⟩ : BufTy).Contents (Elt Ideal))) rfl (by decide) (by decide)

theorem step_main_v60 : val m c main_v60 = (broadcastInDim S170000x1 ![0] bcast_S170000_S170000x1_0 : (⟨S170000, .i32⟩ : BufTy).Contents (Elt Ideal) → (⟨S170000x1, .i32⟩ : BufTy).Contents (Elt Ideal)) (val m c main_v6) :=
  read_unary ops_writes (val_def m c) 78 (a := main_v6) (y := main_v60) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v61 : val m c main_v61 = ((fun x i u => Host.scatterAdd (F := Ideal) (φ := .f32) scatter_S10000x1024_S170000x1_S170000x1024_1_0_0_1 x i u) : (⟨S10000x1024, .f32⟩ : BufTy).Contents (Elt Ideal) → (⟨S170000x1, .i32⟩ : BufTy).Contents (Elt Ideal) → (⟨S170000x1024, .f32⟩ : BufTy).Contents (Elt Ideal) → (⟨S10000x1024, .f32⟩ : BufTy).Contents (Elt Ideal)) (val m c main_v59) (val m c main_v60) (val m c main_v58) :=
  read_ternary ops_writes (val_def m c) 79 (c := main_v59) (a := main_v60) (b := main_v58) (y := main_v61) (f := ((fun x i u => Host.scatterAdd (F := Ideal) (φ := .f32) scatter_S10000x1024_S170000x1_S170000x1024_1_0_0_1 x i u) : (⟨S10000x1024, .f32⟩ : BufTy).Contents (Elt Ideal) → (⟨S170000x1, .i32⟩ : BufTy).Contents (Elt Ideal) → (⟨S170000x1024, .f32⟩ : BufTy).Contents (Elt Ideal) → (⟨S10000x1024, .f32⟩ : BufTy).Contents (Elt Ideal))) rfl (by decide) (by decide) (by decide) (by decide)

theorem step_main_v62 : val m c main_v62 = (broadcastInDim S1x1024 ![1] bcast_S1024_S1x1024_1 : (⟨S1024, .f32⟩ : BufTy).Contents (Elt Ideal) → (⟨S1x1024, .f32⟩ : BufTy).Contents (Elt Ideal)) (val m c main_arg5) :=
  read_unary ops_writes (val_def m c) 80 (a := main_arg5) (y := main_v62) (f := (broadcastInDim S1x1024 ![1] bcast_S1024_S1x1024_1 : (⟨S1024, .f32⟩ : BufTy).Contents (Elt Ideal) → (⟨S1x1024, .f32⟩ : BufTy).Contents (Elt Ideal))) rfl (by decide) (by decide)

theorem step_main_v63 : val m c main_v63 = (broadcastInDim S10000x1024 ![0, 1] bcast_S1x1024_S10000x1024_0_1 : (⟨S1x1024, .f32⟩ : BufTy).Contents (Elt Ideal) → (⟨S10000x1024, .f32⟩ : BufTy).Contents (Elt Ideal)) (val m c main_v62) :=
  read_unary ops_writes (val_def m c) 81 (a := main_v62) (y := main_v63) (f := (broadcastInDim S10000x1024 ![0, 1] bcast_S1x1024_S10000x1024_0_1 : (⟨S1x1024, .f32⟩ : BufTy).Contents (Elt Ideal) → (⟨S10000x1024, .f32⟩ : BufTy).Contents (Elt Ideal))) rfl (by decide) (by decide)

theorem step_main_v64 : val m c main_v64 = (addf (F := Ideal) (φ := .f32) : (⟨S10000x1024, .f32⟩ : BufTy).Contents (Elt Ideal) → (⟨S10000x1024, .f32⟩ : BufTy).Contents (Elt Ideal) → (⟨S10000x1024, .f32⟩ : BufTy).Contents (Elt Ideal)) (val m c main_v61) (val m c main_v63) :=
  read_binary ops_writes (val_def m c) 82 (a := main_v61) (b := main_v63) (y := main_v64) (f := (addf (F := Ideal) (φ := .f32) : (⟨S10000x1024, .f32⟩ : BufTy).Contents (Elt Ideal) → (⟨S10000x1024, .f32⟩ : BufTy).Contents (Elt Ideal) → (⟨S10000x1024, .f32⟩ : BufTy).Contents (Elt Ideal))) rfl (by decide) (by decide) (by decide)

theorem step_main_call2_cst : val m c main_call2_cst = ((constant (F := Ideal) S_ .f32 0x00000000#32) : (⟨S_, .f32⟩ : BufTy).Contents (Elt Ideal)) :=
  read_tnullary ops_writes (val_def m c) 83 (y := TRef.of (T := ⟨S_, .f32⟩) main_call2_cst) (v₀ := ((constant (F := Ideal) S_ .f32 0x00000000#32) : (⟨S_, .f32⟩ : BufTy).Contents (Elt Ideal))) rfl (by decide)

theorem step_main_call2_v0 : val m c main_call2_v0 = (((broadcastInDim S10000x1024 ![] bcast_S_S10000x1024)) : (⟨S_, .f32⟩ : BufTy).Contents (Elt Ideal) → (⟨S10000x1024, .f32⟩ : BufTy).Contents (Elt Ideal)) (val m c main_call2_cst) :=
  read_tunary ops_writes (val_def m c) 84 (a := TRef.of (T := ⟨S_, .f32⟩) main_call2_cst) (y := TRef.of (T := ⟨S10000x1024, .f32⟩) main_call2_v0) (f := (((broadcastInDim S10000x1024 ![] bcast_S_S10000x1024)) : (⟨S_, .f32⟩ : BufTy).Contents (Elt Ideal) → (⟨S10000x1024, .f32⟩ : BufTy).Contents (Elt Ideal))) rfl (by decide) (by decide)

theorem step_main_v65 : val m c main_v65 = ((maximumf (F := Ideal) (φ := .f32)) : (⟨S10000x1024, .f32⟩ : BufTy).Contents (Elt Ideal) → (⟨S10000x1024, .f32⟩ : BufTy).Contents (Elt Ideal) → (⟨S10000x1024, .f32⟩ : BufTy).Contents (Elt Ideal)) (val m c main_v64) (val m c main_call2_v0) :=
  read_tbinary ops_writes (val_def m c) 85 (a := TRef.of (T := ⟨S10000x1024, .f32⟩) main_v64) (b := TRef.of (T := ⟨S10000x1024, .f32⟩) main_call2_v0) (y := TRef.of (T := ⟨S10000x1024, .f32⟩) main_v65) (f := ((maximumf (F := Ideal) (φ := .f32)) : (⟨S10000x1024, .f32⟩ : BufTy).Contents (Elt Ideal) → (⟨S10000x1024, .f32⟩ : BufTy).Contents (Elt Ideal) → (⟨S10000x1024, .f32⟩ : BufTy).Contents (Elt Ideal))) rfl (by decide) (by decide) (by decide)

theorem step_main_v66 : val m c main_v66 = ((fun l r => Host.dotGeneral (F := Ideal) (φ₁ := .f32) (φ₂ := .f32) dot_S10000x1024_S1024x512_S10000x512_1_0_0_1_n_n none l r) : (⟨S10000x1024, .f32⟩ : BufTy).Contents (Elt Ideal) → (⟨S1024x512, .f32⟩ : BufTy).Contents (Elt Ideal) → (⟨S10000x512, .f32⟩ : BufTy).Contents (Elt Ideal)) (val m c main_v65) (val m c main_arg6) :=
  read_binary ops_writes (val_def m c) 86 (a := main_v65) (b := main_arg6) (y := main_v66) (f := ((fun l r => Host.dotGeneral (F := Ideal) (φ₁ := .f32) (φ₂ := .f32) dot_S10000x1024_S1024x512_S10000x512_1_0_0_1_n_n none l r) : (⟨S10000x1024, .f32⟩ : BufTy).Contents (Elt Ideal) → (⟨S1024x512, .f32⟩ : BufTy).Contents (Elt Ideal) → (⟨S10000x512, .f32⟩ : BufTy).Contents (Elt Ideal))) rfl (by decide) (by decide) (by decide)

theorem step_main_c_12 : val m c main_c_12 = ((constantI S_ 32 0#32) : (⟨S_, .i32⟩ : BufTy).Contents (Elt Ideal)) :=
  read_nullary ops_writes (val_def m c) 87 (y := main_c_12) (v₀ := ((constantI S_ 32 0#32) : (⟨S_, .i32⟩ : BufTy).Contents (Elt Ideal))) rfl (by decide)

theorem step_main_v67 : val m c main_v67 = (broadcastInDim S170000 ![] bcast_S_S170000 : (⟨S_, .i32⟩ : BufTy).Contents (Elt Ideal) → (⟨S170000, .i32⟩ : BufTy).Contents (Elt Ideal)) (val m c main_c_12) :=
  read_unary ops_writes (val_def m c) 88 (a := main_c_12) (y := main_v67) (f := (broadcastInDim S170000 ![] bcast_S_S170000 : (⟨S_, .i32⟩ : BufTy).Contents (Elt Ideal) → (⟨S170000, .i32⟩ : BufTy).Contents (Elt Ideal))) rfl (by decide) (by decide)

theorem step_main_v68 : val m c main_v68 = (cmpi .slt : (⟨S170000, .i32⟩ : BufTy).Contents (Elt Ideal) → (⟨S170000, .i32⟩ : BufTy).Contents (Elt Ideal) → (⟨S170000, .i1⟩ : BufTy).Contents (Elt Ideal)) (val m c main_v3) (val m c main_v67) :=
  read_binary ops_writes (val_def m c) 89 (a := main_v3) (b := main_v67) (y := main_v68) (f := (cmpi .slt : (⟨S170000, .i32⟩ : BufTy).Contents (Elt Ideal) → (⟨S170000, .i32⟩ : BufTy).Contents (Elt Ideal) → (⟨S170000, .i1⟩ : BufTy).Contents (Elt Ideal))) rfl (by decide) (by decide) (by decide)

theorem step_main_c_13 : val m c main_c_13 = ((constantI S_ 32 10000#32) : (⟨S_, .i32⟩ : BufTy).Contents (Elt Ideal)) :=
  read_nullary ops_writes (val_def m c) 90 (y := main_c_13) (v₀ := ((constantI S_ 32 10000#32) : (⟨S_, .i32⟩ : BufTy).Contents (Elt Ideal))) rfl (by decide)

theorem step_main_v69 : val m c main_v69 = (broadcastInDim S170000 ![] bcast_S_S170000 : (⟨S_, .i32⟩ : BufTy).Contents (Elt Ideal) → (⟨S170000, .i32⟩ : BufTy).Contents (Elt Ideal)) (val m c main_c_13) :=
  read_unary ops_writes (val_def m c) 91 (a := main_c_13) (y := main_v69) (f := (broadcastInDim S170000 ![] bcast_S_S170000 : (⟨S_, .i32⟩ : BufTy).Contents (Elt Ideal) → (⟨S170000, .i32⟩ : BufTy).Contents (Elt Ideal))) rfl (by decide) (by decide)

theorem step_main_v70 : val m c main_v70 = (addi : (⟨S170000, .i32⟩ : BufTy).Contents (Elt Ideal) → (⟨S170000, .i32⟩ : BufTy).Contents (Elt Ideal) → (⟨S170000, .i32⟩ : BufTy).Contents (Elt Ideal)) (val m c main_v3) (val m c main_v69) :=
  read_binary ops_writes (val_def m c) 92 (a := main_v3) (b := main_v69) (y := main_v70) (f := (addi : (⟨S170000, .i32⟩ : BufTy).Contents (Elt Ideal) → (⟨S170000, .i32⟩ : BufTy).Contents (Elt Ideal) → (⟨S170000, .i32⟩ : BufTy).Contents (Elt Ideal))) rfl (by decide) (by decide) (by decide)

theorem step_main_v71 : val m c main_v71 = (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal)) (val m c main_v68) (val m c main_v70) (val m c main_v3) :=
  read_ternary ops_writes (val_def m c) 93 (c := main_v68) (a := main_v70) (b := main_v3) (y := main_v71) (f := (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal))) rfl (by decide) (by decide) (by decide) (by decide)

theorem step_main_v72 : val m c main_v72 = (broadcastInDim S170000x1 ![0] bcast_S170000_S170000x1_0 : (⟨S170000, .i32⟩ : BufTy).Contents (Elt Ideal) → (⟨S170000x1, .i32⟩ : BufTy).Contents (Elt Ideal)) (val m c main_v71) :=
  read_unary ops_writes (val_def m c) 94 (a := main_v71) (y := main_v72) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v73 : val m c main_v73 = ((fun x i => Host.gather gather_S10000x512_S170000x1_S170000x512_1_0_n_n_0_1_1512 x i) : (⟨S10000x512, .f32⟩ : BufTy).Contents (Elt Ideal) → (⟨S170000x1, .i32⟩ : BufTy).Contents (Elt Ideal) → (⟨S170000x512, .f32⟩ : BufTy).Contents (Elt Ideal)) (val m c main_v66) (val m c main_v72) :=
  read_binary ops_writes (val_def m c) 95 (a := main_v66) (b := main_v72) (y := main_v73) (f := ((fun x i => Host.gather gather_S10000x512_S170000x1_S170000x512_1_0_n_n_0_1_1512 x i) : (⟨S10000x512, .f32⟩ : BufTy).Contents (Elt Ideal) → (⟨S170000x1, .i32⟩ : BufTy).Contents (Elt Ideal) → (⟨S170000x512, .f32⟩ : BufTy).Contents (Elt Ideal))) rfl (by decide) (by decide) (by decide)

theorem step_main_v74 : val m c main_v74 = (broadcastInDim S170000x1 ![0] bcast_S170000_S170000x1_0 : (⟨S170000, .f32⟩ : BufTy).Contents (Elt Ideal) → (⟨S170000x1, .f32⟩ : BufTy).Contents (Elt Ideal)) (val m c main_v29) :=
  read_unary ops_writes (val_def m c) 96 (a := main_v29) (y := main_v74) (f := (broadcastInDim S170000x1 ![0] bcast_S170000_S170000x1_0 : (⟨S170000, .f32⟩ : BufTy).Contents (Elt Ideal) → (⟨S170000x1, .f32⟩ : BufTy).Contents (Elt Ideal))) rfl (by decide) (by decide)

theorem step_main_v75 : val m c main_v75 = (broadcastInDim S170000x512 ![0, 1] bcast_S170000x1_S170000x512_0_1 : (⟨S170000x1, .f32⟩ : BufTy).Contents (Elt Ideal) → (⟨S170000x512, .f32⟩ : BufTy).Contents (Elt Ideal)) (val m c main_v74) :=
  read_unary ops_writes (val_def m c) 97 (a := main_v74) (y := main_v75) (f := (broadcastInDim S170000x512 ![0, 1] bcast_S170000x1_S170000x512_0_1 : (⟨S170000x1, .f32⟩ : BufTy).Contents (Elt Ideal) → (⟨S170000x512, .f32⟩ : BufTy).Contents (Elt Ideal))) rfl (by decide) (by decide)

theorem step_main_v76 : val m c main_v76 = (mulf (F := Ideal) (φ := .f32) : (⟨S170000x512, .f32⟩ : BufTy).Contents (Elt Ideal) → (⟨S170000x512, .f32⟩ : BufTy).Contents (Elt Ideal) → (⟨S170000x512, .f32⟩ : BufTy).Contents (Elt Ideal)) (val m c main_v73) (val m c main_v75) :=
  read_binary ops_writes (val_def m c) 98 (a := main_v73) (b := main_v75) (y := main_v76) (f := (mulf (F := Ideal) (φ := .f32) : (⟨S170000x512, .f32⟩ : BufTy).Contents (Elt Ideal) → (⟨S170000x512, .f32⟩ : BufTy).Contents (Elt Ideal) → (⟨S170000x512, .f32⟩ : BufTy).Contents (Elt Ideal))) rfl (by decide) (by decide) (by decide)

theorem step_main_cst_14 : val m c main_cst_14 = ((constant (F := Ideal) S_ .f32 0x00000000#32) : (⟨S_, .f32⟩ : BufTy).Contents (Elt Ideal)) :=
  read_nullary ops_writes (val_def m c) 99 (y := main_cst_14) (v₀ := ((constant (F := Ideal) S_ .f32 0x00000000#32) : (⟨S_, .f32⟩ : BufTy).Contents (Elt Ideal))) rfl (by decide)

theorem step_main_v77 : val m c main_v77 = (broadcastInDim S10000x512 ![] bcast_S_S10000x512 : (⟨S_, .f32⟩ : BufTy).Contents (Elt Ideal) → (⟨S10000x512, .f32⟩ : BufTy).Contents (Elt Ideal)) (val m c main_cst_14) :=
  read_unary ops_writes (val_def m c) 100 (a := main_cst_14) (y := main_v77) (f := (broadcastInDim S10000x512 ![] bcast_S_S10000x512 : (⟨S_, .f32⟩ : BufTy).Contents (Elt Ideal) → (⟨S10000x512, .f32⟩ : BufTy).Contents (Elt Ideal))) rfl (by decide) (by decide)

theorem step_main_v78 : val m c main_v78 = (broadcastInDim S170000x1 ![0] bcast_S170000_S170000x1_0 : (⟨S170000, .i32⟩ : BufTy).Contents (Elt Ideal) → (⟨S170000x1, .i32⟩ : BufTy).Contents (Elt Ideal)) (val m c main_v6) :=
  read_unary ops_writes (val_def m c) 101 (a := main_v6) (y := main_v78) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v79 : val m c main_v79 = ((fun x i u => Host.scatterAdd (F := Ideal) (φ := .f32) scatter_S10000x512_S170000x1_S170000x512_1_0_0_1 x i u) : (⟨S10000x512, .f32⟩ : BufTy).Contents (Elt Ideal) → (⟨S170000x1, .i32⟩ : BufTy).Contents (Elt Ideal) → (⟨S170000x512, .f32⟩ : BufTy).Contents (Elt Ideal) → (⟨S10000x512, .f32⟩ : BufTy).Contents (Elt Ideal)) (val m c main_v77) (val m c main_v78) (val m c main_v76) :=
  read_ternary ops_writes (val_def m c) 102 (c := main_v77) (a := main_v78) (b := main_v76) (y := main_v79) (f := ((fun x i u => Host.scatterAdd (F := Ideal) (φ := .f32) scatter_S10000x512_S170000x1_S170000x512_1_0_0_1 x i u) : (⟨S10000x512, .f32⟩ : BufTy).Contents (Elt Ideal) → (⟨S170000x1, .i32⟩ : BufTy).Contents (Elt Ideal) → (⟨S170000x512, .f32⟩ : BufTy).Contents (Elt Ideal) → (⟨S10000x512, .f32⟩ : BufTy).Contents (Elt Ideal))) rfl (by decide) (by decide) (by decide) (by decide)

theorem step_main_v80 : val m c main_v80 = (broadcastInDim S1x512 ![1] bcast_S512_S1x512_1 : (⟨S512, .f32⟩ : BufTy).Contents (Elt Ideal) → (⟨S1x512, .f32⟩ : BufTy).Contents (Elt Ideal)) (val m c main_arg7) :=
  read_unary ops_writes (val_def m c) 103 (a := main_arg7) (y := main_v80) (f := (broadcastInDim S1x512 ![1] bcast_S512_S1x512_1 : (⟨S512, .f32⟩ : BufTy).Contents (Elt Ideal) → (⟨S1x512, .f32⟩ : BufTy).Contents (Elt Ideal))) rfl (by decide) (by decide)

theorem step_main_v81 : val m c main_v81 = (broadcastInDim S10000x512 ![0, 1] bcast_S1x512_S10000x512_0_1 : (⟨S1x512, .f32⟩ : BufTy).Contents (Elt Ideal) → (⟨S10000x512, .f32⟩ : BufTy).Contents (Elt Ideal)) (val m c main_v80) :=
  read_unary ops_writes (val_def m c) 104 (a := main_v80) (y := main_v81) (f := (broadcastInDim S10000x512 ![0, 1] bcast_S1x512_S10000x512_0_1 : (⟨S1x512, .f32⟩ : BufTy).Contents (Elt Ideal) → (⟨S10000x512, .f32⟩ : BufTy).Contents (Elt Ideal))) rfl (by decide) (by decide)

theorem step_main_v82 : val m c main_v82 = (addf (F := Ideal) (φ := .f32) : (⟨S10000x512, .f32⟩ : BufTy).Contents (Elt Ideal) → (⟨S10000x512, .f32⟩ : BufTy).Contents (Elt Ideal) → (⟨S10000x512, .f32⟩ : BufTy).Contents (Elt Ideal)) (val m c main_v79) (val m c main_v81) :=
  read_binary ops_writes (val_def m c) 105 (a := main_v79) (b := main_v81) (y := main_v82) (f := (addf (F := Ideal) (φ := .f32) : (⟨S10000x512, .f32⟩ : BufTy).Contents (Elt Ideal) → (⟨S10000x512, .f32⟩ : BufTy).Contents (Elt Ideal) → (⟨S10000x512, .f32⟩ : BufTy).Contents (Elt Ideal))) rfl (by decide) (by decide) (by decide)

theorem step_main_call3_cst : val m c main_call3_cst = ((constant (F := Ideal) S_ .f32 0x00000000#32) : (⟨S_, .f32⟩ : BufTy).Contents (Elt Ideal)) :=
  read_tnullary ops_writes (val_def m c) 106 (y := TRef.of (T := ⟨S_, .f32⟩) main_call3_cst) (v₀ := ((constant (F := Ideal) S_ .f32 0x00000000#32) : (⟨S_, .f32⟩ : BufTy).Contents (Elt Ideal))) rfl (by decide)

theorem step_main_call3_v0 : val m c main_call3_v0 = (((broadcastInDim S10000x512 ![] bcast_S_S10000x512)) : (⟨S_, .f32⟩ : BufTy).Contents (Elt Ideal) → (⟨S10000x512, .f32⟩ : BufTy).Contents (Elt Ideal)) (val m c main_call3_cst) :=
  read_tunary ops_writes (val_def m c) 107 (a := TRef.of (T := ⟨S_, .f32⟩) main_call3_cst) (y := TRef.of (T := ⟨S10000x512, .f32⟩) main_call3_v0) (f := (((broadcastInDim S10000x512 ![] bcast_S_S10000x512)) : (⟨S_, .f32⟩ : BufTy).Contents (Elt Ideal) → (⟨S10000x512, .f32⟩ : BufTy).Contents (Elt Ideal))) rfl (by decide) (by decide)

theorem step_main_v83 : val m c main_v83 = ((maximumf (F := Ideal) (φ := .f32)) : (⟨S10000x512, .f32⟩ : BufTy).Contents (Elt Ideal) → (⟨S10000x512, .f32⟩ : BufTy).Contents (Elt Ideal) → (⟨S10000x512, .f32⟩ : BufTy).Contents (Elt Ideal)) (val m c main_v82) (val m c main_call3_v0) :=
  read_tbinary ops_writes (val_def m c) 108 (a := TRef.of (T := ⟨S10000x512, .f32⟩) main_v82) (b := TRef.of (T := ⟨S10000x512, .f32⟩) main_call3_v0) (y := TRef.of (T := ⟨S10000x512, .f32⟩) main_v83) (f := ((maximumf (F := Ideal) (φ := .f32)) : (⟨S10000x512, .f32⟩ : BufTy).Contents (Elt Ideal) → (⟨S10000x512, .f32⟩ : BufTy).Contents (Elt Ideal) → (⟨S10000x512, .f32⟩ : BufTy).Contents (Elt Ideal))) rfl (by decide) (by decide) (by decide)

theorem step_main_v84 : val m c main_v84 = ((fun l r => Host.dotGeneral (F := Ideal) (φ₁ := .f32) (φ₂ := .f32) dot_S10000x512_S512x32_S10000x32_1_0_0_1_n_n none l r) : (⟨S10000x512, .f32⟩ : BufTy).Contents (Elt Ideal) → (⟨S512x32, .f32⟩ : BufTy).Contents (Elt Ideal) → (⟨S10000x32, .f32⟩ : BufTy).Contents (Elt Ideal)) (val m c main_v83) (val m c main_arg8) :=
  read_binary ops_writes (val_def m c) 109 (a := main_v83) (b := main_arg8) (y := main_v84) (f := ((fun l r => Host.dotGeneral (F := Ideal) (φ₁ := .f32) (φ₂ := .f32) dot_S10000x512_S512x32_S10000x32_1_0_0_1_n_n none l r) : (⟨S10000x512, .f32⟩ : BufTy).Contents (Elt Ideal) → (⟨S512x32, .f32⟩ : BufTy).Contents (Elt Ideal) → (⟨S10000x32, .f32⟩ : BufTy).Contents (Elt Ideal))) rfl (by decide) (by decide) (by decide)

theorem step_main_c_15 : val m c main_c_15 = ((constantI S_ 32 0#32) : (⟨S_, .i32⟩ : BufTy).Contents (Elt Ideal)) :=
  read_nullary ops_writes (val_def m c) 110 (y := main_c_15) (v₀ := ((constantI S_ 32 0#32) : (⟨S_, .i32⟩ : BufTy).Contents (Elt Ideal))) rfl (by decide)

theorem step_main_v85 : val m c main_v85 = (broadcastInDim S170000 ![] bcast_S_S170000 : (⟨S_, .i32⟩ : BufTy).Contents (Elt Ideal) → (⟨S170000, .i32⟩ : BufTy).Contents (Elt Ideal)) (val m c main_c_15) :=
  read_unary ops_writes (val_def m c) 111 (a := main_c_15) (y := main_v85) (f := (broadcastInDim S170000 ![] bcast_S_S170000 : (⟨S_, .i32⟩ : BufTy).Contents (Elt Ideal) → (⟨S170000, .i32⟩ : BufTy).Contents (Elt Ideal))) rfl (by decide) (by decide)

theorem step_main_v86 : val m c main_v86 = (cmpi .slt : (⟨S170000, .i32⟩ : BufTy).Contents (Elt Ideal) → (⟨S170000, .i32⟩ : BufTy).Contents (Elt Ideal) → (⟨S170000, .i1⟩ : BufTy).Contents (Elt Ideal)) (val m c main_v3) (val m c main_v85) :=
  read_binary ops_writes (val_def m c) 112 (a := main_v3) (b := main_v85) (y := main_v86) (f := (cmpi .slt : (⟨S170000, .i32⟩ : BufTy).Contents (Elt Ideal) → (⟨S170000, .i32⟩ : BufTy).Contents (Elt Ideal) → (⟨S170000, .i1⟩ : BufTy).Contents (Elt Ideal))) rfl (by decide) (by decide) (by decide)

theorem step_main_c_16 : val m c main_c_16 = ((constantI S_ 32 10000#32) : (⟨S_, .i32⟩ : BufTy).Contents (Elt Ideal)) :=
  read_nullary ops_writes (val_def m c) 113 (y := main_c_16) (v₀ := ((constantI S_ 32 10000#32) : (⟨S_, .i32⟩ : BufTy).Contents (Elt Ideal))) rfl (by decide)

theorem step_main_v87 : val m c main_v87 = (broadcastInDim S170000 ![] bcast_S_S170000 : (⟨S_, .i32⟩ : BufTy).Contents (Elt Ideal) → (⟨S170000, .i32⟩ : BufTy).Contents (Elt Ideal)) (val m c main_c_16) :=
  read_unary ops_writes (val_def m c) 114 (a := main_c_16) (y := main_v87) (f := (broadcastInDim S170000 ![] bcast_S_S170000 : (⟨S_, .i32⟩ : BufTy).Contents (Elt Ideal) → (⟨S170000, .i32⟩ : BufTy).Contents (Elt Ideal))) rfl (by decide) (by decide)

theorem step_main_v88 : val m c main_v88 = (addi : (⟨S170000, .i32⟩ : BufTy).Contents (Elt Ideal) → (⟨S170000, .i32⟩ : BufTy).Contents (Elt Ideal) → (⟨S170000, .i32⟩ : BufTy).Contents (Elt Ideal)) (val m c main_v3) (val m c main_v87) :=
  read_binary ops_writes (val_def m c) 115 (a := main_v3) (b := main_v87) (y := main_v88) (f := (addi : (⟨S170000, .i32⟩ : BufTy).Contents (Elt Ideal) → (⟨S170000, .i32⟩ : BufTy).Contents (Elt Ideal) → (⟨S170000, .i32⟩ : BufTy).Contents (Elt Ideal))) rfl (by decide) (by decide) (by decide)

theorem step_main_v89 : val m c main_v89 = (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal)) (val m c main_v86) (val m c main_v88) (val m c main_v3) :=
  read_ternary ops_writes (val_def m c) 116 (c := main_v86) (a := main_v88) (b := main_v3) (y := main_v89) (f := (select : (⟨S170000, .i1⟩ : BufTy).Contents (Elt Ideal) → (⟨S170000, .i32⟩ : BufTy).Contents (Elt Ideal) → (⟨S170000, .i32⟩ : BufTy).Contents (Elt Ideal) → (⟨S170000, .i32⟩ : BufTy).Contents (Elt Ideal))) rfl (by decide) (by decide) (by decide) (by decide)

theorem step_main_v90 : val m c main_v90 = (broadcastInDim S170000x1 ![0] bcast_S170000_S170000x1_0 : (⟨S170000, .i32⟩ : BufTy).Contents (Elt Ideal) → (⟨S170000x1, .i32⟩ : BufTy).Contents (Elt Ideal)) (val m c main_v89) :=
  read_unary ops_writes (val_def m c) 117 (a := main_v89) (y := main_v90) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v91 : val m c main_v91 = ((fun x i => Host.gather gather_S10000x32_S170000x1_S170000x32_1_0_n_n_0_1_132 x i) : (⟨S10000x32, .f32⟩ : BufTy).Contents (Elt Ideal) → (⟨S170000x1, .i32⟩ : BufTy).Contents (Elt Ideal) → (⟨S170000x32, .f32⟩ : BufTy).Contents (Elt Ideal)) (val m c main_v84) (val m c main_v90) :=
  read_binary ops_writes (val_def m c) 118 (a := main_v84) (b := main_v90) (y := main_v91) (f := ((fun x i => Host.gather gather_S10000x32_S170000x1_S170000x32_1_0_n_n_0_1_132 x i) : (⟨S10000x32, .f32⟩ : BufTy).Contents (Elt Ideal) → (⟨S170000x1, .i32⟩ : BufTy).Contents (Elt Ideal) → (⟨S170000x32, .f32⟩ : BufTy).Contents (Elt Ideal))) rfl (by decide) (by decide) (by decide)

theorem step_main_v92 : val m c main_v92 = (broadcastInDim S170000x1 ![0] bcast_S170000_S170000x1_0 : (⟨S170000, .f32⟩ : BufTy).Contents (Elt Ideal) → (⟨S170000x1, .f32⟩ : BufTy).Contents (Elt Ideal)) (val m c main_v29) :=
  read_unary ops_writes (val_def m c) 119 (a := main_v29) (y := main_v92) (f := (broadcastInDim S170000x1 ![0] bcast_S170000_S170000x1_0 : (⟨S170000, .f32⟩ : BufTy).Contents (Elt Ideal) → (⟨S170000x1, .f32⟩ : BufTy).Contents (Elt Ideal))) rfl (by decide) (by decide)

theorem step_main_v93 : val m c main_v93 = (broadcastInDim S170000x32 ![0, 1] bcast_S170000x1_S170000x32_0_1 : (⟨S170000x1, .f32⟩ : BufTy).Contents (Elt Ideal) → (⟨S170000x32, .f32⟩ : BufTy).Contents (Elt Ideal)) (val m c main_v92) :=
  read_unary ops_writes (val_def m c) 120 (a := main_v92) (y := main_v93) (f := (broadcastInDim S170000x32 ![0, 1] bcast_S170000x1_S170000x32_0_1 : (⟨S170000x1, .f32⟩ : BufTy).Contents (Elt Ideal) → (⟨S170000x32, .f32⟩ : BufTy).Contents (Elt Ideal))) rfl (by decide) (by decide)

theorem step_main_v94 : val m c main_v94 = (mulf (F := Ideal) (φ := .f32) : (⟨S170000x32, .f32⟩ : BufTy).Contents (Elt Ideal) → (⟨S170000x32, .f32⟩ : BufTy).Contents (Elt Ideal) → (⟨S170000x32, .f32⟩ : BufTy).Contents (Elt Ideal)) (val m c main_v91) (val m c main_v93) :=
  read_binary ops_writes (val_def m c) 121 (a := main_v91) (b := main_v93) (y := main_v94) (f := (mulf (F := Ideal) (φ := .f32) : (⟨S170000x32, .f32⟩ : BufTy).Contents (Elt Ideal) → (⟨S170000x32, .f32⟩ : BufTy).Contents (Elt Ideal) → (⟨S170000x32, .f32⟩ : BufTy).Contents (Elt Ideal))) rfl (by decide) (by decide) (by decide)

theorem step_main_cst_17 : val m c main_cst_17 = ((constant (F := Ideal) S_ .f32 0x00000000#32) : (⟨S_, .f32⟩ : BufTy).Contents (Elt Ideal)) :=
  read_nullary ops_writes (val_def m c) 122 (y := main_cst_17) (v₀ := ((constant (F := Ideal) S_ .f32 0x00000000#32) : (⟨S_, .f32⟩ : BufTy).Contents (Elt Ideal))) rfl (by decide)

theorem step_main_v95 : val m c main_v95 = (broadcastInDim S10000x32 ![] bcast_S_S10000x32 : (⟨S_, .f32⟩ : BufTy).Contents (Elt Ideal) → (⟨S10000x32, .f32⟩ : BufTy).Contents (Elt Ideal)) (val m c main_cst_17) :=
  read_unary ops_writes (val_def m c) 123 (a := main_cst_17) (y := main_v95) (f := (broadcastInDim S10000x32 ![] bcast_S_S10000x32 : (⟨S_, .f32⟩ : BufTy).Contents (Elt Ideal) → (⟨S10000x32, .f32⟩ : BufTy).Contents (Elt Ideal))) rfl (by decide) (by decide)

theorem step_main_v96 : val m c main_v96 = (broadcastInDim S170000x1 ![0] bcast_S170000_S170000x1_0 : (⟨S170000, .i32⟩ : BufTy).Contents (Elt Ideal) → (⟨S170000x1, .i32⟩ : BufTy).Contents (Elt Ideal)) (val m c main_v6) :=
  read_unary ops_writes (val_def m c) 124 (a := main_v6) (y := main_v96) (f := (broadcastInDim S170000x1 ![0] bcast_S170000_S170000x1_0 : (⟨S170000, .i32⟩ : BufTy).Contents (Elt Ideal) → (⟨S170000x1, .i32⟩ : BufTy).Contents (Elt Ideal))) rfl (by decide) (by decide)

theorem step_main_v97 : val m c main_v97 = ((fun x i u => Host.scatterAdd (F := Ideal) (φ := .f32) scatter_S10000x32_S170000x1_S170000x32_1_0_0_1 x i u) : (⟨S10000x32, .f32⟩ : BufTy).Contents (Elt Ideal) → (⟨S170000x1, .i32⟩ : BufTy).Contents (Elt Ideal) → (⟨S170000x32, .f32⟩ : BufTy).Contents (Elt Ideal) → (⟨S10000x32, .f32⟩ : BufTy).Contents (Elt Ideal)) (val m c main_v95) (val m c main_v96) (val m c main_v94) :=
  read_ternary ops_writes (val_def m c) 125 (c := main_v95) (a := main_v96) (b := main_v94) (y := main_v97) (f := ((fun x i u => Host.scatterAdd (F := Ideal) (φ := .f32) scatter_S10000x32_S170000x1_S170000x32_1_0_0_1 x i u) : (⟨S10000x32, .f32⟩ : BufTy).Contents (Elt Ideal) → (⟨S170000x1, .i32⟩ : BufTy).Contents (Elt Ideal) → (⟨S170000x32, .f32⟩ : BufTy).Contents (Elt Ideal) → (⟨S10000x32, .f32⟩ : BufTy).Contents (Elt Ideal))) rfl (by decide) (by decide) (by decide) (by decide)

theorem step_main_v98 : val m c main_v98 = (broadcastInDim S1x32 ![1] bcast_S32_S1x32_1 : (⟨S32, .f32⟩ : BufTy).Contents (Elt Ideal) → (⟨S1x32, .f32⟩ : BufTy).Contents (Elt Ideal)) (val m c main_arg9) :=
  read_unary ops_writes (val_def m c) 126 (a := main_arg9) (y := main_v98) (f := (broadcastInDim S1x32 ![1] bcast_S32_S1x32_1 : (⟨S32, .f32⟩ : BufTy).Contents (Elt Ideal) → (⟨S1x32, .f32⟩ : BufTy).Contents (Elt Ideal))) rfl (by decide) (by decide)

theorem step_main_v99 : val m c main_v99 = (broadcastInDim S10000x32 ![0, 1] bcast_S1x32_S10000x32_0_1 : (⟨S1x32, .f32⟩ : BufTy).Contents (Elt Ideal) → (⟨S10000x32, .f32⟩ : BufTy).Contents (Elt Ideal)) (val m c main_v98) :=
  read_unary ops_writes (val_def m c) 127 (a := main_v98) (y := main_v99) (f := (broadcastInDim S10000x32 ![0, 1] bcast_S1x32_S10000x32_0_1 : (⟨S1x32, .f32⟩ : BufTy).Contents (Elt Ideal) → (⟨S10000x32, .f32⟩ : BufTy).Contents (Elt Ideal))) rfl (by decide) (by decide)

theorem step_main_v100 : val m c main_v100 = (addf (F := Ideal) (φ := .f32) : (⟨S10000x32, .f32⟩ : BufTy).Contents (Elt Ideal) → (⟨S10000x32, .f32⟩ : BufTy).Contents (Elt Ideal) → (⟨S10000x32, .f32⟩ : BufTy).Contents (Elt Ideal)) (val m c main_v97) (val m c main_v99) :=
  read_binary ops_writes (val_def m c) 128 (a := main_v97) (b := main_v99) (y := main_v100) (f := (addf (F := Ideal) (φ := .f32) : (⟨S10000x32, .f32⟩ : BufTy).Contents (Elt Ideal) → (⟨S10000x32, .f32⟩ : BufTy).Contents (Elt Ideal) → (⟨S10000x32, .f32⟩ : BufTy).Contents (Elt Ideal))) rfl (by decide) (by decide) (by decide)

theorem step_main_call4_cst : val m c main_call4_cst = ((constant (F := Ideal) S_ .f32 0xFF800000#32) : (⟨S_, .f32⟩ : BufTy).Contents (Elt Ideal)) :=
  read_tnullary ops_writes (val_def m c) 129 (y := TRef.of (T := ⟨S_, .f32⟩) main_call4_cst) (v₀ := ((constant (F := Ideal) S_ .f32 0xFF800000#32) : (⟨S_, .f32⟩ : BufTy).Contents (Elt Ideal))) rfl (by decide)

theorem step_main_call4_v0 : val m c main_call4_v0 = (((fun x v => Host.reduce (FloatOps.maximumf (F := Ideal) (φ := .f32)) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal)) (val m c main_v100) (val m c main_call4_cst) :=
  read_tbinary ops_writes (val_def m c) 130 (a := TRef.of (T := ⟨S10000x32, .f32⟩) main_v100) (b := TRef.of (T := ⟨S_, .f32⟩) main_call4_cst) (y := TRef.of (T := ⟨S10000, .f32⟩) main_call4_v0) (f := (((fun x v => Host.reduce (FloatOps.maximumf (F := Ideal) (φ := .f32)) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal))) rfl (by decide) (by decide) (by decide)

theorem step_main_call4_cst_0 : val m c main_call4_cst_0 = ((constant (F := Ideal) S_ .f32 0xFF800000#32) : (⟨S_, .f32⟩ : BufTy).Contents (Elt Ideal)) :=
  read_tnullary ops_writes (val_def m c) 131 (y := TRef.of (T := ⟨S_, .f32⟩) main_call4_cst_0) (v₀ := ((constant (F := Ideal) S_ .f32 0xFF800000#32) : (⟨S_, .f32⟩ : BufTy).Contents (Elt Ideal))) rfl (by decide)

theorem step_main_call4_v1 : val m c main_call4_v1 = (((broadcastInDim S10000 ![] bcast_S_S10000)) : (⟨S_, .f32⟩ : BufTy).Contents (Elt Ideal) → (⟨S10000, .f32⟩ : BufTy).Contents (Elt Ideal)) (val m c main_call4_cst_0) :=
  read_tunary ops_writes (val_def m c) 132 (a := TRef.of (T := ⟨S_, .f32⟩) main_call4_cst_0) (y := TRef.of (T := ⟨S10000, .f32⟩) main_call4_v1) (f := (((broadcastInDim S10000 ![] bcast_S_S10000)) : (⟨S_, .f32⟩ : BufTy).Contents (Elt Ideal) → (⟨S10000, .f32⟩ : BufTy).Contents (Elt Ideal))) rfl (by decide) (by decide)

theorem step_main_call4_v2 : val m c main_call4_v2 = ((maximumf (F := Ideal) (φ := .f32)) : (⟨S10000, .f32⟩ : BufTy).Contents (Elt Ideal) → (⟨S10000, .f32⟩ : BufTy).Contents (Elt Ideal) → (⟨S10000, .f32⟩ : BufTy).Contents (Elt Ideal)) (val m c main_call4_v1) (val m c main_call4_v0) :=
  read_tbinary ops_writes (val_def m c) 133 (a := TRef.of (T := ⟨S10000, .f32⟩) main_call4_v1) (b := TRef.of (T := ⟨S10000, .f32⟩) main_call4_v0) (y := TRef.of (T := ⟨S10000, .f32⟩) main_call4_v2) (f := ((maximumf (F := Ideal) (φ := .f32)) : (⟨S10000, .f32⟩ : BufTy).Contents (Elt Ideal) → (⟨S10000, .f32⟩ : BufTy).Contents (Elt Ideal) → (⟨S10000, .f32⟩ : BufTy).Contents (Elt Ideal))) rfl (by decide) (by decide) (by decide)

theorem step_main_call4_v3 : val m c main_call4_v3 = (((broadcastInDim S10000x1 ![0] bcast_S10000_S10000x1_0)) : (⟨S10000, .f32⟩ : BufTy).Contents (Elt Ideal) → (⟨S10000x1, .f32⟩ : BufTy).Contents (Elt Ideal)) (val m c main_call4_v2) :=
  read_tunary ops_writes (val_def m c) 134 (a := TRef.of (T := ⟨S10000, .f32⟩) main_call4_v2) (y := TRef.of (T := ⟨S10000x1, .f32⟩) main_call4_v3) (f := (((broadcastInDim S10000x1 ![0] bcast_S10000_S10000x1_0)) : (⟨S10000, .f32⟩ : BufTy).Contents (Elt Ideal) → (⟨S10000x1, .f32⟩ : BufTy).Contents (Elt Ideal))) rfl (by decide) (by decide)

theorem step_main_call4_v4 : val m c main_call4_v4 = (((broadcastInDim S10000x32 ![0, 1] bcast_S10000x1_S10000x32_0_1)) : (⟨S10000x1, .f32⟩ : BufTy).Contents (Elt Ideal) → (⟨S10000x32, .f32⟩ : BufTy).Contents (Elt Ideal)) (val m c main_call4_v3) :=
  read_tunary ops_writes (val_def m c) 135 (a := TRef.of (T := ⟨S10000x1, .f32⟩) main_call4_v3) (y := TRef.of (T := ⟨S10000x32, .f32⟩) main_call4_v4) (f := (((broadcastInDim S10000x32 ![0, 1] bcast_S10000x1_S10000x32_0_1)) : (⟨S10000x1, .f32⟩ : BufTy).Contents (Elt Ideal) → (⟨S10000x32, .f32⟩ : BufTy).Contents (Elt Ideal))) rfl (by decide) (by decide)

theorem step_main_call4_v5 : val m c main_call4_v5 = ((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal)) (val m c main_v100) (val m c main_call4_v4) :=
  read_tbinary ops_writes (val_def m c) 136 (a := TRef.of (T := ⟨S10000x32, .f32⟩) main_v100) (b := TRef.of (T := ⟨S10000x32, .f32⟩) main_call4_v4) (y := TRef.of (T := ⟨S10000x32, .f32⟩) main_call4_v5) (f := ((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal))) rfl (by decide) (by decide) (by decide)

theorem step_main_call4_v6 : val m c main_call4_v6 = ((Host.exp (F := Ideal) (φ := .f32)) : (⟨S10000x32, .f32⟩ : BufTy).Contents (Elt Ideal) → (⟨S10000x32, .f32⟩ : BufTy).Contents (Elt Ideal)) (val m c main_call4_v5) :=
  read_tunary ops_writes (val_def m c) 137 (a := TRef.of (T := ⟨S10000x32, .f32⟩) main_call4_v5) (y := TRef.of (T := ⟨S10000x32, .f32⟩) main_call4_v6) (f := ((Host.exp (F := Ideal) (φ := .f32)) : (⟨S10000x32, .f32⟩ : BufTy).Contents (Elt Ideal) → (⟨S10000x32, .f32⟩ : BufTy).Contents (Elt Ideal))) rfl (by decide) (by decide)

theorem step_main_call4_cst_1 : val m c main_call4_cst_1 = ((constant (F := Ideal) S_ .f32 0x00000000#32) : (⟨S_, .f32⟩ : BufTy).Contents (Elt Ideal)) :=
  read_tnullary ops_writes (val_def m c) 138 (y := TRef.of (T := ⟨S_, .f32⟩) main_call4_cst_1) (v₀ := ((constant (F := Ideal) S_ .f32 0x00000000#32) : (⟨S_, .f32⟩ : BufTy).Contents (Elt Ideal))) rfl (by decide)

theorem step_main_call4_v7 : val m c main_call4_v7 = (((fun x v => Host.reduceAdd (F := Ideal) (φ := .f32) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal)) (val m c main_call4_v6) (val m c main_call4_cst_1) :=
  read_tbinary ops_writes (val_def m c) 139 (a := TRef.of (T := ⟨S10000x32, .f32⟩) main_call4_v6) (b := TRef.of (T := ⟨S_, .f32⟩) main_call4_cst_1) (y := TRef.of (T := ⟨S10000, .f32⟩) main_call4_v7) (f := (((fun x v => Host.reduceAdd (F := Ideal) (φ := .f32) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal))) rfl (by decide) (by decide) (by decide)

theorem step_main_call4_v8 : val m c main_call4_v8 = (((broadcastInDim S10000x1 ![0] bcast_S10000_S10000x1_0)) : (⟨S10000, .f32⟩ : BufTy).Contents (Elt Ideal) → (⟨S10000x1, .f32⟩ : BufTy).Contents (Elt Ideal)) (val m c main_call4_v7) :=
  read_tunary ops_writes (val_def m c) 140 (a := TRef.of (T := ⟨S10000, .f32⟩) main_call4_v7) (y := TRef.of (T := ⟨S10000x1, .f32⟩) main_call4_v8) (f := (((broadcastInDim S10000x1 ![0] bcast_S10000_S10000x1_0)) : (⟨S10000, .f32⟩ : BufTy).Contents (Elt Ideal) → (⟨S10000x1, .f32⟩ : BufTy).Contents (Elt Ideal))) rfl (by decide) (by decide)

theorem step_main_call4_v9 : val m c main_call4_v9 = ((Host.log (F := Ideal) (φ := .f32)) : (⟨S10000x1, .f32⟩ : BufTy).Contents (Elt Ideal) → (⟨S10000x1, .f32⟩ : BufTy).Contents (Elt Ideal)) (val m c main_call4_v8) :=
  read_tunary ops_writes (val_def m c) 141 (a := TRef.of (T := ⟨S10000x1, .f32⟩) main_call4_v8) (y := TRef.of (T := ⟨S10000x1, .f32⟩) main_call4_v9) (f := ((Host.log (F := Ideal) (φ := .f32)) : (⟨S10000x1, .f32⟩ : BufTy).Contents (Elt Ideal) → (⟨S10000x1, .f32⟩ : BufTy).Contents (Elt Ideal))) rfl (by decide) (by decide)

theorem step_main_call4_v10 : val m c main_call4_v10 = (((broadcastInDim S10000x32 ![0, 1] bcast_S10000x1_S10000x32_0_1)) : (⟨S10000x1, .f32⟩ : BufTy).Contents (Elt Ideal) → (⟨S10000x32, .f32⟩ : BufTy).Contents (Elt Ideal)) (val m c main_call4_v9) :=
  read_tunary ops_writes (val_def m c) 142 (a := TRef.of (T := ⟨S10000x1, .f32⟩) main_call4_v9) (y := TRef.of (T := ⟨S10000x32, .f32⟩) main_call4_v10) (f := (((broadcastInDim S10000x32 ![0, 1] bcast_S10000x1_S10000x32_0_1)) : (⟨S10000x1, .f32⟩ : BufTy).Contents (Elt Ideal) → (⟨S10000x32, .f32⟩ : BufTy).Contents (Elt Ideal))) rfl (by decide) (by decide)

theorem step_main_v101 : val m c main_v101 = ((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal)) (val m c main_call4_v5) (val m c main_call4_v10) :=
  read_tbinary ops_writes (val_def m c) 143 (a := TRef.of (T := ⟨S10000x32, .f32⟩) main_call4_v5) (b := TRef.of (T := ⟨S10000x32, .f32⟩) main_call4_v10) (y := TRef.of (T := ⟨S10000x32, .f32⟩) main_v101) (f := ((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal))) rfl (by decide) (by decide) (by decide)

/-! ## The normalized sources

A source index is normalized as a gather normalizes it: a negative one has the row count added. The program does this
once per use; the five buffers hold the same function of the concatenated sources. -/

/-- `select (x < 0) (x + 10000) x` on the 170000 source indices. -/
def normSrc (x : (⟨S170000, .i32⟩ : BufTy).Contents (Elt Ideal)) : (⟨S170000, .i32⟩ : BufTy).Contents (Elt Ideal) :=
  select (cmpi .slt x (broadcastInDim S170000 ![] bcast_S_S170000 (constantI S_ 32 0#32)))
    (addi x (broadcastInDim S170000 ![] bcast_S_S170000 (constantI S_ 32 10000#32))) x

theorem main_v19_eq : val m c main_v19 = normSrc (val m c main_v3) := by
  rw [step_main_v19, step_main_v18, step_main_v17, step_main_c_3, step_main_v16, step_main_v15, step_main_c]
  rfl

theorem main_v35_eq : val m c main_v35 = normSrc (val m c main_v3) := by
  rw [step_main_v35, step_main_v34, step_main_v33, step_main_c_7, step_main_v32, step_main_v31, step_main_c_6]
  rfl

theorem main_v53_eq : val m c main_v53 = normSrc (val m c main_v3) := by
  rw [step_main_v53, step_main_v52, step_main_v51, step_main_c_10, step_main_v50, step_main_v49, step_main_c_9]
  rfl

theorem main_v71_eq : val m c main_v71 = normSrc (val m c main_v3) := by
  rw [step_main_v71, step_main_v70, step_main_v69, step_main_c_13, step_main_v68, step_main_v67, step_main_c_12]
  rfl

theorem main_v89_eq : val m c main_v89 = normSrc (val m c main_v3) := by
  rw [step_main_v89, step_main_v88, step_main_v87, step_main_c_16, step_main_v86, step_main_v85, step_main_c_15]
  rfl

theorem main_v35_eq_v19 : val m c main_v35 = val m c main_v19 := (main_v35_eq m c).trans (main_v19_eq m c).symm
theorem main_v53_eq_v19 : val m c main_v53 = val m c main_v19 := (main_v53_eq m c).trans (main_v19_eq m c).symm
theorem main_v71_eq_v19 : val m c main_v71 = val m c main_v19 := (main_v71_eq m c).trans (main_v19_eq m c).symm
theorem main_v89_eq_v19 : val m c main_v89 = val m c main_v19 := (main_v89_eq m c).trans (main_v19_eq m c).symm

/-! ## One aggregation, read at an index

The chain a layer runs after its product `h`: the rows of `h` gathered at the (normalized) sources, each scaled by its
edge's weight, scatter-added by destination into zeros, plus the bias. Stated once over the column count. -/

section Agg

open Cert.Lib.HostIndex ValueIdx

/-- A vector made a column, read at `(e, 0)`. -/
theorem col_apply {α : Type} (bcol : (⟨1, ![170000]⟩ : Shape).BroadcastsInDim ⟨2, ![170000, 1]⟩ (![0] : Fin 1 → Fin 2))
    (x : (⟨1, ![170000]⟩ : Shape).Idx → α) (e : Fin 170000) (z : Fin 1) :
    broadcastInDim ⟨2, ![170000, 1]⟩ (![0] : Fin 1 → Fin 2) bcol x (ix2 e z) = x (ix1 e) :=
  broadcastInDim_apply _ bcol x (ix2 e z) (ix1 e) (fun a => match a with
    | ⟨0, _⟩ => by show e.val = if (170000 : Nat) = 1 then 0 else e.val; rw [if_neg (by decide)])

variable {C : ℕ}

/-- The zeros a scatter-add accumulates into, and a maximum is taken with: a splat of the zero word. -/
theorem zeros_apply {C : ℕ} (bz : (⟨0, ![]⟩ : Shape).BroadcastsInDim ⟨2, ![10000, C]⟩ (![] : Fin 0 → Fin 2)) (i : Fin 10000) (c : Fin C) :
    broadcastInDim ⟨2, ![10000, C]⟩ (![] : Fin 0 → Fin 2) bz (constant (F := Ideal) ⟨0, ![]⟩ .f32 0x00000000#32) (ix2 i c) = 0 := by
  rw [broadcastInDim_apply _ bz _ (ix2 i c) ix0 (fun a => a.elim0), constant_apply]
  exact Ideal.ofBits_zero_f32

/-- A column repeated along the rows, read at `(e, c)`. -/
theorem rep_apply {α : Type} (brow : (⟨2, ![170000, 1]⟩ : Shape).BroadcastsInDim ⟨2, ![170000, C]⟩ (![0, 1] : Fin 2 → Fin 2))
    (x : (⟨2, ![170000, 1]⟩ : Shape).Idx → α) (e : Fin 170000) (c : Fin C) :
    broadcastInDim ⟨2, ![170000, C]⟩ (![0, 1] : Fin 2 → Fin 2) brow x (ix2 e c) = x (ix2 e 0) :=
  broadcastInDim_apply _ brow x (ix2 e c) (ix2 e 0) (fun a => match a with
    | ⟨0, _⟩ => by show e.val = if (170000 : Nat) = 1 then 0 else e.val; rw [if_neg (by decide)]
    | ⟨1, _⟩ => by show 0 = if (1 : Nat) = 1 then 0 else c.val; rw [if_pos rfl])

/-- The bias made a row and repeated down the columns, read at `(i, c)`. -/
theorem bias_apply {α : Type} (bb1 : (⟨1, ![C]⟩ : Shape).BroadcastsInDim ⟨2, ![1, C]⟩ (![1] : Fin 1 → Fin 2))
    (bb2 : (⟨2, ![1, C]⟩ : Shape).BroadcastsInDim ⟨2, ![10000, C]⟩ (![0, 1] : Fin 2 → Fin 2))
    (b : (⟨1, ![C]⟩ : Shape).Idx → α) (i : Fin 10000) (c : Fin C) :
    broadcastInDim ⟨2, ![10000, C]⟩ (![0, 1] : Fin 2 → Fin 2) bb2
        (broadcastInDim ⟨2, ![1, C]⟩ (![1] : Fin 1 → Fin 2) bb1 b) (ix2 i c) = b (ix1 c) := by
  rw [broadcastInDim_apply _ bb2 _ (ix2 i c) (ix2 0 c) (fun a => match a with
    | ⟨0, _⟩ => by show 0 = if (1 : Nat) = 1 then 0 else i.val; rw [if_pos rfl]
    | ⟨1, _⟩ => by
      show c.val = if C = 1 then 0 else c.val
      split
      · have := c.isLt; omega
      · rfl)]
  exact broadcastInDim_apply _ bb1 b (ix2 0 c) (ix1 c) (fun a => match a with
    | ⟨0, _⟩ => by
      show c.val = if C = 1 then 0 else c.val
      split
      · have := c.isLt; omega
      · rfl)

theorem agg_apply
    (wfg : GatherDims.WF ⟨2, ![10000, C]⟩ ⟨2, ![170000, 1]⟩ ⟨2, ![170000, C]⟩ [1] [0] [] [0] [] 1 ![1, C])
    (wfs : ScatterDims.WF ⟨2, ![10000, C]⟩ ⟨2, ![170000, 1]⟩ ⟨2, ![170000, C]⟩ [1] [0] [0] 1)
    (bcol : (⟨1, ![170000]⟩ : Shape).BroadcastsInDim ⟨2, ![170000, 1]⟩ (![0] : Fin 1 → Fin 2))
    (brow : (⟨2, ![170000, 1]⟩ : Shape).BroadcastsInDim ⟨2, ![170000, C]⟩ (![0, 1] : Fin 2 → Fin 2))
    (bz : (⟨0, ![]⟩ : Shape).BroadcastsInDim ⟨2, ![10000, C]⟩ (![] : Fin 0 → Fin 2))
    (bb1 : (⟨1, ![C]⟩ : Shape).BroadcastsInDim ⟨2, ![1, C]⟩ (![1] : Fin 1 → Fin 2))
    (bb2 : (⟨2, ![1, C]⟩ : Shape).BroadcastsInDim ⟨2, ![10000, C]⟩ (![0, 1] : Fin 2 → Fin 2))
    (h : (⟨2, ![10000, C]⟩ : Shape).Idx → EReal) (srcN dstW : IVec ⟨1, ![170000]⟩ 32)
    (nrm : (⟨1, ![170000]⟩ : Shape).Idx → EReal) (b : (⟨1, ![C]⟩ : Shape).Idx → EReal) (i : Fin 10000) (c : Fin C) :
    addf (F := Ideal) (φ := .f32)
        (Host.scatterAdd (F := Ideal) (φ := .f32) (rowScatterDims 10000 170000 C wfs)
          (broadcastInDim ⟨2, ![10000, C]⟩ (![] : Fin 0 → Fin 2) bz (constant (F := Ideal) ⟨0, ![]⟩ .f32 0x00000000#32))
          (broadcastInDim ⟨2, ![170000, 1]⟩ (![0] : Fin 1 → Fin 2) bcol dstW)
          (mulf (F := Ideal) (φ := .f32)
            (Host.gather (rowGatherDims 10000 170000 C wfg) h (broadcastInDim ⟨2, ![170000, 1]⟩ (![0] : Fin 1 → Fin 2) bcol srcN))
            (broadcastInDim ⟨2, ![170000, C]⟩ (![0, 1] : Fin 2 → Fin 2) brow
              (broadcastInDim ⟨2, ![170000, 1]⟩ (![0] : Fin 1 → Fin 2) bcol nrm))))
        (broadcastInDim ⟨2, ![10000, C]⟩ (![0, 1] : Fin 2 → Fin 2) bb2 (broadcastInDim ⟨2, ![1, C]⟩ (![1] : Fin 1 → Fin 2) bb1 b))
        (ix2 i c)
      = (0 + ∑ e ∈ Finset.univ.filter (fun e : Fin 170000 => (dstW (ix1 e)).toInt = (i.val : Int)),
            h (ix2 ⟨min (srcN (ix1 e)).toInt.toNat 9999, by omega⟩ c) * nrm (ix1 e)) + b (ix1 c) := by
  rw [addf_apply, bias_apply]
  refine congrArg (fun t => t + b (ix1 c)) ?_
  show Ideal.hostScatterAdd (rowScatterDims 10000 170000 C wfs) _ _ _ (ix2 i c) = _
  rw [scatterAdd_rows_apply]
  refine congrArg₂ (fun s t => s + t) ?_ ?_
  · exact zeros_apply bz i c
  · simp only [col_apply]
    refine Finset.sum_congr rfl fun e _ => ?_
    rw [mulf_apply, gather_rows_apply (by decide) wfg]
    simp only [col_apply, rep_apply]

end Agg

/-! ## The buffers the layers are stated over, at their types

Each is `val` at one buffer (`rfl`), typed as the function on indices it is. -/

abbrev Mat (n k : ℕ) : Type := (⟨2, ![n, k]⟩ : Shape).Idx → EReal
abbrev Vct (n : ℕ) : Type := (⟨1, ![n]⟩ : Shape).Idx → EReal

/-- The node features (argument 0), the four weight matrices and the four biases. -/
def x0 : Mat 10000 128 := val m c main_arg0
def w1 : Mat 128 512 := val m c main_arg2
def b1 : Vct 512 := val m c main_arg3
def w2 : Mat 512 1024 := val m c main_arg4
def b2 : Vct 1024 := val m c main_arg5
def w3 : Mat 1024 512 := val m c main_arg6
def b3 : Vct 512 := val m c main_arg7
def w4 : Mat 512 32 := val m c main_arg8
def b4 : Vct 32 := val m c main_arg9
/-- The destinations (%6), the normalized sources (%19) and the edge weights (%29) of the 170000 edges. -/
def dstW : IVec ⟨1, ![170000]⟩ 32 := val m c main_v6
def srcN : IVec ⟨1, ![170000]⟩ 32 := val m c main_v19
def nrm : Vct 170000 := val m c main_v29
/-- Each layer's product (%30, %48, %66, %84) and output (%47, %65, %83, %100). -/
def h1 : Mat 10000 512 := val m c main_v30
def out1 : Mat 10000 512 := val m c main_v47
def h2 : Mat 10000 1024 := val m c main_v48
def out2 : Mat 10000 1024 := val m c main_v65
def h3 : Mat 10000 512 := val m c main_v66
def out3 : Mat 10000 512 := val m c main_v83
def h4 : Mat 10000 32 := val m c main_v84
def out4 : Mat 10000 32 := val m c main_v100

/-! ## The layers -/

open ValueIdx

/-! ### Layer 1 -/

/-- The layer's product, at an index. -/
theorem h1_apply (j : Fin 10000) (c' : Fin 512) :
    h1 m c (ix2 j c') = ∑ k : Fin 128, x0 m c (ix2 j k) * w1 m c (ix2 k c') := by
  unfold h1 x0 w1
  rw [step_main_v30]
  exact Cert.Lib.PlainDot.dotGeneral_apply 10000 128 512 none .single (val m c main_arg0) (val m c main_arg2) (ix2 j c')

/-- The layer's output, at an index: the aggregation plus the bias, and the maximum with zero. -/
theorem out1_apply (i : Fin 10000) (c' : Fin 512) :
    out1 m c (ix2 i c')
      = max ((0 + ∑ e ∈ Finset.univ.filter (fun e : Fin 170000 => (dstW m c (ix1 e)).toInt = (i.val : Int)),
          h1 m c (ix2 (⟨min (srcN m c (ix1 e)).toInt.toNat 9999, by omega⟩ : Fin 10000) c') * nrm m c (ix1 e))
        + b1 m c (ix1 c')) 0 := by
  unfold out1 h1 dstW srcN nrm b1
  rw [step_main_v47, maximumf_apply, step_main_call1_v0, step_main_call1_cst, step_main_v46, step_main_v45, step_main_v44, step_main_v43, step_main_v42, step_main_v41, step_main_cst_8, step_main_v40,
    step_main_v39, step_main_v38, step_main_v37, step_main_v36, main_v35_eq_v19]
  exact congrArg₂ max (agg_apply (C := 512) gather_S10000x512_S170000x1_S170000x512_1_0_n_n_0_1_1512_wf scatter_S10000x512_S170000x1_S170000x512_1_0_0_1_wf
    bcast_S170000_S170000x1_0 bcast_S170000x1_S170000x512_0_1 bcast_S_S10000x512 bcast_S512_S1x512_1 bcast_S1x512_S10000x512_0_1
    (val m c main_v30) (val m c main_v19) (val m c main_v6) (val m c main_v29) (val m c main_arg3) i c') (zeros_apply bcast_S_S10000x512 i c')

/-! ### Layer 2 -/

/-- The layer's product, at an index. -/
theorem h2_apply (j : Fin 10000) (c' : Fin 1024) :
    h2 m c (ix2 j c') = ∑ k : Fin 512, out1 m c (ix2 j k) * w2 m c (ix2 k c') := by
  unfold h2 out1 w2
  rw [step_main_v48]
  exact Cert.Lib.PlainDot.dotGeneral_apply 10000 512 1024 none .single (val m c main_v47) (val m c main_arg4) (ix2 j c')

/-- The layer's output, at an index: the aggregation plus the bias, and the maximum with zero. -/
theorem out2_apply (i : Fin 10000) (c' : Fin 1024) :
    out2 m c (ix2 i c')
      = max ((0 + ∑ e ∈ Finset.univ.filter (fun e : Fin 170000 => (dstW m c (ix1 e)).toInt = (i.val : Int)),
          h2 m c (ix2 (⟨min (srcN m c (ix1 e)).toInt.toNat 9999, by omega⟩ : Fin 10000) c') * nrm m c (ix1 e))
        + b2 m c (ix1 c')) 0 := by
  unfold out2 h2 dstW srcN nrm b2
  rw [step_main_v65, maximumf_apply, step_main_call2_v0, step_main_call2_cst, step_main_v64, step_main_v63, step_main_v62, step_main_v61, step_main_v60, step_main_v59, step_main_cst_11, step_main_v58,
    step_main_v57, step_main_v56, step_main_v55, step_main_v54, main_v53_eq_v19]
  exact congrArg₂ max (agg_apply (C := 1024) gather_S10000x1024_S170000x1_S170000x1024_1_0_n_n_0_1_11024_wf scatter_S10000x1024_S170000x1_S170000x1024_1_0_0_1_wf
    bcast_S170000_S170000x1_0 bcast_S170000x1_S170000x1024_0_1 bcast_S_S10000x1024 bcast_S1024_S1x1024_1 bcast_S1x1024_S10000x1024_0_1
    (val m c main_v48) (val m c main_v19) (val m c main_v6) (val m c main_v29) (val m c main_arg5) i c') (zeros_apply bcast_S_S10000x1024 i c')

/-! ### Layer 3 -/

/-- The layer's product, at an index. -/
theorem h3_apply (j : Fin 10000) (c' : Fin 512) :
    h3 m c (ix2 j c') = ∑ k : Fin 1024, out2 m c (ix2 j k) * w3 m c (ix2 k c') := by
  unfold h3 out2 w3
  rw [step_main_v66]
  exact Cert.Lib.PlainDot.dotGeneral_apply 10000 1024 512 none .single (val m c main_v65) (val m c main_arg6) (ix2 j c')

/-- The layer's output, at an index: the aggregation plus the bias, and the maximum with zero. -/
theorem out3_apply (i : Fin 10000) (c' : Fin 512) :
    out3 m c (ix2 i c')
      = max ((0 + ∑ e ∈ Finset.univ.filter (fun e : Fin 170000 => (dstW m c (ix1 e)).toInt = (i.val : Int)),
          h3 m c (ix2 (⟨min (srcN m c (ix1 e)).toInt.toNat 9999, by omega⟩ : Fin 10000) c') * nrm m c (ix1 e))
        + b3 m c (ix1 c')) 0 := by
  unfold out3 h3 dstW srcN nrm b3
  rw [step_main_v83, maximumf_apply, step_main_call3_v0, step_main_call3_cst, step_main_v82, step_main_v81, step_main_v80, step_main_v79, step_main_v78, step_main_v77, step_main_cst_14, step_main_v76,
    step_main_v75, step_main_v74, step_main_v73, step_main_v72, main_v71_eq_v19]
  exact congrArg₂ max (agg_apply (C := 512) gather_S10000x512_S170000x1_S170000x512_1_0_n_n_0_1_1512_wf scatter_S10000x512_S170000x1_S170000x512_1_0_0_1_wf
    bcast_S170000_S170000x1_0 bcast_S170000x1_S170000x512_0_1 bcast_S_S10000x512 bcast_S512_S1x512_1 bcast_S1x512_S10000x512_0_1
    (val m c main_v66) (val m c main_v19) (val m c main_v6) (val m c main_v29) (val m c main_arg7) i c') (zeros_apply bcast_S_S10000x512 i c')

/-! ### Layer 4 -/

/-- The layer's product, at an index. -/
theorem h4_apply (j : Fin 10000) (c' : Fin 32) :
    h4 m c (ix2 j c') = ∑ k : Fin 512, out3 m c (ix2 j k) * w4 m c (ix2 k c') := by
  unfold h4 out3 w4
  rw [step_main_v84]
  exact Cert.Lib.PlainDot.dotGeneral_apply 10000 512 32 none .single (val m c main_v83) (val m c main_arg8) (ix2 j c')

/-- The layer's output, at an index: the aggregation plus the bias (no maximum on the last layer). -/
theorem out4_apply (i : Fin 10000) (c' : Fin 32) :
    out4 m c (ix2 i c')
      = (0 + ∑ e ∈ Finset.univ.filter (fun e : Fin 170000 => (dstW m c (ix1 e)).toInt = (i.val : Int)),
          h4 m c (ix2 (⟨min (srcN m c (ix1 e)).toInt.toNat 9999, by omega⟩ : Fin 10000) c') * nrm m c (ix1 e))
        + b4 m c (ix1 c') := by
  unfold out4 h4 dstW srcN nrm b4
  rw [step_main_v100, step_main_v99, step_main_v98, step_main_v97, step_main_v96, step_main_v95, step_main_cst_17, step_main_v94,
    step_main_v93, step_main_v92, step_main_v91, step_main_v90, main_v89_eq_v19]
  exact agg_apply (C := 32) gather_S10000x32_S170000x1_S170000x32_1_0_n_n_0_1_132_wf scatter_S10000x32_S170000x1_S170000x32_1_0_0_1_wf
    bcast_S170000_S170000x1_0 bcast_S170000x1_S170000x32_0_1 bcast_S_S10000x32 bcast_S32_S1x32_1 bcast_S1x32_S10000x32_0_1
    (val m c main_v84) (val m c main_v19) (val m c main_v6) (val m c main_v29) (val m c main_arg9) i c'

/-! ## The log-softmax

The last fifteen operations: the row maximum, the shifted rows, their exponentials' row sums, the logarithm, and the
difference. Kept as one function of the last layer's output. -/

/-- The row-wise log-softmax as the reference computes it. -/
def LS (x : (⟨S10000x32, .f32⟩ : BufTy).Contents (Elt Ideal)) : (⟨S10000x32, .f32⟩ : BufTy).Contents (Elt Ideal) :=
  (((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal)) (((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal)) x ((((broadcastInDim S10000x32 ![0, 1] bcast_S10000x1_S10000x32_0_1)) : (⟨S10000x1, .f32⟩ : BufTy).Contents (Elt Ideal) → (⟨S10000x32, .f32⟩ : BufTy).Contents (Elt Ideal)) ((((broadcastInDim S10000x1 ![0] bcast_S10000_S10000x1_0)) : (⟨S10000, .f32⟩ : BufTy).Contents (Elt Ideal) → (⟨S10000x1, .f32⟩ : BufTy).Contents (Elt Ideal)) (((maximumf (F := Ideal) (φ := .f32)) : (⟨S10000, .f32⟩ : BufTy).Contents (Elt Ideal) → (⟨S10000, .f32⟩ : BufTy).Contents (Elt Ideal) → (⟨S10000, .f32⟩ : BufTy).Contents (Elt Ideal)) ((((broadcastInDim S10000 ![] bcast_S_S10000)) : (⟨S_, .f32⟩ : BufTy).Contents (Elt Ideal) → (⟨S10000, .f32⟩ : BufTy).Contents (Elt Ideal)) ((constant (F := Ideal) S_ .f32 0xFF800000#32) : (⟨S_, .f32⟩ : BufTy).Contents (Elt Ideal))) ((((fun x v => Host.reduce (FloatOps.maximumf (F := Ideal) (φ := .f32)) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal)) x ((constant (F := Ideal) S_ .f32 0xFF800000#32) : (⟨S_, .f32⟩ : BufTy).Contents (Elt Ideal))))))) ((((broadcastInDim S10000x32 ![0, 1] bcast_S10000x1_S10000x32_0_1)) : (⟨S10000x1, .f32⟩ : BufTy).Contents (Elt Ideal) → (⟨S10000x32, .f32⟩ : BufTy).Contents (Elt Ideal)) (((Host.log (F := Ideal) (φ := .f32)) : (⟨S10000x1, .f32⟩ : BufTy).Contents (Elt Ideal) → (⟨S10000x1, .f32⟩ : BufTy).Contents (Elt Ideal)) ((((broadcastInDim S10000x1 ![0] bcast_S10000_S10000x1_0)) : (⟨S10000, .f32⟩ : BufTy).Contents (Elt Ideal) → (⟨S10000x1, .f32⟩ : BufTy).Contents (Elt Ideal)) ((((fun x v => Host.reduceAdd (F := Ideal) (φ := .f32) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal)) (((Host.exp (F := Ideal) (φ := .f32)) : (⟨S10000x32, .f32⟩ : BufTy).Contents (Elt Ideal) → (⟨S10000x32, .f32⟩ : BufTy).Contents (Elt Ideal)) (((subf (F := Ideal) (φ := .f32)) : (⟨S10000x32, .f32⟩ : BufTy).Contents (Elt Ideal) → (⟨S10000x32, .f32⟩ : BufTy).Contents (Elt Ideal) → (⟨S10000x32, .f32⟩ : BufTy).Contents (Elt Ideal)) x ((((broadcastInDim S10000x32 ![0, 1] bcast_S10000x1_S10000x32_0_1)) : (⟨S10000x1, .f32⟩ : BufTy).Contents (Elt Ideal) → (⟨S10000x32, .f32⟩ : BufTy).Contents (Elt Ideal)) ((((broadcastInDim S10000x1 ![0] bcast_S10000_S10000x1_0)) : (⟨S10000, .f32⟩ : BufTy).Contents (Elt Ideal) → (⟨S10000x1, .f32⟩ : BufTy).Contents (Elt Ideal)) (((maximumf (F := Ideal) (φ := .f32)) : (⟨S10000, .f32⟩ : BufTy).Contents (Elt Ideal) → (⟨S10000, .f32⟩ : BufTy).Contents (Elt Ideal) → (⟨S10000, .f32⟩ : BufTy).Contents (Elt Ideal)) ((((broadcastInDim S10000 ![] bcast_S_S10000)) : (⟨S_, .f32⟩ : BufTy).Contents (Elt Ideal) → (⟨S10000, .f32⟩ : BufTy).Contents (Elt Ideal)) ((constant (F := Ideal) S_ .f32 0xFF800000#32) : (⟨S_, .f32⟩ : BufTy).Contents (Elt Ideal))) ((((fun x v => Host.reduce (FloatOps.maximumf (F := Ideal) (φ := .f32)) x v reducesTo_S10000x32_S10000_d1 h_S_)) : (⟨S10000x32, .f32⟩ : BufTy).Contents (Elt Ideal) → (⟨S_, .f32⟩ : BufTy).Contents (Elt Ideal) → (⟨S10000, .f32⟩ : BufTy).Contents (Elt Ideal)) x ((constant (F := Ideal) S_ .f32 0xFF800000#32) : (⟨S_, .f32⟩ : BufTy).Contents (Elt Ideal)))))))) ((constant (F := Ideal) S_ .f32 0x00000000#32) : (⟨S_, .f32⟩ : BufTy).Contents (Elt Ideal)))))))

/-- The result buffer is the log-softmax of the last layer's output. -/
theorem result_eq : val m c main_v101 = LS (out4 m c) := by
  unfold out4
  rw [step_main_v101, step_main_call4_v10, step_main_call4_v9, step_main_call4_v8, step_main_call4_v7, step_main_call4_cst_1, step_main_call4_v6, step_main_call4_v5, step_main_call4_v4, step_main_call4_v3, step_main_call4_v2, step_main_call4_v1, step_main_call4_cst_0, step_main_call4_v0, step_main_call4_cst]
  rfl

end Cert.ReferenceIdeal.RefValue

end
-- ==== Proof.LibDenseAdjacencyE.lean ====
/-
  A dense adjacency matrix against edge-wise message passing, on the extended reals, for NONNEGATIVE weights.

  A graph convolution can aggregate in two ways. Edge by edge: the value at node `i` is the sum, over the edges
  `e` that end at `i`, of the source node's feature `h (src e)` scaled by the edge weight `w e`. Or through a dense
  matrix: first add every edge's weight into the cell `(dst e, src e)` of a matrix `A`, then multiply row `i` of
  `A` with the feature column. The two agree once the common factor `h j` can be pulled out of the group of edges
  whose source is `j`. On the extended reals multiplication does not distribute over addition in general (a sum may
  cancel an infinity that the separate products keep), but it does over a sum of NONNEGATIVE terms, whatever the
  factor: `(a + b) * c = a * c + b * c` for `0 ≤ a`, `0 ≤ b`. So for nonnegative weights the identity holds with no
  finiteness assumed anywhere: the weights and the features may be infinite, and the features may have any sign.

  Nothing here depends on a program: the edge set, the node set and the maps are abstract finite data, and the
  predicate `P` selects the edges of one row (in the use above, `P e` is "`e` ends at node `i`").
-/
import Mathlib.Data.EReal.Operations
import Mathlib.Algebra.BigOperators.Group.Finset.Basic
import Mathlib.Algebra.BigOperators.Group.Finset.Sigma
import Mathlib.Algebra.BigOperators.Ring.Finset
import Mathlib.Algebra.Order.BigOperators.Group.Finset

namespace Cert.Lib.DenseAdjacencyE

open Finset

/-- Multiplication by any extended real distributes over a finite sum of NONNEGATIVE terms: by induction on the
    index set, each step the two-term law for nonnegative summands. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

variable {E N : Type*} [Fintype E] [Fintype N] [DecidableEq N]

/-- THE DENSE ROW AGAINST THE EDGE-WISE SUM, for nonnegative weights: the row of the dense matrix, cell `j` holding
    the summed weights of the selected edges whose source is `j`, times the feature column, is the edge-wise sum of
    weighted source features. Each cell's product is distributed over its edges (the weights are nonnegative); the
    double sum is then read edge first, and for each edge only the cell of its own source contributes. -/
theorem sum_cells_mul_nonneg (src : E → N) (P : E → Prop) [DecidablePred P] (w : E → EReal) (hw : ∀ e, 0 ≤ w e)
    (h : N → EReal) :
    ∑ j : N, (∑ e ∈ univ.filter (fun e => P e ∧ src e = j), w e) * h j
      = ∑ e ∈ univ.filter P, h (src e) * w e := by
  have cell : ∀ j : N, (∑ e ∈ univ.filter (fun e => P e ∧ src e = j), w e) * h j
      = ∑ e ∈ univ.filter P, if src e = j then h j * w e else 0 := by
    intro j
    rw [sum_mul_of_nonneg _ _ (fun e _ => hw e), ← Finset.filter_filter, Finset.sum_filter]
    refine Finset.sum_congr rfl fun e _ => ?_
    split_ifs
    · exact EReal.mul_comm (w e) (h j)
    · rfl
  simp_rw [cell]
  rw [Finset.sum_comm]
  refine Finset.sum_congr rfl fun e _ => ?_
  rw [Finset.sum_ite_eq]
  simp

/-- The same with the cells indexed by a LARGER set (a padded matrix): for an injection `ι` of the nodes into the
    cell indices, cell `j'` holds the summed weights of the selected edges whose source goes to `j'` (none, off the
    image), and the features are given on every cell index. This is the law above for the map `ι ∘ src`; injectivity
    is not used. -/
theorem sum_cells_mul_nonneg_embed {N' : Type*} [Fintype N'] [DecidableEq N'] (ι : N → N') (src : E → N)
    (P : E → Prop) [DecidablePred P] (w : E → EReal) (hw : ∀ e, 0 ≤ w e) (h' : N' → EReal) :
    ∑ j' : N', (∑ e ∈ univ.filter (fun e => P e ∧ ι (src e) = j'), w e) * h' j'
      = ∑ e ∈ univ.filter P, h' (ι (src e)) * w e :=
  sum_cells_mul_nonneg (fun e => ι (src e)) P w hw h'

end Cert.Lib.DenseAdjacencyE
-- ==== Proof.LibLayerLaw.lean ====
/-
  One row of a dense aggregation against the edge-wise sum, with the index bookkeeping the two programs carry.

  The dense matrix has `n'` rows and columns although only `n ≤ n'` nodes exist; cell `(i, j)` holds the summed weights
  of the edges whose destination index is `i` and whose source index is `j`, the indices being integers read off the
  edge list. The edge-wise program reads the source feature at the source index clamped into `[0, n - 1]`. When every
  source index is a node (`0 ≤ src < n`), the weights are nonnegative, and the padded feature column agrees with the
  node features on the nodes, row `i` of the matrix times the column is the sum over the edges ending at `i` of the
  source's feature times the weight: group the edges by their source and use distributivity for nonnegative weights.
-/
import proofs.«160261_j68599217652370_2_alg».proof.Proof.LibDenseAdjacencyE

namespace Cert.Lib.LayerLaw

open Finset

theorem dense_row_eq_edges {E : Type*} [Fintype E] {n n' : ℕ} (hn : n ≤ n')
    (dstI srcI : E → ℤ) (hs : ∀ e, 0 ≤ srcI e ∧ srcI e < (n : ℤ))
    (w : E → EReal) (hw : ∀ e, 0 ≤ w e)
    (A : Fin n' → EReal) (iI : ℤ)
    (hA : ∀ j : Fin n', A j = 0 + ∑ e ∈ univ.filter (fun e => dstI e = iI ∧ srcI e = (j.val : ℤ)), w e)
    (hK : Fin n' → EReal) (hR : Fin n → EReal) (hh : ∀ j : Fin n, hK (Fin.castLE hn j) = hR j) :
    ∑ j : Fin n', A j * hK j
      = ∑ e ∈ univ.filter (fun e => dstI e = iI),
          hR ⟨min (srcI e).toNat (n - 1), by have := hs e; omega⟩ * w e := by
  let srcF : E → Fin n := fun e => ⟨(srcI e).toNat, by have := hs e; omega⟩
  have key := Cert.Lib.DenseAdjacencyE.sum_cells_mul_nonneg_embed (Fin.castLE hn) srcF (fun e => dstI e = iI) w hw hK
  have hcell : ∀ j : Fin n', A j = ∑ e ∈ univ.filter (fun e => dstI e = iI ∧ Fin.castLE hn (srcF e) = j), w e := by
    intro j
    rw [hA j, zero_add]
    refine Finset.sum_congr (Finset.filter_congr fun e _ => ?_) fun _ _ => rfl
    have hse := hs e
    constructor
    · rintro ⟨h1, h2⟩
      refine ⟨h1, Fin.ext ?_⟩
      show (srcI e).toNat = j.val
      omega
    · rintro ⟨h1, h2⟩
      refine ⟨h1, ?_⟩
      have h3 : (srcI e).toNat = j.val := congrArg Fin.val h2
      omega
  simp_rw [hcell]
  rw [key]
  refine Finset.sum_congr rfl fun e _ => ?_
  rw [hh]
  have hse := hs e
  have hidx : srcF e = ⟨min (srcI e).toNat (n - 1), by omega⟩ := Fin.ext (by
    show (srcI e).toNat = min (srcI e).toNat (n - 1)
    omega)
  rw [hidx]

/-- One graph-convolution layer, dense against edge-wise, at one output entry. The kernel side multiplies the padded input by
    the weights and then a dense row into the result; the edge-wise side multiplies the node inputs by the weights, gathers
    at the clamped source index and sums over the edges ending at the node. If the two inputs agree on the nodes, the two
    outputs agree at every node, whatever the activation and the bias. -/
theorem layer_step {E : Type*} [Fintype E] {n n' Kd C : ℕ} (hn : n ≤ n') (act : EReal → EReal)
    (dstI srcI : E → ℤ) (hs : ∀ e, 0 ≤ srcI e ∧ srcI e < (n : ℤ))
    (w : E → EReal) (hw : ∀ e, 0 ≤ w e)
    (A : Fin n' → Fin n' → EReal)
    (hA : ∀ i j, A i j = 0 + ∑ e ∈ univ.filter (fun e => dstI e = (i.val : ℤ) ∧ srcI e = (j.val : ℤ)), w e)
    (inK : Fin n' → Fin Kd → EReal) (inR : Fin n → Fin Kd → EReal)
    (hin : ∀ (j : Fin n) (k : Fin Kd), inK (Fin.castLE hn j) k = inR j k)
    (W : Fin Kd → Fin C → EReal) (b : Fin C → EReal) (i : Fin n) (cc : Fin C) :
    act ((∑ j : Fin n', A (Fin.castLE hn i) j * (∑ k : Fin Kd, inK j k * W k cc)) + b cc)
      = act ((0 + ∑ e ∈ univ.filter (fun e => dstI e = (i.val : ℤ)),
          (∑ k : Fin Kd, inR ⟨min (srcI e).toNat (n - 1), by have := hs e; omega⟩ k * W k cc) * w e) + b cc) := by
  rw [zero_add]
  refine congrArg act (congrArg (· + b cc) ?_)
  exact dense_row_eq_edges hn dstI srcI hs w hw (fun j => A (Fin.castLE hn i) j) (i.val : ℤ)
    (fun j => hA (Fin.castLE hn i) j)
    (fun j => ∑ k : Fin Kd, inK j k * W k cc) (fun j => ∑ k : Fin Kd, inR j k * W k cc)
    (fun j => Finset.sum_congr rfl fun k _ => by rw [hin])

/-- Four stacked layers. The dense side's arrays have `n'` rows, the edge-wise side's `n`; the dense side's first input is the
    edge-wise side's input on the nodes (anything on the padding); the last layer's weights and bias are padded from `C4` to
    `C4'` columns on the dense side. If each array is its layer's formula, the two last layers agree on the nodes and the
    unpadded columns. Each step is `layer_step`, fed by the previous step's agreement. -/
theorem four_layers {E : Type*} [Fintype E] {n n' D0 C1 C2 C3 C4 C4' : ℕ} (hn : n ≤ n') (hc : C4 ≤ C4') (act : EReal → EReal)
    (dstI srcI : E → ℤ) (hs : ∀ e, 0 ≤ srcI e ∧ srcI e < (n : ℤ))
    (w : E → EReal) (hw : ∀ e, 0 ≤ w e)
    (A : Fin n' → Fin n' → EReal)
    (hA : ∀ i j, A i j = 0 + ∑ e ∈ univ.filter (fun e => dstI e = (i.val : ℤ) ∧ srcI e = (j.val : ℤ)), w e)
    (x : Fin n → Fin D0 → EReal) (xp : Fin n' → Fin D0 → EReal) (hx : ∀ j k, xp (Fin.castLE hn j) k = x j k)
    (W1 : Fin D0 → Fin C1 → EReal) (b1 : Fin C1 → EReal) (W2 : Fin C1 → Fin C2 → EReal) (b2 : Fin C2 → EReal)
    (W3 : Fin C2 → Fin C3 → EReal) (b3 : Fin C3 → EReal) (W4 : Fin C3 → Fin C4 → EReal) (b4 : Fin C4 → EReal)
    (W4p : Fin C3 → Fin C4' → EReal) (b4p : Fin C4' → EReal)
    (hW4 : ∀ k (cc : Fin C4), W4p k (Fin.castLE hc cc) = W4 k cc) (hb4 : ∀ cc : Fin C4, b4p (Fin.castLE hc cc) = b4 cc)
    (O1K : Fin n' → Fin C1 → EReal) (O2K : Fin n' → Fin C2 → EReal) (O3K : Fin n' → Fin C3 → EReal) (O4K : Fin n' → Fin C4' → EReal)
    (hO1K : ∀ i cc, O1K i cc = act ((∑ j : Fin n', A i j * (∑ k, xp j k * W1 k cc)) + b1 cc))
    (hO2K : ∀ i cc, O2K i cc = act ((∑ j : Fin n', A i j * (∑ k, O1K j k * W2 k cc)) + b2 cc))
    (hO3K : ∀ i cc, O3K i cc = act ((∑ j : Fin n', A i j * (∑ k, O2K j k * W3 k cc)) + b3 cc))
    (hO4K : ∀ i cc, O4K i cc = (∑ j : Fin n', A i j * (∑ k, O3K j k * W4p k cc)) + b4p cc)
    (O1R : Fin n → Fin C1 → EReal) (O2R : Fin n → Fin C2 → EReal) (O3R : Fin n → Fin C3 → EReal) (O4R : Fin n → Fin C4 → EReal)
    (hO1R : ∀ i cc, O1R i cc = act ((0 + ∑ e ∈ univ.filter (fun e => dstI e = (i.val : ℤ)),
        (∑ k, x ⟨min (srcI e).toNat (n - 1), by have := hs e; omega⟩ k * W1 k cc) * w e) + b1 cc))
    (hO2R : ∀ i cc, O2R i cc = act ((0 + ∑ e ∈ univ.filter (fun e => dstI e = (i.val : ℤ)),
        (∑ k, O1R ⟨min (srcI e).toNat (n - 1), by have := hs e; omega⟩ k * W2 k cc) * w e) + b2 cc))
    (hO3R : ∀ i cc, O3R i cc = act ((0 + ∑ e ∈ univ.filter (fun e => dstI e = (i.val : ℤ)),
        (∑ k, O2R ⟨min (srcI e).toNat (n - 1), by have := hs e; omega⟩ k * W3 k cc) * w e) + b3 cc))
    (hO4R : ∀ i cc, O4R i cc = (0 + ∑ e ∈ univ.filter (fun e => dstI e = (i.val : ℤ)),
        (∑ k, O3R ⟨min (srcI e).toNat (n - 1), by have := hs e; omega⟩ k * W4 k cc) * w e) + b4 cc) :
    ∀ (i : Fin n) (cc : Fin C4), O4K (Fin.castLE hn i) (Fin.castLE hc cc) = O4R i cc := by
  have h1 : ∀ (i : Fin n) (cc : Fin C1), O1K (Fin.castLE hn i) cc = O1R i cc := fun i cc => by
    rw [hO1K, hO1R]
    exact layer_step hn act dstI srcI hs w hw A hA xp x hx W1 b1 i cc
  have h2 : ∀ (i : Fin n) (cc : Fin C2), O2K (Fin.castLE hn i) cc = O2R i cc := fun i cc => by
    rw [hO2K, hO2R]
    exact layer_step hn act dstI srcI hs w hw A hA O1K O1R h1 W2 b2 i cc
  have h3 : ∀ (i : Fin n) (cc : Fin C3), O3K (Fin.castLE hn i) cc = O3R i cc := fun i cc => by
    rw [hO3K, hO3R]
    exact layer_step hn act dstI srcI hs w hw A hA O2K O2R h2 W3 b3 i cc
  intro i cc
  rw [hO4K, hO4R]
  have h4 := layer_step hn id dstI srcI hs w hw A hA O3K O3R h3 (fun k cc' => W4p k (Fin.castLE hc cc')) (fun cc' => b4p (Fin.castLE hc cc')) i cc
  simp only [id] at h4
  rw [h4]
  simp only [hW4, hb4]

end Cert.Lib.LayerLaw
-- ==== Proof.RefChain.lean ====
/-
  The edge-wise program's four layers in the curried form the layer law speaks.

  Read at an index, a layer of the edge-wise program is: the product `h = in @ W`, then for node `i` the sum over the
  edges whose destination is `i` of row `src e` of `h` (the source index normalized, then clamped into the node range)
  times the edge's weight, plus the bias, under the activation. Substituting the product into the sum, writing every array
  as a function of its coordinates and every index vector as a function into the integers, and replacing the normalized
  source by the source itself (they agree when every source index is a node), gives exactly the hypotheses the
  dense-against-edge-wise law asks of the edge-wise side. The last theorem feeds them to that law.
-/
import proofs.«160261_j68599217652370_2_alg».proof.Proof.LibLayerLaw
import Idealize.ShloMosaic.Lib.ValueIdx

noncomputable section

namespace Cert.ReferenceIdeal.RefChain

open Finset Idealize.ShloMosaic Idealize.ShloMosaic.ValueIdx

/-- An index vector's entries as integers. -/
abbrev idxZ {n : ℕ} (v : IVec ⟨1, ![n]⟩ 32) : Fin n → ℤ := fun e => (v (ix1 e)).toInt
/-- A vector as a function of its coordinate. -/
abbrev vec1 {n : ℕ} (v : (⟨1, ![n]⟩ : Shape).Idx → EReal) : Fin n → EReal := fun e => v (ix1 e)
/-- A matrix as a function of its two coordinates. -/
abbrev mat2 {a b : ℕ} (X : (⟨2, ![a, b]⟩ : Shape).Idx → EReal) : Fin a → Fin b → EReal := fun i j => X (ix2 i j)

/-- One layer: from the product and the aggregation read at an index to the curried edge-wise formula over the source
    index itself. -/
theorem layer_edgewise {Kd C : ℕ} (act : EReal → EReal)
    (dstW srcN src : IVec ⟨1, ![170000]⟩ 32) (nrm : (⟨1, ![170000]⟩ : Shape).Idx → EReal)
    (inp : (⟨2, ![10000, Kd]⟩ : Shape).Idx → EReal) (W : (⟨2, ![Kd, C]⟩ : Shape).Idx → EReal) (b : (⟨1, ![C]⟩ : Shape).Idx → EReal)
    (h out : (⟨2, ![10000, C]⟩ : Shape).Idx → EReal)
    (hh : ∀ (j : Fin 10000) (c' : Fin C), h (ix2 j c') = ∑ k : Fin Kd, inp (ix2 j k) * W (ix2 k c'))
    (hout : ∀ (i : Fin 10000) (c' : Fin C), out (ix2 i c')
      = act ((0 + ∑ e ∈ univ.filter (fun e : Fin 170000 => (dstW (ix1 e)).toInt = (i.val : Int)),
          h (ix2 (⟨min (srcN (ix1 e)).toInt.toNat 9999, by omega⟩ : Fin 10000) c') * nrm (ix1 e)) + b (ix1 c')))
    (hnorm : ∀ e : Fin 170000, (srcN (ix1 e)).toInt = (src (ix1 e)).toInt)
    (hs : ∀ e : Fin 170000, 0 ≤ idxZ src e ∧ idxZ src e < ((10000 : ℕ) : ℤ)) :
    ∀ (i : Fin 10000) (cc : Fin C), mat2 out i cc
      = act ((0 + ∑ e ∈ univ.filter (fun e => idxZ dstW e = (i.val : ℤ)),
          (∑ k, mat2 inp ⟨min (idxZ src e).toNat (10000 - 1), by have := hs e; omega⟩ k * mat2 W k cc) * vec1 nrm e) + vec1 b cc) := by
  intro i cc
  show out (ix2 i cc) = _
  rw [hout]
  refine congrArg act (congrArg₂ (· + ·) (congrArg (0 + ·) (Finset.sum_congr rfl fun e _ => ?_)) rfl)
  refine congrArg (· * nrm (ix1 e)) ?_
  refine (hh _ cc).trans (Finset.sum_congr rfl fun k _ => ?_)
  refine congrArg (fun j : Fin 10000 => inp (ix2 j k) * W (ix2 k cc)) (Fin.ext ?_)
  show min (srcN (ix1 e)).toInt.toNat 9999 = min (src (ix1 e)).toInt.toNat (10000 - 1)
  rw [hnorm e]

section Chain

variable (dstW srcN src : IVec ⟨1, ![170000]⟩ 32) (nrm : (⟨1, ![170000]⟩ : Shape).Idx → EReal)
  (x : (⟨2, ![10000, 128]⟩ : Shape).Idx → EReal)
  (W1 : (⟨2, ![128, 512]⟩ : Shape).Idx → EReal) (b1 : (⟨1, ![512]⟩ : Shape).Idx → EReal) (W2 : (⟨2, ![512, 1024]⟩ : Shape).Idx → EReal) (b2 : (⟨1, ![1024]⟩ : Shape).Idx → EReal)
  (W3 : (⟨2, ![1024, 512]⟩ : Shape).Idx → EReal) (b3 : (⟨1, ![512]⟩ : Shape).Idx → EReal) (W4 : (⟨2, ![512, 32]⟩ : Shape).Idx → EReal) (b4 : (⟨1, ![32]⟩ : Shape).Idx → EReal)
  (h1 o1 : (⟨2, ![10000, 512]⟩ : Shape).Idx → EReal) (h2 o2 : (⟨2, ![10000, 1024]⟩ : Shape).Idx → EReal) (h3 o3 : (⟨2, ![10000, 512]⟩ : Shape).Idx → EReal) (h4 o4 : (⟨2, ![10000, 32]⟩ : Shape).Idx → EReal)
  (hh1 : ∀ (j : Fin 10000) (c' : Fin 512), h1 (ix2 j c') = ∑ k : Fin 128, x (ix2 j k) * W1 (ix2 k c'))
  (hh2 : ∀ (j : Fin 10000) (c' : Fin 1024), h2 (ix2 j c') = ∑ k : Fin 512, o1 (ix2 j k) * W2 (ix2 k c'))
  (hh3 : ∀ (j : Fin 10000) (c' : Fin 512), h3 (ix2 j c') = ∑ k : Fin 1024, o2 (ix2 j k) * W3 (ix2 k c'))
  (hh4 : ∀ (j : Fin 10000) (c' : Fin 32), h4 (ix2 j c') = ∑ k : Fin 512, o3 (ix2 j k) * W4 (ix2 k c'))
  (ho1 : ∀ (i : Fin 10000) (c' : Fin 512), o1 (ix2 i c') = max ((0 + ∑ e ∈ univ.filter (fun e : Fin 170000 => (dstW (ix1 e)).toInt = (i.val : Int)),
          h1 (ix2 (⟨min (srcN (ix1 e)).toInt.toNat 9999, by omega⟩ : Fin 10000) c') * nrm (ix1 e)) + b1 (ix1 c')) 0)
  (ho2 : ∀ (i : Fin 10000) (c' : Fin 1024), o2 (ix2 i c') = max ((0 + ∑ e ∈ univ.filter (fun e : Fin 170000 => (dstW (ix1 e)).toInt = (i.val : Int)),
          h2 (ix2 (⟨min (srcN (ix1 e)).toInt.toNat 9999, by omega⟩ : Fin 10000) c') * nrm (ix1 e)) + b2 (ix1 c')) 0)
  (ho3 : ∀ (i : Fin 10000) (c' : Fin 512), o3 (ix2 i c') = max ((0 + ∑ e ∈ univ.filter (fun e : Fin 170000 => (dstW (ix1 e)).toInt = (i.val : Int)),
          h3 (ix2 (⟨min (srcN (ix1 e)).toInt.toNat 9999, by omega⟩ : Fin 10000) c') * nrm (ix1 e)) + b3 (ix1 c')) 0)
  (ho4 : ∀ (i : Fin 10000) (c' : Fin 32), o4 (ix2 i c') = (0 + ∑ e ∈ univ.filter (fun e : Fin 170000 => (dstW (ix1 e)).toInt = (i.val : Int)),
          h4 (ix2 (⟨min (srcN (ix1 e)).toInt.toNat 9999, by omega⟩ : Fin 10000) c') * nrm (ix1 e)) + b4 (ix1 c'))
  (hnorm : ∀ e : Fin 170000, (srcN (ix1 e)).toInt = (src (ix1 e)).toInt)
  (hs : ∀ e : Fin 170000, 0 ≤ idxZ src e ∧ idxZ src e < ((10000 : ℕ) : ℤ))

include hh1 ho1 hnorm in
/-- Layer 1 of the edge-wise side, in the law's shape. -/
theorem hO1R : ∀ (i : Fin 10000) (cc : Fin 512), mat2 o1 i cc = max ((0 + ∑ e ∈ univ.filter (fun e => idxZ dstW e = (i.val : ℤ)),
          (∑ k, mat2 x ⟨min (idxZ src e).toNat (10000 - 1), by have := hs e; omega⟩ k * mat2 W1 k cc) * vec1 nrm e) + vec1 b1 cc) 0 :=
  layer_edgewise (fun v => max v 0) dstW srcN src nrm x W1 b1 h1 o1 hh1 ho1 hnorm hs

include hh2 ho2 hnorm in
/-- Layer 2. -/
theorem hO2R : ∀ (i : Fin 10000) (cc : Fin 1024), mat2 o2 i cc = max ((0 + ∑ e ∈ univ.filter (fun e => idxZ dstW e = (i.val : ℤ)),
          (∑ k, mat2 o1 ⟨min (idxZ src e).toNat (10000 - 1), by have := hs e; omega⟩ k * mat2 W2 k cc) * vec1 nrm e) + vec1 b2 cc) 0 :=
  layer_edgewise (fun v => max v 0) dstW srcN src nrm o1 W2 b2 h2 o2 hh2 ho2 hnorm hs

include hh3 ho3 hnorm in
/-- Layer 3. -/
theorem hO3R : ∀ (i : Fin 10000) (cc : Fin 512), mat2 o3 i cc = max ((0 + ∑ e ∈ univ.filter (fun e => idxZ dstW e = (i.val : ℤ)),
          (∑ k, mat2 o2 ⟨min (idxZ src e).toNat (10000 - 1), by have := hs e; omega⟩ k * mat2 W3 k cc) * vec1 nrm e) + vec1 b3 cc) 0 :=
  layer_edgewise (fun v => max v 0) dstW srcN src nrm o2 W3 b3 h3 o3 hh3 ho3 hnorm hs

include hh4 ho4 hnorm in
/-- Layer 4, which has no activation. -/
theorem hO4R : ∀ (i : Fin 10000) (cc : Fin 32), mat2 o4 i cc = (0 + ∑ e ∈ univ.filter (fun e => idxZ dstW e = (i.val : ℤ)),
          (∑ k, mat2 o3 ⟨min (idxZ src e).toNat (10000 - 1), by have := hs e; omega⟩ k * mat2 W4 k cc) * vec1 nrm e) + vec1 b4 cc :=
  layer_edgewise (fun v => v) dstW srcN src nrm o3 W4 b4 h4 o4 hh4 ho4 hnorm hs

include hh1 hh2 hh3 hh4 ho1 ho2 ho3 ho4 hnorm hs in
/-- The dense program's last layer against the edge-wise program's, on the nodes and the unpadded columns: the four
    edge-wise layers above meet the dense-against-edge-wise law. -/
theorem dense_eq_edgewise {n' C4' : ℕ} (hn : 10000 ≤ n') (hc : 32 ≤ C4') (hw : ∀ e, 0 ≤ vec1 nrm e)
    (A : Fin n' → Fin n' → EReal)
    (hA : ∀ i j, A i j = 0 + ∑ e ∈ univ.filter (fun e => idxZ dstW e = (i.val : ℤ) ∧ idxZ src e = (j.val : ℤ)), vec1 nrm e)
    (xp : Fin n' → Fin 128 → EReal) (hx : ∀ j k, xp (Fin.castLE hn j) k = mat2 x j k)
    (W4p : Fin 512 → Fin C4' → EReal) (b4p : Fin C4' → EReal)
    (hW4 : ∀ k (cc : Fin 32), W4p k (Fin.castLE hc cc) = mat2 W4 k cc) (hb4 : ∀ cc : Fin 32, b4p (Fin.castLE hc cc) = vec1 b4 cc)
    (O1K : Fin n' → Fin 512 → EReal) (O2K : Fin n' → Fin 1024 → EReal) (O3K : Fin n' → Fin 512 → EReal) (O4K : Fin n' → Fin C4' → EReal)
    (hO1K : ∀ i cc, O1K i cc = max ((∑ j : Fin n', A i j * (∑ k, xp j k * mat2 W1 k cc)) + vec1 b1 cc) 0)
    (hO2K : ∀ i cc, O2K i cc = max ((∑ j : Fin n', A i j * (∑ k, O1K j k * mat2 W2 k cc)) + vec1 b2 cc) 0)
    (hO3K : ∀ i cc, O3K i cc = max ((∑ j : Fin n', A i j * (∑ k, O2K j k * mat2 W3 k cc)) + vec1 b3 cc) 0)
    (hO4K : ∀ i cc, O4K i cc = (∑ j : Fin n', A i j * (∑ k, O3K j k * W4p k cc)) + b4p cc) :
    ∀ (i : Fin 10000) (cc : Fin 32), O4K (Fin.castLE hn i) (Fin.castLE hc cc) = mat2 o4 i cc :=
  Cert.Lib.LayerLaw.four_layers hn hc (fun v => max v 0) (idxZ dstW) (idxZ src) hs (vec1 nrm) hw A hA (mat2 x) xp hx
    (mat2 W1) (vec1 b1) (mat2 W2) (vec1 b2) (mat2 W3) (vec1 b3) (mat2 W4) (vec1 b4) W4p b4p hW4 hb4
    O1K O2K O3K O4K hO1K hO2K hO3K hO4K (mat2 o1) (mat2 o2) (mat2 o3) (mat2 o4)
    (hO1R dstW srcN src nrm x W1 b1 h1 o1 hh1 ho1 hnorm hs)
    (hO2R dstW srcN src nrm W2 b2 o1 h2 o2 hh2 ho2 hnorm hs)
    (hO3R dstW srcN src nrm W3 b3 o2 h3 o3 hh3 ho3 hnorm hs)
    (hO4R dstW srcN src nrm W4 b4 o3 h4 o4 hh4 ho4 hnorm hs)

end Chain

end Cert.ReferenceIdeal.RefChain

end
-- ==== Proof.Bridge.lean ====
/-
  The two programs' last layers agree on the nodes.

  The idealized kernel program's last aggregation, read at a node row and one of the 32 real columns, equals the reference's
  last layer at that entry. The kernel side's four layers are stated over its launch memory, the reference side's over its
  own; the two memories hold the same arguments. What the two programs compute before the layers, the edges' sources,
  destinations and weights, is the same on both sides, the sources are nodes, and the weights are nonnegative: these six
  facts are taken as hypotheses here and supplied where the theorem is used.
-/
import proofs.«160261_j68599217652370_2_alg».proof.Proof.KerChain
import proofs.«160261_j68599217652370_2_alg».proof.Proof.RefValue
import proofs.«160261_j68599217652370_2_alg».proof.Proof.RefChain

set_option maxRecDepth 16384

noncomputable section

namespace Cert.Proof.Alg

open Idealize.ShloMosaic Idealize.ShloMosaic.TcCoe Idealize.SL.Sem Idealize.ShloMosaic.ValueIdx
open Cert.ReferenceIdeal.RefChain (idxZ vec1 mat2)

abbrev KM := (ℓ : Loc Cert.KernelIdeal.nD Cert.KernelIdeal.τ Cert.KernelIdeal.sig) → Buf (Elt Ideal) ℓ
abbrev RM := (ℓ : Loc Cert.ReferenceIdeal.nD Cert.ReferenceIdeal.τ Cert.ReferenceIdeal.sig) → Buf (Elt Ideal) ℓ

namespace KH
export Cert.KernelIdeal.Hand (AK XpK xc W1c b1c W2c b2c W3c b3c W4c b4c W4pc b4pc O1K O2K O3K O4K hxK hW4K hb4K hO1K hO2K hO3K hO4K W4_v45_apply dN sN nrm)
end KH
namespace RV
export Cert.ReferenceIdeal.RefValue (val val_arg x0 w1 b1 w2 b2 w3 b3 w4 b4 dstW srcN nrm h1 out1 h2 out2 h3 out3 h4 out4 h1_apply h2_apply h3_apply h4_apply out1_apply out2_apply out3_apply out4_apply)
end RV

/-- The two memories hold the same ten arguments on device `c`. -/
def Agree (m : KM) (m' : RM) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

theorem out_eq (m : KM) (m' : RM) (c : Dev Cert.KernelIdeal.nD) (hag : Agree m m' c)
    (T1 : ∀ e : Fin 170000, (KH.dN m c (ix1 e)).toInt = (RV.dstW m' c (ix1 e)).toInt)
    (T2 : ∀ e : Fin 170000, (KH.sN m c (ix1 e)).toInt = ((RV.val m' c Cert.ReferenceIdeal.main_v3 : IVec ⟨1, ![170000]⟩ 32) (ix1 e)).toInt)
    (T3 : ∀ e : Fin 170000, (KH.nrm m c (ix1 e) : EReal) = RV.nrm m' c (ix1 e))
    (T4 : ∀ e : Fin 170000, (RV.srcN m' c (ix1 e)).toInt = ((RV.val m' c Cert.ReferenceIdeal.main_v3 : IVec ⟨1, ![170000]⟩ 32) (ix1 e)).toInt)
    (T5 : ∀ e : Fin 170000, 0 ≤ idxZ (RV.val m' c Cert.ReferenceIdeal.main_v3 : IVec ⟨1, ![170000]⟩ 32) e
      ∧ idxZ (RV.val m' c Cert.ReferenceIdeal.main_v3 : IVec ⟨1, ![170000]⟩ 32) e < ((10000 : ℕ) : ℤ))
    (T6 : ∀ e : Fin 170000, (0 : EReal) ≤ RV.nrm m' c (ix1 e)) :
    ∀ (i : Fin 10000) (cc : Fin 32),
      KH.O4K m c (Fin.castLE (by decide) i) (Fin.castLE (by decide) cc) = mat2 (RV.out4 m' c) i cc := by
  obtain ⟨a0, a1, a2, a3, a4, a5, a6, a7, a8, a9⟩ := hag
  have hx0 : ∀ j k, KH.xc m c j k = mat2 (RV.x0 m' c) j k := fun j k => by
    unfold Cert.KernelIdeal.Hand.xc Cert.ReferenceIdeal.RefValue.x0 mat2
    rw [RV.val_arg m' c (r := Cert.ReferenceIdeal.main_arg0) (by decide), a0]
  have hW1 : ∀ k cc, KH.W1c m c k cc = mat2 (RV.w1 m' c) k cc := fun k cc => by
    unfold Cert.KernelIdeal.Hand.W1c Cert.ReferenceIdeal.RefValue.w1 mat2
    rw [RV.val_arg m' c (r := Cert.ReferenceIdeal.main_arg2) (by decide), a2]
  have hb1 : ∀ cc, KH.b1c m c cc = vec1 (RV.b1 m' c) cc := fun cc => by
    unfold Cert.KernelIdeal.Hand.b1c Cert.ReferenceIdeal.RefValue.b1 vec1
    rw [RV.val_arg m' c (r := Cert.ReferenceIdeal.main_arg3) (by decide), a3]
  have hW2 : ∀ k cc, KH.W2c m c k cc = mat2 (RV.w2 m' c) k cc := fun k cc => by
    unfold Cert.KernelIdeal.Hand.W2c Cert.ReferenceIdeal.RefValue.w2 mat2
    rw [RV.val_arg m' c (r := Cert.ReferenceIdeal.main_arg4) (by decide), a4]
  have hb2 : ∀ cc, KH.b2c m c cc = vec1 (RV.b2 m' c) cc := fun cc => by
    unfold Cert.KernelIdeal.Hand.b2c Cert.ReferenceIdeal.RefValue.b2 vec1
    rw [RV.val_arg m' c (r := Cert.ReferenceIdeal.main_arg5) (by decide), a5]
  have hW3 : ∀ k cc, KH.W3c m c k cc = mat2 (RV.w3 m' c) k cc := fun k cc => by
    unfold Cert.KernelIdeal.Hand.W3c Cert.ReferenceIdeal.RefValue.w3 mat2
    rw [RV.val_arg m' c (r := Cert.ReferenceIdeal.main_arg6) (by decide), a6]
  have hb3 : ∀ cc, KH.b3c m c cc = vec1 (RV.b3 m' c) cc := fun cc => by
    unfold Cert.KernelIdeal.Hand.b3c Cert.ReferenceIdeal.RefValue.b3 vec1
    rw [RV.val_arg m' c (r := Cert.ReferenceIdeal.main_arg7) (by decide), a7]
  have hW4 : ∀ k cc, KH.W4c m c k cc = mat2 (RV.w4 m' c) k cc := fun k cc => by
    unfold Cert.KernelIdeal.Hand.W4c Cert.ReferenceIdeal.RefValue.w4 mat2
    rw [RV.val_arg m' c (r := Cert.ReferenceIdeal.main_arg8) (by decide), a8]
  have hb4 : ∀ cc, KH.b4c m c cc = vec1 (RV.b4 m' c) cc := fun cc => by
    unfold Cert.KernelIdeal.Hand.b4c Cert.ReferenceIdeal.RefValue.b4 vec1
    rw [RV.val_arg m' c (r := Cert.ReferenceIdeal.main_arg9) (by decide), a9]
  have hA : ∀ i j, KH.AK m c i j = 0 + ∑ e ∈ Finset.univ.filter (fun e : Fin 170000 =>
      idxZ (RV.dstW m' c) e = (i.val : ℤ) ∧ idxZ (RV.val m' c Cert.ReferenceIdeal.main_v3 : IVec ⟨1, ![170000]⟩ 32) e = (j.val : ℤ)),
      vec1 (RV.nrm m' c) e := fun i j => by
    unfold Cert.KernelIdeal.Hand.AK
    rw [KH.W4_v45_apply]
    refine congrArg (0 + ·) (Finset.sum_congr (Finset.filter_congr fun e _ => ?_) fun e _ => T3 e)
    show _ ∧ _ ↔ (RV.dstW m' c (ix1 e)).toInt = _ ∧ ((RV.val m' c Cert.ReferenceIdeal.main_v3 : IVec ⟨1, ![170000]⟩ 32) (ix1 e)).toInt = _
    rw [T1 e, T2 e]
  exact Cert.ReferenceIdeal.RefChain.dense_eq_edgewise
    (dstW := RV.dstW m' c) (srcN := RV.srcN m' c) (src := (RV.val m' c Cert.ReferenceIdeal.main_v3 : IVec ⟨1, ![170000]⟩ 32))
    (nrm := RV.nrm m' c) (x := RV.x0 m' c) (W1 := RV.w1 m' c) (b1 := RV.b1 m' c) (W2 := RV.w2 m' c) (b2 := RV.b2 m' c)
    (W3 := RV.w3 m' c) (b3 := RV.b3 m' c) (W4 := RV.w4 m' c) (b4 := RV.b4 m' c)
    (h1 := RV.h1 m' c) (o1 := RV.out1 m' c) (h2 := RV.h2 m' c) (o2 := RV.out2 m' c) (h3 := RV.h3 m' c) (o3 := RV.out3 m' c)
    (h4 := RV.h4 m' c) (o4 := RV.out4 m' c)
    (hh1 := RV.h1_apply m' c) (hh2 := RV.h2_apply m' c) (hh3 := RV.h3_apply m' c) (hh4 := RV.h4_apply m' c)
    (ho1 := RV.out1_apply m' c) (ho2 := RV.out2_apply m' c) (ho3 := RV.out3_apply m' c) (ho4 := RV.out4_apply m' c)
    (hnorm := T4) (hs := T5) (hn := by decide) (hc := by decide) (hw := T6)
    (A := KH.AK m c) (hA := hA) (xp := KH.XpK m c) (hx := fun j k => (KH.hxK m c j k).trans (hx0 j k))
    (W4p := KH.W4pc m c) (b4p := KH.b4pc m c)
    (hW4 := fun k cc => (KH.hW4K m c k cc).trans (hW4 k cc)) (hb4 := fun cc => (KH.hb4K m c cc).trans (hb4 cc))
    (O1K := KH.O1K m c) (O2K := KH.O2K m c) (O3K := KH.O3K m c) (O4K := KH.O4K m c)
    (hO1K := fun i cc => by rw [KH.hO1K]; simp only [hW1, hb1])
    (hO2K := fun i cc => by rw [KH.hO2K]; simp only [hW2, hb2])
    (hO3K := fun i cc => by rw [KH.hO3K]; simp only [hW3, hb3])
    (hO4K := fun i cc => KH.hO4K m c i cc)

end Cert.Proof.Alg

end
-- ==== Proof.PreDecode.lean ====
/-
  The precondition decoded: every entry of the edge list names a node.

  The precondition of the claim is a printed predicate: one bit, the conjunction of eleven tests of the argument
  arrays, and the claim assumes that bit is 1 on every device. Nine of the tests say that a float argument has only
  finite entries. The last two are about the edge list, an integer array of shape [2, 160000]: all of its entries
  are at least 0, and all of them are below 10000, both compared as signed integers. A conjunction of bits is 1 only
  when each of them is; a test "all entries" is a reduction by "and" from the bit 1, which is 1 only when every
  entry's bit is 1; and an entry's bit is the signed comparison of that entry with the constant. So each entry of
  the edge list, read as a signed integer, lies in [0, 10000).
-/
import proofs.«160261_j68599217652370_2_alg».proof.Defs
import proofs.«160261_j68599217652370_2_alg».proof.Proof.Gen.Pre_finite_inputs
import Idealize.ShloMosaic.Lib.ReduceAll
import Idealize.ShloMosaic.Lib.ValueIdx

set_option maxRecDepth 16384

noncomputable section

namespace Cert.KernelIdeal.Hand

open Cert.KernelIdeal
open Idealize.ShloMosaic Idealize.SL.Sem

/-- The scalar shape has one index. -/
instance subsingleton_scalar_idx : Subsingleton Cert.Pre_finite_inputs.S_.Idx := ⟨fun a b => funext fun d => d.elim0⟩

/-- THE EDGE LIST IS IN RANGE: under the precondition every entry of argument 1, read signed, is in `[0, 10000)`. -/
theorem edge_in_range (m : (ℓ : Loc nD τ sig) → Buf (Elt Ideal) ℓ)
    (hpre : Cert.Pre_KernelIdeal (hPre_finite_inputs := Cert.Pre_finite_inputs.Gen.facts) m) (c : Dev nD)
    (i : S2x160000.Idx) :
    0 ≤ ((m ((c.tc : Thread nD τ).loc main_arg1)) i).toInt ∧ ((m ((c.tc : Thread nD τ).loc main_arg1)) i).toInt < 10000 := by
  have e := congrFun (hpre c) ValueIdx.ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  simp only [Idealize.ShloMosaic.andi, IntOp.andi_eq_one] at e
  obtain ⟨⟨-, hge⟩, hlt⟩ := e
  have g0 := Host.reduce_andi_all _ _ _ _ _ hge i
  have g1 := Host.reduce_andi_all _ _ _ _ _ hlt i
  have g0' := IntOp.cmpi_sge.1 g0
  have g1' := IntOp.cmpi_slt.1 g1
  change (0#32 : BitVec 32).toInt ≤ _ at g0'
  change _ < (10000#32 : BitVec 32).toInt at g1'
  have z0 : (0#32 : BitVec 32).toInt = 0 := by decide
  have z1 : (10000#32 : BitVec 32).toInt = 10000 := by decide
  rw [z0] at g0'
  rw [z1] at g1'
  exact ⟨g0', g1'⟩

end Cert.KernelIdeal.Hand

end
-- ==== Proof.Algebraic.lean ====
/-
  The two idealized programs end with equal results.

  The common result is what the kernel program's last valuation holds at its result buffer. The kernel program's run
  ends there. The reference's run ends at its own folded result, which is the log_softmax chain of its last layer; the
  kernel's result is the same chain of the node rows and real columns of its last aggregation; the two last layers
  agree there (Proof/Bridge.lean), and the two chains are one function.
-/
import proofs.«160261_j68599217652370_2_alg».proof.Defs
import proofs.«160261_j68599217652370_2_alg».proof.Proof.Bridge
import proofs.«160261_j68599217652370_2_alg».proof.Proof.PreDecode
import proofs.«160261_j68599217652370_2_alg».proof.Proof.Gen.Kernel
import proofs.«160261_j68599217652370_2_alg».proof.Proof.Gen.KernelIdeal
import proofs.«160261_j68599217652370_2_alg».proof.Proof.Gen.ReferenceIdeal
import proofs.«160261_j68599217652370_2_alg».proof.Proof.Gen.Pre_finite_inputs

set_option maxRecDepth 16384

noncomputable section

namespace Cert.Proof.Alg

open Idealize.ShloMosaic Idealize.ShloMosaic.TcCoe Idealize.SL.Sem Idealize.ShloMosaic.ValueIdx
open Cert.ReferenceIdeal.RefChain (idxZ vec1 mat2)

/-- The six facts about what both programs compute before the layers, for one device. -/
structure Prefix (m : KM) (m' : RM) (c : Dev Cert.KernelIdeal.nD) : Prop where
  T1 : ∀ e : Fin 170000, (KH.dN m c (ix1 e)).toInt = (RV.dstW m' c (ix1 e)).toInt
  T2 : ∀ e : Fin 170000, (KH.sN m c (ix1 e)).toInt = ((RV.val m' c Cert.ReferenceIdeal.main_v3 : IVec ⟨1, ![170000]⟩ 32) (ix1 e)).toInt
  T3 : ∀ e : Fin 170000, (KH.nrm m c (ix1 e) : EReal) = RV.nrm m' c (ix1 e)
  T4 : ∀ e : Fin 170000, (RV.srcN m' c (ix1 e)).toInt = ((RV.val m' c Cert.ReferenceIdeal.main_v3 : IVec ⟨1, ![170000]⟩ 32) (ix1 e)).toInt
  T5 : ∀ e : Fin 170000, 0 ≤ idxZ (RV.val m' c Cert.ReferenceIdeal.main_v3 : IVec ⟨1, ![170000]⟩ 32) e
      ∧ idxZ (RV.val m' c Cert.ReferenceIdeal.main_v3 : IVec ⟨1, ![170000]⟩ 32) e < ((10000 : ℕ) : ℤ)
  T6 : ∀ e : Fin 170000, (0 : EReal) ≤ RV.nrm m' c (ix1 e)

theorem algebraic_of
    (hP : ∀ (m : KM) (m' : RM) (c : Dev Cert.KernelIdeal.nD), Agree m m' c →
      Cert.Pre_KernelIdeal (hPre_finite_inputs := Cert.Pre_finite_inputs.Gen.facts) m → Prefix m m' c)
    (hLS : ∀ X : (⟨2, ![10000, 32]⟩ : Shape).Idx → EReal, Cert.KernelIdeal.Hand.LSK X = Cert.ReferenceIdeal.RefValue.LS X) :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V22 m (Cert.KernelIdeal.Hand.outs m) c Cert.KernelIdeal.main_v62,
    Cert.KernelIdeal.Hand.run_result m ρ, ?_⟩
  refine (θ_run Cert.ReferenceIdeal.defs _ _).mono (fun r h c => ⟨(h c).1.trans ?_, (h c).2⟩)
    (Cert.ReferenceIdeal.RefValue.run_result m' ρ')
  have hp := hP m m' c (hagree c) hpre
  rw [Cert.ReferenceIdeal.RefValue.result_eq m' c]
  show Cert.ReferenceIdeal.RefValue.LS (Cert.ReferenceIdeal.RefValue.out4 m' c)
    = Cert.KernelIdeal.Gen.V22 m (Cert.KernelIdeal.Hand.outs m) c Cert.KernelIdeal.main_v62
  rw [Cert.KernelIdeal.Hand.V22_v62 m c, hLS]
  refine congrArg Cert.ReferenceIdeal.RefValue.LS ?_
  funext idx
  obtain ⟨i, cc, rfl⟩ : ∃ (i : Fin 10000) (cc : Fin 32), idx = ix2 i cc := ⟨idx 0, idx 1, eq_ix2 idx⟩
  rw [Cert.KernelIdeal.Hand.corner_apply]
  exact (out_eq m m' c (hagree c) hp.T1 hp.T2 hp.T3 hp.T4 hp.T5 hp.T6 i cc).symm

end Cert.Proof.Alg

end
-- ==== Proof.SharedPrefix.lean ====
/-
  The two programs share their host prefix: the same messages, the same weights.

  Both programs begin by turning the edge list, an integer array of shape [2, 160000], into 170000 messages: message
  `e < 160000` goes from node `edge_index[0, e]` to node `edge_index[1, e]`, and message `160000 + v` is the self loop
  of node `v`. From the destinations they count the in-degree of every node, take its inverse square root where it is
  positive (zero elsewhere), and weigh each message by the factor of its source times the factor of its destination.
  Before an index array is used to read or to write, a negative entry has the extent of the indexed axis added to it:
  10000 where the reference gathers rows of a 10000-row array, 10240 where the kernel program scatters into its
  padded 10240 by 10240 matrix.

  This module names those values once, as functions of the edge list (`srcOf`, `dstOf`, `degOf`, `disOf`, `normOf`, and
  `wrap n` for the addition of `n` to negative entries), reads them off each program's operations, and concludes, for two
  memories that hold the same edge list:

  * both programs compute the same sources, destinations and weights;
  * under the precondition (every entry of the edge list is a node number, 0 ≤ entry < 10000) every source and every
    destination is a node number, since an entry of the edge list is one by assumption and a self loop's node is below 10000;
  * so no index is negative, the addition to negative entries changes nothing whatever the extent added, and the
    indices each program actually uses are the sources and destinations themselves.

  A program's operations are read in stages, each stage over arbitrary contents of the buffers it reads, so that every
  comparison of two terms is between terms that differ only by the definitions above.
-/
import proofs.«160261_j68599217652370_2_alg».proof.Proof.RunKI
import proofs.«160261_j68599217652370_2_alg».proof.Proof.RefRun
import proofs.«160261_j68599217652370_2_alg».proof.Proof.PreDecode
import proofs.«160261_j68599217652370_2_alg».proof.Proof.KerHost
import proofs.«160261_j68599217652370_2_alg».proof.Proof.RefValue
import Idealize.ShloMosaic.Lib.ValueIdx
import Idealize.ShloMosaic.Lib.Pipeline.Value
import Idealize.ShloMosaic.Lib.Affine

set_option maxRecDepth 16384

noncomputable section

namespace Cert.SharedPrefix

open Idealize.ShloMosaic Idealize.ShloMosaic.TcCoe Idealize.SL.Sem Idealize.ShloMosaic.ValueIdx

/-! ## The shared values, as functions of the edge list -/

section Values
open Cert.KernelIdeal Cert.KernelIdeal.Gen

/-- The sources of the 170000 messages: row 0 of the edge list, then every node once (its self loop). -/
def srcOf (A : IVec S2x160000 32) : IVec S170000 32 :=
  concatenate S170000 0
    [⟨S160000, shapeCast S160000 (extractStridedSlice S1x160000 ![0, 0] A slices_S2x160000_S1x160000_0_0) shapeCasts_S1x160000_S160000⟩,
      ⟨S10000, iotaInDim S10000 32 0⟩]
    concatenates_S160000_S10000_S170000_d0

/-- The destinations: row 1 of the edge list, then every node once. -/
def dstOf (A : IVec S2x160000 32) : IVec S170000 32 :=
  concatenate S170000 0
    [⟨S160000, shapeCast S160000 (extractStridedSlice S1x160000 ![1, 0] A slices_S2x160000_S1x160000_1_0) shapeCasts_S1x160000_S160000⟩,
      ⟨S10000, iotaInDim S10000 32 0⟩]
    concatenates_S160000_S10000_S170000_d0

/-- An index array with `n` added to its negative entries (how a negative index is made to count from the end of an
    axis of extent `n`). -/
def wrap (n : BitVec 32) (x : IVec S170000 32) : IVec S170000 32 :=
  select (cmpi .slt x (broadcastInDim S170000 ![] bcast_S_S170000 (constantI S_ 32 0#32)))
    (addi x (broadcastInDim S170000 ![] bcast_S_S170000 (constantI S_ 32 n))) x

/-- The in-degree of every node: one added at its destination for every message. -/
def degOf (A : IVec S2x160000 32) : FVec Ideal S10000 .f32 :=
  Host.scatterAdd scatter_S10000_S170000x1_S170000_n_0_0_1
    (broadcastInDim S10000 ![] bcast_S_S10000 (constant (F := Ideal) S_ .f32 0x00000000#32))
    (broadcastInDim S170000x1 ![0] bcast_S170000_S170000x1_0 (dstOf A))
    (broadcastInDim S170000 ![] bcast_S_S170000 (constant (F := Ideal) S_ .f32 0x3F800000#32))

/-- The inverse square root of the degree where it is positive, zero elsewhere. -/
def disOf (A : IVec S2x160000 32) : FVec Ideal S10000 .f32 :=
  select (cmpf .ogt (degOf A) (broadcastInDim S10000 ![] bcast_S_S10000 (constant (F := Ideal) S_ .f32 0x00000000#32)))
    (Host.rsqrt (degOf A))
    (broadcastInDim S10000 ![] bcast_S_S10000 (id (constant (F := Ideal) S_ .f32 0x00000000#32)))

/-- The weight of every message: the factor of its source times the factor of its destination. -/
def normOf (A : IVec S2x160000 32) : FVec Ideal S170000 .f32 :=
  mulf
    (Host.gather gather_S10000_S170000x1_S170000_n_0_n_n_0_1_1 (disOf A)
      (broadcastInDim S170000x1 ![0] bcast_S170000_S170000x1_0 (wrap 10000#32 (srcOf A))))
    (Host.gather gather_S10000_S170000x1_S170000_n_0_n_n_0_1_1 (disOf A)
      (broadcastInDim S170000x1 ![0] bcast_S170000_S170000x1_0 (wrap 10000#32 (dstOf A))))

end Values

/-! ## The indices are node numbers -/

section Range
open Cert.KernelIdeal Cert.KernelIdeal.Gen

/-- A small natural number, as a 32-bit word read signed, is itself. -/
theorem toInt_ofNat_small (k : Nat) (hk : k < 2 ^ 31) : (BitVec.ofNat 32 k).toInt = (k : Int) := by
  rw [BitVec.toInt_ofNat']
  exact Int.bmod_eq_of_le (by omega) (by omega)

/-- One end of every message is a node number, when every entry of the edge list is: a message below 160000 reads an
    entry of the edge list, a later one is the self loop of node `e - 160000`. Stated for any row offset of the slice. -/
theorem ends_in_range (A : IVec S2x160000 32) (hA : ∀ i, 0 ≤ (A i).toInt ∧ (A i).toInt < 10000)
    (off : Fin 2 → Nat) (hs : S2x160000.Slices off S1x160000) (e : S170000.Idx) :
    0 ≤ (concatenate S170000 0
        [⟨S160000, shapeCast S160000 (extractStridedSlice S1x160000 off A hs) shapeCasts_S1x160000_S160000⟩,
          ⟨S10000, iotaInDim S10000 32 0⟩] concatenates_S160000_S10000_S170000_d0 e).toInt
    ∧ (concatenate S170000 0
        [⟨S160000, shapeCast S160000 (extractStridedSlice S1x160000 off A hs) shapeCasts_S1x160000_S160000⟩,
          ⟨S10000, iotaInDim S10000 32 0⟩] concatenates_S160000_S10000_S170000_d0 e).toInt < 10000 := by
  have he170 : (e 0).val < 170000 := (e 0).isLt
  by_cases he : (e 0).val < 160000
  · rw [concatenate_pair_apply_left (t := S170000) (s₁ := S160000) (s₂ := S10000) 0 _ _ _ e rfl (ix1 ⟨(e 0).val, he⟩)
      (fun b => by match b with | ⟨0, _⟩ => rfl)]
    exact hA _
  · have hk : (e 0).val - 160000 < 10000 := by omega
    rw [concatenate_pair_apply_right (t := S170000) (s₁ := S160000) (s₂ := S10000) 0 _ _ _ e rfl rfl (ix1 ⟨(e 0).val - 160000, hk⟩)
      (fun b hb => absurd (Subsingleton.elim _ _) hb)
      (by show (e 0).val - 160000 + 160000 = (e 0).val; omega)]
    show 0 ≤ (BitVec.ofNat 32 ((e 0).val - 160000)).toInt ∧ (BitVec.ofNat 32 ((e 0).val - 160000)).toInt < 10000
    rw [toInt_ofNat_small _ (by omega)]
    omega

theorem srcOf_in_range (A : IVec S2x160000 32) (hA : ∀ i, 0 ≤ (A i).toInt ∧ (A i).toInt < 10000) (e : S170000.Idx) :
    0 ≤ (srcOf A e).toInt ∧ (srcOf A e).toInt < 10000 :=
  ends_in_range A hA _ _ e

theorem dstOf_in_range (A : IVec S2x160000 32) (hA : ∀ i, 0 ≤ (A i).toInt ∧ (A i).toInt < 10000) (e : S170000.Idx) :
    0 ≤ (dstOf A e).toInt ∧ (dstOf A e).toInt < 10000 :=
  ends_in_range A hA _ _ e

/-- Adding the extent to the negative entries changes nothing when no entry is negative. -/
theorem wrap_of_nonneg (n : BitVec 32) (x : IVec S170000 32) (hx : ∀ e, 0 ≤ (x e).toInt) : wrap n x = x := by
  funext e
  unfold wrap
  rw [select_apply]
  have hc : cmpi .slt x (broadcastInDim S170000 ![] bcast_S_S170000 (constantI S_ 32 0#32)) e = 0#1 := by
    apply eq_zero_of_ne_one
    intro h1
    have h2 := IntOp.cmpi_slt.1 h1
    change (x e).toInt < (0#32 : BitVec 32).toInt at h2
    have z : (0#32 : BitVec 32).toInt = 0 := by decide
    have := hx e
    omega
  rw [hc, select_zero]

end Range

/-- The results of the operations left inside a concatenation's list of pieces, one rewrite at a time. -/
local macro "results_inside" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-! ## The kernel program's host prefix, read -/

section K
open Cert.KernelIdeal Cert.KernelIdeal.Gen Cert.KernelIdeal.Hand

/-! The first stretch, from any contents `V`: the two index arrays, and the two arrays the degree factor is selected from. -/

theorem k0_src (V : Valuation τ sig (Elt Ideal)) :
    StableHlo.after (hostOps0 (F := Ideal)) V (Proc.devRef .tc main_v5) = srcOf (V (Proc.devRef .tc main_arg1)) := by
  open Idealize.ShloMosaic.StableHlo in after_results
  rfl

theorem k0_dst (V : Valuation τ sig (Elt Ideal)) :
    StableHlo.after (hostOps0 (F := Ideal)) V (Proc.devRef .tc main_v6) = dstOf (V (Proc.devRef .tc main_arg1)) := by
  open Idealize.ShloMosaic.StableHlo in after_results
  rfl

theorem k0_pos (V : Valuation τ sig (Elt Ideal)) :
    StableHlo.after (hostOps0 (F := Ideal)) V (Proc.devRef .tc main_v12)
      = cmpf .ogt (degOf (V (Proc.devRef .tc main_arg1))) (broadcastInDim S10000 ![] bcast_S_S10000 (constant (F := Ideal) S_ .f32 0x00000000#32)) := by
  open Idealize.ShloMosaic.StableHlo in after_results
  rfl

theorem k0_rsqrt (V : Valuation τ sig (Elt Ideal)) :
    StableHlo.after (hostOps0 (F := Ideal)) V (Proc.devRef .tc main_v13) = Host.rsqrt (degOf (V (Proc.devRef .tc main_arg1))) := by
  open Idealize.ShloMosaic.StableHlo in after_results
  rfl

theorem k0_zero (V : Valuation τ sig (Elt Ideal)) :
    StableHlo.after (hostOps0 (F := Ideal)) V (Proc.devRef .tc main_cst_2) = constant (F := Ideal) S_ .f32 0x00000000#32 := by
  open Idealize.ShloMosaic.StableHlo in after_results

/-- The second stretch: the degree factor selected. -/
theorem k1_dis (V : Valuation τ sig (Elt Ideal)) :
    StableHlo.after (hostOps0_1 (F := Ideal)) V (Proc.devRef .tc main_v14)
      = select (V (Proc.devRef .tc main_v12)) (V (Proc.devRef .tc main_v13))
          (broadcastInDim S10000 ![] bcast_S_S10000 (id (V (Proc.devRef .tc main_cst_2)))) := by
  open Idealize.ShloMosaic.StableHlo in after_results
  rfl

/-- The third stretch: the message weights, and the two index arrays with 10240 added to their negative entries. -/
theorem k2_norm (V : Valuation τ sig (Elt Ideal)) :
    StableHlo.after (hostOps0_2 (F := Ideal)) V (Proc.devRef .tc main_v29)
      = (mulf
          (Host.gather gather_S10000_S170000x1_S170000_n_0_n_n_0_1_1 (V (Proc.devRef .tc main_v14))
            (broadcastInDim S170000x1 ![0] bcast_S170000_S170000x1_0 (wrap 10000#32 (V (Proc.devRef .tc main_v5)))))
          (Host.gather gather_S10000_S170000x1_S170000_n_0_n_n_0_1_1 (V (Proc.devRef .tc main_v14))
            (broadcastInDim S170000x1 ![0] bcast_S170000_S170000x1_0 (wrap 10000#32 (V (Proc.devRef .tc main_v6))))) :
          FVec Ideal S170000 .f32) := by
  open Idealize.ShloMosaic.StableHlo in after_results_simp
  rfl

theorem k2_dstN (V : Valuation τ sig (Elt Ideal)) :
    StableHlo.after (hostOps0_2 (F := Ideal)) V (Proc.devRef .tc main_v35) = wrap 10240#32 (V (Proc.devRef .tc main_v6)) := by
  open Idealize.ShloMosaic.StableHlo in after_results_simp
  rfl

theorem k2_srcN (V : Valuation τ sig (Elt Ideal)) :
    StableHlo.after (hostOps0_2 (F := Ideal)) V (Proc.devRef .tc main_v40) = wrap 10240#32 (V (Proc.devRef .tc main_v5)) := by
  open Idealize.ShloMosaic.StableHlo in after_results_simp
  rfl

end K

/-! ## The kernel program: what region 0 finds -/

section KAssemble
open Cert.KernelIdeal Cert.KernelIdeal.Gen Cert.KernelIdeal.Hand
variable (m : (ℓ : Loc nD τ sig) → Buf (Elt Ideal) ℓ)

/-- The sources, when region 0 is entered. -/
theorem ker_src (c : Dev nD) : W4 m c main_v5 = srcOf (m ((c.tc : Thread nD τ).loc main_arg1)) := by
  show V4 m c main_v5 = _
  rw [V4_of m c main_v5 (by decide), V3_of m c main_v5 (by decide), V2_of m c main_v5 (by decide)]
  exact k0_src (V0 m c)

/-- The destinations. -/
theorem ker_dst (c : Dev nD) : W4 m c main_v6 = dstOf (m ((c.tc : Thread nD τ).loc main_arg1)) := by
  show V4 m c main_v6 = _
  rw [V4_of m c main_v6 (by decide), V3_of m c main_v6 (by decide), V2_of m c main_v6 (by decide)]
  exact k0_dst (V0 m c)

/-- The degree factor, after the second stretch. -/
theorem ker_dis (c : Dev nD) : V2 m c main_v14 = disOf (m ((c.tc : Thread nD τ).loc main_arg1)) := by
  show StableHlo.after hostOps0_1 (V1 m c) (Proc.devRef .tc main_v14) = _
  rw [k1_dis (V1 m c)]
  show select (StableHlo.after hostOps0 (V0 m c) (Proc.devRef .tc main_v12)) (StableHlo.after hostOps0 (V0 m c) (Proc.devRef .tc main_v13))
    (broadcastInDim S10000 ![] bcast_S_S10000 (id (StableHlo.after hostOps0 (V0 m c) (Proc.devRef .tc main_cst_2)))) = _
  rw [k0_pos (V0 m c), k0_rsqrt (V0 m c), k0_zero (V0 m c)]
  rfl

/-- The message weights. -/
theorem ker_norm (c : Dev nD) : W4 m c main_v29 = normOf (m ((c.tc : Thread nD τ).loc main_arg1)) := by
  show V4 m c main_v29 = _
  rw [V4_of m c main_v29 (by decide)]
  show StableHlo.after hostOps0_2 (V2 m c) (Proc.devRef .tc main_v29) = _
  rw [k2_norm (V2 m c)]
  have e5 : V2 m c main_v5 = srcOf (m ((c.tc : Thread nD τ).loc main_arg1)) := by
    rw [V2_of m c main_v5 (by decide)]; exact k0_src (V0 m c)
  have e6 : V2 m c main_v6 = dstOf (m ((c.tc : Thread nD τ).loc main_arg1)) := by
    rw [V2_of m c main_v6 (by decide)]; exact k0_dst (V0 m c)
  have e14 := ker_dis m c
  show (mulf
      (Host.gather gather_S10000_S170000x1_S170000_n_0_n_n_0_1_1 (V2 m c main_v14)
        (broadcastInDim S170000x1 ![0] bcast_S170000_S170000x1_0 (wrap 10000#32 (V2 m c main_v5))))
      (Host.gather gather_S10000_S170000x1_S170000_n_0_n_n_0_1_1 (V2 m c main_v14)
        (broadcastInDim S170000x1 ![0] bcast_S170000_S170000x1_0 (wrap 10000#32 (V2 m c main_v6)))) : FVec Ideal S170000 .f32) = _
  rw [e5, e6, e14]
  rfl

/-- The destinations as the dense matrix is indexed by them: 10240 added to the negative ones. -/
theorem ker_dstN (c : Dev nD) : W4 m c main_v35 = wrap 10240#32 (dstOf (m ((c.tc : Thread nD τ).loc main_arg1))) := by
  show V4 m c main_v35 = _
  rw [V4_of m c main_v35 (by decide)]
  show StableHlo.after hostOps0_2 (V2 m c) (Proc.devRef .tc main_v35) = _
  rw [k2_dstN (V2 m c)]
  have e6 : V2 m c main_v6 = dstOf (m ((c.tc : Thread nD τ).loc main_arg1)) := by
    rw [V2_of m c main_v6 (by decide)]; exact k0_dst (V0 m c)
  show wrap 10240#32 (V2 m c main_v6) = _
  rw [e6]

/-- The sources likewise. -/
theorem ker_srcN (c : Dev nD) : W4 m c main_v40 = wrap 10240#32 (srcOf (m ((c.tc : Thread nD τ).loc main_arg1))) := by
  show V4 m c main_v40 = _
  rw [V4_of m c main_v40 (by decide)]
  show StableHlo.after hostOps0_2 (V2 m c) (Proc.devRef .tc main_v40) = _
  rw [k2_srcN (V2 m c)]
  have e5 : V2 m c main_v5 = srcOf (m ((c.tc : Thread nD τ).loc main_arg1)) := by
    rw [V2_of m c main_v5 (by decide)]; exact k0_src (V0 m c)
  show wrap 10240#32 (V2 m c main_v5) = _
  rw [e5]

end KAssemble

/-! ## The reference program's host prefix, read

The reference is one list of operations. Every buffer is written once, so a later operation's result can be stated over
the FINAL contents of the buffers it reads: both sides are read down to the launch contents, where they are the same
term. -/

section R
open Cert.ReferenceIdeal Cert.ReferenceIdeal.Gen Cert.ReferenceIdeal.RefRun

set_option maxHeartbeats 8000000 in
/-- The sources. -/
theorem r_src (V : Valuation τ sig (Elt Ideal)) :
    StableHlo.after (RefRun.ops (F := Ideal)) V (Proc.devRef .tc main_v3) = srcOf (V (Proc.devRef .tc main_arg1)) := by
  open Idealize.ShloMosaic.StableHlo in after_results_simp
  results_inside
  rfl

set_option maxHeartbeats 8000000 in
/-- The destinations. -/
theorem r_dst (V : Valuation τ sig (Elt Ideal)) :
    StableHlo.after (RefRun.ops (F := Ideal)) V (Proc.devRef .tc main_v6) = dstOf (V (Proc.devRef .tc main_arg1)) := by
  open Idealize.ShloMosaic.StableHlo in after_results_simp
  results_inside
  rfl

set_option maxHeartbeats 8000000 in
/-- The in-degrees. -/
theorem r_deg (V : Valuation τ sig (Elt Ideal)) :
    StableHlo.after (RefRun.ops (F := Ideal)) V (Proc.devRef .tc main_v10) = degOf (V (Proc.devRef .tc main_arg1)) := by
  open Idealize.ShloMosaic.StableHlo in after_results_simp
  results_inside
  rfl

set_option maxHeartbeats 8000000 in
/-- The degree factor, over the final in-degrees. -/
theorem r_dis' (V : Valuation τ sig (Elt Ideal)) :
    StableHlo.after (RefRun.ops (F := Ideal)) V (Proc.devRef .tc main_v14)
      = (select (cmpf .ogt (StableHlo.after (RefRun.ops (F := Ideal)) V (Proc.devRef .tc main_v10))
            (broadcastInDim S10000 ![] bcast_S_S10000 (constant (F := Ideal) S_ .f32 0x00000000#32)))
          (Host.rsqrt (StableHlo.after (RefRun.ops (F := Ideal)) V (Proc.devRef .tc main_v10)))
          (broadcastInDim S10000 ![] bcast_S_S10000 (id (constant (F := Ideal) S_ .f32 0x00000000#32))) : FVec Ideal S10000 .f32) := by
  open Idealize.ShloMosaic.StableHlo in after_results_simp
  results_inside
  generalize (Host.scatterAdd scatter_S10000_S170000x1_S170000_n_0_0_1 _ _ _ : FVec Ideal S10000 .f32) = D
  generalize (constant (F := Ideal) S_ .f32 0x00000000#32) = z
  rfl

/-- The degree factor. -/
theorem r_dis (V : Valuation τ sig (Elt Ideal)) :
    StableHlo.after (RefRun.ops (F := Ideal)) V (Proc.devRef .tc main_v14) = disOf (V (Proc.devRef .tc main_arg1)) := by
  rw [r_dis' V, r_deg V]
  rfl

set_option maxHeartbeats 8000000 in
/-- The message weights, over the final degree factor, sources and destinations. -/
theorem r_norm' (V : Valuation τ sig (Elt Ideal)) :
    StableHlo.after (RefRun.ops (F := Ideal)) V (Proc.devRef .tc main_v29)
      = (mulf
          (Host.gather gather_S10000_S170000x1_S170000_n_0_n_n_0_1_1 (StableHlo.after (RefRun.ops (F := Ideal)) V (Proc.devRef .tc main_v14))
            (broadcastInDim S170000x1 ![0] bcast_S170000_S170000x1_0 (wrap 10000#32 (StableHlo.after (RefRun.ops (F := Ideal)) V (Proc.devRef .tc main_v3)))))
          (Host.gather gather_S10000_S170000x1_S170000_n_0_n_n_0_1_1 (StableHlo.after (RefRun.ops (F := Ideal)) V (Proc.devRef .tc main_v14))
            (broadcastInDim S170000x1 ![0] bcast_S170000_S170000x1_0 (wrap 10000#32 (StableHlo.after (RefRun.ops (F := Ideal)) V (Proc.devRef .tc main_v6))))) :
          FVec Ideal S170000 .f32) := by
  open Idealize.ShloMosaic.StableHlo in after_results_simp
  results_inside
  rfl

/-- The message weights. -/
theorem r_norm (V : Valuation τ sig (Elt Ideal)) :
    StableHlo.after (RefRun.ops (F := Ideal)) V (Proc.devRef .tc main_v29) = normOf (V (Proc.devRef .tc main_arg1)) := by
  rw [r_norm' V, r_dis V, r_src V, r_dst V]
  rfl

set_option maxHeartbeats 8000000 in
/-- The sources as the weights' gather and each of the four layers' gathers read them: 10000 added to the negative ones. -/
theorem r_srcN (V : Valuation τ sig (Elt Ideal)) :
    StableHlo.after (RefRun.ops (F := Ideal)) V (Proc.devRef .tc main_v19) = wrap 10000#32 (srcOf (V (Proc.devRef .tc main_arg1)))
    ∧ StableHlo.after (RefRun.ops (F := Ideal)) V (Proc.devRef .tc main_v35) = wrap 10000#32 (srcOf (V (Proc.devRef .tc main_arg1)))
    ∧ StableHlo.after (RefRun.ops (F := Ideal)) V (Proc.devRef .tc main_v53) = wrap 10000#32 (srcOf (V (Proc.devRef .tc main_arg1)))
    ∧ StableHlo.after (RefRun.ops (F := Ideal)) V (Proc.devRef .tc main_v71) = wrap 10000#32 (srcOf (V (Proc.devRef .tc main_arg1)))
    ∧ StableHlo.after (RefRun.ops (F := Ideal)) V (Proc.devRef .tc main_v89) = wrap 10000#32 (srcOf (V (Proc.devRef .tc main_arg1))) := by
  refine ⟨?_, ?_, ?_, ?_, ?_⟩ <;>
  · open Idealize.ShloMosaic.StableHlo in after_results_simp
    results_inside
    rfl

end R

/-! ## The two programs on one edge list -/

section Targets
open Cert.KernelIdeal.Hand Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel program's edge list on device `c`. -/
abbrev edges : IVec Cert.KernelIdeal.S2x160000 32 :=
  m ((c.tc : Thread Cert.KernelIdeal.nD Cert.KernelIdeal.τ).loc Cert.KernelIdeal.main_arg1)

variable (hag1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))

include hag1

/-- The reference's sources are the shared ones. -/
theorem ref_src : Cert.ReferenceIdeal.RefValue.val m' c Cert.ReferenceIdeal.main_v3 = srcOf (edges m c) := by
  rw [Cert.ReferenceIdeal.RefValue.val_def]
  exact (r_src (StableHlo.launchContents m' c)).trans (congrArg srcOf hag1)

/-- The reference's destinations are the shared ones. -/
theorem ref_dst : Cert.ReferenceIdeal.RefValue.val m' c Cert.ReferenceIdeal.main_v6 = dstOf (edges m c) := by
  rw [Cert.ReferenceIdeal.RefValue.val_def]
  exact (r_dst (StableHlo.launchContents m' c)).trans (congrArg dstOf hag1)

/-- The reference's message weights are the shared ones. -/
theorem ref_norm : Cert.ReferenceIdeal.RefValue.val m' c Cert.ReferenceIdeal.main_v29 = normOf (edges m c) := by
  rw [Cert.ReferenceIdeal.RefValue.val_def]
  exact (r_norm (StableHlo.launchContents m' c)).trans (congrArg normOf hag1)

/-- The reference's sources as its gathers read them. -/
theorem ref_srcN : Cert.ReferenceIdeal.RefValue.val m' c Cert.ReferenceIdeal.main_v19 = wrap 10000#32 (srcOf (edges m c)) := by
  rw [Cert.ReferenceIdeal.RefValue.val_def]
  exact (r_srcN (StableHlo.launchContents m' c)).1.trans (congrArg (fun A => wrap 10000#32 (srcOf A)) hag1)

variable (hpre : Cert.Pre_KernelIdeal (hPre_finite_inputs := Cert.Pre_finite_inputs.Gen.facts) m)

include hpre

omit hag1 in
/-- Under the precondition every entry of the edge list is a node number. -/
theorem edges_in_range (i : Cert.KernelIdeal.S2x160000.Idx) : 0 ≤ (edges m c i).toInt ∧ (edges m c i).toInt < 10000 :=
  Cert.KernelIdeal.Hand.edge_in_range m hpre c i

omit hag1 in
/-- The kernel's destinations, as its dense matrix is indexed by them, are the shared destinations. -/
theorem dN_eq : Cert.KernelIdeal.Hand.dN m c = dstOf (edges m c) := by
  unfold Cert.KernelIdeal.Hand.dN
  rw [ker_dstN m c]
  exact wrap_of_nonneg _ _ fun e => (dstOf_in_range _ (edges_in_range m c hpre) e).1

omit hag1 in
/-- The kernel's sources likewise. -/
theorem sN_eq : Cert.KernelIdeal.Hand.sN m c = srcOf (edges m c) := by
  unfold Cert.KernelIdeal.Hand.sN
  rw [ker_srcN m c]
  exact wrap_of_nonneg _ _ fun e => (srcOf_in_range _ (edges_in_range m c hpre) e).1

omit hag1 hpre in
/-- The kernel's message weights are the shared ones. -/
theorem nrm_eq : Cert.KernelIdeal.Hand.nrm m c = normOf (edges m c) := by
  unfold Cert.KernelIdeal.Hand.nrm
  exact ker_norm m c

/-- (T1) The destinations agree, entry by entry. -/
theorem T1 (e : Fin 170000) :
    (Cert.KernelIdeal.Hand.dN m c (ix1 e)).toInt = (Cert.ReferenceIdeal.RefValue.dstW m' c (ix1 e)).toInt := by
  have h : Cert.ReferenceIdeal.RefValue.dstW m' c = dstOf (edges m c) := by
    unfold Cert.ReferenceIdeal.RefValue.dstW; exact ref_dst m m' c hag1
  rw [dN_eq m c hpre, h]

/-- (T2) The kernel's sources are the reference's. -/
theorem T2 (e : Fin 170000) :
    (Cert.KernelIdeal.Hand.sN m c (ix1 e)).toInt
      = (Cert.ReferenceIdeal.RefValue.val m' c Cert.ReferenceIdeal.main_v3 (ix1 e)).toInt := by
  rw [sN_eq m c hpre, ref_src m m' c hag1]

omit hpre in
/-- (T3) The message weights agree. -/
theorem T3 (e : Fin 170000) :
    (Cert.KernelIdeal.Hand.nrm m c (ix1 e) : EReal) = Cert.ReferenceIdeal.RefValue.nrm m' c (ix1 e) := by
  have h : Cert.ReferenceIdeal.RefValue.nrm m' c = normOf (edges m c) := by
    unfold Cert.ReferenceIdeal.RefValue.nrm; exact ref_norm m m' c hag1
  rw [nrm_eq m c, h]

/-- (T4) The reference's sources as its gathers read them are its sources. -/
theorem T4 (e : Fin 170000) :
    (Cert.ReferenceIdeal.RefValue.srcN m' c (ix1 e)).toInt
      = (Cert.ReferenceIdeal.RefValue.val m' c Cert.ReferenceIdeal.main_v3 (ix1 e)).toInt := by
  have h : Cert.ReferenceIdeal.RefValue.srcN m' c = srcOf (edges m c) := by
    unfold Cert.ReferenceIdeal.RefValue.srcN
    rw [ref_srcN m m' c hag1]
    exact wrap_of_nonneg _ _ fun e => (srcOf_in_range _ (edges_in_range m c hpre) e).1
  rw [h, ref_src m m' c hag1]

/-- (T5) Every source is a node number. -/
theorem T5 (e : Fin 170000) :
    0 ≤ (Cert.ReferenceIdeal.RefValue.val m' c Cert.ReferenceIdeal.main_v3 (ix1 e)).toInt
      ∧ (Cert.ReferenceIdeal.RefValue.val m' c Cert.ReferenceIdeal.main_v3 (ix1 e)).toInt < ((10000 : ℕ) : ℤ) := by
  rw [ref_src m m' c hag1]
  have h := srcOf_in_range _ (edges_in_range m c hpre) (ix1 e)
  exact ⟨h.1, by have := h.2; omega⟩

end Targets

end Cert.SharedPrefix

end
-- ==== Proof.AlgebraicPrefix.lean ====
/-
  The facts about what both programs compute before the layers, from the agreement of the two memories on the edge list
  and the precondition that every edge endpoint is a node; and with them the two idealized programs' equal results.
-/
import proofs.«160261_j68599217652370_2_alg».proof.Proof.Algebraic
import proofs.«160261_j68599217652370_2_alg».proof.Proof.SharedPrefix

noncomputable section

namespace Cert.Proof.Alg

open Idealize.ShloMosaic Idealize.ShloMosaic.TcCoe Idealize.SL.Sem Idealize.ShloMosaic.ValueIdx

/-- Sources, destinations and weights are the same on both sides; the sources are nodes; the weights are nonnegative. -/
theorem prefix_of (m : KM) (m' : RM) (c : Dev Cert.KernelIdeal.nD) (hag : Agree m m' c)
    (hpre : Cert.Pre_KernelIdeal (hPre_finite_inputs := Cert.Pre_finite_inputs.Gen.facts) m) : Prefix m m' c where
  T1 := Cert.SharedPrefix.T1 m m' c hag.2.1 hpre
  T2 := Cert.SharedPrefix.T2 m m' c hag.2.1 hpre
  T3 := Cert.SharedPrefix.T3 m m' c hag.2.1
  T4 := Cert.SharedPrefix.T4 m m' c hag.2.1 hpre
  T5 := Cert.SharedPrefix.T5 m m' c hag.2.1 hpre
  T6 := fun e => (Cert.SharedPrefix.T3 m m' c hag.2.1 e) ▸ Cert.KernelIdeal.Hand.nrm_nonneg m c e

end Cert.Proof.Alg

end
-- ==== Proof.TailEq.lean ====
/-
  The two programs end in the same function.

  The kernel program and the reference both close with the row-wise log-softmax of a 10000 by 32 array, the same fifteen
  host operations over the same literal shapes: the row maximum folded from minus infinity, the shifted rows, the row
  sums of their exponentials, the logarithm, the difference. Each side keeps that chain as one function; the two
  functions are one, their shape abbreviations unfolding to the same literals and their side conditions being
  propositions.
-/
import proofs.«160261_j68599217652370_2_alg».proof.Proof.RefValue
import proofs.«160261_j68599217652370_2_alg».proof.Proof.KerHost

noncomputable section

namespace Cert.TailEq

open Idealize.ShloMosaic

/-- The kernel program's closing log-softmax and the reference's are the same function of a 10000 by 32 array. -/
theorem LSK_eq_LS (X : (⟨2, ![10000, 32]⟩ : Shape).Idx → EReal) :
    Cert.KernelIdeal.Hand.LSK X = Cert.ReferenceIdeal.RefValue.LS X := rfl

/-- The same, as an equation of functions. -/
theorem LSK_eq_LS' :
    (Cert.KernelIdeal.Hand.LSK : ((⟨2, ![10000, 32]⟩ : Shape).Idx → EReal) → (⟨2, ![10000, 32]⟩ : Shape).Idx → EReal)
      = Cert.ReferenceIdeal.RefValue.LS := funext LSK_eq_LS

end Cert.TailEq

end
-- ==== Proof.lean ====
/-
  The certificate of a four-layer graph convolution: a kernel program that aggregates through a dense normalized
  adjacency matrix, against a reference that passes messages edge by edge.

  Frames. The reference is a host program of 144 operations, none of which writes an argument (Proof/RefRun.lean,
  Proof/RefFrame.lean). The kernel program is eight regions among stretches of host operations: four row-tiled
  matrix products `x @ W` (Proof/Feat0, 2, 4, 6) and four aggregations `A @ h + b` that accumulate over ten
  reduction steps in a scratch buffer carried from point to point (Proof/Agg1, 3, 5, 7 and their Runs modules); each
  region's body obligation is proved at any float instance, and the regions are chained through the host stretches
  in Proof/FrameKI.lean (the idealized program) and Proof/FrameK.lean (the word-level program, the same text in its
  namespace). The ideal pass rewrote nothing, so the idealization claim is `True`.

  Values, under the precondition that every entry of the edge list is a node. The idealized kernel program's run also
  names its result (Proof/RunKI.lean); each product region leaves the product of the arrays it found (Proof/FeatVal*),
  each aggregation region the dense matrix's rows times the feature columns plus the bias, summed block by block in its
  accumulator (Proof/AggVal*); the host operations in between only pad and reshape, and build the dense matrix whose
  cell `(i, j)` is the summed weight of the edges from `j` to `i` (Proof/KerHost.lean, Proof/KerChain.lean). The
  reference's layers are read one operation at a time (Proof/RefValue.lean, Proof/RefChain.lean). Both programs compute
  the edges' endpoints and weights by the same operations (Proof/SharedPrefix.lean), the weights are nonnegative, and so
  row `i` of the dense matrix times a feature column regroups into the sum over the edges ending at `i`, by
  distributivity for nonnegative weights on the extended reals (Proof/LibDenseAdjacencyE.lean, Proof/LibLayerLaw.lean);
  four such layers (Proof/Bridge.lean) and the shared log_softmax chain (Proof/TailEq.lean) give equal results
  (Proof/Algebraic.lean, Proof/AlgebraicPrefix.lean).
-/
import proofs.«160261_j68599217652370_2_alg».proof.Defs
import proofs.«160261_j68599217652370_2_alg».proof.Proof.FrameK
import proofs.«160261_j68599217652370_2_alg».proof.Proof.FrameKI
import proofs.«160261_j68599217652370_2_alg».proof.Proof.RefFrame
import proofs.«160261_j68599217652370_2_alg».proof.Proof.AlgebraicPrefix
import proofs.«160261_j68599217652370_2_alg».proof.Proof.TailEq
import proofs.«160261_j68599217652370_2_alg».proof.Proof.Gen.Kernel
import proofs.«160261_j68599217652370_2_alg».proof.Proof.Gen.KernelIdeal
import proofs.«160261_j68599217652370_2_alg».proof.Proof.Gen.ReferenceIdeal
import proofs.«160261_j68599217652370_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    @Cert.Proof.RefClaims.frame_ri Cert.ReferenceIdeal.Gen.facts Cert.Pre_finite_inputs.Gen.facts,
    Cert.Proof.RefClaims.preserves,
    Cert.Proof.Alg.algebraic_of Cert.Proof.Alg.prefix_of Cert.TailEq.LSK_eq_LS⟩

end Cert.Proof

end
